-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S8x256x256 : Shape := ⟨3, ![8, 256, 256]⟩
abbrev S256 : Shape := ⟨1, ![256]⟩
abbrev S256x256 : Shape := ⟨2, ![256, 256]⟩
abbrev S8x400000 : Shape := ⟨2, ![8, 400000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S50000x256 .f32) (main_arg1 : FVec F S8x256x256 .f32) (main_arg2 : FVec F S256 .f32) (main_arg3 : FVec F S256x256 .f32) (main_arg4 : IVec S8x400000 32) (main_arg5 : IVec S8x400000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S50000x256 : Shape := ⟨2, ![50000, 256]⟩
abbrev S8x256x256 : Shape := ⟨3, ![8, 256, 256]⟩
abbrev S256 : Shape := ⟨1, ![256]⟩
abbrev S256x256 : Shape := ⟨2, ![256, 256]⟩
abbrev S8x400000 : Shape := ⟨2, ![8, 400000]⟩
abbrev S_ : Shape := ⟨0, ![]⟩
abbrev S400000 : Shape := ⟨1, ![400000]⟩
abbrev S1x400000 : Shape := ⟨2, ![1, 400000]⟩
abbrev S400000x1 : Shape := ⟨2, ![400000, 1]⟩
abbrev S400000x256 : Shape := ⟨2, ![400000, 256]⟩
abbrev S50000 : Shape := ⟨1, ![50000]⟩
abbrev S50000x1 : Shape := ⟨2, ![50000, 1]⟩
abbrev S1x50000x256 : Shape := ⟨3, ![1, 50000, 256]⟩
abbrev S9x50000x256 : Shape := ⟨3, ![9, 50000, 256]⟩
abbrev S1x256x256 : Shape := ⟨3, ![1, 256, 256]⟩
abbrev S9x256x256 : Shape := ⟨3, ![9, 256, 256]⟩
abbrev S1x256 : Shape := ⟨2, ![1, 256]⟩
abbrev S1x5000x256 : Shape := ⟨3, ![1, 5000, 256]⟩
abbrev S5000x256 : Shape := ⟨2, ![5000, 256]⟩

abbrev nBuf : Space → Nat
  | .hbm => 286
  | .vmem => 8
  | .smem => 0
  | _ => 0

abbrev hbmTy0_0 (i : Nat) : BufTy := match i % 128 with
  | 0 => ⟨S50000x256, .f32⟩
  | 1 => ⟨S8x256x256, .f32⟩
  | 2 => ⟨S256, .f32⟩
  | 3 => ⟨S256x256, .f32⟩
  | 4 => ⟨S8x400000, .i32⟩
  | 5 => ⟨S8x400000, .i32⟩
  | 6 => ⟨S_, .f32⟩
  | 7 => ⟨S400000, .f32⟩
  | 8 => ⟨S1x400000, .i32⟩
  | 9 => ⟨S400000, .i32⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S400000x256, .f32⟩
  | 19 => ⟨S1x400000, .i32⟩
  | 20 => ⟨S400000, .i32⟩
  | 21 => ⟨S_, .f32⟩
  | 22 => ⟨S50000x256, .f32⟩
  | 23 => ⟨S400000x1, .i32⟩
  | 24 => ⟨S50000x256, .f32⟩
  | 25 => ⟨S1x400000, .i32⟩
  | 26 => ⟨S400000, .i32⟩
  | 27 => ⟨S_, .f32⟩
  | 28 => ⟨S50000, .f32⟩
  | 29 => ⟨S400000x1, .i32⟩
  | 30 => ⟨S50000, .f32⟩
  | 31 => ⟨S_, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x256, .f32⟩
  | 40 => ⟨S50000x256, .f32⟩
  | 41 => ⟨S1x400000, .i32⟩
  | 42 => ⟨S400000, .i32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x256, .f32⟩
  | 52 => ⟨S1x400000, .i32⟩
  | 53 => ⟨S400000, .i32⟩
  | 54 => ⟨S_, .f32⟩
  | 55 => ⟨S50000x256, .f32⟩
  | 56 => ⟨S400000x1, .i32⟩
  | 57 => ⟨S50000x256, .f32⟩
  | 58 => ⟨S1x400000, .i32⟩
  | 59 => ⟨S400000, .i32⟩
  | 60 => ⟨S_, .f32⟩
  | 61 => ⟨S50000, .f32⟩
  | 62 => ⟨S400000x1, .i32⟩
  | 63 => ⟨S50000, .f32⟩
  | 64 => ⟨S_, .f32⟩
  | 65 => ⟨S_, .f32⟩
  | 66 => ⟨S50000, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x256, .f32⟩
  | 73 => ⟨S50000x256, .f32⟩
  | 74 => ⟨S1x400000, .i32⟩
  | 75 => ⟨S400000, .i32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x256, .f32⟩
  | 85 => ⟨S1x400000, .i32⟩
  | 86 => ⟨S400000, .i32⟩
  | 87 => ⟨S_, .f32⟩
  | 88 => ⟨S50000x256, .f32⟩
  | 89 => ⟨S400000x1, .i32⟩
  | 90 => ⟨S50000x256, .f32⟩
  | 91 => ⟨S1x400000, .i32⟩
  | 92 => ⟨S400000, .i32⟩
  | 93 => ⟨S_, .f32⟩
  | 94 => ⟨S50000, .f32⟩
  | 95 => ⟨S400000x1, .i32⟩
  | 96 => ⟨S50000, .f32⟩
  | 97 => ⟨S_, .f32⟩
  | 98 => ⟨S_, .f32⟩
  | 99 => ⟨S50000, .f32⟩
  | 100 => ⟨S50000, .f32⟩
  | 101 => ⟨S_, .f32⟩
  | 102 => ⟨S50000, .f32⟩
  | 103 => ⟨S50000, .f32⟩
  | 104 => ⟨S50000x1, .f32⟩
  | 105 => ⟨S50000x256, .f32⟩
  | 106 => ⟨S50000x256, .f32⟩
  | 107 => ⟨S1x400000, .i32⟩
  | 108 => ⟨S400000, .i32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x256, .f32⟩
  | 118 => ⟨S1x400000, .i32⟩
  | 119 => ⟨S400000, .i32⟩
  | 120 => ⟨S_, .f32⟩
  | 121 => ⟨S50000x256, .f32⟩
  | 122 => ⟨S400000x1, .i32⟩
  | 123 => ⟨S50000x256, .f32⟩
  | 124 => ⟨S1x400000, .i32⟩
  | 125 => ⟨S400000, .i32⟩
  | 126 => ⟨S_, .f32⟩
  | 127 => ⟨S50000, .f32⟩
  | _ => ⟨S50000x256, .f32⟩

abbrev hbmTy0_1 (i : Nat) : BufTy := match i % 128 with
  | 0 => ⟨S400000x1, .i32⟩
  | 1 => ⟨S50000, .f32⟩
  | 2 => ⟨S_, .f32⟩
  | 3 => ⟨S_, .f32⟩
  | 4 => ⟨S50000, .f32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x256, .f32⟩
  | 11 => ⟨S50000x256, .f32⟩
  | 12 => ⟨S1x400000, .i32⟩
  | 13 => ⟨S400000, .i32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x256, .f32⟩
  | 23 => ⟨S1x400000, .i32⟩
  | 24 => ⟨S400000, .i32⟩
  | 25 => ⟨S_, .f32⟩
  | 26 => ⟨S50000x256, .f32⟩
  | 27 => ⟨S400000x1, .i32⟩
  | 28 => ⟨S50000x256, .f32⟩
  | 29 => ⟨S1x400000, .i32⟩
  | 30 => ⟨S400000, .i32⟩
  | 31 => ⟨S_, .f32⟩
  | 32 => ⟨S50000, .f32⟩
  | 33 => ⟨S400000x1, .i32⟩
  | 34 => ⟨S50000, .f32⟩
  | 35 => ⟨S_, .f32⟩
  | 36 => ⟨S_, .f32⟩
  | 37 => ⟨S50000, .f32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x256, .f32⟩
  | 44 => ⟨S50000x256, .f32⟩
  | 45 => ⟨S1x400000, .i32⟩
  | 46 => ⟨S400000, .i32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x256, .f32⟩
  | 56 => ⟨S1x400000, .i32⟩
  | 57 => ⟨S400000, .i32⟩
  | 58 => ⟨S_, .f32⟩
  | 59 => ⟨S50000x256, .f32⟩
  | 60 => ⟨S400000x1, .i32⟩
  | 61 => ⟨S50000x256, .f32⟩
  | 62 => ⟨S1x400000, .i32⟩
  | 63 => ⟨S400000, .i32⟩
  | 64 => ⟨S_, .f32⟩
  | 65 => ⟨S50000, .f32⟩
  | 66 => ⟨S400000x1, .i32⟩
  | 67 => ⟨S50000, .f32⟩
  | 68 => ⟨S_, .f32⟩
  | 69 => ⟨S_, .f32⟩
  | 70 => ⟨S50000, .f32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x256, .f32⟩
  | 77 => ⟨S50000x256, .f32⟩
  | 78 => ⟨S1x400000, .i32⟩
  | 79 => ⟨S400000, .i32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000x256, .f32⟩
  | 89 => ⟨S1x400000, .i32⟩
  | 90 => ⟨S400000, .i32⟩
  | 91 => ⟨S_, .f32⟩
  | 92 => ⟨S50000x256, .f32⟩
  | 93 => ⟨S400000x1, .i32⟩
  | 94 => ⟨S50000x256, .f32⟩
  | 95 => ⟨S1x400000, .i32⟩
  | 96 => ⟨S400000, .i32⟩
  | 97 => ⟨S_, .f32⟩
  | 98 => ⟨S50000, .f32⟩
  | 99 => ⟨S400000x1, .i32⟩
  | 100 => ⟨S50000, .f32⟩
  | 101 => ⟨S_, .f32⟩
  | 102 => ⟨S_, .f32⟩
  | 103 => ⟨S50000, .f32⟩
  | 104 => ⟨S50000, .f32⟩
  | 105 => ⟨S_, .f32⟩
  | 106 => ⟨S50000, .f32⟩
  | 107 => ⟨S50000, .f32⟩
  | 108 => ⟨S50000x1, .f32⟩
  | 109 => ⟨S50000x256, .f32⟩
  | 110 => ⟨S50000x256, .f32⟩
  | 111 => ⟨S1x400000, .i32⟩
  | 112 => ⟨S400000, .i32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x256, .f32⟩
  | 122 => ⟨S1x400000, .i32⟩
  | 123 => ⟨S400000, .i32⟩
  | 124 => ⟨S_, .f32⟩
  | 125 => ⟨S50000x256, .f32⟩
  | 126 => ⟨S400000x1, .i32⟩
  | 127 => ⟨S50000x256, .f32⟩
  | _ => ⟨S50000x256, .f32⟩

abbrev hbmTy0_2 (i : Nat) : BufTy := match i % 128 with
  | 0 => ⟨S1x400000, .i32⟩
  | 1 => ⟨S400000, .i32⟩
  | 2 => ⟨S_, .f32⟩
  | 3 => ⟨S50000, .f32⟩
  | 4 => ⟨S400000x1, .i32⟩
  | 5 => ⟨S50000, .f32⟩
  | 6 => ⟨S_, .f32⟩
  | 7 => ⟨S_, .f32⟩
  | 8 => ⟨S50000, .f32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x256, .f32⟩
  | 15 => ⟨S50000x256, .f32⟩
  | 16 => ⟨S1x50000x256, .f32⟩
  | 17 => ⟨S1x50000x256, .f32⟩
  | 18 => ⟨S1x50000x256, .f32⟩
  | 19 => ⟨S1x50000x256, .f32⟩
  | 20 => ⟨S1x50000x256, .f32⟩
  | 21 => ⟨S1x50000x256, .f32⟩
  | 22 => ⟨S1x50000x256, .f32⟩
  | 23 => ⟨S1x50000x256, .f32⟩
  | 24 => ⟨S1x50000x256, .f32⟩
  | 25 => ⟨S9x50000x256, .f32⟩
  | 26 => ⟨S1x256x256, .f32⟩
  | 27 => ⟨S9x256x256, .f32⟩
  | 28 => ⟨S1x256, .f32⟩
  | 29 => ⟨S50000x256, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S1x5000x256, .f32⟩
  | .local _ .vmem, ⟨1, _⟩ => ⟨S1x5000x256, .f32⟩
  | .local _ .vmem, ⟨2, _⟩ => ⟨S1x256x256, .f32⟩
  | .local _ .vmem, ⟨3, _⟩ => ⟨S1x256x256, .f32⟩
  | .local _ .vmem, ⟨4, _⟩ => ⟨S1x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_call1_v0 : Ref sig .tc := ⟨.hbm, 65, rfl⟩
abbrev main_call1_v1 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_call2_v0 : Ref sig .tc := ⟨.hbm, 98, rfl⟩
abbrev main_call2_v1 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_21 : Ref sig .tc := ⟨.hbm, 130, rfl⟩
abbrev main_call3_v0 : Ref sig .tc := ⟨.hbm, 131, rfl⟩
abbrev main_call3_v1 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_c_23 : Ref sig .tc := ⟨.hbm, 142, rfl⟩
abbrev main_v103 : Ref sig .tc := ⟨.hbm, 143, rfl⟩
abbrev main_v104 : Ref sig .tc := ⟨.hbm, 144, rfl⟩
abbrev main_c_24 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_25 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_26 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_27 : Ref sig .tc := ⟨.hbm, 163, rfl⟩
abbrev main_call4_v0 : Ref sig .tc := ⟨.hbm, 164, rfl⟩
abbrev main_call4_v1 : Ref sig .tc := ⟨.hbm, 165, rfl⟩
abbrev main_v120 : Ref sig .tc := ⟨.hbm, 166, rfl⟩
abbrev main_cst_28 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_29 : Ref sig .tc := ⟨.hbm, 175, rfl⟩
abbrev main_v128 : Ref sig .tc := ⟨.hbm, 176, rfl⟩
abbrev main_v129 : Ref sig .tc := ⟨.hbm, 177, rfl⟩
abbrev main_c_30 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_31 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_32 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_33 : Ref sig .tc := ⟨.hbm, 196, rfl⟩
abbrev main_call5_v0 : Ref sig .tc := ⟨.hbm, 197, rfl⟩
abbrev main_call5_v1 : Ref sig .tc := ⟨.hbm, 198, rfl⟩
abbrev main_v145 : Ref sig .tc := ⟨.hbm, 199, rfl⟩
abbrev main_cst_34 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_c_35 : Ref sig .tc := ⟨.hbm, 208, rfl⟩
abbrev main_v153 : Ref sig .tc := ⟨.hbm, 209, rfl⟩
abbrev main_v154 : Ref sig .tc := ⟨.hbm, 210, rfl⟩
abbrev main_c_36 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_37 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_38 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_39 : Ref sig .tc := ⟨.hbm, 229, rfl⟩
abbrev main_call6_v0 : Ref sig .tc := ⟨.hbm, 230, rfl⟩
abbrev main_call6_v1 : Ref sig .tc := ⟨.hbm, 231, rfl⟩
abbrev main_v170 : Ref sig .tc := ⟨.hbm, 232, rfl⟩
abbrev main_cst_40 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_c_41 : Ref sig .tc := ⟨.hbm, 241, rfl⟩
abbrev main_v178 : Ref sig .tc := ⟨.hbm, 242, rfl⟩
abbrev main_v179 : Ref sig .tc := ⟨.hbm, 243, rfl⟩
abbrev main_c_42 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_43 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_cst_44 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_45 : Ref sig .tc := ⟨.hbm, 262, rfl⟩
abbrev main_call7_v0 : Ref sig .tc := ⟨.hbm, 263, rfl⟩
abbrev main_call7_v1 : Ref sig .tc := ⟨.hbm, 264, rfl⟩
abbrev main_v195 : Ref sig .tc := ⟨.hbm, 265, rfl⟩
abbrev main_cst_46 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![10, 9], ![false, false]⟩

def k0_cond2 (i : grid0.Coords) : BitVec 1 :=
  let arg1 : BitVec 32 := BitVec.ofNat 32 (i 1).val
  let c8_i32 : BitVec 32 := 8#32
  let v13 : BitVec 1 := Scalar.cmpi .eq arg1 c8_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S400000 : S_.BroadcastsInDim S400000 (![] : Fin 0 → Fin S400000.rank)
  slices_S8x400000_S1x400000_0_0 : S8x400000.Slices ![0, 0] S1x400000
  shapeCasts_S1x400000_S400000 : S1x400000.ShapeCasts S400000
  bcast_S400000_S400000x1_0 : S400000.BroadcastsInDim S400000x1 (![0] : Fin 1 → Fin S400000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S8x400000_S1x400000_1_0 : S8x400000.Slices ![1, 0] S1x400000
  slices_S8x400000_S1x400000_2_0 : S8x400000.Slices ![2, 0] S1x400000
  slices_S8x400000_S1x400000_3_0 : S8x400000.Slices ![3, 0] S1x400000
  slices_S8x400000_S1x400000_4_0 : S8x400000.Slices ![4, 0] S1x400000
  slices_S8x400000_S1x400000_5_0 : S8x400000.Slices ![5, 0] S1x400000
  slices_S8x400000_S1x400000_6_0 : S8x400000.Slices ![6, 0] S1x400000
  slices_S8x400000_S1x400000_7_0 : S8x400000.Slices ![7, 0] S1x400000
  bcast_S50000x256_S1x50000x256_1_2 : S50000x256.BroadcastsInDim S1x50000x256 (![1, 2] : Fin 2 → Fin S1x50000x256.rank)
  concatenates_S1x50000x256_S1x50000x256_S1x50000x256_S1x50000x256_S1x50000x256_S1x50000x256_S1x50000x256_S1x50000x256_S1x50000x256_S9x50000x256_d0 : Shape.Concatenates [S1x50000x256, S1x50000x256, S1x50000x256, S1x50000x256, S1x50000x256, S1x50000x256, S1x50000x256, S1x50000x256, S1x50000x256] S9x50000x256 0
  bcast_S256x256_S1x256x256_1_2 : S256x256.BroadcastsInDim S1x256x256 (![1, 2] : Fin 2 → Fin S1x256x256.rank)
  concatenates_S8x256x256_S1x256x256_S9x256x256_d0 : Shape.Concatenates [S8x256x256, S1x256x256] S9x256x256 0
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S1x5000x256_S1x5000x256_0_0_0 : ∀ a, (![0, 0, 0] : Fin 3 → Nat) a + S1x5000x256.size a ≤ S1x5000x256.size a
  h_S1x5000x256 : 0 < S1x5000x256.numel
  shapeCasts_S1x5000x256_S5000x256 : S1x5000x256.ShapeCasts S5000x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x256.size a ≤ S9x50000x256.size a
  hwx0_0 : ∀ i : grid0.Coords, EltTy.bits .f32 = 32 ∨ (Rect.block (s := S9x50000x256) S1x5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S9x256x256.size a
  hwx0_1 : ∀ i : grid0.Coords, EltTy.bits .f32 = 32 ∨ (Rect.block (s := S9x256x256) S1x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)

variable [Facts₀]

def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v210) S1x5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v212) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v213) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v214) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S50000x256 : Shape := ⟨2, ![50000, 256]⟩
abbrev S8x256x256 : Shape := ⟨3, ![8, 256, 256]⟩
abbrev S256 : Shape := ⟨1, ![256]⟩
abbrev S256x256 : Shape := ⟨2, ![256, 256]⟩
abbrev S8x400000 : Shape := ⟨2, ![8, 400000]⟩
abbrev S_ : Shape := ⟨0, ![]⟩
abbrev S1x256x256 : Shape := ⟨3, ![1, 256, 256]⟩
abbrev S1x400000 : Shape := ⟨2, ![1, 400000]⟩
abbrev S400000 : Shape := ⟨1, ![400000]⟩
abbrev S400000x1 : Shape := ⟨2, ![400000, 1]⟩
abbrev S400000x256 : Shape := ⟨2, ![400000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 304
  | .vmem => 0
  | .smem => 0
  | _ => 0

abbrev hbmTy0_0 (i : Nat) : BufTy := match i % 128 with
  | 0 => ⟨S50000x256, .f32⟩
  | 1 => ⟨S8x256x256, .f32⟩
  | 2 => ⟨S256, .f32⟩
  | 3 => ⟨S256x256, .f32⟩
  | 4 => ⟨S8x400000, .i32⟩
  | 5 => ⟨S8x400000, .i32⟩
  | 6 => ⟨S_, .f32⟩
  | 7 => ⟨S50000x256, .f32⟩
  | 8 => ⟨S1x256x256, .f32⟩
  | 9 => ⟨S256x256, .f32⟩
  | 10 => ⟨S50000x256, .f32⟩
  | 11 => ⟨S1x400000, .i32⟩
  | 12 => ⟨S400000, .i32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000x256, .f32⟩
  | 22 => ⟨S1x400000, .i32⟩
  | 23 => ⟨S400000, .i32⟩
  | 24 => ⟨S_, .f32⟩
  | 25 => ⟨S50000x256, .f32⟩
  | 26 => ⟨S400000x1, .i32⟩
  | 27 => ⟨S50000x256, .f32⟩
  | 28 => ⟨S_, .f32⟩
  | 29 => ⟨S400000, .f32⟩
  | 30 => ⟨S1x400000, .i32⟩
  | 31 => ⟨S400000, .i32⟩
  | 32 => ⟨S_, .f32⟩
  | 33 => ⟨S50000, .f32⟩
  | 34 => ⟨S400000x1, .i32⟩
  | 35 => ⟨S50000, .f32⟩
  | 36 => ⟨S_, .f32⟩
  | 37 => ⟨S_, .f32⟩
  | 38 => ⟨S50000, .f32⟩
  | 39 => ⟨S50000, .f32⟩
  | 40 => ⟨S50000x1, .f32⟩
  | 41 => ⟨S50000x256, .f32⟩
  | 42 => ⟨S50000x256, .f32⟩
  | 43 => ⟨S50000x256, .f32⟩
  | 44 => ⟨S1x256x256, .f32⟩
  | 45 => ⟨S256x256, .f32⟩
  | 46 => ⟨S50000x256, .f32⟩
  | 47 => ⟨S1x400000, .i32⟩
  | 48 => ⟨S400000, .i32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x256, .f32⟩
  | 58 => ⟨S1x400000, .i32⟩
  | 59 => ⟨S400000, .i32⟩
  | 60 => ⟨S_, .f32⟩
  | 61 => ⟨S50000x256, .f32⟩
  | 62 => ⟨S400000x1, .i32⟩
  | 63 => ⟨S50000x256, .f32⟩
  | 64 => ⟨S_, .f32⟩
  | 65 => ⟨S400000, .f32⟩
  | 66 => ⟨S1x400000, .i32⟩
  | 67 => ⟨S400000, .i32⟩
  | 68 => ⟨S_, .f32⟩
  | 69 => ⟨S50000, .f32⟩
  | 70 => ⟨S400000x1, .i32⟩
  | 71 => ⟨S50000, .f32⟩
  | 72 => ⟨S_, .f32⟩
  | 73 => ⟨S_, .f32⟩
  | 74 => ⟨S50000, .f32⟩
  | 75 => ⟨S50000, .f32⟩
  | 76 => ⟨S50000x1, .f32⟩
  | 77 => ⟨S50000x256, .f32⟩
  | 78 => ⟨S50000x256, .f32⟩
  | 79 => ⟨S50000x256, .f32⟩
  | 80 => ⟨S1x256x256, .f32⟩
  | 81 => ⟨S256x256, .f32⟩
  | 82 => ⟨S50000x256, .f32⟩
  | 83 => ⟨S1x400000, .i32⟩
  | 84 => ⟨S400000, .i32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S400000x256, .f32⟩
  | 94 => ⟨S1x400000, .i32⟩
  | 95 => ⟨S400000, .i32⟩
  | 96 => ⟨S_, .f32⟩
  | 97 => ⟨S50000x256, .f32⟩
  | 98 => ⟨S400000x1, .i32⟩
  | 99 => ⟨S50000x256, .f32⟩
  | 100 => ⟨S_, .f32⟩
  | 101 => ⟨S400000, .f32⟩
  | 102 => ⟨S1x400000, .i32⟩
  | 103 => ⟨S400000, .i32⟩
  | 104 => ⟨S_, .f32⟩
  | 105 => ⟨S50000, .f32⟩
  | 106 => ⟨S400000x1, .i32⟩
  | 107 => ⟨S50000, .f32⟩
  | 108 => ⟨S_, .f32⟩
  | 109 => ⟨S_, .f32⟩
  | 110 => ⟨S50000, .f32⟩
  | 111 => ⟨S50000, .f32⟩
  | 112 => ⟨S50000x1, .f32⟩
  | 113 => ⟨S50000x256, .f32⟩
  | 114 => ⟨S50000x256, .f32⟩
  | 115 => ⟨S50000x256, .f32⟩
  | 116 => ⟨S1x256x256, .f32⟩
  | 117 => ⟨S256x256, .f32⟩
  | 118 => ⟨S50000x256, .f32⟩
  | 119 => ⟨S1x400000, .i32⟩
  | 120 => ⟨S400000, .i32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S50000x256, .f32⟩

abbrev hbmTy0_1 (i : Nat) : BufTy := match i % 128 with
  | 0 => ⟨S400000x1, .i32⟩
  | 1 => ⟨S400000x256, .f32⟩
  | 2 => ⟨S1x400000, .i32⟩
  | 3 => ⟨S400000, .i32⟩
  | 4 => ⟨S_, .f32⟩
  | 5 => ⟨S50000x256, .f32⟩
  | 6 => ⟨S400000x1, .i32⟩
  | 7 => ⟨S50000x256, .f32⟩
  | 8 => ⟨S_, .f32⟩
  | 9 => ⟨S400000, .f32⟩
  | 10 => ⟨S1x400000, .i32⟩
  | 11 => ⟨S400000, .i32⟩
  | 12 => ⟨S_, .f32⟩
  | 13 => ⟨S50000, .f32⟩
  | 14 => ⟨S400000x1, .i32⟩
  | 15 => ⟨S50000, .f32⟩
  | 16 => ⟨S_, .f32⟩
  | 17 => ⟨S_, .f32⟩
  | 18 => ⟨S50000, .f32⟩
  | 19 => ⟨S50000, .f32⟩
  | 20 => ⟨S50000x1, .f32⟩
  | 21 => ⟨S50000x256, .f32⟩
  | 22 => ⟨S50000x256, .f32⟩
  | 23 => ⟨S50000x256, .f32⟩
  | 24 => ⟨S1x256x256, .f32⟩
  | 25 => ⟨S256x256, .f32⟩
  | 26 => ⟨S50000x256, .f32⟩
  | 27 => ⟨S1x400000, .i32⟩
  | 28 => ⟨S400000, .i32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x256, .f32⟩
  | 38 => ⟨S1x400000, .i32⟩
  | 39 => ⟨S400000, .i32⟩
  | 40 => ⟨S_, .f32⟩
  | 41 => ⟨S50000x256, .f32⟩
  | 42 => ⟨S400000x1, .i32⟩
  | 43 => ⟨S50000x256, .f32⟩
  | 44 => ⟨S_, .f32⟩
  | 45 => ⟨S400000, .f32⟩
  | 46 => ⟨S1x400000, .i32⟩
  | 47 => ⟨S400000, .i32⟩
  | 48 => ⟨S_, .f32⟩
  | 49 => ⟨S50000, .f32⟩
  | 50 => ⟨S400000x1, .i32⟩
  | 51 => ⟨S50000, .f32⟩
  | 52 => ⟨S_, .f32⟩
  | 53 => ⟨S_, .f32⟩
  | 54 => ⟨S50000, .f32⟩
  | 55 => ⟨S50000, .f32⟩
  | 56 => ⟨S50000x1, .f32⟩
  | 57 => ⟨S50000x256, .f32⟩
  | 58 => ⟨S50000x256, .f32⟩
  | 59 => ⟨S50000x256, .f32⟩
  | 60 => ⟨S1x256x256, .f32⟩
  | 61 => ⟨S256x256, .f32⟩
  | 62 => ⟨S50000x256, .f32⟩
  | 63 => ⟨S1x400000, .i32⟩
  | 64 => ⟨S400000, .i32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x256, .f32⟩
  | 74 => ⟨S1x400000, .i32⟩
  | 75 => ⟨S400000, .i32⟩
  | 76 => ⟨S_, .f32⟩
  | 77 => ⟨S50000x256, .f32⟩
  | 78 => ⟨S400000x1, .i32⟩
  | 79 => ⟨S50000x256, .f32⟩
  | 80 => ⟨S_, .f32⟩
  | 81 => ⟨S400000, .f32⟩
  | 82 => ⟨S1x400000, .i32⟩
  | 83 => ⟨S400000, .i32⟩
  | 84 => ⟨S_, .f32⟩
  | 85 => ⟨S50000, .f32⟩
  | 86 => ⟨S400000x1, .i32⟩
  | 87 => ⟨S50000, .f32⟩
  | 88 => ⟨S_, .f32⟩
  | 89 => ⟨S_, .f32⟩
  | 90 => ⟨S50000, .f32⟩
  | 91 => ⟨S50000, .f32⟩
  | 92 => ⟨S50000x1, .f32⟩
  | 93 => ⟨S50000x256, .f32⟩
  | 94 => ⟨S50000x256, .f32⟩
  | 95 => ⟨S50000x256, .f32⟩
  | 96 => ⟨S1x256x256, .f32⟩
  | 97 => ⟨S256x256, .f32⟩
  | 98 => ⟨S50000x256, .f32⟩
  | 99 => ⟨S1x400000, .i32⟩
  | 100 => ⟨S400000, .i32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x256, .f32⟩
  | 110 => ⟨S1x400000, .i32⟩
  | 111 => ⟨S400000, .i32⟩
  | 112 => ⟨S_, .f32⟩
  | 113 => ⟨S50000x256, .f32⟩
  | 114 => ⟨S400000x1, .i32⟩
  | 115 => ⟨S50000x256, .f32⟩
  | 116 => ⟨S_, .f32⟩
  | 117 => ⟨S400000, .f32⟩
  | 118 => ⟨S1x400000, .i32⟩
  | 119 => ⟨S400000, .i32⟩
  | 120 => ⟨S_, .f32⟩
  | 121 => ⟨S50000, .f32⟩
  | 122 => ⟨S400000x1, .i32⟩
  | 123 => ⟨S50000, .f32⟩
  | 124 => ⟨S_, .f32⟩
  | 125 => ⟨S_, .f32⟩
  | 126 => ⟨S50000, .f32⟩
  | 127 => ⟨S50000, .f32⟩
  | _ => ⟨S50000x256, .f32⟩

abbrev hbmTy0_2 (i : Nat) : BufTy := match i % 128 with
  | 0 => ⟨S50000x1, .f32⟩
  | 1 => ⟨S50000x256, .f32⟩
  | 2 => ⟨S50000x256, .f32⟩
  | 3 => ⟨S50000x256, .f32⟩
  | 4 => ⟨S1x256x256, .f32⟩
  | 5 => ⟨S256x256, .f32⟩
  | 6 => ⟨S50000x256, .f32⟩
  | 7 => ⟨S1x400000, .i32⟩
  | 8 => ⟨S400000, .i32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000x256, .f32⟩
  | 18 => ⟨S1x400000, .i32⟩
  | 19 => ⟨S400000, .i32⟩
  | 20 => ⟨S_, .f32⟩
  | 21 => ⟨S50000x256, .f32⟩
  | 22 => ⟨S400000x1, .i32⟩
  | 23 => ⟨S50000x256, .f32⟩
  | 24 => ⟨S_, .f32⟩
  | 25 => ⟨S400000, .f32⟩
  | 26 => ⟨S1x400000, .i32⟩
  | 27 => ⟨S400000, .i32⟩
  | 28 => ⟨S_, .f32⟩
  | 29 => ⟨S50000, .f32⟩
  | 30 => ⟨S400000x1, .i32⟩
  | 31 => ⟨S50000, .f32⟩
  | 32 => ⟨S_, .f32⟩
  | 33 => ⟨S_, .f32⟩
  | 34 => ⟨S50000, .f32⟩
  | 35 => ⟨S50000, .f32⟩
  | 36 => ⟨S50000x1, .f32⟩
  | 37 => ⟨S50000x256, .f32⟩
  | 38 => ⟨S50000x256, .f32⟩
  | 39 => ⟨S50000x256, .f32⟩
  | 40 => ⟨S50000x256, .f32⟩
  | 41 => ⟨S50000x256, .f32⟩
  | 42 => ⟨S1x256, .f32⟩
  | 43 => ⟨S50000x256, .f32⟩
  | 44 => ⟨S50000x256, .f32⟩
  | 45 => ⟨S_, .f32⟩
  | 46 => ⟨S50000x256, .f32⟩
  | 47 => ⟨S50000x256, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_call1_v0 : Ref sig .tc := ⟨.hbm, 73, rfl⟩
abbrev main_call1_v1 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_call2_v0 : Ref sig .tc := ⟨.hbm, 109, rfl⟩
abbrev main_call2_v1 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_17 : Ref sig .tc := ⟨.hbm, 121, rfl⟩
abbrev main_v90 : Ref sig .tc := ⟨.hbm, 122, rfl⟩
abbrev main_v91 : Ref sig .tc := ⟨.hbm, 123, rfl⟩
abbrev main_c_18 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_19 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_21 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_22 : Ref sig .tc := ⟨.hbm, 144, rfl⟩
abbrev main_call3_v0 : Ref sig .tc := ⟨.hbm, 145, rfl⟩
abbrev main_call3_v1 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_23 : Ref sig .tc := ⟨.hbm, 157, rfl⟩
abbrev main_v118 : Ref sig .tc := ⟨.hbm, 158, rfl⟩
abbrev main_v119 : Ref sig .tc := ⟨.hbm, 159, rfl⟩
abbrev main_c_24 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_25 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_26 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_27 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_28 : Ref sig .tc := ⟨.hbm, 180, rfl⟩
abbrev main_call4_v0 : Ref sig .tc := ⟨.hbm, 181, rfl⟩
abbrev main_call4_v1 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_29 : Ref sig .tc := ⟨.hbm, 193, rfl⟩
abbrev main_v146 : Ref sig .tc := ⟨.hbm, 194, rfl⟩
abbrev main_v147 : Ref sig .tc := ⟨.hbm, 195, rfl⟩
abbrev main_c_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_31 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_32 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_33 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_34 : Ref sig .tc := ⟨.hbm, 216, rfl⟩
abbrev main_call5_v0 : Ref sig .tc := ⟨.hbm, 217, rfl⟩
abbrev main_call5_v1 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_c_35 : Ref sig .tc := ⟨.hbm, 229, rfl⟩
abbrev main_v174 : Ref sig .tc := ⟨.hbm, 230, rfl⟩
abbrev main_v175 : Ref sig .tc := ⟨.hbm, 231, rfl⟩
abbrev main_c_36 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_cst_37 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_cst_38 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_cst_39 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_40 : Ref sig .tc := ⟨.hbm, 252, rfl⟩
abbrev main_call6_v0 : Ref sig .tc := ⟨.hbm, 253, rfl⟩
abbrev main_call6_v1 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_c_41 : Ref sig .tc := ⟨.hbm, 265, rfl⟩
abbrev main_v202 : Ref sig .tc := ⟨.hbm, 266, rfl⟩
abbrev main_v203 : Ref sig .tc := ⟨.hbm, 267, rfl⟩
abbrev main_c_42 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_cst_43 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_cst_44 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_cst_45 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_cst_46 : Ref sig .tc := ⟨.hbm, 288, rfl⟩
abbrev main_call7_v0 : Ref sig .tc := ⟨.hbm, 289, rfl⟩
abbrev main_call7_v1 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_call8_cst : Ref sig .tc := ⟨.hbm, 301, rfl⟩
abbrev main_call8_v0 : Ref sig .tc := ⟨.hbm, 302, rfl⟩
abbrev main_v230 : Ref sig .tc := ⟨.hbm, 303, rfl⟩

abbrev nD : Nat := 1
abbrev τ : Topo := Topo.v7x

variable {F : FTy → Type} [FloatOps F]

class Facts₀ : Prop where
  bcast_S_S50000x256 : S_.BroadcastsInDim S50000x256 (![] : Fin 0 → Fin S50000x256.rank)
  slices_S8x256x256_S1x256x256_0_0_0 : S8x256x256.Slices ![0, 0, 0] S1x256x256
  shapeCasts_S1x256x256_S256x256 : S1x256x256.ShapeCasts S256x256
  slices_S8x400000_S1x400000_0_0 : S8x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S8x256x256_S1x256x256_1_0_0 : S8x256x256.Slices ![1, 0, 0] S1x256x256
  slices_S8x400000_S1x400000_1_0 : S8x400000.Slices ![1, 0] S1x400000
  slices_S8x256x256_S1x256x256_2_0_0 : S8x256x256.Slices ![2, 0, 0] S1x256x256
  slices_S8x400000_S1x400000_2_0 : S8x400000.Slices ![2, 0] S1x400000
  slices_S8x256x256_S1x256x256_3_0_0 : S8x256x256.Slices ![3, 0, 0] S1x256x256
  slices_S8x400000_S1x400000_3_0 : S8x400000.Slices ![3, 0] S1x400000
  slices_S8x256x256_S1x256x256_4_0_0 : S8x256x256.Slices ![4, 0, 0] S1x256x256
  slices_S8x400000_S1x400000_4_0 : S8x400000.Slices ![4, 0] S1x400000
  slices_S8x256x256_S1x256x256_5_0_0 : S8x256x256.Slices ![5, 0, 0] S1x256x256
  slices_S8x400000_S1x400000_5_0 : S8x400000.Slices ![5, 0] S1x400000
  slices_S8x256x256_S1x256x256_6_0_0 : S8x256x256.Slices ![6, 0, 0] S1x256x256
  slices_S8x400000_S1x400000_6_0 : S8x400000.Slices ![6, 0] S1x400000
  slices_S8x256x256_S1x256x256_7_0_0 : S8x256x256.Slices ![7, 0, 0] S1x256x256
  slices_S8x400000_S1x400000_7_0 : S8x400000.Slices ![7, 0] S1x400000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

class Facts : Prop extends Facts₀ where

variable [Facts]
-- ==== Proof.KBaseB.lean ====
/-
  What the region of the one pallas_call finds and what its accumulator holds, as pure terms.

  Before the region @main runs seventeen stretches of host operations (eight relations' gather /
  scatter-add / degree / normalise chains, the stacking of the nine [50000,256] slabs and of the
  nine [256,256] weight matrices, the bias as a row).  `V` is the memory after them.  The grid is
  10 row tiles by 9 relations, the relation axis running fastest: point `t` is tile `t / 9`,
  relation `t % 9`.  The scratch accumulator is reset to zero at relation 0 and at every point
  receives its previous contents plus the product of the point's slab block and weight matrix:
  `acc` is that recursion, over the body's payloads.  At relation 8 the output block is the
  accumulator plus the bias row, clamped below at zero: `outBlk`.
-/
import proofs.«137636_j2181843386580_2_alg».proof.Proof.Gen.Kernel.Launch
import proofs.«137636_j2181843386580_2_alg».proof.Proof.Gen.Kernel.Skeleton
import proofs.«137636_j2181843386580_2_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- The stretches of host operations @main runs before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffers when the region is entered, as a valuation. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point `n`: zero plus the products of the tile's blocks up to this relation. -/
def acc (c : Dev nD) : (n : ℕ) → n < cfg0.N → Vec F S5000x256 .f32
  | 0, hn => k0_pay2 (iblk m c 0 ⟨0, hn⟩) (iblk m c 1 ⟨0, hn⟩) (k0_pay1 (F := F))
  | n + 1, hn =>
    if (n + 1) % 9 = 0 then k0_pay2 (iblk m c 0 ⟨n + 1, hn⟩) (iblk m c 1 ⟨n + 1, hn⟩) (k0_pay1 (F := F))
    else k0_pay2 (iblk m c 0 ⟨n + 1, hn⟩) (iblk m c 1 ⟨n + 1, hn⟩) (acc c n (Nat.lt_of_succ_lt hn))

/-- At relation 0 the accumulator starts from zero. -/
theorem acc_first (c : Dev nD) (t : Fin cfg0.N) (h : t.val % 9 = 0) :
    acc m c t.val t.isLt = k0_pay2 (iblk m c 0 t) (iblk m c 1 t) (k0_pay1 (F := F)) := by
  obtain ⟨n, hn⟩ := t
  cases n with
  | zero => rfl
  | succ n => exact if_pos h

/-- At a later relation it adds to what the point before left. -/
theorem acc_next (c : Dev nD) (t : Fin cfg0.N) (h : t.val % 9 ≠ 0) :
    acc m c t.val t.isLt = k0_pay2 (iblk m c 0 t) (iblk m c 1 t)
      (acc m c (t.val - 1) (Nat.lt_of_le_of_lt (Nat.sub_le _ _) t.isLt)) := by
  obtain ⟨n, hn⟩ := t
  cases n with
  | zero => exact absurd (Nat.zero_mod _) h
  | succ n => exact if_neg h

/-- What the body stores into the output block at relation 8. -/
def outBlk (c : Dev nD) (t : Fin cfg0.N) : Vec F S5000x256 .f32 :=
  k0_pay3 (acc m c t.val t.isLt) (iblk m c 2 t)

end Cert.Kernel.Hand

end
-- ==== Proof.KFrameBKit.lean ====
/-
  What the three runs of the body and the frame run share.

  @main is seventeen stretches of host operations followed by the region, so the region is entered
  at the memory `V`.  The body branches twice on the relation coordinate: the first condition holds
  exactly at relation 0 (points ≡ 0 mod 9), the second exactly at relation 8 (points ≡ 8 mod 9).
  The output window is live, and written back, at relation 8 only; elsewhere it is idle.  The three
  input windows are never idle, and each holds its block at every point, fetched there or not.
-/
import proofs.«137636_j2181843386580_2_alg».proof.Proof.KBaseB
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the host stretches then the region: the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-! ## The body's two conditions, in closed form -/

/-- The first branch's condition (relation = 0), from the grid coordinates. -/
abbrev cond0 (i : grid0.Coords) : Prop := (Scalar.cmpi .ne (Scalar.extui (Scalar.cmpi .eq (BitVec.ofNat 32 (i 1).val) 0#32)) 0#32) = 1#1
/-- It holds at the points ≡ 0 (mod 9). -/
theorem hcond0 : ∀ t : Fin cfg0.N, cond0 (grid0.coords t) ↔ t.val % 9 = 0 :=
  (by decide +kernel : ∀ t : Fin grid0.N, cond0 (grid0.coords t) ↔ t.val % 9 = 0)

/-- The second branch's condition (relation = 8). -/
abbrev cond1 (i : grid0.Coords) : Prop := k0_cond2 i = 1#1
/-- It holds at the points ≡ 8 (mod 9). -/
theorem hcond1 : ∀ t : Fin cfg0.N, cond1 (grid0.coords t) ↔ t.val % 9 = 8 :=
  (by decide +kernel : ∀ t : Fin grid0.N, cond1 (grid0.coords t) ↔ t.val % 9 = 8)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from relation 8 the output window is idle: nothing is stored into it. -/
theorem idleAt3 : ∀ t : Fin cfg0.N, ¬cond1 (grid0.coords t) → cfg0.idle 3 (grid0.coords t) = true := by decide +kernel
/-- And its block is not written back there. -/
theorem noFlush3 : ∀ t : Fin cfg0.N, ¬cond1 (grid0.coords t) → (cfg0.win 3).flush t = false := by decide +kernel
/-- At relation 8 it is live. -/
theorem liveAt3 : ∀ t : Fin cfg0.N, cond1 (grid0.coords t) → cfg0.idle 3 (grid0.coords t) = false := by decide +kernel

/-! ## The memrefs the body is called with -/

abbrev ms0 (t : Fin cfg0.N) : Memref sig .tc .vmem S1x5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x256 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev scM : Memref sig .tc .vmem S5000x256 .f32 := Memref.whole cc0_scratch0

/-- What the launch hands the body besides the windows: the accumulator at some contents and the
    generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The input windows hold their blocks -/

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.KFrameBRunA.lean ====
/-
  The body at relation 0 (first condition taken, second not): it zeroes the accumulator, then stores
  into it its contents plus the product of the slab block and the weight matrix.  The output buffer
  and the bias row are not touched.  The triple is found by running the body's skeleton; the pieces
  the accumulator ends with are the witness.
-/
import proofs.«137636_j2181843386580_2_alg».proof.Proof.KFrameBKit

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulator's pieces after the body at relation 0, with the body's triple: from the slab
    block `x0`, the weight matrix `x1` and the accumulator at anything, to the same inputs and the
    accumulator with those pieces written. -/
noncomputable def kernelRunA (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : cond0 i) (hc1 : ¬cond1 i)
    (x0 : Vec F S1x5000x256 .f32) (x1 : Vec F S1x256x256 .f32) :
    { LS : List (View.Piece (Elt F) S5000x256 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__rel_agg_matmul_kernel i arg2 harg2 arg3 harg3 arg4 harg4 arg5 harg5 arg6 harg6) K } := by
  refine ⟨?_, fun E K => ?run⟩
  case run =>
    simp only [cc0__rel_agg_matmul_kernel_eq_skeleton]; unfold cc0__rel_agg_matmul_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.KFrameBRunB.lean ====
/-
  The body at relations 1 to 7 (neither condition taken): it stores into the accumulator its
  contents, as the point before left them, plus the product of the slab block and the weight
  matrix.  The output buffer and the bias row are not touched.
-/
import proofs.«137636_j2181843386580_2_alg».proof.Proof.KFrameBKit

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulator's pieces after the body at a middle relation, with the body's triple: from the
    slab block `x0`, the weight matrix `x1` and the accumulator at `xs`. -/
noncomputable def kernelRunB (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : ¬cond1 i)
    (x0 : Vec F S1x5000x256 .f32) (x1 : Vec F S1x256x256 .f32) (xs : Vec F S5000x256 .f32) :
    { LS : List (View.Piece (Elt F) S5000x256 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__rel_agg_matmul_kernel i arg2 harg2 arg3 harg3 arg4 harg4 arg5 harg5 arg6 harg6) K } := by
  refine ⟨?_, fun E K => ?run⟩
  case run =>
    simp only [cc0__rel_agg_matmul_kernel_eq_skeleton]; unfold cc0__rel_agg_matmul_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.KFrameBRunC.lean ====
/-
  The body at relation 8 (first condition not taken, second taken): it adds the last product to the
  accumulator, then stores into the output buffer the accumulator plus the bias row, clamped below
  at zero.  The output buffer is read once before it is covered; what is read is not used.
-/
import proofs.«137636_j2181843386580_2_alg».proof.Proof.KFrameBKit

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The output buffer's and the accumulator's pieces after the body at relation 8, with the body's
    triple: from the slab block `x0`, the weight matrix `x1`, the bias row `x2`, the output buffer at
    anything and the accumulator at `xs`. -/
noncomputable def kernelRunC (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i)
    (x0 : Vec F S1x5000x256 .f32) (x1 : Vec F S1x256x256 .f32) (x2 : Vec F S1x256 .f32) (xs : Vec F S5000x256 .f32) :
    Σ' (L3 : List (View.Piece (Elt F) S5000x256 .f32)), { LS : List (View.Piece (Elt F) S5000x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__rel_agg_matmul_kernel i arg2 harg2 arg3 harg3 arg4 harg4 arg5 harg5 arg6 harg6) K } := by
  refine ⟨?_, ?_, fun E K => ?run⟩
  case run =>
    simp only [cc0__rel_agg_matmul_kernel_eq_skeleton]; unfold cc0__rel_agg_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KFrameBPieces.lean ====
/-
  What each run's pieces amount to.  Every store of the body is through the whole-buffer rectangle
  at zero offsets, so the last store into a buffer leaves its payload, a load of a buffer reads its
  contents, and a load of a buffer just stored reads the stored payload.  Hence the accumulator ends
  at `k0_pay2 x0 x1 k0_pay1` at relation 0 and at `k0_pay2 x0 x1 xs` afterwards, and at relation 8
  the output buffer ends at `k0_pay3 (k0_pay2 x0 x1 xs) x2`.
-/
import proofs.«137636_j2181843386580_2_alg».proof.Proof.KFrameBRunA
import proofs.«137636_j2181843386580_2_alg».proof.Proof.KFrameBRunB
import proofs.«137636_j2181843386580_2_alg».proof.Proof.KFrameBRunC
import Idealize.ShloMosaic.Lib.Pipeline.Value

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## Relation 0 -/

/-- The pieces tile the buffer, so they cover it. -/
theorem scoverA (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : cond0 i) (hc1 : ¬cond1 i) (x0 : Vec F S1x5000x256 .f32) (x1 : Vec F S1x256x256 .f32) (y : S5000x256.Idx) :
    ∃ pc ∈ (kernelRunA c i arg2 harg2 arg3 harg3 arg4 harg4 arg5 harg5 arg6 harg6 hc0 hc1 x0 x1).1, y ∈ pc.1.set :=
  View.cover_of_tiledL (kernelRunA c i arg2 harg2 arg3 harg3 arg4 harg4 arg5 harg5 arg6 harg6 hc0 hc1 x0 x1).1 S5000x256.size (by sl_kernel_rfl) y

/-- At relation 0 the accumulator ends at zero plus the product: the last store covers the buffer,
    and what it adds to is the zero block read back. -/
theorem canonA (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : cond0 i) (hc1 : ¬cond1 i) (x0 : Vec F S1x5000x256 .f32) (x1 : Vec F S1x256x256 .f32) :
    View.canon (kernelRunA c i arg2 harg2 arg3 harg3 arg4 harg4 arg5 harg5 arg6 harg6 hc0 hc1 x0 x1).1 = k0_pay2 x0 x1 (k0_pay1 (F := F)) := by
  unfold kernelRunA
  dsimp only
  sl_unfold_words
  rw [View.canon_cons_unit_zero (S := S5000x256) hz2, View.readCov_unit_zero (S := S5000x256) _ hz2]
  simp only [View.readAt_eq_ld, harg2.read_unread, harg3.read_unread, harg4.read_unread, harg6.read_unread, View.ld_unit_zero (S := S1x5000x256) hz3, View.ld_unit_zero (S := S1x256x256) hz3, View.ld_unit_zero (S := S5000x256) hz2, View.ld_unit_zero (S := S1x256) hz2]

/-! ## Relations 1 to 7 -/

/-- The pieces tile the buffer, so they cover it. -/
theorem scoverB (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : ¬cond1 i) (x0 : Vec F S1x5000x256 .f32) (x1 : Vec F S1x256x256 .f32) (xs : Vec F S5000x256 .f32) (y : S5000x256.Idx) :
    ∃ pc ∈ (kernelRunB c i arg2 harg2 arg3 harg3 arg4 harg4 arg5 harg5 arg6 harg6 hc0 hc1 x0 x1 xs).1, y ∈ pc.1.set :=
  View.cover_of_tiledL (kernelRunB c i arg2 harg2 arg3 harg3 arg4 harg4 arg5 harg5 arg6 harg6 hc0 hc1 x0 x1 xs).1 S5000x256.size (by sl_kernel_rfl) y

/-- At a middle relation the accumulator ends at its previous contents plus the product. -/
theorem canonB (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : ¬cond1 i) (x0 : Vec F S1x5000x256 .f32) (x1 : Vec F S1x256x256 .f32) (xs : Vec F S5000x256 .f32) :
    View.canon (kernelRunB c i arg2 harg2 arg3 harg3 arg4 harg4 arg5 harg5 arg6 harg6 hc0 hc1 x0 x1 xs).1 = k0_pay2 x0 x1 xs := by
  unfold kernelRunB
  dsimp only
  sl_unfold_words
  rw [View.canon_unit_zero (S := S5000x256) hz2]
  simp only [View.readAt_eq_ld, harg2.read_unread, harg3.read_unread, harg4.read_unread, harg6.read_unread, View.ld_unit_zero (S := S1x5000x256) hz3, View.ld_unit_zero (S := S1x256x256) hz3, View.ld_unit_zero (S := S5000x256) hz2, View.ld_unit_zero (S := S1x256) hz2]

/-! ## Relation 8 -/

/-- The pieces tile the buffer, so they cover it. -/
theorem coverC (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i) (x0 : Vec F S1x5000x256 .f32) (x1 : Vec F S1x256x256 .f32) (x2 : Vec F S1x256 .f32) (xs : Vec F S5000x256 .f32) (y : S5000x256.Idx) :
    ∃ pc ∈ (kernelRunC c i arg2 harg2 arg3 harg3 arg4 harg4 arg5 harg5 arg6 harg6 hc0 hc1 x0 x1 x2 xs).1, y ∈ pc.1.set :=
  View.cover_of_tiledL (kernelRunC c i arg2 harg2 arg3 harg3 arg4 harg4 arg5 harg5 arg6 harg6 hc0 hc1 x0 x1 x2 xs).1 S5000x256.size (by sl_kernel_rfl) y

/-- The pieces tile the buffer, so they cover it. -/
theorem scoverC (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i) (x0 : Vec F S1x5000x256 .f32) (x1 : Vec F S1x256x256 .f32) (x2 : Vec F S1x256 .f32) (xs : Vec F S5000x256 .f32) (y : S5000x256.Idx) :
    ∃ pc ∈ (kernelRunC c i arg2 harg2 arg3 harg3 arg4 harg4 arg5 harg5 arg6 harg6 hc0 hc1 x0 x1 x2 xs).2.1, y ∈ pc.1.set :=
  View.cover_of_tiledL (kernelRunC c i arg2 harg2 arg3 harg3 arg4 harg4 arg5 harg5 arg6 harg6 hc0 hc1 x0 x1 x2 xs).2.1 S5000x256.size (by sl_kernel_rfl) y

/-- At relation 8 the accumulator ends at its previous contents plus the product, -/
theorem canonCS (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i) (x0 : Vec F S1x5000x256 .f32) (x1 : Vec F S1x256x256 .f32) (x2 : Vec F S1x256 .f32) (xs : Vec F S5000x256 .f32) :
    View.canon (kernelRunC c i arg2 harg2 arg3 harg3 arg4 harg4 arg5 harg5 arg6 harg6 hc0 hc1 x0 x1 x2 xs).2.1 = k0_pay2 x0 x1 xs := by
  unfold kernelRunC
  dsimp only
  sl_unfold_words
  rw [View.canon_unit_zero (S := S5000x256) hz2]
  simp only [View.readAt_eq_ld, harg2.read_unread, harg3.read_unread, harg4.read_unread, harg6.read_unread, View.ld_unit_zero (S := S1x5000x256) hz3, View.ld_unit_zero (S := S1x256x256) hz3, View.ld_unit_zero (S := S5000x256) hz2, View.ld_unit_zero (S := S1x256) hz2]

/-- and the output buffer at that sum plus the bias row, clamped below at zero: what the output
    store adds the bias to is the accumulator's store read back. -/
theorem canonC (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i) (x0 : Vec F S1x5000x256 .f32) (x1 : Vec F S1x256x256 .f32) (x2 : Vec F S1x256 .f32) (xs : Vec F S5000x256 .f32) :
    View.canon (kernelRunC c i arg2 harg2 arg3 harg3 arg4 harg4 arg5 harg5 arg6 harg6 hc0 hc1 x0 x1 x2 xs).1 = k0_pay3 (k0_pay2 x0 x1 xs) x2 := by
  unfold kernelRunC
  dsimp only
  sl_unfold_words
  rw [View.canon_unit_zero (S := S5000x256) hz2, View.readCov_unit_zero (S := S5000x256) _ hz2]
  simp only [View.readAt_eq_ld, harg2.read_unread, harg3.read_unread, harg4.read_unread, harg6.read_unread, View.ld_unit_zero (S := S1x5000x256) hz3, View.ld_unit_zero (S := S1x256x256) hz3, View.ld_unit_zero (S := S5000x256) hz2, View.ld_unit_zero (S := S1x256) hz2]

end Cert.Kernel.Hand

end
-- ==== Proof.KFrameB.lean ====
/-
  The frame run of the one region.

  The invariant between points tracks the accumulator: before point 0 it holds anything; after
  point n it holds `acc m c n`.  At every point the three input buffers hold their blocks.  At
  relation 0 the body overwrites the accumulator (so what it held does not matter) and leaves
  `acc` by `acc_first`; at relations 1 to 8 it finds `acc` of the point before and leaves `acc` by
  `acc_next`.  The output buffer is stored into at relation 8 only, with `outBlk`; elsewhere the
  window is idle and not written back, and the buffer is handed back as found.
-/
import proofs.«137636_j2181843386580_2_alg».proof.Proof.KFrameBPieces

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before point `n`: at the first point the launch's invariant (the accumulator at anything);
    afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (acc m c n hn)) ∗ (∃ r, prngReg c r)) := rfl

theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The proof data -/

/-- The arrays as the region finds them; after the body each input buffer at its block and the
    output buffer at `outBlk`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlk m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- At a later relation the output block is the bias added to the accumulator's new contents. -/
theorem outBlk_next (c : Dev nD) (t : Fin cfg0.N) (h0 : t.val % 9 ≠ 0) :
    k0_pay3 (k0_pay2 (iblk m c 0 t) (iblk m c 1 t) (acc m c (t.val - 1) (Nat.lt_of_le_of_lt (Nat.sub_le _ _) t.isLt))) (iblk m c 2 t) = outBlk m c t := by
  unfold outBlk; rw [acc_next m c t h0]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point, by cases on the relation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 90 := lt_of_lt_of_eq t.isLt (show cfg0.N = 90 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  by_cases h1 : t.val % 9 = 8
  · have h0 : ¬t.val % 9 = 0 := by omega
    have hz : t.val ≠ 0 := by omega
    rw [show (dats m 0 c).leavesExact 3 t = owns (c : Thread nD τ) (ms3 t) fullShare ((dats m 0 c).after 3 t) from by
      unfold Dat.leavesExact; rw [liveAt3 t ((hcond1 t).mpr h1)], after3]
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((kernelRunC c (grid0.coords t) _ _ _ _ _ _ _ _ _ _ (fun h => h0 ((hcond0 t).mp h)) ((hcond1 t).mpr h1) (iblk m c 0 t) (iblk m c 1 t) (iblk m c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hg]
    · isplitl [HS]
      · unfold owns; iexists _; isplitr
        swap; · iexact HS
        ipureintro
        exact (View.read_writes_eq_canon _ _ _ (scoverC c (grid0.coords t) _ _ _ _ _ _ _ _ _ _ (fun h => h0 ((hcond0 t).mp h)) ((hcond1 t).mpr h1) (iblk m c 0 t) (iblk m c 1 t) (iblk m c 2 t) (acc m c (t.val - 1) (Nat.lt_of_le_of_lt (Nat.sub_le _ _) t.isLt)))).trans
          ((canonCS c (grid0.coords t) _ _ _ _ _ _ _ _ _ _ (fun h => h0 ((hcond0 t).mp h)) ((hcond1 t).mpr h1) (iblk m c 0 t) (iblk m c 1 t) (iblk m c 2 t) (acc m c (t.val - 1) (Nat.lt_of_le_of_lt (Nat.sub_le _ _) t.isLt))).trans (acc_next m c t h0).symm)
      iexact Hg
    isplitl [Ho]; · iexact Ho
    isplitl [H0]; · iexact H0
    isplitl [H1]; · iexact H1
    isplitl [H2]; · iexact H2
    unfold owns; iexists _; isplitr
    swap; · iexact H3
    ipureintro
    exact (View.read_writes_eq_canon _ _ _ (coverC c (grid0.coords t) _ _ _ _ _ _ _ _ _ _ (fun h => h0 ((hcond0 t).mp h)) ((hcond1 t).mpr h1) (iblk m c 0 t) (iblk m c 1 t) (iblk m c 2 t) (acc m c (t.val - 1) (Nat.lt_of_le_of_lt (Nat.sub_le _ _) t.isLt)))).trans
      ((canonC c (grid0.coords t) _ _ _ _ _ _ _ _ _ _ (fun h => h0 ((hcond0 t).mp h)) ((hcond1 t).mpr h1) (iblk m c 0 t) (iblk m c 1 t) (iblk m c 2 t) (acc m c (t.val - 1) (Nat.lt_of_le_of_lt (Nat.sub_le _ _) t.isLt))).trans (outBlk_next m c t h0))
  · rw [Dat.leavesExact_idle (dats m 0 c) 3 t (idleAt3 t (fun h => h1 ((hcond1 t).mp h))) (noFlush3 t (fun h => h1 ((hcond1 t).mp h)))]
    by_cases h0 : t.val % 9 = 0
    · by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩⟩
        iapply ((kernelRunA c (grid0.coords t) _ _ _ _ _ _ _ _ _ _ ((hcond0 t).mpr h0) (fun h => h1 ((hcond1 t).mp h)) (iblk m c 0 t) (iblk m c 1 t)).2 Set.univ _)
        isplitl [H0]; · iexact H0
        isplitl [H1]; · iexact H1
        isplitl [HS]; · iexact HS
        iintro ⟨H0, H1, ⟨%es, HS⟩⟩
        isplitl [HS Hg]
        · isplitl [HS]
          · unfold owns; iexists _; isplitr
            swap; · iexact HS
            ipureintro
            exact (View.read_writes_eq_canon _ _ _ (scoverA c (grid0.coords t) _ _ _ _ _ _ _ _ _ _ ((hcond0 t).mpr h0) (fun h => h1 ((hcond1 t).mp h)) (iblk m c 0 t) (iblk m c 1 t))).trans
              ((canonA c (grid0.coords t) _ _ _ _ _ _ _ _ _ _ ((hcond0 t).mpr h0) (fun h => h1 ((hcond1 t).mp h)) (iblk m c 0 t) (iblk m c 1 t)).trans (acc_first m c t h0).symm)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS, Hg⟩, Ho, ⟨%d0, H0⟩, ⟨%d1, H1⟩, ⟨%d2, H2⟩, ⟨%d3, H3⟩⟩
        iapply ((kernelRunA c (grid0.coords t) _ _ _ _ _ _ _ _ _ _ ((hcond0 t).mpr h0) (fun h => h1 ((hcond1 t).mp h)) (iblk m c 0 t) (iblk m c 1 t)).2 Set.univ _)
        isplitl [H0]; · iexact H0
        isplitl [H1]; · iexact H1
        isplitl [HS]; · iexists _; iexact HS
        iintro ⟨H0, H1, ⟨%es, HS⟩⟩
        isplitl [HS Hg]
        · isplitl [HS]
          · unfold owns; iexists _; isplitr
            swap; · iexact HS
            ipureintro
            exact (View.read_writes_eq_canon _ _ _ (scoverA c (grid0.coords t) _ _ _ _ _ _ _ _ _ _ ((hcond0 t).mpr h0) (fun h => h1 ((hcond1 t).mp h)) (iblk m c 0 t) (iblk m c 1 t))).trans
              ((canonA c (grid0.coords t) _ _ _ _ _ _ _ _ _ _ ((hcond0 t).mpr h0) (fun h => h1 ((hcond1 t).mp h)) (iblk m c 0 t) (iblk m c 1 t)).trans (acc_first m c t h0).symm)
          iexact Hg
        isplitl [Ho]; · iexact Ho
        isplitl [H0]; · iexact H0
        isplitl [H1]; · iexact H1
        isplitl [H2]; · iexact H2
        iexists _; iexact H3
    · have hz : t.val ≠ 0 := by omega
      · rw [PhiS_castSucc m c t, PhiS_pos m c _ _ hz]
        iintro ⟨⟨HS, Hg⟩, Ho, ⟨%d0, H0⟩, ⟨%d1, H1⟩, ⟨%d2, H2⟩, ⟨%d3, H3⟩⟩
        iapply ((kernelRunB c (grid0.coords t) _ _ _ _ _ _ _ _ _ _ (fun h => h0 ((hcond0 t).mp h)) (fun h => h1 ((hcond1 t).mp h)) (iblk m c 0 t) (iblk m c 1 t) _).2 Set.univ _)
        isplitl [H0]; · iexact H0
        isplitl [H1]; · iexact H1
        isplitl [HS]; · iexact HS
        iintro ⟨H0, H1, ⟨%es, HS⟩⟩
        isplitl [HS Hg]
        · isplitl [HS]
          · unfold owns; iexists _; isplitr
            swap; · iexact HS
            ipureintro
            exact (View.read_writes_eq_canon _ _ _ (scoverB c (grid0.coords t) _ _ _ _ _ _ _ _ _ _ (fun h => h0 ((hcond0 t).mp h)) (fun h => h1 ((hcond1 t).mp h)) (iblk m c 0 t) (iblk m c 1 t) (acc m c (t.val - 1) (Nat.lt_of_le_of_lt (Nat.sub_le _ _) t.isLt)))).trans
              ((canonB c (grid0.coords t) _ _ _ _ _ _ _ _ _ _ (fun h => h0 ((hcond0 t).mp h)) (fun h => h1 ((hcond1 t).mp h)) (iblk m c 0 t) (iblk m c 1 t) (acc m c (t.val - 1) (Nat.lt_of_le_of_lt (Nat.sub_le _ _) t.isLt))).trans (acc_next m c t h0).symm)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 90 := N_0; omega)

/-! ## The run -/

-- the launch theorem's implicit arguments are found by unifying its conclusion with this one, which
-- takes unfolding plain definitions in a metavariable's type
set_option backward.isDefEq.respectTransparency.types false in
/-- Every weakly fair execution of @main on the TensorCores terminates, and in every final state
    every array of the pipeline holds what the proof data compute and every other unscoped buffer
    what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Hand

end
-- ==== Proof.KFrameBArgs.lean ====
/-
  No host operation before the region writes an argument of @main: each operation writes only its
  own result buffer, and no result buffer is an argument.  So the region finds every argument as
  launched.
-/
import proofs.«137636_j2181843386580_2_alg».proof.Proof.KBaseB
import Idealize.ShloMosaic.Lib.Pipeline.FrameBody

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 is as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 1 is as launched when the region is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 2 is as launched when the region is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 3 is as launched when the region is entered. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 4 is as launched when the region is entered. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 5 is as launched when the region is entered. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.Kernel.Hand

end
-- ==== Proof.KFrameBFin.lean ====
/-
  The frame claim: @main terminates and leaves its six arguments as launched.  No argument is an
  array of the pipeline and none is scoped, so each is read back at the end as the region found
  it; and the region found it as launched, since no host operation writes an argument.
-/
import proofs.«137636_j2181843386580_2_alg».proof.Proof.KFrameB
import proofs.«137636_j2181843386580_2_alg».proof.Proof.KFrameBArgs

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame run's post leaves every argument of @main as launched. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 rfl (by decide))).trans (V_main_arg0 m c),
   ((h c).2 main_arg1 (Pipeline.mem_restRefs_of main_arg1 rfl (by decide))).trans (V_main_arg1 m c),
   ((h c).2 main_arg2 (Pipeline.mem_restRefs_of main_arg2 rfl (by decide))).trans (V_main_arg2 m c),
   ((h c).2 main_arg3 (Pipeline.mem_restRefs_of main_arg3 rfl (by decide))).trans (V_main_arg3 m c),
   ((h c).2 main_arg4 (Pipeline.mem_restRefs_of main_arg4 rfl (by decide))).trans (V_main_arg4 m c),
   ((h c).2 main_arg5 (Pipeline.mem_restRefs_of main_arg5 rfl (by decide))).trans (V_main_arg5 m c)⟩

/-- And has the output array at what the proof data compute from the blocks written back. -/
theorem post3 (r : PUnit × MemSt nD τ sig (Elt F)) (h : Pipeline.FramePost cfgs (dats m) 0 (V m) r) (c : Dev nD) :
    r.2.mem ((c.tc : Thread nD τ).loc main_v214) = (dats m 0 c).arrAt 3 cfg0.N :=
  (h c).1 3

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept_args m r h c) (run_main m ρ)

end Cert.Kernel.Hand

end
-- ==== Proof.KBaseI.lean ====
/-
  What the region of the one pallas_call finds and what its accumulator holds, as pure terms.

  Before the region @main runs seventeen stretches of host operations (eight relations' gather /
  scatter-add / degree / normalise chains, the stacking of the nine [50000,256] slabs and of the
  nine [256,256] weight matrices, the bias as a row).  `V` is the memory after them.  The grid is
  10 row tiles by 9 relations, the relation axis running fastest: point `t` is tile `t / 9`,
  relation `t % 9`.  The scratch accumulator is reset to zero at relation 0 and at every point
  receives its previous contents plus the product of the point's slab block and weight matrix:
  `acc` is that recursion, over the body's payloads.  At relation 8 the output block is the
  accumulator plus the bias row, clamped below at zero: `outBlk`.
-/
import proofs.«137636_j2181843386580_2_alg».proof.Proof.Gen.KernelIdeal.Launch
import proofs.«137636_j2181843386580_2_alg».proof.Proof.Gen.KernelIdeal.Skeleton
import proofs.«137636_j2181843386580_2_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The stretches of host operations @main runs before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffers when the region is entered, as a valuation. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point `n`: zero plus the products of the tile's blocks up to this relation. -/
def acc (c : Dev nD) : (n : ℕ) → n < cfg0.N → Vec F S5000x256 .f32
  | 0, hn => k0_pay2 (iblk m c 0 ⟨0, hn⟩) (iblk m c 1 ⟨0, hn⟩) (k0_pay1 (F := F))
  | n + 1, hn =>
    if (n + 1) % 9 = 0 then k0_pay2 (iblk m c 0 ⟨n + 1, hn⟩) (iblk m c 1 ⟨n + 1, hn⟩) (k0_pay1 (F := F))
    else k0_pay2 (iblk m c 0 ⟨n + 1, hn⟩) (iblk m c 1 ⟨n + 1, hn⟩) (acc c n (Nat.lt_of_succ_lt hn))

/-- At relation 0 the accumulator starts from zero. -/
theorem acc_first (c : Dev nD) (t : Fin cfg0.N) (h : t.val % 9 = 0) :
    acc m c t.val t.isLt = k0_pay2 (iblk m c 0 t) (iblk m c 1 t) (k0_pay1 (F := F)) := by
  obtain ⟨n, hn⟩ := t
  cases n with
  | zero => rfl
  | succ n => exact if_pos h

/-- At a later relation it adds to what the point before left. -/
theorem acc_next (c : Dev nD) (t : Fin cfg0.N) (h : t.val % 9 ≠ 0) :
    acc m c t.val t.isLt = k0_pay2 (iblk m c 0 t) (iblk m c 1 t)
      (acc m c (t.val - 1) (Nat.lt_of_le_of_lt (Nat.sub_le _ _) t.isLt)) := by
  obtain ⟨n, hn⟩ := t
  cases n with
  | zero => exact absurd (Nat.zero_mod _) h
  | succ n => exact if_neg h

/-- What the body stores into the output block at relation 8. -/
def outBlk (c : Dev nD) (t : Fin cfg0.N) : Vec F S5000x256 .f32 :=
  k0_pay3 (acc m c t.val t.isLt) (iblk m c 2 t)

end Cert.KernelIdeal.Hand

end
-- ==== Proof.KFrameIKit.lean ====
/-
  What the three runs of the body and the frame run share.

  @main is seventeen stretches of host operations followed by the region, so the region is entered
  at the memory `V`.  The body branches twice on the relation coordinate: the first condition holds
  exactly at relation 0 (points ≡ 0 mod 9), the second exactly at relation 8 (points ≡ 8 mod 9).
  The output window is live, and written back, at relation 8 only; elsewhere it is idle.  The three
  input windows are never idle, and each holds its block at every point, fetched there or not.
-/
import proofs.«137636_j2181843386580_2_alg».proof.Proof.KBaseI
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the host stretches then the region: the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-! ## The body's two conditions, in closed form -/

/-- The first branch's condition (relation = 0), from the grid coordinates. -/
abbrev cond0 (i : grid0.Coords) : Prop := (Scalar.cmpi .ne (Scalar.extui (Scalar.cmpi .eq (BitVec.ofNat 32 (i 1).val) 0#32)) 0#32) = 1#1
/-- It holds at the points ≡ 0 (mod 9). -/
theorem hcond0 : ∀ t : Fin cfg0.N, cond0 (grid0.coords t) ↔ t.val % 9 = 0 :=
  (by decide +kernel : ∀ t : Fin grid0.N, cond0 (grid0.coords t) ↔ t.val % 9 = 0)

/-- The second branch's condition (relation = 8). -/
abbrev cond1 (i : grid0.Coords) : Prop := k0_cond2 i = 1#1
/-- It holds at the points ≡ 8 (mod 9). -/
theorem hcond1 : ∀ t : Fin cfg0.N, cond1 (grid0.coords t) ↔ t.val % 9 = 8 :=
  (by decide +kernel : ∀ t : Fin grid0.N, cond1 (grid0.coords t) ↔ t.val % 9 = 8)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from relation 8 the output window is idle: nothing is stored into it. -/
theorem idleAt3 : ∀ t : Fin cfg0.N, ¬cond1 (grid0.coords t) → cfg0.idle 3 (grid0.coords t) = true := by decide +kernel
/-- And its block is not written back there. -/
theorem noFlush3 : ∀ t : Fin cfg0.N, ¬cond1 (grid0.coords t) → (cfg0.win 3).flush t = false := by decide +kernel
/-- At relation 8 it is live. -/
theorem liveAt3 : ∀ t : Fin cfg0.N, cond1 (grid0.coords t) → cfg0.idle 3 (grid0.coords t) = false := by decide +kernel

/-! ## The memrefs the body is called with -/

abbrev ms0 (t : Fin cfg0.N) : Memref sig .tc .vmem S1x5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x256 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev scM : Memref sig .tc .vmem S5000x256 .f32 := Memref.whole cc0_scratch0

/-- What the launch hands the body besides the windows: the accumulator at some contents and the
    generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The input windows hold their blocks -/

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KFrameIRunA.lean ====
/-
  The body at relation 0 (first condition taken, second not): it zeroes the accumulator, then stores
  into it its contents plus the product of the slab block and the weight matrix.  The output buffer
  and the bias row are not touched.  The triple is found by running the body's skeleton; the pieces
  the accumulator ends with are the witness.
-/
import proofs.«137636_j2181843386580_2_alg».proof.Proof.KFrameIKit

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulator's pieces after the body at relation 0, with the body's triple: from the slab
    block `x0`, the weight matrix `x1` and the accumulator at anything, to the same inputs and the
    accumulator with those pieces written. -/
noncomputable def kernelRunA (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : cond0 i) (hc1 : ¬cond1 i)
    (x0 : Vec F S1x5000x256 .f32) (x1 : Vec F S1x256x256 .f32) :
    { LS : List (View.Piece (Elt F) S5000x256 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__rel_agg_matmul_kernel i arg2 harg2 arg3 harg3 arg4 harg4 arg5 harg5 arg6 harg6) K } := by
  refine ⟨?_, fun E K => ?run⟩
  case run =>
    simp only [cc0__rel_agg_matmul_kernel_eq_skeleton]; unfold cc0__rel_agg_matmul_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KFrameIRunB.lean ====
/-
  The body at relations 1 to 7 (neither condition taken): it stores into the accumulator its
  contents, as the point before left them, plus the product of the slab block and the weight
  matrix.  The output buffer and the bias row are not touched.
-/
import proofs.«137636_j2181843386580_2_alg».proof.Proof.KFrameIKit

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulator's pieces after the body at a middle relation, with the body's triple: from the
    slab block `x0`, the weight matrix `x1` and the accumulator at `xs`. -/
noncomputable def kernelRunB (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : ¬cond1 i)
    (x0 : Vec F S1x5000x256 .f32) (x1 : Vec F S1x256x256 .f32) (xs : Vec F S5000x256 .f32) :
    { LS : List (View.Piece (Elt F) S5000x256 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__rel_agg_matmul_kernel i arg2 harg2 arg3 harg3 arg4 harg4 arg5 harg5 arg6 harg6) K } := by
  refine ⟨?_, fun E K => ?run⟩
  case run =>
    simp only [cc0__rel_agg_matmul_kernel_eq_skeleton]; unfold cc0__rel_agg_matmul_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KFrameIRunC.lean ====
/-
  The body at relation 8 (first condition not taken, second taken): it adds the last product to the
  accumulator, then stores into the output buffer the accumulator plus the bias row, clamped below
  at zero.  The output buffer is read once before it is covered; what is read is not used.
-/
import proofs.«137636_j2181843386580_2_alg».proof.Proof.KFrameIKit

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The output buffer's and the accumulator's pieces after the body at relation 8, with the body's
    triple: from the slab block `x0`, the weight matrix `x1`, the bias row `x2`, the output buffer at
    anything and the accumulator at `xs`. -/
noncomputable def kernelRunC (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i)
    (x0 : Vec F S1x5000x256 .f32) (x1 : Vec F S1x256x256 .f32) (x2 : Vec F S1x256 .f32) (xs : Vec F S5000x256 .f32) :
    Σ' (L3 : List (View.Piece (Elt F) S5000x256 .f32)), { LS : List (View.Piece (Elt F) S5000x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__rel_agg_matmul_kernel i arg2 harg2 arg3 harg3 arg4 harg4 arg5 harg5 arg6 harg6) K } := by
  refine ⟨?_, ?_, fun E K => ?run⟩
  case run =>
    simp only [cc0__rel_agg_matmul_kernel_eq_skeleton]; unfold cc0__rel_agg_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KFrameIPieces.lean ====
/-
  What each run's pieces amount to.  Every store of the body is through the whole-buffer rectangle
  at zero offsets, so the last store into a buffer leaves its payload, a load of a buffer reads its
  contents, and a load of a buffer just stored reads the stored payload.  Hence the accumulator ends
  at `k0_pay2 x0 x1 k0_pay1` at relation 0 and at `k0_pay2 x0 x1 xs` afterwards, and at relation 8
  the output buffer ends at `k0_pay3 (k0_pay2 x0 x1 xs) x2`.
-/
import proofs.«137636_j2181843386580_2_alg».proof.Proof.KFrameIRunA
import proofs.«137636_j2181843386580_2_alg».proof.Proof.KFrameIRunB
import proofs.«137636_j2181843386580_2_alg».proof.Proof.KFrameIRunC
import Idealize.ShloMosaic.Lib.Pipeline.Value

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## Relation 0 -/

/-- The pieces tile the buffer, so they cover it. -/
theorem scoverA (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : cond0 i) (hc1 : ¬cond1 i) (x0 : Vec F S1x5000x256 .f32) (x1 : Vec F S1x256x256 .f32) (y : S5000x256.Idx) :
    ∃ pc ∈ (kernelRunA c i arg2 harg2 arg3 harg3 arg4 harg4 arg5 harg5 arg6 harg6 hc0 hc1 x0 x1).1, y ∈ pc.1.set :=
  View.cover_of_tiledL (kernelRunA c i arg2 harg2 arg3 harg3 arg4 harg4 arg5 harg5 arg6 harg6 hc0 hc1 x0 x1).1 S5000x256.size (by sl_kernel_rfl) y

/-- At relation 0 the accumulator ends at zero plus the product: the last store covers the buffer,
    and what it adds to is the zero block read back. -/
theorem canonA (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : cond0 i) (hc1 : ¬cond1 i) (x0 : Vec F S1x5000x256 .f32) (x1 : Vec F S1x256x256 .f32) :
    View.canon (kernelRunA c i arg2 harg2 arg3 harg3 arg4 harg4 arg5 harg5 arg6 harg6 hc0 hc1 x0 x1).1 = k0_pay2 x0 x1 (k0_pay1 (F := F)) := by
  unfold kernelRunA
  dsimp only
  sl_unfold_words
  rw [View.canon_cons_unit_zero (S := S5000x256) hz2, View.readCov_unit_zero (S := S5000x256) _ hz2]
  simp only [View.readAt_eq_ld, harg2.read_unread, harg3.read_unread, harg4.read_unread, harg6.read_unread, View.ld_unit_zero (S := S1x5000x256) hz3, View.ld_unit_zero (S := S1x256x256) hz3, View.ld_unit_zero (S := S5000x256) hz2, View.ld_unit_zero (S := S1x256) hz2]

/-! ## Relations 1 to 7 -/

/-- The pieces tile the buffer, so they cover it. -/
theorem scoverB (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : ¬cond1 i) (x0 : Vec F S1x5000x256 .f32) (x1 : Vec F S1x256x256 .f32) (xs : Vec F S5000x256 .f32) (y : S5000x256.Idx) :
    ∃ pc ∈ (kernelRunB c i arg2 harg2 arg3 harg3 arg4 harg4 arg5 harg5 arg6 harg6 hc0 hc1 x0 x1 xs).1, y ∈ pc.1.set :=
  View.cover_of_tiledL (kernelRunB c i arg2 harg2 arg3 harg3 arg4 harg4 arg5 harg5 arg6 harg6 hc0 hc1 x0 x1 xs).1 S5000x256.size (by sl_kernel_rfl) y

/-- At a middle relation the accumulator ends at its previous contents plus the product. -/
theorem canonB (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : ¬cond1 i) (x0 : Vec F S1x5000x256 .f32) (x1 : Vec F S1x256x256 .f32) (xs : Vec F S5000x256 .f32) :
    View.canon (kernelRunB c i arg2 harg2 arg3 harg3 arg4 harg4 arg5 harg5 arg6 harg6 hc0 hc1 x0 x1 xs).1 = k0_pay2 x0 x1 xs := by
  unfold kernelRunB
  dsimp only
  sl_unfold_words
  rw [View.canon_unit_zero (S := S5000x256) hz2]
  simp only [View.readAt_eq_ld, harg2.read_unread, harg3.read_unread, harg4.read_unread, harg6.read_unread, View.ld_unit_zero (S := S1x5000x256) hz3, View.ld_unit_zero (S := S1x256x256) hz3, View.ld_unit_zero (S := S5000x256) hz2, View.ld_unit_zero (S := S1x256) hz2]

/-! ## Relation 8 -/

/-- The pieces tile the buffer, so they cover it. -/
theorem coverC (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i) (x0 : Vec F S1x5000x256 .f32) (x1 : Vec F S1x256x256 .f32) (x2 : Vec F S1x256 .f32) (xs : Vec F S5000x256 .f32) (y : S5000x256.Idx) :
    ∃ pc ∈ (kernelRunC c i arg2 harg2 arg3 harg3 arg4 harg4 arg5 harg5 arg6 harg6 hc0 hc1 x0 x1 x2 xs).1, y ∈ pc.1.set :=
  View.cover_of_tiledL (kernelRunC c i arg2 harg2 arg3 harg3 arg4 harg4 arg5 harg5 arg6 harg6 hc0 hc1 x0 x1 x2 xs).1 S5000x256.size (by sl_kernel_rfl) y

/-- The pieces tile the buffer, so they cover it. -/
theorem scoverC (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i) (x0 : Vec F S1x5000x256 .f32) (x1 : Vec F S1x256x256 .f32) (x2 : Vec F S1x256 .f32) (xs : Vec F S5000x256 .f32) (y : S5000x256.Idx) :
    ∃ pc ∈ (kernelRunC c i arg2 harg2 arg3 harg3 arg4 harg4 arg5 harg5 arg6 harg6 hc0 hc1 x0 x1 x2 xs).2.1, y ∈ pc.1.set :=
  View.cover_of_tiledL (kernelRunC c i arg2 harg2 arg3 harg3 arg4 harg4 arg5 harg5 arg6 harg6 hc0 hc1 x0 x1 x2 xs).2.1 S5000x256.size (by sl_kernel_rfl) y

/-- At relation 8 the accumulator ends at its previous contents plus the product, -/
theorem canonCS (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i) (x0 : Vec F S1x5000x256 .f32) (x1 : Vec F S1x256x256 .f32) (x2 : Vec F S1x256 .f32) (xs : Vec F S5000x256 .f32) :
    View.canon (kernelRunC c i arg2 harg2 arg3 harg3 arg4 harg4 arg5 harg5 arg6 harg6 hc0 hc1 x0 x1 x2 xs).2.1 = k0_pay2 x0 x1 xs := by
  unfold kernelRunC
  dsimp only
  sl_unfold_words
  rw [View.canon_unit_zero (S := S5000x256) hz2]
  simp only [View.readAt_eq_ld, harg2.read_unread, harg3.read_unread, harg4.read_unread, harg6.read_unread, View.ld_unit_zero (S := S1x5000x256) hz3, View.ld_unit_zero (S := S1x256x256) hz3, View.ld_unit_zero (S := S5000x256) hz2, View.ld_unit_zero (S := S1x256) hz2]

/-- and the output buffer at that sum plus the bias row, clamped below at zero: what the output
    store adds the bias to is the accumulator's store read back. -/
theorem canonC (c : Dev nD) (i : grid0.Coords) (arg2 : Memref sig .tc .vmem S1x5000x256 .f32) (harg2 : arg2.IsWhole) (arg3 : Memref sig .tc .vmem S1x256x256 .f32) (harg3 : arg3.IsWhole) (arg4 : Memref sig .tc .vmem S1x256 .f32) (harg4 : arg4.IsWhole) (arg5 : Memref sig .tc .vmem S5000x256 .f32) (harg5 : arg5.IsWhole) (arg6 : Memref sig .tc .vmem S5000x256 .f32) (harg6 : arg6.IsWhole) (hc0 : ¬cond0 i) (hc1 : cond1 i) (x0 : Vec F S1x5000x256 .f32) (x1 : Vec F S1x256x256 .f32) (x2 : Vec F S1x256 .f32) (xs : Vec F S5000x256 .f32) :
    View.canon (kernelRunC c i arg2 harg2 arg3 harg3 arg4 harg4 arg5 harg5 arg6 harg6 hc0 hc1 x0 x1 x2 xs).1 = k0_pay3 (k0_pay2 x0 x1 xs) x2 := by
  unfold kernelRunC
  dsimp only
  sl_unfold_words
  rw [View.canon_unit_zero (S := S5000x256) hz2, View.readCov_unit_zero (S := S5000x256) _ hz2]
  simp only [View.readAt_eq_ld, harg2.read_unread, harg3.read_unread, harg4.read_unread, harg6.read_unread, View.ld_unit_zero (S := S1x5000x256) hz3, View.ld_unit_zero (S := S1x256x256) hz3, View.ld_unit_zero (S := S5000x256) hz2, View.ld_unit_zero (S := S1x256) hz2]

end Cert.KernelIdeal.Hand

end
-- ==== Proof.KFrameI.lean ====
/-
  The frame run of the one region.

  The invariant between points tracks the accumulator: before point 0 it holds anything; after
  point n it holds `acc m c n`.  At every point the three input buffers hold their blocks.  At
  relation 0 the body overwrites the accumulator (so what it held does not matter) and leaves
  `acc` by `acc_first`; at relations 1 to 8 it finds `acc` of the point before and leaves `acc` by
  `acc_next`.  The output buffer is stored into at relation 8 only, with `outBlk`; elsewhere the
  window is idle and not written back, and the buffer is handed back as found.
-/
import proofs.«137636_j2181843386580_2_alg».proof.Proof.KFrameIPieces

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before point `n`: at the first point the launch's invariant (the accumulator at anything);
    afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (acc m c n hn)) ∗ (∃ r, prngReg c r)) := rfl

theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The proof data -/

/-- The arrays as the region finds them; after the body each input buffer at its block and the
    output buffer at `outBlk`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlk m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- At a later relation the output block is the bias added to the accumulator's new contents. -/
theorem outBlk_next (c : Dev nD) (t : Fin cfg0.N) (h0 : t.val % 9 ≠ 0) :
    k0_pay3 (k0_pay2 (iblk m c 0 t) (iblk m c 1 t) (acc m c (t.val - 1) (Nat.lt_of_le_of_lt (Nat.sub_le _ _) t.isLt))) (iblk m c 2 t) = outBlk m c t := by
  unfold outBlk; rw [acc_next m c t h0]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point, by cases on the relation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 90 := lt_of_lt_of_eq t.isLt (show cfg0.N = 90 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  by_cases h1 : t.val % 9 = 8
  · have h0 : ¬t.val % 9 = 0 := by omega
    have hz : t.val ≠ 0 := by omega
    rw [show (dats m 0 c).leavesExact 3 t = owns (c : Thread nD τ) (ms3 t) fullShare ((dats m 0 c).after 3 t) from by
      unfold Dat.leavesExact; rw [liveAt3 t ((hcond1 t).mpr h1)], after3]
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((kernelRunC c (grid0.coords t) _ _ _ _ _ _ _ _ _ _ (fun h => h0 ((hcond0 t).mp h)) ((hcond1 t).mpr h1) (iblk m c 0 t) (iblk m c 1 t) (iblk m c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hg]
    · isplitl [HS]
      · unfold owns; iexists _; isplitr
        swap; · iexact HS
        ipureintro
        exact (View.read_writes_eq_canon _ _ _ (scoverC c (grid0.coords t) _ _ _ _ _ _ _ _ _ _ (fun h => h0 ((hcond0 t).mp h)) ((hcond1 t).mpr h1) (iblk m c 0 t) (iblk m c 1 t) (iblk m c 2 t) (acc m c (t.val - 1) (Nat.lt_of_le_of_lt (Nat.sub_le _ _) t.isLt)))).trans
          ((canonCS c (grid0.coords t) _ _ _ _ _ _ _ _ _ _ (fun h => h0 ((hcond0 t).mp h)) ((hcond1 t).mpr h1) (iblk m c 0 t) (iblk m c 1 t) (iblk m c 2 t) (acc m c (t.val - 1) (Nat.lt_of_le_of_lt (Nat.sub_le _ _) t.isLt))).trans (acc_next m c t h0).symm)
      iexact Hg
    isplitl [Ho]; · iexact Ho
    isplitl [H0]; · iexact H0
    isplitl [H1]; · iexact H1
    isplitl [H2]; · iexact H2
    unfold owns; iexists _; isplitr
    swap; · iexact H3
    ipureintro
    exact (View.read_writes_eq_canon _ _ _ (coverC c (grid0.coords t) _ _ _ _ _ _ _ _ _ _ (fun h => h0 ((hcond0 t).mp h)) ((hcond1 t).mpr h1) (iblk m c 0 t) (iblk m c 1 t) (iblk m c 2 t) (acc m c (t.val - 1) (Nat.lt_of_le_of_lt (Nat.sub_le _ _) t.isLt)))).trans
      ((canonC c (grid0.coords t) _ _ _ _ _ _ _ _ _ _ (fun h => h0 ((hcond0 t).mp h)) ((hcond1 t).mpr h1) (iblk m c 0 t) (iblk m c 1 t) (iblk m c 2 t) (acc m c (t.val - 1) (Nat.lt_of_le_of_lt (Nat.sub_le _ _) t.isLt))).trans (outBlk_next m c t h0))
  · rw [Dat.leavesExact_idle (dats m 0 c) 3 t (idleAt3 t (fun h => h1 ((hcond1 t).mp h))) (noFlush3 t (fun h => h1 ((hcond1 t).mp h)))]
    by_cases h0 : t.val % 9 = 0
    · by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩⟩
        iapply ((kernelRunA c (grid0.coords t) _ _ _ _ _ _ _ _ _ _ ((hcond0 t).mpr h0) (fun h => h1 ((hcond1 t).mp h)) (iblk m c 0 t) (iblk m c 1 t)).2 Set.univ _)
        isplitl [H0]; · iexact H0
        isplitl [H1]; · iexact H1
        isplitl [HS]; · iexact HS
        iintro ⟨H0, H1, ⟨%es, HS⟩⟩
        isplitl [HS Hg]
        · isplitl [HS]
          · unfold owns; iexists _; isplitr
            swap; · iexact HS
            ipureintro
            exact (View.read_writes_eq_canon _ _ _ (scoverA c (grid0.coords t) _ _ _ _ _ _ _ _ _ _ ((hcond0 t).mpr h0) (fun h => h1 ((hcond1 t).mp h)) (iblk m c 0 t) (iblk m c 1 t))).trans
              ((canonA c (grid0.coords t) _ _ _ _ _ _ _ _ _ _ ((hcond0 t).mpr h0) (fun h => h1 ((hcond1 t).mp h)) (iblk m c 0 t) (iblk m c 1 t)).trans (acc_first m c t h0).symm)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS, Hg⟩, Ho, ⟨%d0, H0⟩, ⟨%d1, H1⟩, ⟨%d2, H2⟩, ⟨%d3, H3⟩⟩
        iapply ((kernelRunA c (grid0.coords t) _ _ _ _ _ _ _ _ _ _ ((hcond0 t).mpr h0) (fun h => h1 ((hcond1 t).mp h)) (iblk m c 0 t) (iblk m c 1 t)).2 Set.univ _)
        isplitl [H0]; · iexact H0
        isplitl [H1]; · iexact H1
        isplitl [HS]; · iexists _; iexact HS
        iintro ⟨H0, H1, ⟨%es, HS⟩⟩
        isplitl [HS Hg]
        · isplitl [HS]
          · unfold owns; iexists _; isplitr
            swap; · iexact HS
            ipureintro
            exact (View.read_writes_eq_canon _ _ _ (scoverA c (grid0.coords t) _ _ _ _ _ _ _ _ _ _ ((hcond0 t).mpr h0) (fun h => h1 ((hcond1 t).mp h)) (iblk m c 0 t) (iblk m c 1 t))).trans
              ((canonA c (grid0.coords t) _ _ _ _ _ _ _ _ _ _ ((hcond0 t).mpr h0) (fun h => h1 ((hcond1 t).mp h)) (iblk m c 0 t) (iblk m c 1 t)).trans (acc_first m c t h0).symm)
          iexact Hg
        isplitl [Ho]; · iexact Ho
        isplitl [H0]; · iexact H0
        isplitl [H1]; · iexact H1
        isplitl [H2]; · iexact H2
        iexists _; iexact H3
    · have hz : t.val ≠ 0 := by omega
      · rw [PhiS_castSucc m c t, PhiS_pos m c _ _ hz]
        iintro ⟨⟨HS, Hg⟩, Ho, ⟨%d0, H0⟩, ⟨%d1, H1⟩, ⟨%d2, H2⟩, ⟨%d3, H3⟩⟩
        iapply ((kernelRunB c (grid0.coords t) _ _ _ _ _ _ _ _ _ _ (fun h => h0 ((hcond0 t).mp h)) (fun h => h1 ((hcond1 t).mp h)) (iblk m c 0 t) (iblk m c 1 t) _).2 Set.univ _)
        isplitl [H0]; · iexact H0
        isplitl [H1]; · iexact H1
        isplitl [HS]; · iexact HS
        iintro ⟨H0, H1, ⟨%es, HS⟩⟩
        isplitl [HS Hg]
        · isplitl [HS]
          · unfold owns; iexists _; isplitr
            swap; · iexact HS
            ipureintro
            exact (View.read_writes_eq_canon _ _ _ (scoverB c (grid0.coords t) _ _ _ _ _ _ _ _ _ _ (fun h => h0 ((hcond0 t).mp h)) (fun h => h1 ((hcond1 t).mp h)) (iblk m c 0 t) (iblk m c 1 t) (acc m c (t.val - 1) (Nat.lt_of_le_of_lt (Nat.sub_le _ _) t.isLt)))).trans
              ((canonB c (grid0.coords t) _ _ _ _ _ _ _ _ _ _ (fun h => h0 ((hcond0 t).mp h)) (fun h => h1 ((hcond1 t).mp h)) (iblk m c 0 t) (iblk m c 1 t) (acc m c (t.val - 1) (Nat.lt_of_le_of_lt (Nat.sub_le _ _) t.isLt))).trans (acc_next m c t h0).symm)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 90 := N_0; omega)

/-! ## The run -/

-- the launch theorem's implicit arguments are found by unifying its conclusion with this one, which
-- takes unfolding plain definitions in a metavariable's type
set_option backward.isDefEq.respectTransparency.types false in
/-- Every weakly fair execution of @main on the TensorCores terminates, and in every final state
    every array of the pipeline holds what the proof data compute and every other unscoped buffer
    what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.KFrameIArgs.lean ====
/-
  No host operation before the region writes an argument of @main: each operation writes only its
  own result buffer, and no result buffer is an argument.  So the region finds every argument as
  launched.
-/
import proofs.«137636_j2181843386580_2_alg».proof.Proof.KBaseI
import Idealize.ShloMosaic.Lib.Pipeline.FrameBody

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 is as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 1 is as launched when the region is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 2 is as launched when the region is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 3 is as launched when the region is entered. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 4 is as launched when the region is entered. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 5 is as launched when the region is entered. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.KernelIdeal.Hand

end
-- ==== Proof.KFrameIFin.lean ====
/-
  The frame claim: @main terminates and leaves its six arguments as launched.  No argument is an
  array of the pipeline and none is scoped, so each is read back at the end as the region found
  it; and the region found it as launched, since no host operation writes an argument.
-/
import proofs.«137636_j2181843386580_2_alg».proof.Proof.KFrameI
import proofs.«137636_j2181843386580_2_alg».proof.Proof.KFrameIArgs

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame run's post leaves every argument of @main as launched. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 rfl (by decide))).trans (V_main_arg0 m c),
   ((h c).2 main_arg1 (Pipeline.mem_restRefs_of main_arg1 rfl (by decide))).trans (V_main_arg1 m c),
   ((h c).2 main_arg2 (Pipeline.mem_restRefs_of main_arg2 rfl (by decide))).trans (V_main_arg2 m c),
   ((h c).2 main_arg3 (Pipeline.mem_restRefs_of main_arg3 rfl (by decide))).trans (V_main_arg3 m c),
   ((h c).2 main_arg4 (Pipeline.mem_restRefs_of main_arg4 rfl (by decide))).trans (V_main_arg4 m c),
   ((h c).2 main_arg5 (Pipeline.mem_restRefs_of main_arg5 rfl (by decide))).trans (V_main_arg5 m c)⟩

/-- And has the output array at what the proof data compute from the blocks written back. -/
theorem post3 (r : PUnit × MemSt nD τ sig (Elt F)) (h : Pipeline.FramePost cfgs (dats m) 0 (V m) r) (c : Dev nD) :
    r.2.mem ((c.tc : Thread nD τ).loc main_v214) = (dats m 0 c).arrAt 3 cfg0.N :=
  (h c).1 3

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept_args m r h c) (run_main m ρ)

end Cert.KernelIdeal.Hand

end
-- ==== Proof.KBlockI.lean ====
/-
  The blocks the region's three input windows hold at a grid point, read entry by entry off the arrays
  the region finds.  Point t is row tile t / 9 and relation t % 9.  The slab window's block is relation
  t % 9, rows 5000 (t / 9) … 5000 (t / 9) + 4999 of the [9, 50000, 256] stack; the weight window's block
  is matrix t % 9 of the [9, 256, 256] stack; the bias window's block is the whole [1, 256] row.
-/
import proofs.«137636_j2181843386580_2_alg».proof.Proof.KBaseI
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The printed index maps over the grid: the slab window follows (relation, tile, 0), the weight window
    (relation, 0, 0), the bias window stays at (0, 0). -/
theorem idx_facts : ∀ t : Fin cfg0.N,
    win0_0.index t (0 : Fin 3) = t.val % 9 ∧ win0_0.index t (1 : Fin 3) = t.val / 9 ∧ win0_0.index t (2 : Fin 3) = 0
    ∧ win0_1.index t (0 : Fin 3) = t.val % 9 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- The slab block at point t, entry (0, p, k), is the stack at (t % 9, 5000 (t / 9) + p, k). -/
theorem iblk0_apply (c : Dev nD) (t : Fin cfg0.N) (p : Fin 5000) (k : Fin 256) (r : Fin 9) (i : Fin 50000)
    (hr : r.val = t.val % 9) (hi : i.val = 5000 * (t.val / 9) + p.val) :
    (iblk (F := Ideal) m c 0 t : Vec Ideal S1x5000x256 .f32) (ix3 (0 : Fin 1) p k)
      = (V (F := Ideal) m c main_v210 : S9x50000x256.Idx → EReal) (ix3 r i k) := by
  obtain ⟨e0, e1, e2, -⟩ := idx_facts t
  unfold iblk
  rw [View.read_apply]
  show V (F := Ideal) m c main_v210 _ = V (F := Ideal) m c main_v210 _
  refine congrArg (V (F := Ideal) m c main_v210) (funext fun a => Fin.ext ?_)
  match a with
  | ⟨0, _⟩ => show win0_0.index t (0 : Fin 3) * 1 + 1 * 0 = r.val; rw [e0, hr]; omega
  | ⟨1, _⟩ => show win0_0.index t (1 : Fin 3) * 5000 + 1 * p.val = i.val; rw [e1, hi]; omega
  | ⟨2, _⟩ => show win0_0.index t (2 : Fin 3) * 256 + 1 * k.val = k.val; rw [e2]; omega

/-- The weight block at point t, entry (0, k, q), is the weight stack at (t % 9, k, q). -/
theorem iblk1_apply (c : Dev nD) (t : Fin cfg0.N) (k : Fin 256) (q : Fin 256) (r : Fin 9)
    (hr : r.val = t.val % 9) :
    (iblk (F := Ideal) m c 1 t : Vec Ideal S1x256x256 .f32) (ix3 (0 : Fin 1) k q)
      = (V (F := Ideal) m c main_v212 : S9x256x256.Idx → EReal) (ix3 r k q) := by
  obtain ⟨-, -, -, e0, e1, e2, -⟩ := idx_facts t
  unfold iblk
  rw [View.read_apply]
  show V (F := Ideal) m c main_v212 _ = V (F := Ideal) m c main_v212 _
  refine congrArg (V (F := Ideal) m c main_v212) (funext fun a => Fin.ext ?_)
  match a with
  | ⟨0, _⟩ => show win0_1.index t (0 : Fin 3) * 1 + 1 * 0 = r.val; rw [e0, hr]; omega
  | ⟨1, _⟩ => show win0_1.index t (1 : Fin 3) * 256 + 1 * k.val = k.val; rw [e1]; omega
  | ⟨2, _⟩ => show win0_1.index t (2 : Fin 3) * 256 + 1 * q.val = q.val; rw [e2]; omega

/-- The bias block at any point is the bias row itself. -/
theorem iblk2_apply (c : Dev nD) (t : Fin cfg0.N) (q : Fin 256) :
    (iblk (F := Ideal) m c 2 t : Vec Ideal S1x256 .f32) (ix2 (0 : Fin 1) q)
      = (V (F := Ideal) m c main_v213 : S1x256.Idx → EReal) (ix2 (0 : Fin 1) q) := by
  obtain ⟨-, -, -, -, -, -, e0, e1⟩ := idx_facts t
  unfold iblk
  rw [View.read_apply]
  show V (F := Ideal) m c main_v213 _ = V (F := Ideal) m c main_v213 _
  refine congrArg (V (F := Ideal) m c main_v213) (funext fun a => Fin.ext ?_)
  match a with
  | ⟨0, _⟩ => show win0_2.index t (0 : Fin 2) * 1 + 1 * 0 = 0; rw [e0]
  | ⟨1, _⟩ => show win0_2.index t (1 : Fin 2) * 256 + 1 * q.val = q.val; rw [e1]; omega

end Cert.KernelIdeal.Hand

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KBlockPayI.lean ====
/-
  The body's three payloads read at an entry, at the ideal instance.  The reset payload is the zero
  block; the accumulating payload adds, to what the accumulator held, the sum over the 256 contracted
  columns of slab entry times weight entry; the output payload adds the bias row and clamps below at
  zero.
-/
import proofs.«137636_j2181843386580_2_alg».proof.Proof.Gen.KernelIdeal.Skeleton
import proofs.«137636_j2181843386580_2_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

/-- The reset payload is the zero word at every entry. -/
theorem pay1_apply (p : Fin 5000) (q : Fin 256) :
    k0_pay1 (F := Ideal) (ix2 p q) = Ideal.ofBits .f32 0x00000000#32 := by
  unfold k0_pay1
  rw [shapeCast_self]
  rfl

/-- The accumulating payload at entry (p, q): the accumulator there plus the product's entry. -/
theorem pay2_apply (x0 : Vec Ideal S1x5000x256 .f32) (x1 : Vec Ideal S1x256x256 .f32) (a : Vec Ideal S5000x256 .f32)
    (p : Fin 5000) (q : Fin 256) :
    k0_pay2 (F := Ideal) x0 x1 a (ix2 p q)
      = a (ix2 p q) + ∑ k : Fin 256, x0 (ix3 (0 : Fin 1) p k) * x1 (ix3 (0 : Fin 1) k q) := by
  unfold k0_pay2
  rw [shapeCast_self]
  refine congrArg (a (ix2 p q) + ·) ?_
  refine (Cert.LibMatmulPlain.matmul_zero_apply dot_S5000x256_S256x256_S5000x256_1_0_0_1_n_n rfl rfl rfl rfl rfl rfl none _ _ p q).trans ?_
  refine Finset.sum_congr rfl fun k _ => ?_
  rw [shapeCast_1ab_ab_apply, shapeCast_1ab_ab_apply]

/-- The output payload at entry (p, q): accumulator plus bias, clamped below at zero. -/
theorem pay3_apply (a : Vec Ideal S5000x256 .f32) (b : Vec Ideal S1x256 .f32) (p : Fin 5000) (q : Fin 256) :
    k0_pay3 (F := Ideal) a b (ix2 p q)
      = max (a (ix2 p q) + b (ix2 (0 : Fin 1) q)) (Ideal.ofBits .f32 0x00000000#32) := by
  unfold k0_pay3
  show max (a (ix2 p q) + broadcastTo S5000x256 (shapeCast S1x256 b shapeCasts_S1x256_S1x256) broadcasts_S1x256_S5000x256 (ix2 p q)) (Ideal.ofBits .f32 0x00000000#32) = _
  rw [broadcastTo_1b_ab_apply, shapeCast_self]

end Cert.KernelIdeal.Hand

end
-- ==== Proof.KBlockAccI.lean ====
/-
  The accumulator and the output block at an entry, as sums over the arrays the region finds.

  For a slab stack A0 : [9, 50000, 256] and a weight stack A1 : [9, 256, 256], S A0 A1 n r p q is relation
  r's contribution to row 5000 n + p, column q: the sum over the 256 contracted columns k of
  A0 (r, 5000 n + p, k) * A1 (r, k, q).  P A0 A1 n r is the zero word plus the contributions of relations
  0 … r, added in that order (left-nested).  At point t the accumulator holds P of tile t / 9 up to relation
  t % 9; at relation 8 the output block is that total plus the bias row, clamped below at zero.
-/
import proofs.«137636_j2181843386580_2_alg».proof.Proof.KBlockI
import proofs.«137636_j2181843386580_2_alg».proof.Proof.KBlockPayI

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

/-- Relation r's contribution to row 5000 n + p, column q of the product. -/
def S (A0 : S9x50000x256.Idx → EReal) (A1 : S9x256x256.Idx → EReal) (n : ℕ) (hn : n < 10) (r : Fin 9)
    (p : Fin 5000) (q : Fin 256) : EReal :=
  ∑ k : Fin 256, A0 (ix3 r ⟨5000 * n + p.val, by have := p.isLt; omega⟩ k) * A1 (ix3 r k q)

theorem S_def (A0 : S9x50000x256.Idx → EReal) (A1 : S9x256x256.Idx → EReal) (n : ℕ) (hn : n < 10) (r : Fin 9)
    (p : Fin 5000) (q : Fin 256) :
    S A0 A1 n hn r p q
      = ∑ k : Fin 256, A0 (ix3 r ⟨5000 * n + p.val, by have := p.isLt; omega⟩ k) * A1 (ix3 r k q) := rfl

/-- The zero word plus the contributions of relations 0 … r, added in that order. -/
def P (A0 : S9x50000x256.Idx → EReal) (A1 : S9x256x256.Idx → EReal) (n : ℕ) (hn : n < 10) :
    (r : ℕ) → r < 9 → Fin 5000 → Fin 256 → EReal
  | 0, h => fun p q => Ideal.ofBits .f32 0x00000000#32 + S A0 A1 n hn ⟨0, h⟩ p q
  | r + 1, h => fun p q => P A0 A1 n hn r (Nat.lt_of_succ_lt h) p q + S A0 A1 n hn ⟨r + 1, h⟩ p q

section PLaws
variable (A0 : S9x50000x256.Idx → EReal) (A1 : S9x256x256.Idx → EReal) (n : ℕ) (hn : n < 10)
  (p : Fin 5000) (q : Fin 256)

theorem P_zero (h : 0 < 9) :
    P A0 A1 n hn 0 h p q = Ideal.ofBits .f32 0x00000000#32 + S A0 A1 n hn ⟨0, h⟩ p q := rfl

theorem P_succ (r : ℕ) (h : r + 1 < 9) :
    P A0 A1 n hn (r + 1) h p q = P A0 A1 n hn r (Nat.lt_of_succ_lt h) p q + S A0 A1 n hn ⟨r + 1, h⟩ p q := rfl

/-- At a relation known to be 0. -/
theorem P_of_zero (r : ℕ) (hr : r < 9) (h0 : r = 0) :
    P A0 A1 n hn r hr p q = Ideal.ofBits .f32 0x00000000#32 + S A0 A1 n hn ⟨r, hr⟩ p q := by
  subst h0; rfl

/-- At a relation known to be a successor. -/
theorem P_of_succ (r r' : ℕ) (hr : r < 9) (hr' : r' < 9) (h : r = r' + 1) :
    P A0 A1 n hn r hr p q = P A0 A1 n hn r' hr' p q + S A0 A1 n hn ⟨r, hr⟩ p q := by
  subst h; rfl

/-- The tile and the relation may be replaced by equal numbers. -/
theorem P_congr {n' : ℕ} (hn' : n' < 10) (r r' : ℕ) (hr : r < 9) (hr' : r' < 9) (en : n = n') (er : r = r') :
    P A0 A1 n hn r hr p q = P A0 A1 n' hn' r' hr' p q := by
  subst en; subst er; rfl

/-- The total over the nine relations, written out: the zero word, then relation 0, 1, …, 8, left to right. -/
theorem P_eight (h : 8 < 9) :
    P A0 A1 n hn 8 h p q
      = ((((((((Ideal.ofBits .f32 0x00000000#32 + S A0 A1 n hn 0 p q) + S A0 A1 n hn 1 p q) + S A0 A1 n hn 2 p q)
          + S A0 A1 n hn 3 p q) + S A0 A1 n hn 4 p q) + S A0 A1 n hn 5 p q) + S A0 A1 n hn 6 p q)
          + S A0 A1 n hn 7 p q) + S A0 A1 n hn 8 p q := rfl

end PLaws

variable (m : (ℓ : Loc nD τ sig) → Buf (Elt Ideal) ℓ)

/-- The grid has 90 points, so a point's tile is below 10. -/
theorem div_lt (t : ℕ) (ht : t < cfg0.N) : t / 9 < 10 := by
  have h : cfg0.N = 90 := N_0
  omega

theorem mod_lt9 (t : ℕ) : t % 9 < 9 := Nat.mod_lt _ (by norm_num)

/-- One accumulation step at point t: what the accumulator held plus the point's relation's contribution
    to the point's tile. -/
theorem pay2_at (c : Dev nD) (t : Fin cfg0.N) (a : Vec Ideal S5000x256 .f32) (p : Fin 5000) (q : Fin 256) :
    k0_pay2 (F := Ideal) (iblk (F := Ideal) m c 0 t) (iblk (F := Ideal) m c 1 t) a (ix2 p q)
      = a (ix2 p q) + S (V (F := Ideal) m c main_v210) (V (F := Ideal) m c main_v212) (t.val / 9)
          (div_lt t.val t.isLt) ⟨t.val % 9, mod_lt9 t.val⟩ p q := by
  refine (pay2_apply (iblk (F := Ideal) m c 0 t) (iblk (F := Ideal) m c 1 t) a p q).trans ?_
  refine congrArg (a (ix2 p q) + ·) ?_
  unfold S
  refine Finset.sum_congr rfl fun k _ => ?_
  exact congrArg₂ (· * ·) (iblk0_apply m c t p k ⟨t.val % 9, mod_lt9 t.val⟩ _ rfl rfl)
    (iblk1_apply m c t k q ⟨t.val % 9, mod_lt9 t.val⟩ rfl)

/-- The accumulator after point t holds, at (p, q), the zero word plus the contributions of relations
    0 … t % 9 to tile t / 9, added in that order. -/
theorem acc_apply_nat (c : Dev nD) : ∀ (t : ℕ) (ht : t < cfg0.N) (p : Fin 5000) (q : Fin 256),
    acc (F := Ideal) m c t ht (ix2 p q)
      = P (V (F := Ideal) m c main_v210) (V (F := Ideal) m c main_v212) (t / 9) (div_lt t ht) (t % 9) (mod_lt9 t) p q := by
  intro t
  induction t with
  | zero =>
    intro ht p q
    refine (congrFun (acc_first m c ⟨0, ht⟩ rfl) (ix2 p q)).trans ?_
    refine (pay2_at m c ⟨0, ht⟩ (k0_pay1 (F := Ideal)) p q).trans ?_
    rw [pay1_apply]
    exact (P_of_zero _ _ _ _ p q _ _ rfl).symm
  | succ t ih =>
    intro ht p q
    by_cases h : (t + 1) % 9 = 0
    · refine (congrFun (acc_first m c ⟨t + 1, ht⟩ h) (ix2 p q)).trans ?_
      refine (pay2_at m c ⟨t + 1, ht⟩ (k0_pay1 (F := Ideal)) p q).trans ?_
      rw [pay1_apply]
      exact (P_of_zero _ _ _ _ p q _ _ h).symm
    · have e1 : (t + 1) % 9 = t % 9 + 1 := by omega
      have e2 : t / 9 = (t + 1) / 9 := by omega
      refine (congrFun (acc_next m c ⟨t + 1, ht⟩ h) (ix2 p q)).trans ?_
      refine (pay2_at m c ⟨t + 1, ht⟩ _ p q).trans ?_
      show acc (F := Ideal) m c t (Nat.lt_of_succ_lt ht) (ix2 p q) + _ = _
      rw [ih (Nat.lt_of_succ_lt ht) p q,
        P_of_succ _ _ _ _ p q ((t + 1) % 9) (t % 9) (mod_lt9 (t + 1)) (mod_lt9 t) e1,
        P_congr _ _ _ (div_lt t (Nat.lt_of_succ_lt ht)) p q (div_lt (t + 1) ht) (t % 9) (t % 9) (mod_lt9 t) (mod_lt9 t) e2 rfl]

/-- The same at a point of the grid. -/
theorem acc_apply (c : Dev nD) (t : Fin cfg0.N) (p : Fin 5000) (q : Fin 256) :
    acc (F := Ideal) m c t.val t.isLt (ix2 p q)
      = P (V (F := Ideal) m c main_v210) (V (F := Ideal) m c main_v212) (t.val / 9) (div_lt t.val t.isLt)
          (t.val % 9) (mod_lt9 t.val) p q :=
  acc_apply_nat m c t.val t.isLt p q

/-- At relation 8 the output block is the nine relations' total plus the bias, clamped below at zero. -/
theorem outBlk_apply (c : Dev nD) (t : Fin cfg0.N) (h8 : t.val % 9 = 8) (p : Fin 5000) (q : Fin 256) :
    outBlk (F := Ideal) m c t (ix2 p q)
      = max (P (V (F := Ideal) m c main_v210) (V (F := Ideal) m c main_v212) (t.val / 9) (div_lt t.val t.isLt)
              8 (by norm_num) p q
            + (V (F := Ideal) m c main_v213 : S1x256.Idx → EReal) (ix2 (0 : Fin 1) q))
          (Ideal.ofBits .f32 0x00000000#32) := by
  unfold outBlk
  refine (pay3_apply (acc (F := Ideal) m c t.val t.isLt) (iblk (F := Ideal) m c 2 t) p q).trans ?_
  rw [acc_apply m c t p q, iblk2_apply m c t q,
    P_congr _ _ _ (div_lt t.val t.isLt) p q (div_lt t.val t.isLt) (t.val % 9) 8 (mod_lt9 t.val) (by norm_num) rfl h8]

end Cert.KernelIdeal.Hand

end
-- ==== Proof.KerArrBlkI.lean ====
/-
  The output array from its blocks.

  The output window's block at point t is rows 5000 (t / 9) … 5000 (t / 9) + 4999, all 256 columns, and is
  written back at relation 8 only.  What is written there is, entry by entry, the nine relations' total plus
  the bias, clamped below at zero.  The ten tiles' blocks tile the [50000, 256] array (row i lies in tile
  i / 5000, written at point 9 (i / 5000) + 8), so any function that agrees with those entries is what the
  array ends holding.
-/
import proofs.«137636_j2181843386580_2_alg».proof.Proof.KBlockAccI

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The output window's block index at point t: row tile t / 9, the one column block. -/
theorem out_index : ∀ t : Fin cfg0.N, win0_3.index t (0 : Fin 2) = t.val / 9 ∧ win0_3.index t (1 : Fin 2) = 0 :=
  (by decide +kernel : ∀ t : Fin grid0.N, win0_3.index t (0 : Fin 2) = t.val / 9 ∧ win0_3.index t (1 : Fin 2) = 0)

/-- Entry (p, q) of the output block at point t sits in the array at row 5000 (t / 9) + p, column q. -/
theorem out_emb (t : Fin cfg0.N) (p : Fin 5000) (q : Fin 256) :
    ((cfg0.win 3).blk t).view.emb (ix2 p q)
      = ix2 (⟨5000 * (t.val / 9) + p.val, by have := p.isLt; have := div_lt t.val t.isLt; omega⟩ : Fin 50000) q := by
  funext a; apply Fin.ext
  match a with
  | ⟨0, _⟩ =>
    show win0_3.index t (0 : Fin 2) * 5000 + 1 * p.val = 5000 * (t.val / 9) + p.val
    rw [(out_index t).1]; omega
  | ⟨1, _⟩ =>
    show win0_3.index t (1 : Fin 2) * 256 + 1 * q.val = q.val
    rw [(out_index t).2]; omega

/-- What a writing point writes back is its block of any function that agrees, entry by entry, with the nine
    relations' total plus the bias clamped below at zero. -/
theorem flushed_eq_of (c : Dev nD) (dat : Dat τ (Elt Ideal) Unit ℕ (UR sig nD τ) ℕ cfg0 c)
    (hafter : ∀ t : Fin cfg0.N, dat.after 3 t = outBlk (F := Ideal) m c t)
    (G : S50000x256.Idx → EReal)
    (hentry : ∀ (n : ℕ) (hn : n < 10) (p : Fin 5000) (q : Fin 256) (i : Fin 50000), i.val = 5000 * n + p.val →
      max (P (V (F := Ideal) m c main_v210) (V (F := Ideal) m c main_v212) n hn 8 (by norm_num) p q
            + (V (F := Ideal) m c main_v213 : S1x256.Idx → EReal) (ix2 (0 : Fin 1) q))
          (Ideal.ofBits .f32 0x00000000#32) = G (ix2 i q))
    (t : Fin cfg0.N) (hf : (cfg0.win 3).flush t = true) :
    dat.flushed 3 t = ((cfg0.win 3).blk t).view.read (Elt Ideal) G := by
  have h8 : t.val % 9 = 8 := (flush0_3 t).mp hf
  show (cfg0.win 3).cut (grid0.coords t) (dat.after 3 t) = _
  rw [hafter]
  funext y
  obtain ⟨p, q, rfl⟩ : ∃ (p : Fin 5000) (q : Fin 256), y = ix2 p q := ⟨y 0, y 1, eq_ix2 y⟩
  show outBlk (F := Ideal) m c t (ix2 p q) = G (((cfg0.win 3).blk t).view.emb (ix2 p q))
  rw [out_emb t p q, outBlk_apply m c t h8 p q]
  exact hentry (t.val / 9) (div_lt t.val t.isLt) p q _ rfl

/-- An index of the output array is in point t's block iff each coordinate is in the block's range. -/
theorem mem_out_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v214).slice (win0_3.rect t)).set ↔ _
  rw [View.set_slice_whole, Rect.mem_set_unit]
  exact Iff.rfl

/-- Every entry of the output array lies in the block some writing point writes back. -/
theorem covered (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hlt : 9 * ((i 0).val / 5000) + 8 < cfg0.N := by rw [show cfg0.N = 90 from N_0]; omega
  refine ⟨⟨9 * ((i 0).val / 5000) + 8, hlt⟩, (flush0_3 _).mpr (by show (9 * ((i 0).val / 5000) + 8) % 9 = 8; omega), ?_⟩
  rw [mem_out_blk]
  obtain ⟨e0, e1⟩ := out_index ⟨9 * ((i 0).val / 5000) + 8, hlt⟩
  have e0' : win0_3.index ⟨9 * ((i 0).val / 5000) + 8, hlt⟩ (0 : Fin 2) = (i 0).val / 5000 := by
    rw [e0]; show (9 * ((i 0).val / 5000) + 8) / 9 = _; omega
  intro a
  match a with
  | ⟨0, _⟩ =>
    show win0_3.index _ (0 : Fin 2) * 5000 ≤ (i 0).val ∧ (i 0).val < win0_3.index _ (0 : Fin 2) * 5000 + 5000
    rw [e0']; omega
  | ⟨1, _⟩ =>
    show win0_3.index _ (1 : Fin 2) * 256 ≤ (i 1).val ∧ (i 1).val < win0_3.index _ (1 : Fin 2) * 256 + 256
    rw [e1]; omega

/-- The output array after the run is any function that agrees with the blocks' entries. -/
theorem final_of_dat (c : Dev nD) (dat : Dat τ (Elt Ideal) Unit ℕ (UR sig nD τ) ℕ cfg0 c)
    (hafter : ∀ t : Fin cfg0.N, dat.after 3 t = outBlk (F := Ideal) m c t)
    (G : S50000x256.Idx → EReal)
    (hentry : ∀ (n : ℕ) (hn : n < 10) (p : Fin 5000) (q : Fin 256) (i : Fin 50000), i.val = 5000 * n + p.val →
      max (P (V (F := Ideal) m c main_v210) (V (F := Ideal) m c main_v212) n hn 8 (by norm_num) p q
            + (V (F := Ideal) m c main_v213 : S1x256.Idx → EReal) (ix2 (0 : Fin 1) q))
          (Ideal.ofBits .f32 0x00000000#32) = G (ix2 i q)) :
    dat.arrAt 3 cfg0.N = G :=
  dat.arrAt_eq_of_cover 3 G (fun t hf => flushed_eq_of m c dat hafter G hentry t hf) covered

end Cert.KernelIdeal.Hand

end
-- ==== Proof.KerArrI.lean ====
/-
  The output array after the run of the region, at the ideal instance: the frame run's proof data stores the
  output block at relation 8, so the array ends holding any function that agrees, entry by entry, with the nine
  relations' total plus the bias clamped below at zero.
-/
import proofs.«137636_j2181843386580_2_alg».proof.Proof.KFrameI
import proofs.«137636_j2181843386580_2_alg».proof.Proof.KerArrBlkI

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The output array after the run is any function that agrees with the written-back blocks' entries. -/
theorem final_of (c : Dev nD) (G : S50000x256.Idx → EReal)
    (hentry : ∀ (n : ℕ) (hn : n < 10) (p : Fin 5000) (q : Fin 256) (i : Fin 50000), i.val = 5000 * n + p.val →
      max (P (V (F := Ideal) m c main_v210) (V (F := Ideal) m c main_v212) n hn 8 (by norm_num) p q
            + (V (F := Ideal) m c main_v213 : S1x256.Idx → EReal) (ix2 (0 : Fin 1) q))
          (Ideal.ofBits .f32 0x00000000#32) = G (ix2 i q)) :
    (dats (F := Ideal) m 0 c).arrAt 3 cfg0.N = G :=
  final_of_dat m c (dats (F := Ideal) m 0 c) (after3 (F := Ideal) m c) G hentry

end Cert.KernelIdeal.Hand

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.AggBridge.lean ====
/-
  One relation of the layer, both ways round.

  Fix a table `X` of `N` rows and `C` columns, a matrix `W` of `C` rows and `J` columns, a column `si` of
  `E` source row numbers, a column `di` of `E` target row numbers and a vector `D` of `N` divisors, each at
  least one.  Write `s e` for the table row edge `e` reads and `E_i` for the edges whose target is `i`.

    • aggregate first:  A(i,k) = (0 + ∑ e ∈ E_i, X(s e, k)) · (1 / D i),  then  ∑ k, A(i,k) · W(k,j);
    • transform first:  T(i,j) = (0 + ∑ e ∈ E_i, ∑ k, X(s e, k) · W(k,j)) / D i.

  Both are the double sum of X(s e, k) · W(k,j) / D i.  Moving the common factor 1 / D i and the factor W(k,j)
  across the sums is the distributive law, which holds because every entry of `X` and `W` is a real number;
  a divisor that is at least one (even an infinite one) has a real reciprocal, and dividing by it is
  multiplying by that reciprocal.
-/
import proofs.«137636_j2181843386580_2_alg».proof.Proof.LibAggRows
import proofs.«137636_j2181843386580_2_alg».proof.Proof.LibRealSums
import proofs.«137636_j2181843386580_2_alg».proof.Proof.LibDotsNT
import Idealize.ShloMosaic.Lib.Pipeline.Value

noncomputable section

open scoped BigOperators

namespace Cert.AggBridge

open Idealize.ShloMosaic Idealize.ShloMosaic.ValueIdx
open Cert.LibAggRows Cert.LibRealSums

/-- A divisor that is at least one has a real reciprocal `v`, and dividing any extended real by it is
    multiplying by `v`: the divisor is not zero, its inverse lies between zero and one. -/
theorem div_by_ge_one (d : EReal) (hd : 1 ≤ d) : ∃ v : ℝ, ∀ y : EReal, Ideal.div y d = y * (v : EReal) := by
  have hpos : 0 < d := lt_of_lt_of_le zero_lt_one hd
  have hne : d ≠ 0 := hpos.ne'
  induction d using EReal.rec with
  | bot => exact absurd hpos (by simp)
  | top => exact ⟨0, fun y => by rw [Ideal.div, if_neg hne, EReal.inv_top, EReal.coe_zero]⟩
  | coe r =>
    have hr : r ≠ 0 := fun h => hne (by rw [h, EReal.coe_zero])
    exact ⟨1 / r, fun y => Ideal.div_coe hr y⟩

variable {N E C J w : Nat}

/-- The vector of divisors laid along the rows of an `[N, J]` array, read at an entry. -/
theorem rowSpread_apply (h1 : (⟨1, ![N]⟩ : Shape).BroadcastsInDim ⟨2, ![N, 1]⟩ ![0])
    (h2 : (⟨2, ![N, 1]⟩ : Shape).BroadcastsInDim ⟨2, ![N, J]⟩ ![0, 1])
    (D : (⟨1, ![N]⟩ : Shape).Idx → EReal) (i : Fin N) (j : Fin J) :
    broadcastInDim ⟨2, ![N, J]⟩ ![0, 1] h2 (broadcastInDim ⟨2, ![N, 1]⟩ ![0] h1 D) (ix2 i j) = D (ix1 i) := by
  rw [broadcastInDim_apply ![0, 1] h2 _ (ix2 i j) (ix2 i (0 : Fin 1)) (fun a => by
        match a with
        | ⟨0, _⟩ =>
          show i.val = if N = 1 then 0 else i.val
          split
          · have := i.isLt; omega
          · rfl
        | ⟨1, _⟩ => show (0 : ℕ) = if (1 : ℕ) = 1 then 0 else _; rw [if_pos rfl]),
    broadcastInDim_apply ![0] h1 _ (ix2 i (0 : Fin 1)) (ix1 i) (fun a => by
        match a with
        | ⟨0, _⟩ =>
          show i.val = if N = 1 then 0 else i.val
          split
          · have := i.isLt; omega
          · rfl)]

section Bridge

variable (hN : 0 < N)
  (gwfC : GatherDims.WF ⟨2, ![N, C]⟩ ⟨2, ![E, 1]⟩ ⟨2, ![E, C]⟩ [1] [0] [] [0] [] 1 ![1, C])
  (gwfJ : GatherDims.WF ⟨2, ![N, J]⟩ ⟨2, ![E, 1]⟩ ⟨2, ![E, J]⟩ [1] [0] [] [0] [] 1 ![1, J])
  (swfC : ScatterDims.WF ⟨2, ![N, C]⟩ ⟨2, ![E, 1]⟩ ⟨2, ![E, C]⟩ [1] [0] [0] 1)
  (swfJ : ScatterDims.WF ⟨2, ![N, J]⟩ ⟨2, ![E, 1]⟩ ⟨2, ![E, J]⟩ [1] [0] [0] 1)
  (d : DotDims ⟨2, ![N, C]⟩ ⟨2, ![C, J]⟩ ⟨2, ![N, J]⟩)
  (hlc : d.lhsContracting = [1]) (hrc : d.rhsContracting = [0]) (hln : d.lhsNonContracting = [0])
  (hrn : d.rhsNonContracting = [1]) (hlb : d.lhsBatch = []) (hrb : d.rhsBatch = [])
  (h1 : (⟨1, ![N]⟩ : Shape).BroadcastsInDim ⟨2, ![N, 1]⟩ ![0])
  (h2C : (⟨2, ![N, 1]⟩ : Shape).BroadcastsInDim ⟨2, ![N, C]⟩ ![0, 1])
  (h2J : (⟨2, ![N, 1]⟩ : Shape).BroadcastsInDim ⟨2, ![N, J]⟩ ![0, 1])

include hN hlc hrc hln hrn hlb hrb in
/-- THE RELATION'S TWO FORMS AGREE.  With zero operands `ZC`, `ZJ`, a vector `one` of ones, real tables `X`
    and `W` and divisors at least one: the product with `W` of the aggregate of `X`'s gathered rows scaled by
    the reciprocal divisors is, entry by entry, the aggregate of the gathered rows of `X · W` divided by the
    divisors. -/
theorem relation_eq (X : FVec Ideal ⟨2, ![N, C]⟩ .f32) (W : FVec Ideal ⟨2, ![C, J]⟩ .f32)
    (ZC : FVec Ideal ⟨2, ![N, C]⟩ .f32) (ZJ : FVec Ideal ⟨2, ![N, J]⟩ .f32) (one D : FVec Ideal ⟨1, ![N]⟩ .f32)
    (si di : IVec ⟨2, ![E, 1]⟩ w)
    (hX : ∀ a, IsReal (X a)) (hW : ∀ a, IsReal (W a))
    (hZC : ∀ a, ZC a = 0) (hZJ : ∀ a, ZJ a = 0) (hone : ∀ a, one a = 1) (hD : ∀ a, 1 ≤ D a)
    (i : Fin N) (j : Fin J) :
    ∑ k : Fin C,
        mulf (Host.scatterAdd (F := Ideal) (rowScatterDims N E C swfC) ZC di (Host.gather (rowGatherDims N E C gwfC) X si))
          (broadcastInDim ⟨2, ![N, C]⟩ ![0, 1] h2C (broadcastInDim ⟨2, ![N, 1]⟩ ![0] h1 (Host.divf (F := Ideal) one D))) (ix2 i k)
          * W (ix2 k j)
      = Host.divf (F := Ideal)
          (Host.scatterAdd (F := Ideal) (rowScatterDims N E J swfJ) ZJ di
            (Host.gather (rowGatherDims N E J gwfJ) (Host.dotGeneral (F := Ideal) d none X W) si))
          (broadcastInDim ⟨2, ![N, J]⟩ ![0, 1] h2J (broadcastInDim ⟨2, ![N, 1]⟩ ![0] h1 D)) (ix2 i j) := by
  obtain ⟨v, hv⟩ := div_by_ge_one (D (ix1 i)) (hD _)
  -- the right side: the aggregate of the products, times the reciprocal
  have hR : Host.divf (F := Ideal)
          (Host.scatterAdd (F := Ideal) (rowScatterDims N E J swfJ) ZJ di
            (Host.gather (rowGatherDims N E J gwfJ) (Host.dotGeneral (F := Ideal) d none X W) si))
          (broadcastInDim ⟨2, ![N, J]⟩ ![0, 1] h2J (broadcastInDim ⟨2, ![N, 1]⟩ ![0] h1 D)) (ix2 i j)
      = (0 + ∑ e ∈ Finset.univ.filter (fun e : Fin E => dstRow? N di e = some i),
            ∑ k : Fin C, X (ix2 (srcRow N hN si e) k) * W (ix2 k j)) * (v : EReal) := by
    show Ideal.div _ _ = _
    rw [rowSpread_apply h1 h2J D i j, hv, rowScatterAdd_apply swfJ, hZJ]
    refine congrArg (fun y => (0 + y) * (v : EReal)) (Finset.sum_congr rfl fun e _ => ?_)
    rw [rowGather_apply hN gwfJ]
    exact Cert.LibDotsNT.plain_dotGeneral_apply d hlc hrc hln hrn hlb hrb none _ X W _ j
  -- the left side, term by term
  have hL : ∀ k : Fin C,
      mulf (Host.scatterAdd (F := Ideal) (rowScatterDims N E C swfC) ZC di (Host.gather (rowGatherDims N E C gwfC) X si))
          (broadcastInDim ⟨2, ![N, C]⟩ ![0, 1] h2C (broadcastInDim ⟨2, ![N, 1]⟩ ![0] h1 (Host.divf (F := Ideal) one D))) (ix2 i k)
        = (0 + ∑ e ∈ Finset.univ.filter (fun e : Fin E => dstRow? N di e = some i), X (ix2 (srcRow N hN si e) k)) * (v : EReal) := by
    intro k
    show _ * _ = _
    rw [rowSpread_apply h1 h2C _ i k, rowScatterAdd_apply swfC, hZC]
    have : Host.divf (F := Ideal) one D (ix1 i) = (v : EReal) := by
      show Ideal.div _ _ = _
      rw [hv, hone, one_mul]
    rw [this]
    refine congrArg (fun y => (0 + y) * (v : EReal)) (Finset.sum_congr rfl fun e _ => ?_)
    exact rowGather_apply hN gwfC X si e k
  rw [hR, Finset.sum_congr rfl (fun k _ => congrArg (· * W (ix2 k j)) (hL k))]
  exact (agg_law _ (fun e k => X (ix2 (srcRow N hN si e) k)) (fun k => W (ix2 k j)) (v : EReal)
    (fun e k => hX _) (fun k => hW _) (isReal_coe v)).symm

end Bridge

end Cert.AggBridge

end
-- ==== Proof.HostTerms.lean ====
/-
  The host side of one relation, as terms both programs spell the same way, and the two forms of a relation's
  contribution joined.

  From the `[8, 400000]` arrays of source and target row numbers, relation `r` takes row `r` (`col`), wraps a
  negative source number around by adding 50000 (`srcIdx`; the gather then clamps what is still out of range),
  and uses the target numbers as they are (`dstIdx`; the scatter drops what is out of range).  The divisor of
  node `i` is the larger of one and the number of relation-`r` edges into `i` (`degClip`).

    • `kerTerm r`  (aggregate first): the gathered rows of `x` summed into their targets, times one over the divisor;
    • `refTerm r`  (transform first): the gathered rows of `x · W r` summed into their targets, over the divisor.

  `term_eq`: the product of `kerTerm r` with `W r` is `refTerm r`, entry by entry, when `x` and `W` hold real numbers.
-/
import proofs.«137636_j2181843386580_2_alg».proof.Proof.AggBridge

noncomputable section

open scoped BigOperators

namespace Cert.RGcn

open Idealize.ShloMosaic Idealize.ShloMosaic.ValueIdx
open Cert.LibAggRows Cert.LibRealSums

abbrev S0 : Shape := ⟨0, ![]⟩
abbrev SN : Shape := ⟨1, ![50000]⟩
abbrev SN1 : Shape := ⟨2, ![50000, 1]⟩
abbrev SX : Shape := ⟨2, ![50000, 256]⟩
abbrev SW : Shape := ⟨3, ![8, 256, 256]⟩
abbrev SW1 : Shape := ⟨3, ![1, 256, 256]⟩
abbrev SL : Shape := ⟨2, ![256, 256]⟩
abbrev SI : Shape := ⟨2, ![8, 400000]⟩
abbrev SI1 : Shape := ⟨2, ![1, 400000]⟩
abbrev SE : Shape := ⟨1, ![400000]⟩
abbrev SE1 : Shape := ⟨2, ![400000, 1]⟩
abbrev SEX : Shape := ⟨2, ![400000, 256]⟩

/-- The side conditions of the host operations both programs state, gathered. -/
structure HostFacts : Prop where
  bE : S0.BroadcastsInDim SE (![] : Fin 0 → Fin SE.rank)
  cE : SI1.ShapeCasts SE
  bE1 : SE.BroadcastsInDim SE1 (![0] : Fin 1 → Fin SE1.rank)
  bX : S0.BroadcastsInDim SX (![] : Fin 0 → Fin SX.rank)
  bN : S0.BroadcastsInDim SN (![] : Fin 0 → Fin SN.rank)
  bN1 : SN.BroadcastsInDim SN1 (![0] : Fin 1 → Fin SN1.rank)
  bNX : SN1.BroadcastsInDim SX (![0, 1] : Fin 2 → Fin SX.rank)
  sI : ∀ r : ℕ, r < 8 → SI.Slices ![r, 0] SI1
  gwf : GatherDims.WF SX SE1 SEX [1] [0] [] [0] [] 1 ![1, 256]
  swf : ScatterDims.WF SX SE1 SEX [1] [0] [0] 1
  swf1 : ScatterDims.WF SN SE1 SE [] [0] [0] 1

/-- The scatter of one number per edge into a vector of `50000` entries. -/
abbrev degScatterDims (wf : ScatterDims.WF SN SE1 SE [] [0] [0] 1) : ScatterDims SN SE1 SE where
  updateWindowDims := []
  insertedWindowDims := [0]
  scatterDimsToOperandDims := [0]
  indexVectorDim := 1
  wf := wf

variable (hf : HostFacts)

/-- Row `r` of an `[8, 400000]` array of row numbers. -/
def col (r : ℕ) (hr : r < 8) (a : IVec SI 32) : IVec SE 32 :=
  shapeCast SE (extractStridedSlice SI1 ![r, 0] a (hf.sI r hr)) hf.cE

/-- The source row numbers of relation `r` as a column, a negative one moved up by `50000`. -/
def srcIdx (r : ℕ) (hr : r < 8) (a : IVec SI 32) : IVec SE1 32 :=
  broadcastInDim SE1 ![0] hf.bE1
    (select (cmpi .slt (col hf r hr a) (broadcastInDim SE ![] hf.bE (constantI S0 32 0#32)))
      (addi (col hf r hr a) (broadcastInDim SE ![] hf.bE (constantI S0 32 50000#32))) (col hf r hr a))

/-- The target row numbers of relation `r` as a column. -/
def dstIdx (r : ℕ) (hr : r < 8) (a : IVec SI 32) : IVec SE1 32 :=
  broadcastInDim SE1 ![0] hf.bE1 (col hf r hr a)

/-- The zero table. -/
def zeroX : FVec Ideal SX .f32 := broadcastInDim SX ![] hf.bX (constant (F := Ideal) S0 .f32 0x00000000#32)

/-- The vector of ones, one per node. -/
def oneN : FVec Ideal SN .f32 := broadcastInDim SN ![] hf.bN (constant (F := Ideal) S0 .f32 0x3F800000#32)

/-- The divisors of relation `r`: per node, the larger of one and the number of edges into it. -/
def degClip (r : ℕ) (hr : r < 8) (dst : IVec SI 32) : FVec Ideal SN .f32 :=
  maximumf (broadcastInDim SN ![] hf.bN (id (constant (F := Ideal) S0 .f32 0x3F800000#32)))
    (Host.scatterAdd (F := Ideal) (degScatterDims hf.swf1)
      (broadcastInDim SN ![] hf.bN (constant (F := Ideal) S0 .f32 0x00000000#32)) (dstIdx hf r hr dst)
      (broadcastInDim SE ![] hf.bE (constant (F := Ideal) S0 .f32 0x3F800000#32)))

/-- A vector over the nodes laid along the rows of a table. -/
def rowSpread (D : FVec Ideal SN .f32) : FVec Ideal SX .f32 :=
  broadcastInDim SX ![0, 1] hf.bNX (broadcastInDim SN1 ![0] hf.bN1 D)

/-- Relation `r`, aggregate first: the normalised sum of the neighbours' rows of `x`. -/
def kerTerm (r : ℕ) (hr : r < 8) (X : FVec Ideal SX .f32) (src dst : IVec SI 32) : FVec Ideal SX .f32 :=
  mulf (Host.scatterAdd (F := Ideal) (rowScatterDims 50000 400000 256 hf.swf) (zeroX hf) (dstIdx hf r hr dst)
        (Host.gather (rowGatherDims 50000 400000 256 hf.gwf) X (srcIdx hf r hr src)))
    (rowSpread hf (Host.divf (F := Ideal) (oneN hf) (degClip hf r hr dst)))

/-- Relation `r`, transform first: the sum of the neighbours' rows of `x · Wr`, over the divisor. -/
def refTerm (d : DotDims SX SL SX) (r : ℕ) (hr : r < 8) (X : FVec Ideal SX .f32) (Wr : FVec Ideal SL .f32)
    (src dst : IVec SI 32) : FVec Ideal SX .f32 :=
  Host.divf (F := Ideal)
    (Host.scatterAdd (F := Ideal) (rowScatterDims 50000 400000 256 hf.swf) (zeroX hf) (dstIdx hf r hr dst)
      (Host.gather (rowGatherDims 50000 400000 256 hf.gwf) (Host.dotGeneral (F := Ideal) d none X Wr) (srcIdx hf r hr src)))
    (rowSpread hf (degClip hf r hr dst))

/-- The zero table holds zeros. -/
theorem zeroX_apply (a : SX.Idx) : zeroX hf a = 0 := by
  show Ideal.ofBits .f32 0x00000000#32 = 0
  exact Ideal.ofBits_zero_f32

/-- The vector of ones holds ones. -/
theorem oneN_apply (a : SN.Idx) : oneN hf a = 1 := by
  show Ideal.ofBits .f32 0x3F800000#32 = 1
  exact Ideal.ofBits_one_f32

/-- Every divisor is at least one. -/
theorem one_le_degClip (r : ℕ) (hr : r < 8) (dst : IVec SI 32) (a : SN.Idx) : 1 ≤ degClip hf r hr dst a := by
  show (1 : EReal) ≤ max (Ideal.ofBits .f32 0x3F800000#32) _
  rw [Ideal.ofBits_one_f32]
  exact le_max_left _ _

/-- THE TWO FORMS OF A RELATION: the product of the aggregate-first term with the relation's weight matrix is
    the transform-first term, entry by entry, over real tables. -/
theorem term_eq (d : DotDims SX SL SX)
    (hlc : d.lhsContracting = [1]) (hrc : d.rhsContracting = [0]) (hln : d.lhsNonContracting = [0])
    (hrn : d.rhsNonContracting = [1]) (hlb : d.lhsBatch = []) (hrb : d.rhsBatch = [])
    (r : ℕ) (hr : r < 8) (X : FVec Ideal SX .f32) (Wr : FVec Ideal SL .f32) (src dst : IVec SI 32)
    (hX : ∀ a, IsReal (X a)) (hW : ∀ a, IsReal (Wr a)) (i : Fin 50000) (j : Fin 256) :
    ∑ k : Fin 256, kerTerm hf r hr X src dst (ix2 i k) * Wr (ix2 k j) = refTerm hf d r hr X Wr src dst (ix2 i j) :=
  Cert.AggBridge.relation_eq (N := 50000) (E := 400000) (C := 256) (J := 256) (by norm_num) hf.gwf hf.gwf hf.swf hf.swf d
    hlc hrc hln hrn hlb hrb hf.bN1 hf.bNX hf.bNX X Wr (zeroX hf) (zeroX hf) (oneN hf) (degClip hf r hr dst)
    (srcIdx hf r hr src) (dstIdx hf r hr dst) hX hW (zeroX_apply hf) (zeroX_apply hf) (oneN_apply hf)
    (one_le_degClip hf r hr dst) i j

end Cert.RGcn

end
-- ==== Proof.KerHostTerms.lean ====
/-
  The kernel program's side conditions as the host terms take them, the nine-operand stacking read
  at its own result, and the three arrays the region stages, named:
    • the slab stack: the eight relations' aggregate-first terms and the node table itself, each with a
      leading unit axis, stacked along it;
    • the weight stack: the eight relation matrices and the self-loop matrix;
    • the bias as a row.
-/
import proofs.«137636_j2181843386580_2_alg».proof.Proof.KBaseI
import proofs.«137636_j2181843386580_2_alg».proof.Proof.HostTerms
import Idealize.ShloMosaic.Lib.StableHlo.Run

noncomputable section

namespace Cert.KernelIdeal.HostSide

open Idealize.ShloMosaic Idealize.ShloMosaic.TcCoe Idealize.ShloMosaic.ValueIdx Idealize.ShloMosaic.StableHlo
open Idealize.SL Idealize.SL.Sem
open Cert.KernelIdeal Cert.RGcn

variable [hK : Cert.KernelIdeal.Facts]
open Cert.KernelIdeal.Facts₀

/-- The side conditions the kernel program states, as the host terms take them. -/
theorem hostFacts : HostFacts where
  bE := bcast_S_S400000
  cE := shapeCasts_S1x400000_S400000
  bE1 := bcast_S400000_S400000x1_0
  bX := bcast_S_S50000x256
  bN := bcast_S_S50000
  bN1 := bcast_S50000_S50000x1_0
  bNX := bcast_S50000x1_S50000x256_0_1
  sI := fun r hr => match r, hr with
    | 0, _ => slices_S8x400000_S1x400000_0_0
    | 1, _ => slices_S8x400000_S1x400000_1_0
    | 2, _ => slices_S8x400000_S1x400000_2_0
    | 3, _ => slices_S8x400000_S1x400000_3_0
    | 4, _ => slices_S8x400000_S1x400000_4_0
    | 5, _ => slices_S8x400000_S1x400000_5_0
    | 6, _ => slices_S8x400000_S1x400000_6_0
    | 7, _ => slices_S8x400000_S1x400000_7_0
    | (n + 8), h => absurd h (by omega)
  gwf := gather_S50000x256_S400000x1_S400000x256_1_0_n_n_0_1_1256_wf
  swf := scatter_S50000x256_S400000x1_S400000x256_1_0_0_1_wf
  swf1 := scatter_S50000_S400000x1_S400000_n_0_0_1_wf

/-- A table with a leading unit axis put in front. -/
def slab (a : FVec Ideal SX .f32) : FVec Ideal S1x50000x256 .f32 :=
  broadcastInDim S1x50000x256 ![1, 2] bcast_S50000x256_S1x50000x256_1_2 a

/-- Relation `r`'s aggregate-first term. -/
def K (r : ℕ) (hr : r < 8) (X : FVec Ideal SX .f32) (src dst : IVec SI 32) : FVec Ideal SX .f32 :=
  kerTerm hostFacts r hr X src dst

/-- THE SLAB STACK over the argument arrays. -/
def stackTerm (X : FVec Ideal SX .f32) (src dst : IVec SI 32) : FVec Ideal S9x50000x256 .f32 :=
  concatenate S9x50000x256 0
    [⟨S1x50000x256, slab (K 0 (by norm_num) X src dst)⟩, ⟨S1x50000x256, slab (K 1 (by norm_num) X src dst)⟩,
     ⟨S1x50000x256, slab (K 2 (by norm_num) X src dst)⟩, ⟨S1x50000x256, slab (K 3 (by norm_num) X src dst)⟩,
     ⟨S1x50000x256, slab (K 4 (by norm_num) X src dst)⟩, ⟨S1x50000x256, slab (K 5 (by norm_num) X src dst)⟩,
     ⟨S1x50000x256, slab (K 6 (by norm_num) X src dst)⟩, ⟨S1x50000x256, slab (K 7 (by norm_num) X src dst)⟩,
     ⟨S1x50000x256, slab X⟩]
    concatenates_S1x50000x256_S1x50000x256_S1x50000x256_S1x50000x256_S1x50000x256_S1x50000x256_S1x50000x256_S1x50000x256_S1x50000x256_S9x50000x256_d0

/-- THE WEIGHT STACK over the argument arrays. -/
def wcatTerm (W : FVec Ideal SW .f32) (L : FVec Ideal SL .f32) : FVec Ideal S9x256x256 .f32 :=
  concatenate S9x256x256 0
    [⟨S8x256x256, W⟩, ⟨S1x256x256, broadcastInDim S1x256x256 ![1, 2] bcast_S256x256_S1x256x256_1_2 L⟩]
    concatenates_S8x256x256_S1x256x256_S9x256x256_d0

/-- THE BIAS ROW over the argument arrays. -/
def biasTerm (b : FVec Ideal S256 .f32) : FVec Ideal S1x256 .f32 := shapeCast S1x256 b shapeCasts_S256_S1x256

section Nary9
variable {τ' : Topo} {sig' : RefSig} {Val : EltTy → Type}
variable {x0 x1 x2 x3 x4 x5 x6 x7 x8 y : Ref sig' .tc}

/-- A nine-operand host operation's result at its own result buffer, each operand's contents read at its own
    reference. -/
theorem nary9_result'
    (f : ((k : Fin 9) → ((![x0, x1, x2, x3, x4, x5, x6, x7, x8] : Fin 9 → Ref sig' .tc) k).ty.Contents Val) → y.ty.Contents Val)
    (hxs hy) (G : Valuation τ' sig' Val) :
    (nary (τ := τ') ![x0, x1, x2, x3, x4, x5, x6, x7, x8] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (Fin.cons (G (Proc.devRef .tc x8))
          (fun i => i.elim0)))))))))) := by
  rw [nary_result]; congr 1; funext k; fin_cases k <;> rfl
end Nary9

end Cert.KernelIdeal.HostSide

end
-- ==== Proof.KerHostSegW.lean ====
/-
  The memory after each stretch of host operations, one stretch at a time.

  @main runs seventeen stretches before the region; `W j` is the memory after stretches 0 to j, so
  the region is entered at `W16`.  No stretch writes an argument of @main, so the three arguments the
  relations read (the node table, the source and the target row numbers) are in every `W j` as
  launched.  Stretch 0 builds the vector of ones, one per edge, that every relation's degree count
  reads; no later stretch writes it.
-/
import proofs.«137636_j2181843386580_2_alg».proof.Proof.KerHostTerms

set_option maxRecDepth 16384

noncomputable section

namespace Cert.KernelIdeal.HostSide

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand Cert.RGcn Cert.LibAggRows

variable (m : (ℓ : Loc nD τ sig) → Buf (Elt Ideal) ℓ) (c : Dev nD)

/-- The memory after the first stretch. -/
def W0 : Valuation τ sig (Elt Ideal) := after (hostOps0 (F := Ideal)) (fun b => m (c, b))
/-- The memory after stretch 1. -/
def W1 : Valuation τ sig (Elt Ideal) := after (hostOps0_1 (F := Ideal)) (W0 m c)
/-- The memory after stretch 2. -/
def W2 : Valuation τ sig (Elt Ideal) := after (hostOps0_2 (F := Ideal)) (W1 m c)
/-- The memory after stretch 3. -/
def W3 : Valuation τ sig (Elt Ideal) := after (hostOps0_3 (F := Ideal)) (W2 m c)
/-- The memory after stretch 4. -/
def W4 : Valuation τ sig (Elt Ideal) := after (hostOps0_4 (F := Ideal)) (W3 m c)
/-- The memory after stretch 5. -/
def W5 : Valuation τ sig (Elt Ideal) := after (hostOps0_5 (F := Ideal)) (W4 m c)
/-- The memory after stretch 6. -/
def W6 : Valuation τ sig (Elt Ideal) := after (hostOps0_6 (F := Ideal)) (W5 m c)
/-- The memory after stretch 7. -/
def W7 : Valuation τ sig (Elt Ideal) := after (hostOps0_7 (F := Ideal)) (W6 m c)
/-- The memory after stretch 8. -/
def W8 : Valuation τ sig (Elt Ideal) := after (hostOps0_8 (F := Ideal)) (W7 m c)
/-- The memory after stretch 9. -/
def W9 : Valuation τ sig (Elt Ideal) := after (hostOps0_9 (F := Ideal)) (W8 m c)
/-- The memory after stretch 10. -/
def W10 : Valuation τ sig (Elt Ideal) := after (hostOps0_10 (F := Ideal)) (W9 m c)
/-- The memory after stretch 11. -/
def W11 : Valuation τ sig (Elt Ideal) := after (hostOps0_11 (F := Ideal)) (W10 m c)
/-- The memory after stretch 12. -/
def W12 : Valuation τ sig (Elt Ideal) := after (hostOps0_12 (F := Ideal)) (W11 m c)
/-- The memory after stretch 13. -/
def W13 : Valuation τ sig (Elt Ideal) := after (hostOps0_13 (F := Ideal)) (W12 m c)
/-- The memory after stretch 14. -/
def W14 : Valuation τ sig (Elt Ideal) := after (hostOps0_14 (F := Ideal)) (W13 m c)
/-- The memory after stretch 15. -/
def W15 : Valuation τ sig (Elt Ideal) := after (hostOps0_15 (F := Ideal)) (W14 m c)
/-- The memory after stretch 16. -/
def W16 : Valuation τ sig (Elt Ideal) := after (hostOps0_16 (F := Ideal)) (W15 m c)

/-- The stretches one after the other are their concatenation run at once. -/
theorem after_flatten_cons {Val : EltTy → Type} (l : List (HloOp τ sig Val)) (L : List (List (HloOp τ sig Val))) (G : Valuation τ sig Val) :
    after (l :: L).flatten G = after L.flatten (after l G) := by
  rw [List.flatten_cons, Idealize.ShloMosaic.StableHlo.after_append]

/-- The region is entered at the memory after the last stretch. -/
theorem V0_eq : V0 (F := Ideal) m c = W16 m c := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) = _
  simp only [after_flatten_cons, List.flatten_nil, after_nil]
  rfl

/-! ### Argument 0 is in every `W j` as launched -/

theorem W0_arg0 : W0 m c (Proc.devRef (τ := τ) .tc main_arg0) = m ((c.tc : Thread nD τ).loc main_arg0) := by
  unfold W0; simp (disch := decide) only [hostOps0, after_cons, after_nil, nullary_result', unary_result', binary_result', ternary_result', quaternary_result', reshape_result', nullary_result_ne', unary_result_ne', binary_result_ne', ternary_result_ne', quaternary_result_ne', reshape_result_ne', nary_result_ne']
  first | done | rfl
theorem W1_arg0 : W1 m c (Proc.devRef (τ := τ) .tc main_arg0) = m ((c.tc : Thread nD τ).loc main_arg0) := by
  unfold W1; simp (disch := decide) only [hostOps0_1, after_cons, after_nil, nullary_result', unary_result', binary_result', ternary_result', quaternary_result', reshape_result', nullary_result_ne', unary_result_ne', binary_result_ne', ternary_result_ne', quaternary_result_ne', reshape_result_ne', nary_result_ne']
  exact W0_arg0 m c
theorem W2_arg0 : W2 m c (Proc.devRef (τ := τ) .tc main_arg0) = m ((c.tc : Thread nD τ).loc main_arg0) := by
  unfold W2; simp (disch := decide) only [hostOps0_2, after_cons, after_nil, nullary_result', unary_result', binary_result', ternary_result', quaternary_result', reshape_result', nullary_result_ne', unary_result_ne', binary_result_ne', ternary_result_ne', quaternary_result_ne', reshape_result_ne', nary_result_ne']
  exact W1_arg0 m c
theorem W3_arg0 : W3 m c (Proc.devRef (τ := τ) .tc main_arg0) = m ((c.tc : Thread nD τ).loc main_arg0) := by
  unfold W3; simp (disch := decide) only [hostOps0_3, after_cons, after_nil, nullary_result', unary_result', binary_result', ternary_result', quaternary_result', reshape_result', nullary_result_ne', unary_result_ne', binary_result_ne', ternary_result_ne', quaternary_result_ne', reshape_result_ne', nary_result_ne']
  exact W2_arg0 m c
theorem W4_arg0 : W4 m c (Proc.devRef (τ := τ) .tc main_arg0) = m ((c.tc : Thread nD τ).loc main_arg0) := by
  unfold W4; simp (disch := decide) only [hostOps0_4, after_cons, after_nil, nullary_result', unary_result', binary_result', ternary_result', quaternary_result', reshape_result', nullary_result_ne', unary_result_ne', binary_result_ne', ternary_result_ne', quaternary_result_ne', reshape_result_ne', nary_result_ne']
  exact W3_arg0 m c
theorem W5_arg0 : W5 m c (Proc.devRef (τ := τ) .tc main_arg0) = m ((c.tc : Thread nD τ).loc main_arg0) := by
  unfold W5; simp (disch := decide) only [hostOps0_5, after_cons, after_nil, nullary_result', unary_result', binary_result', ternary_result', quaternary_result', reshape_result', nullary_result_ne', unary_result_ne', binary_result_ne', ternary_result_ne', quaternary_result_ne', reshape_result_ne', nary_result_ne']
  exact W4_arg0 m c
theorem W6_arg0 : W6 m c (Proc.devRef (τ := τ) .tc main_arg0) = m ((c.tc : Thread nD τ).loc main_arg0) := by
  unfold W6; simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']
  exact W5_arg0 m c
theorem W7_arg0 : W7 m c (Proc.devRef (τ := τ) .tc main_arg0) = m ((c.tc : Thread nD τ).loc main_arg0) := by
  unfold W7; simp (disch := decide) only [hostOps0_7, after_cons, after_nil, nullary_result', unary_result', binary_result', ternary_result', quaternary_result', reshape_result', nullary_result_ne', unary_result_ne', binary_result_ne', ternary_result_ne', quaternary_result_ne', reshape_result_ne', nary_result_ne']
  exact W6_arg0 m c
theorem W8_arg0 : W8 m c (Proc.devRef (τ := τ) .tc main_arg0) = m ((c.tc : Thread nD τ).loc main_arg0) := by
  unfold W8; simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']
  exact W7_arg0 m c
theorem W9_arg0 : W9 m c (Proc.devRef (τ := τ) .tc main_arg0) = m ((c.tc : Thread nD τ).loc main_arg0) := by
  unfold W9; simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']
  exact W8_arg0 m c
theorem W10_arg0 : W10 m c (Proc.devRef (τ := τ) .tc main_arg0) = m ((c.tc : Thread nD τ).loc main_arg0) := by
  unfold W10; simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']
  exact W9_arg0 m c
theorem W11_arg0 : W11 m c (Proc.devRef (τ := τ) .tc main_arg0) = m ((c.tc : Thread nD τ).loc main_arg0) := by
  unfold W11; simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']
  exact W10_arg0 m c
theorem W12_arg0 : W12 m c (Proc.devRef (τ := τ) .tc main_arg0) = m ((c.tc : Thread nD τ).loc main_arg0) := by
  unfold W12; simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']
  exact W11_arg0 m c
theorem W13_arg0 : W13 m c (Proc.devRef (τ := τ) .tc main_arg0) = m ((c.tc : Thread nD τ).loc main_arg0) := by
  unfold W13; simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']
  exact W12_arg0 m c
theorem W14_arg0 : W14 m c (Proc.devRef (τ := τ) .tc main_arg0) = m ((c.tc : Thread nD τ).loc main_arg0) := by
  unfold W14; simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']
  exact W13_arg0 m c
theorem W15_arg0 : W15 m c (Proc.devRef (τ := τ) .tc main_arg0) = m ((c.tc : Thread nD τ).loc main_arg0) := by
  unfold W15; simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']
  exact W14_arg0 m c

/-! ### Argument 4 is in every `W j` as launched -/

theorem W0_arg4 : W0 m c (Proc.devRef (τ := τ) .tc main_arg4) = m ((c.tc : Thread nD τ).loc main_arg4) := by
  unfold W0; simp (disch := decide) only [hostOps0, after_cons, after_nil, nullary_result', unary_result', binary_result', ternary_result', quaternary_result', reshape_result', nullary_result_ne', unary_result_ne', binary_result_ne', ternary_result_ne', quaternary_result_ne', reshape_result_ne', nary_result_ne']
  first | done | rfl
theorem W1_arg4 : W1 m c (Proc.devRef (τ := τ) .tc main_arg4) = m ((c.tc : Thread nD τ).loc main_arg4) := by
  unfold W1; simp (disch := decide) only [hostOps0_1, after_cons, after_nil, nullary_result', unary_result', binary_result', ternary_result', quaternary_result', reshape_result', nullary_result_ne', unary_result_ne', binary_result_ne', ternary_result_ne', quaternary_result_ne', reshape_result_ne', nary_result_ne']
  exact W0_arg4 m c
theorem W2_arg4 : W2 m c (Proc.devRef (τ := τ) .tc main_arg4) = m ((c.tc : Thread nD τ).loc main_arg4) := by
  unfold W2; simp (disch := decide) only [hostOps0_2, after_cons, after_nil, nullary_result', unary_result', binary_result', ternary_result', quaternary_result', reshape_result', nullary_result_ne', unary_result_ne', binary_result_ne', ternary_result_ne', quaternary_result_ne', reshape_result_ne', nary_result_ne']
  exact W1_arg4 m c
theorem W3_arg4 : W3 m c (Proc.devRef (τ := τ) .tc main_arg4) = m ((c.tc : Thread nD τ).loc main_arg4) := by
  unfold W3; simp (disch := decide) only [hostOps0_3, after_cons, after_nil, nullary_result', unary_result', binary_result', ternary_result', quaternary_result', reshape_result', nullary_result_ne', unary_result_ne', binary_result_ne', ternary_result_ne', quaternary_result_ne', reshape_result_ne', nary_result_ne']
  exact W2_arg4 m c
theorem W4_arg4 : W4 m c (Proc.devRef (τ := τ) .tc main_arg4) = m ((c.tc : Thread nD τ).loc main_arg4) := by
  unfold W4; simp (disch := decide) only [hostOps0_4, after_cons, after_nil, nullary_result', unary_result', binary_result', ternary_result', quaternary_result', reshape_result', nullary_result_ne', unary_result_ne', binary_result_ne', ternary_result_ne', quaternary_result_ne', reshape_result_ne', nary_result_ne']
  exact W3_arg4 m c
theorem W5_arg4 : W5 m c (Proc.devRef (τ := τ) .tc main_arg4) = m ((c.tc : Thread nD τ).loc main_arg4) := by
  unfold W5; simp (disch := decide) only [hostOps0_5, after_cons, after_nil, nullary_result', unary_result', binary_result', ternary_result', quaternary_result', reshape_result', nullary_result_ne', unary_result_ne', binary_result_ne', ternary_result_ne', quaternary_result_ne', reshape_result_ne', nary_result_ne']
  exact W4_arg4 m c
theorem W6_arg4 : W6 m c (Proc.devRef (τ := τ) .tc main_arg4) = m ((c.tc : Thread nD τ).loc main_arg4) := by
  unfold W6; simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']
  exact W5_arg4 m c
theorem W7_arg4 : W7 m c (Proc.devRef (τ := τ) .tc main_arg4) = m ((c.tc : Thread nD τ).loc main_arg4) := by
  unfold W7; simp (disch := decide) only [hostOps0_7, after_cons, after_nil, nullary_result', unary_result', binary_result', ternary_result', quaternary_result', reshape_result', nullary_result_ne', unary_result_ne', binary_result_ne', ternary_result_ne', quaternary_result_ne', reshape_result_ne', nary_result_ne']
  exact W6_arg4 m c
theorem W8_arg4 : W8 m c (Proc.devRef (τ := τ) .tc main_arg4) = m ((c.tc : Thread nD τ).loc main_arg4) := by
  unfold W8; simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']
  exact W7_arg4 m c
theorem W9_arg4 : W9 m c (Proc.devRef (τ := τ) .tc main_arg4) = m ((c.tc : Thread nD τ).loc main_arg4) := by
  unfold W9; simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']
  exact W8_arg4 m c
theorem W10_arg4 : W10 m c (Proc.devRef (τ := τ) .tc main_arg4) = m ((c.tc : Thread nD τ).loc main_arg4) := by
  unfold W10; simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']
  exact W9_arg4 m c
theorem W11_arg4 : W11 m c (Proc.devRef (τ := τ) .tc main_arg4) = m ((c.tc : Thread nD τ).loc main_arg4) := by
  unfold W11; simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']
  exact W10_arg4 m c
theorem W12_arg4 : W12 m c (Proc.devRef (τ := τ) .tc main_arg4) = m ((c.tc : Thread nD τ).loc main_arg4) := by
  unfold W12; simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']
  exact W11_arg4 m c
theorem W13_arg4 : W13 m c (Proc.devRef (τ := τ) .tc main_arg4) = m ((c.tc : Thread nD τ).loc main_arg4) := by
  unfold W13; simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']
  exact W12_arg4 m c
theorem W14_arg4 : W14 m c (Proc.devRef (τ := τ) .tc main_arg4) = m ((c.tc : Thread nD τ).loc main_arg4) := by
  unfold W14; simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']
  exact W13_arg4 m c
theorem W15_arg4 : W15 m c (Proc.devRef (τ := τ) .tc main_arg4) = m ((c.tc : Thread nD τ).loc main_arg4) := by
  unfold W15; simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']
  exact W14_arg4 m c

/-! ### Argument 5 is in every `W j` as launched -/

theorem W0_arg5 : W0 m c (Proc.devRef (τ := τ) .tc main_arg5) = m ((c.tc : Thread nD τ).loc main_arg5) := by
  unfold W0; simp (disch := decide) only [hostOps0, after_cons, after_nil, nullary_result', unary_result', binary_result', ternary_result', quaternary_result', reshape_result', nullary_result_ne', unary_result_ne', binary_result_ne', ternary_result_ne', quaternary_result_ne', reshape_result_ne', nary_result_ne']
  first | done | rfl
theorem W1_arg5 : W1 m c (Proc.devRef (τ := τ) .tc main_arg5) = m ((c.tc : Thread nD τ).loc main_arg5) := by
  unfold W1; simp (disch := decide) only [hostOps0_1, after_cons, after_nil, nullary_result', unary_result', binary_result', ternary_result', quaternary_result', reshape_result', nullary_result_ne', unary_result_ne', binary_result_ne', ternary_result_ne', quaternary_result_ne', reshape_result_ne', nary_result_ne']
  exact W0_arg5 m c
theorem W2_arg5 : W2 m c (Proc.devRef (τ := τ) .tc main_arg5) = m ((c.tc : Thread nD τ).loc main_arg5) := by
  unfold W2; simp (disch := decide) only [hostOps0_2, after_cons, after_nil, nullary_result', unary_result', binary_result', ternary_result', quaternary_result', reshape_result', nullary_result_ne', unary_result_ne', binary_result_ne', ternary_result_ne', quaternary_result_ne', reshape_result_ne', nary_result_ne']
  exact W1_arg5 m c
theorem W3_arg5 : W3 m c (Proc.devRef (τ := τ) .tc main_arg5) = m ((c.tc : Thread nD τ).loc main_arg5) := by
  unfold W3; simp (disch := decide) only [hostOps0_3, after_cons, after_nil, nullary_result', unary_result', binary_result', ternary_result', quaternary_result', reshape_result', nullary_result_ne', unary_result_ne', binary_result_ne', ternary_result_ne', quaternary_result_ne', reshape_result_ne', nary_result_ne']
  exact W2_arg5 m c
theorem W4_arg5 : W4 m c (Proc.devRef (τ := τ) .tc main_arg5) = m ((c.tc : Thread nD τ).loc main_arg5) := by
  unfold W4; simp (disch := decide) only [hostOps0_4, after_cons, after_nil, nullary_result', unary_result', binary_result', ternary_result', quaternary_result', reshape_result', nullary_result_ne', unary_result_ne', binary_result_ne', ternary_result_ne', quaternary_result_ne', reshape_result_ne', nary_result_ne']
  exact W3_arg5 m c
theorem W5_arg5 : W5 m c (Proc.devRef (τ := τ) .tc main_arg5) = m ((c.tc : Thread nD τ).loc main_arg5) := by
  unfold W5; simp (disch := decide) only [hostOps0_5, after_cons, after_nil, nullary_result', unary_result', binary_result', ternary_result', quaternary_result', reshape_result', nullary_result_ne', unary_result_ne', binary_result_ne', ternary_result_ne', quaternary_result_ne', reshape_result_ne', nary_result_ne']
  exact W4_arg5 m c
theorem W6_arg5 : W6 m c (Proc.devRef (τ := τ) .tc main_arg5) = m ((c.tc : Thread nD τ).loc main_arg5) := by
  unfold W6; simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']
  exact W5_arg5 m c
theorem W7_arg5 : W7 m c (Proc.devRef (τ := τ) .tc main_arg5) = m ((c.tc : Thread nD τ).loc main_arg5) := by
  unfold W7; simp (disch := decide) only [hostOps0_7, after_cons, after_nil, nullary_result', unary_result', binary_result', ternary_result', quaternary_result', reshape_result', nullary_result_ne', unary_result_ne', binary_result_ne', ternary_result_ne', quaternary_result_ne', reshape_result_ne', nary_result_ne']
  exact W6_arg5 m c
theorem W8_arg5 : W8 m c (Proc.devRef (τ := τ) .tc main_arg5) = m ((c.tc : Thread nD τ).loc main_arg5) := by
  unfold W8; simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']
  exact W7_arg5 m c
theorem W9_arg5 : W9 m c (Proc.devRef (τ := τ) .tc main_arg5) = m ((c.tc : Thread nD τ).loc main_arg5) := by
  unfold W9; simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']
  exact W8_arg5 m c
theorem W10_arg5 : W10 m c (Proc.devRef (τ := τ) .tc main_arg5) = m ((c.tc : Thread nD τ).loc main_arg5) := by
  unfold W10; simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']
  exact W9_arg5 m c
theorem W11_arg5 : W11 m c (Proc.devRef (τ := τ) .tc main_arg5) = m ((c.tc : Thread nD τ).loc main_arg5) := by
  unfold W11; simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']
  exact W10_arg5 m c
theorem W12_arg5 : W12 m c (Proc.devRef (τ := τ) .tc main_arg5) = m ((c.tc : Thread nD τ).loc main_arg5) := by
  unfold W12; simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']
  exact W11_arg5 m c
theorem W13_arg5 : W13 m c (Proc.devRef (τ := τ) .tc main_arg5) = m ((c.tc : Thread nD τ).loc main_arg5) := by
  unfold W13; simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']
  exact W12_arg5 m c
theorem W14_arg5 : W14 m c (Proc.devRef (τ := τ) .tc main_arg5) = m ((c.tc : Thread nD τ).loc main_arg5) := by
  unfold W14; simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']
  exact W13_arg5 m c
theorem W15_arg5 : W15 m c (Proc.devRef (τ := τ) .tc main_arg5) = m ((c.tc : Thread nD τ).loc main_arg5) := by
  unfold W15; simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']
  exact W14_arg5 m c

/-! ### The vector of ones -/

theorem W0_ones : (W0 m c (Proc.devRef (τ := τ) .tc main_v0) : FVec Ideal SE .f32) = broadcastInDim SE ![] hostFacts.bE (constant (F := Ideal) S0 .f32 0x3F800000#32) := by
  unfold W0; simp (disch := decide) only [hostOps0, after_cons, after_nil, nullary_result', unary_result', binary_result', ternary_result', quaternary_result', reshape_result', nullary_result_ne', unary_result_ne', binary_result_ne', ternary_result_ne', quaternary_result_ne', reshape_result_ne', nary_result_ne']
  first | done | rfl
theorem W1_ones : (W1 m c (Proc.devRef (τ := τ) .tc main_v0) : FVec Ideal SE .f32) = broadcastInDim SE ![] hostFacts.bE (constant (F := Ideal) S0 .f32 0x3F800000#32) := by
  unfold W1; simp (disch := decide) only [hostOps0_1, after_cons, after_nil, nullary_result', unary_result', binary_result', ternary_result', quaternary_result', reshape_result', nullary_result_ne', unary_result_ne', binary_result_ne', ternary_result_ne', quaternary_result_ne', reshape_result_ne', nary_result_ne']
  exact W0_ones m c
theorem W2_ones : (W2 m c (Proc.devRef (τ := τ) .tc main_v0) : FVec Ideal SE .f32) = broadcastInDim SE ![] hostFacts.bE (constant (F := Ideal) S0 .f32 0x3F800000#32) := by
  unfold W2; simp (disch := decide) only [hostOps0_2, after_cons, after_nil, nullary_result', unary_result', binary_result', ternary_result', quaternary_result', reshape_result', nullary_result_ne', unary_result_ne', binary_result_ne', ternary_result_ne', quaternary_result_ne', reshape_result_ne', nary_result_ne']
  exact W1_ones m c
theorem W3_ones : (W3 m c (Proc.devRef (τ := τ) .tc main_v0) : FVec Ideal SE .f32) = broadcastInDim SE ![] hostFacts.bE (constant (F := Ideal) S0 .f32 0x3F800000#32) := by
  unfold W3; simp (disch := decide) only [hostOps0_3, after_cons, after_nil, nullary_result', unary_result', binary_result', ternary_result', quaternary_result', reshape_result', nullary_result_ne', unary_result_ne', binary_result_ne', ternary_result_ne', quaternary_result_ne', reshape_result_ne', nary_result_ne']
  exact W2_ones m c
theorem W4_ones : (W4 m c (Proc.devRef (τ := τ) .tc main_v0) : FVec Ideal SE .f32) = broadcastInDim SE ![] hostFacts.bE (constant (F := Ideal) S0 .f32 0x3F800000#32) := by
  unfold W4; simp (disch := decide) only [hostOps0_4, after_cons, after_nil, nullary_result', unary_result', binary_result', ternary_result', quaternary_result', reshape_result', nullary_result_ne', unary_result_ne', binary_result_ne', ternary_result_ne', quaternary_result_ne', reshape_result_ne', nary_result_ne']
  exact W3_ones m c
theorem W5_ones : (W5 m c (Proc.devRef (τ := τ) .tc main_v0) : FVec Ideal SE .f32) = broadcastInDim SE ![] hostFacts.bE (constant (F := Ideal) S0 .f32 0x3F800000#32) := by
  unfold W5; simp (disch := decide) only [hostOps0_5, after_cons, after_nil, nullary_result', unary_result', binary_result', ternary_result', quaternary_result', reshape_result', nullary_result_ne', unary_result_ne', binary_result_ne', ternary_result_ne', quaternary_result_ne', reshape_result_ne', nary_result_ne']
  exact W4_ones m c
theorem W6_ones : (W6 m c (Proc.devRef (τ := τ) .tc main_v0) : FVec Ideal SE .f32) = broadcastInDim SE ![] hostFacts.bE (constant (F := Ideal) S0 .f32 0x3F800000#32) := by
  unfold W6; simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']
  exact W5_ones m c
theorem W7_ones : (W7 m c (Proc.devRef (τ := τ) .tc main_v0) : FVec Ideal SE .f32) = broadcastInDim SE ![] hostFacts.bE (constant (F := Ideal) S0 .f32 0x3F800000#32) := by
  unfold W7; simp (disch := decide) only [hostOps0_7, after_cons, after_nil, nullary_result', unary_result', binary_result', ternary_result', quaternary_result', reshape_result', nullary_result_ne', unary_result_ne', binary_result_ne', ternary_result_ne', quaternary_result_ne', reshape_result_ne', nary_result_ne']
  exact W6_ones m c
theorem W8_ones : (W8 m c (Proc.devRef (τ := τ) .tc main_v0) : FVec Ideal SE .f32) = broadcastInDim SE ![] hostFacts.bE (constant (F := Ideal) S0 .f32 0x3F800000#32) := by
  unfold W8; simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']
  exact W7_ones m c
theorem W9_ones : (W9 m c (Proc.devRef (τ := τ) .tc main_v0) : FVec Ideal SE .f32) = broadcastInDim SE ![] hostFacts.bE (constant (F := Ideal) S0 .f32 0x3F800000#32) := by
  unfold W9; simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']
  exact W8_ones m c
theorem W10_ones : (W10 m c (Proc.devRef (τ := τ) .tc main_v0) : FVec Ideal SE .f32) = broadcastInDim SE ![] hostFacts.bE (constant (F := Ideal) S0 .f32 0x3F800000#32) := by
  unfold W10; simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']
  exact W9_ones m c
theorem W11_ones : (W11 m c (Proc.devRef (τ := τ) .tc main_v0) : FVec Ideal SE .f32) = broadcastInDim SE ![] hostFacts.bE (constant (F := Ideal) S0 .f32 0x3F800000#32) := by
  unfold W11; simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']
  exact W10_ones m c
theorem W12_ones : (W12 m c (Proc.devRef (τ := τ) .tc main_v0) : FVec Ideal SE .f32) = broadcastInDim SE ![] hostFacts.bE (constant (F := Ideal) S0 .f32 0x3F800000#32) := by
  unfold W12; simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']
  exact W11_ones m c
theorem W13_ones : (W13 m c (Proc.devRef (τ := τ) .tc main_v0) : FVec Ideal SE .f32) = broadcastInDim SE ![] hostFacts.bE (constant (F := Ideal) S0 .f32 0x3F800000#32) := by
  unfold W13; simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']
  exact W12_ones m c

end Cert.KernelIdeal.HostSide

end
-- ==== Proof.KerHostSegA.lean ====
/-
  Relations 0 to 3, stretch by stretch.

  For relation k, stretch 2k gathers the source rows of the node table and sums them into their
  target rows (the aggregate), and counts the edges into each node (the degree); stretch 2k+1 clamps
  the degree below at one; the first operations of stretch 2k+2 multiply the aggregate by one over
  the clamped degree, spread along the rows.  Over the arguments this is the relation's
  aggregate-first term `K k`.  No later stretch writes a relation's result, so it is still in
  memory when the last stretch stacks the slabs.  (Relation 7's product is formed by the last
  stretch itself.)
-/
import proofs.«137636_j2181843386580_2_alg».proof.Proof.KerHostSegW

set_option maxRecDepth 16384

noncomputable section

namespace Cert.KernelIdeal.HostSide

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand Cert.RGcn Cert.LibAggRows

/-! ## Relation 0 -/

section Stretch
variable (Wv : Valuation τ sig (Elt Ideal))

/-- Stretch 0 leaves the aggregate of relation 0: the gathered rows summed into their targets. -/
theorem s0_agg : (after (hostOps0 (F := Ideal)) Wv (Proc.devRef (τ := τ) .tc main_v14) : FVec Ideal SX .f32)
    = Host.scatterAdd (F := Ideal) (rowScatterDims 50000 400000 256 hostFacts.swf) (zeroX hostFacts) (dstIdx hostFacts 0 (by norm_num) (Wv (Proc.devRef (τ := τ) .tc main_arg5))) (Host.gather (rowGatherDims 50000 400000 256 hostFacts.gwf) (Wv (Proc.devRef (τ := τ) .tc main_arg0)) (srcIdx hostFacts 0 (by norm_num) (Wv (Proc.devRef (τ := τ) .tc main_arg4)))) := by
  simp (disch := decide) only [hostOps0, after_cons, after_nil, nullary_result', unary_result', binary_result', ternary_result', quaternary_result', reshape_result', nullary_result_ne', unary_result_ne', binary_result_ne', ternary_result_ne', quaternary_result_ne', reshape_result_ne', nary_result_ne']
  first | done | rfl

/-- and the number of edges into each node, -/
theorem s0_deg : (after (hostOps0 (F := Ideal)) Wv (Proc.devRef (τ := τ) .tc main_v19) : FVec Ideal SN .f32)
    = Host.scatterAdd (F := Ideal) (degScatterDims hostFacts.swf1) (broadcastInDim SN ![] hostFacts.bN (constant (F := Ideal) S0 .f32 0x00000000#32)) (dstIdx hostFacts 0 (by norm_num) (Wv (Proc.devRef (τ := τ) .tc main_arg5))) (broadcastInDim SE ![] hostFacts.bE (constant (F := Ideal) S0 .f32 0x3F800000#32)) := by
  simp (disch := decide) only [hostOps0, after_cons, after_nil, nullary_result', unary_result', binary_result', ternary_result', quaternary_result', reshape_result', nullary_result_ne', unary_result_ne', binary_result_ne', ternary_result_ne', quaternary_result_ne', reshape_result_ne', nary_result_ne']
  first | done | rfl

/-- and the constant one. -/
theorem s0_cst : (after (hostOps0 (F := Ideal)) Wv (Proc.devRef (τ := τ) .tc main_cst_3) : FVec Ideal S0 .f32) = constant (F := Ideal) S0 .f32 0x3F800000#32 := by
  simp (disch := decide) only [hostOps0, after_cons, after_nil, nullary_result', unary_result', binary_result', ternary_result', quaternary_result', reshape_result', nullary_result_ne', unary_result_ne', binary_result_ne', ternary_result_ne', quaternary_result_ne', reshape_result_ne', nary_result_ne']
  first | done | rfl

/-- Stretch 1 clamps the degree below at one, -/
theorem s1_clip : (after (hostOps0_1 (F := Ideal)) Wv (Proc.devRef (τ := τ) .tc main_v20) : FVec Ideal SN .f32)
    = (maximumf (broadcastInDim SN ![] hostFacts.bN (id (Wv (Proc.devRef (τ := τ) .tc main_cst_3) : FVec Ideal S0 .f32))) (Wv (Proc.devRef (τ := τ) .tc main_v19) : FVec Ideal SN .f32) : FVec Ideal SN .f32) := by
  simp (disch := decide) only [hostOps0_1, after_cons, after_nil, nullary_result', unary_result', binary_result', ternary_result', quaternary_result', reshape_result', nullary_result_ne', unary_result_ne', binary_result_ne', ternary_result_ne', quaternary_result_ne', reshape_result_ne', nary_result_ne']
  first | done | rfl

/-- and does not write the aggregate. -/
theorem s1_agg : after (hostOps0_1 (F := Ideal)) Wv (Proc.devRef (τ := τ) .tc main_v14) = Wv (Proc.devRef (τ := τ) .tc main_v14) := by
  simp (disch := decide) only [hostOps0_1, after_cons, after_nil, nullary_result', unary_result', binary_result', ternary_result', quaternary_result', reshape_result', nullary_result_ne', unary_result_ne', binary_result_ne', ternary_result_ne', quaternary_result_ne', reshape_result_ne', nary_result_ne']

/-- Stretch 2 multiplies the aggregate by one over the clamped degree, spread along the rows. -/
theorem s2_res : (after (hostOps0_2 (F := Ideal)) Wv (Proc.devRef (τ := τ) .tc main_v25) : FVec Ideal SX .f32)
    = mulf (Wv (Proc.devRef (τ := τ) .tc main_v14) : FVec Ideal SX .f32) (rowSpread hostFacts (Host.divf (F := Ideal) (oneN hostFacts) (Wv (Proc.devRef (τ := τ) .tc main_v20) : FVec Ideal SN .f32))) := by
  simp (disch := decide) only [hostOps0_2, after_cons, after_nil, nullary_result', unary_result', binary_result', ternary_result', quaternary_result', reshape_result', nullary_result_ne', unary_result_ne', binary_result_ne', ternary_result_ne', quaternary_result_ne', reshape_result_ne', nary_result_ne']
  first | done | rfl

theorem s3_res0 : after (hostOps0_3 (F := Ideal)) Wv (Proc.devRef (τ := τ) .tc main_v25) = Wv (Proc.devRef (τ := τ) .tc main_v25) := by
  simp (disch := decide) only [hostOps0_3, after_cons, after_nil, nullary_result', unary_result', binary_result', ternary_result', quaternary_result', reshape_result', nullary_result_ne', unary_result_ne', binary_result_ne', ternary_result_ne', quaternary_result_ne', reshape_result_ne', nary_result_ne']

theorem s4_res0 : after (hostOps0_4 (F := Ideal)) Wv (Proc.devRef (τ := τ) .tc main_v25) = Wv (Proc.devRef (τ := τ) .tc main_v25) := by
  simp (disch := decide) only [hostOps0_4, after_cons, after_nil, nullary_result', unary_result', binary_result', ternary_result', quaternary_result', reshape_result', nullary_result_ne', unary_result_ne', binary_result_ne', ternary_result_ne', quaternary_result_ne', reshape_result_ne', nary_result_ne']

theorem s5_res0 : after (hostOps0_5 (F := Ideal)) Wv (Proc.devRef (τ := τ) .tc main_v25) = Wv (Proc.devRef (τ := τ) .tc main_v25) := by
  simp (disch := decide) only [hostOps0_5, after_cons, after_nil, nullary_result', unary_result', binary_result', ternary_result', quaternary_result', reshape_result', nullary_result_ne', unary_result_ne', binary_result_ne', ternary_result_ne', quaternary_result_ne', reshape_result_ne', nary_result_ne']

theorem s6_res0 : after (hostOps0_6 (F := Ideal)) Wv (Proc.devRef (τ := τ) .tc main_v25) = Wv (Proc.devRef (τ := τ) .tc main_v25) := by
  simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']

theorem s7_res0 : after (hostOps0_7 (F := Ideal)) Wv (Proc.devRef (τ := τ) .tc main_v25) = Wv (Proc.devRef (τ := τ) .tc main_v25) := by
  simp (disch := decide) only [hostOps0_7, after_cons, after_nil, nullary_result', unary_result', binary_result', ternary_result', quaternary_result', reshape_result', nullary_result_ne', unary_result_ne', binary_result_ne', ternary_result_ne', quaternary_result_ne', reshape_result_ne', nary_result_ne']

theorem s8_res0 : after (hostOps0_8 (F := Ideal)) Wv (Proc.devRef (τ := τ) .tc main_v25) = Wv (Proc.devRef (τ := τ) .tc main_v25) := by
  simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']

theorem s9_res0 : after (hostOps0_9 (F := Ideal)) Wv (Proc.devRef (τ := τ) .tc main_v25) = Wv (Proc.devRef (τ := τ) .tc main_v25) := by
  simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']

theorem s10_res0 : after (hostOps0_10 (F := Ideal)) Wv (Proc.devRef (τ := τ) .tc main_v25) = Wv (Proc.devRef (τ := τ) .tc main_v25) := by
  simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']

theorem s11_res0 : after (hostOps0_11 (F := Ideal)) Wv (Proc.devRef (τ := τ) .tc main_v25) = Wv (Proc.devRef (τ := τ) .tc main_v25) := by
  simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']

theorem s12_res0 : after (hostOps0_12 (F := Ideal)) Wv (Proc.devRef (τ := τ) .tc main_v25) = Wv (Proc.devRef (τ := τ) .tc main_v25) := by
  simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']

theorem s13_res0 : after (hostOps0_13 (F := Ideal)) Wv (Proc.devRef (τ := τ) .tc main_v25) = Wv (Proc.devRef (τ := τ) .tc main_v25) := by
  simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']

theorem s14_res0 : after (hostOps0_14 (F := Ideal)) Wv (Proc.devRef (τ := τ) .tc main_v25) = Wv (Proc.devRef (τ := τ) .tc main_v25) := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']

theorem s15_res0 : after (hostOps0_15 (F := Ideal)) Wv (Proc.devRef (τ := τ) .tc main_v25) = Wv (Proc.devRef (τ := τ) .tc main_v25) := by
  simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']

end Stretch

section Walk
variable (m : (ℓ : Loc nD τ sig) → Buf (Elt Ideal) ℓ) (c : Dev nD)

theorem W0_agg0 : (W0 m c (Proc.devRef (τ := τ) .tc main_v14) : FVec Ideal SX .f32) = Host.scatterAdd (F := Ideal) (rowScatterDims 50000 400000 256 hostFacts.swf) (zeroX hostFacts) (dstIdx hostFacts 0 (by norm_num) (m ((c.tc : Thread nD τ).loc main_arg5))) (Host.gather (rowGatherDims 50000 400000 256 hostFacts.gwf) (m ((c.tc : Thread nD τ).loc main_arg0)) (srcIdx hostFacts 0 (by norm_num) (m ((c.tc : Thread nD τ).loc main_arg4)))) := by
  unfold W0; rw [s0_agg]
  first | done | rfl

theorem W0_deg0 : (W0 m c (Proc.devRef (τ := τ) .tc main_v19) : FVec Ideal SN .f32) = Host.scatterAdd (F := Ideal) (degScatterDims hostFacts.swf1) (broadcastInDim SN ![] hostFacts.bN (constant (F := Ideal) S0 .f32 0x00000000#32)) (dstIdx hostFacts 0 (by norm_num) (m ((c.tc : Thread nD τ).loc main_arg5))) (broadcastInDim SE ![] hostFacts.bE (constant (F := Ideal) S0 .f32 0x3F800000#32)) := by
  unfold W0; rw [s0_deg]
  first | done | rfl

theorem W0_cst0 : (W0 m c (Proc.devRef (τ := τ) .tc main_cst_3) : FVec Ideal S0 .f32) = constant (F := Ideal) S0 .f32 0x3F800000#32 := by
  unfold W0; rw [s0_cst]

/-- After stretch 1: the divisors of relation 0. -/
theorem W1_clip0 : (W1 m c (Proc.devRef (τ := τ) .tc main_v20) : FVec Ideal SN .f32) = degClip hostFacts 0 (by norm_num) (m ((c.tc : Thread nD τ).loc main_arg5)) := by
  unfold W1; rw [s1_clip, W0_cst0, W0_deg0]
  first | done | rfl

theorem W1_agg0 : (W1 m c (Proc.devRef (τ := τ) .tc main_v14) : FVec Ideal SX .f32) = Host.scatterAdd (F := Ideal) (rowScatterDims 50000 400000 256 hostFacts.swf) (zeroX hostFacts) (dstIdx hostFacts 0 (by norm_num) (m ((c.tc : Thread nD τ).loc main_arg5))) (Host.gather (rowGatherDims 50000 400000 256 hostFacts.gwf) (m ((c.tc : Thread nD τ).loc main_arg0)) (srcIdx hostFacts 0 (by norm_num) (m ((c.tc : Thread nD τ).loc main_arg4)))) := by
  unfold W1; rw [s1_agg]; exact W0_agg0 m c

/-- After stretch 2: relation 0's aggregate-first term. -/
theorem W2_res0 : (W2 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W2; rw [s2_res, W1_agg0, W1_clip0]
  first | done | rfl

theorem W3_res0 : (W3 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W3; rw [s3_res0]; exact W2_res0 m c

theorem W4_res0 : (W4 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W4; rw [s4_res0]; exact W3_res0 m c

theorem W5_res0 : (W5 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W5; rw [s5_res0]; exact W4_res0 m c

theorem W6_res0 : (W6 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W6; rw [s6_res0]; exact W5_res0 m c

theorem W7_res0 : (W7 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W7; rw [s7_res0]; exact W6_res0 m c

theorem W8_res0 : (W8 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W8; rw [s8_res0]; exact W7_res0 m c

theorem W9_res0 : (W9 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W9; rw [s9_res0]; exact W8_res0 m c

theorem W10_res0 : (W10 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W10; rw [s10_res0]; exact W9_res0 m c

theorem W11_res0 : (W11 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W11; rw [s11_res0]; exact W10_res0 m c

theorem W12_res0 : (W12 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W12; rw [s12_res0]; exact W11_res0 m c

theorem W13_res0 : (W13 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W13; rw [s13_res0]; exact W12_res0 m c

theorem W14_res0 : (W14 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W14; rw [s14_res0]; exact W13_res0 m c

theorem W15_res0 : (W15 m c (Proc.devRef (τ := τ) .tc main_v25) : FVec Ideal SX .f32) = K 0 (by norm_num) (m ((c.tc : Thread nD τ).loc main_arg0)) (m ((c.tc : Thread nD τ).loc main_arg4)) (m ((c.tc : Thread nD τ).loc main_arg5)) := by
  unfold W15; rw [s15_res0]; exact W14_res0 m c

end Walk

/-! ## Relation 1 -/

section Stretch
variable (Wv : Valuation τ sig (Elt Ideal))

/-- Stretch 2 leaves the aggregate of relation 1: the gathered rows summed into their targets. -/
theorem s2_agg : (after (hostOps0_2 (F := Ideal)) Wv (Proc.devRef (τ := τ) .tc main_v39) : FVec Ideal SX .f32)
    = Host.scatterAdd (F := Ideal) (rowScatterDims 50000 400000 256 hostFacts.swf) (zeroX hostFacts) (dstIdx hostFacts 1 (by norm_num) (Wv (Proc.devRef (τ := τ) .tc main_arg5))) (Host.gather (rowGatherDims 50000 400000 256 hostFacts.gwf) (Wv (Proc.devRef (τ := τ) .tc main_arg0)) (srcIdx hostFacts 1 (by norm_num) (Wv (Proc.devRef (τ := τ) .tc main_arg4)))) := by
  simp (disch := decide) only [hostOps0_2, after_cons, after_nil, nullary_result', unary_result', binary_result', ternary_result', quaternary_result', reshape_result', nullary_result_ne', unary_result_ne', binary_result_ne', ternary_result_ne', quaternary_result_ne', reshape_result_ne', nary_result_ne']
  first | done | rfl

/-- and the number of edges into each node, -/
theorem s2_deg : (after (hostOps0_2 (F := Ideal)) Wv (Proc.devRef (τ := τ) .tc main_v44) : FVec Ideal SN .f32)
    = Host.scatterAdd (F := Ideal) (degScatterDims hostFacts.swf1) (broadcastInDim SN ![] hostFacts.bN (constant (F := Ideal) S0 .f32 0x00000000#32)) (dstIdx hostFacts 1 (by norm_num) (Wv (Proc.devRef (τ := τ) .tc main_arg5))) (Wv (Proc.devRef (τ := τ) .tc main_v0) : FVec Ideal SE .f32) := by
  simp (disch := decide) only [hostOps0_2, after_cons, after_nil, nullary_result', unary_result', binary_result', ternary_result', quaternary_result', reshape_result', nullary_result_ne', unary_result_ne', binary_result_ne', ternary_result_ne', quaternary_result_ne', reshape_result_ne', nary_result_ne']
  first | done | rfl

/-- and the constant one. -/
theorem s2_cst : (after (hostOps0_2 (F := Ideal)) Wv (Proc.devRef (τ := τ) .tc main_cst_9) : FVec Ideal S0 .f32) = constant (F := Ideal) S0 .f32 0x3F800000#32 := by
  simp (disch := decide) only [hostOps0_2, after_cons, after_nil, nullary_result', unary_result', binary_result', ternary_result', quaternary_result', reshape_result', nullary_result_ne', unary_result_ne', binary_result_ne', ternary_result_ne', quaternary_result_ne', reshape_result_ne', nary_result_ne']
  first | done | rfl

/-- Stretch 3 clamps the degree below at one, -/
theorem s3_clip : (after (hostOps0_3 (F := Ideal)) Wv (Proc.devRef (τ := τ) .tc main_v45) : FVec Ideal SN .f32)
    = (maximumf (broadcastInDim SN ![] hostFacts.bN (id (Wv (Proc.devRef (τ := τ) .tc main_cst_9) : FVec Ideal S0 .f32))) (Wv (Proc.devRef (τ := τ) .tc main_v44) : FVec Ideal SN .f32) : FVec Ideal SN .f32) := by
  simp (disch := decide) only [hostOps0_3, after_cons, after_nil, nullary_result', unary_result', binary_result', ternary_result', quaternary_result', reshape_result', nullary_result_ne', unary_result_ne', binary_result_ne', ternary_result_ne', quaternary_result_ne', reshape_result_ne', nary_result_ne']
  first | done | rfl

/-- and does not write the aggregate. -/
theorem s3_agg : after (hostOps0_3 (F := Ideal)) Wv (Proc.devRef (τ := τ) .tc main_v39) = Wv (Proc.devRef (τ := τ) .tc main_v39) := by
  simp (disch := decide) only [hostOps0_3, after_cons, after_nil, nullary_result', unary_result', binary_result', ternary_result', quaternary_result', reshape_result', nullary_result_ne', unary_result_ne', binary_result_ne', ternary_result_ne', quaternary_result_ne', reshape_result_ne', nary_result_ne']

/-- Stretch 4 multiplies the aggregate by one over the clamped degree, spread along the rows. -/
theorem s4_res : (after (hostOps0_4 (F := Ideal)) Wv (Proc.devRef (τ := τ) .tc main_v50) : FVec Ideal SX .f32)
    = mulf (Wv (Proc.devRef (τ := τ) .tc main_v39) : FVec Ideal SX .f32) (rowSpread hostFacts (Host.divf (F := Ideal) (oneN hostFacts) (Wv (Proc.devRef (τ := τ) .tc main_v45) : FVec Ideal SN .f32))) := by
  simp (disch := decide) only [hostOps0_4, after_cons, after_nil, nullary_result', unary_result', binary_result', ternary_result', quaternary_result', reshape_result', nullary_result_ne', unary_result_ne', binary_result_ne', ternary_result_ne', quaternary_result_ne', reshape_result_ne', nary_result_ne']
  first | done | rfl

theorem s5_res1 : after (hostOps0_5 (F := Ideal)) Wv (Proc.devRef (τ := τ) .tc main_v50) = Wv (Proc.devRef (τ := τ) .tc main_v50) := by
  simp (disch := decide) only [hostOps0_5, after_cons, after_nil, nullary_result', unary_result', binary_result', ternary_result', quaternary_result', reshape_result', nullary_result_ne', unary_result_ne', binary_result_ne', ternary_result_ne', quaternary_result_ne', reshape_result_ne', nary_result_ne']

theorem s6_res1 : after (hostOps0_6 (F := Ideal)) Wv (Proc.devRef (τ := τ) .tc main_v50) = Wv (Proc.devRef (τ := τ) .tc main_v50) := by
  simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']

theorem s7_res1 : after (hostOps0_7 (F := Ideal)) Wv (Proc.devRef (τ := τ) .tc main_v50) = Wv (Proc.devRef (τ := τ) .tc main_v50) := by
  simp (disch := decide) only [hostOps0_7, after_cons, after_nil, nullary_result', unary_result', binary_result', ternary_result', quaternary_result', reshape_result', nullary_result_ne', unary_result_ne', binary_result_ne', ternary_result_ne', quaternary_result_ne', reshape_result_ne', nary_result_ne']

theorem s8_res1 : after (hostOps0_8 (F := Ideal)) Wv (Proc.devRef (τ := τ) .tc main_v50) = Wv (Proc.devRef (τ := τ) .tc main_v50) := by
  simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']

theorem s9_res1 : after (hostOps0_9 (F := Ideal)) Wv (Proc.devRef (τ := τ) .tc main_v50) = Wv (Proc.devRef (τ := τ) .tc main_v50) := by
  simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']

theorem s10_res1 : after (hostOps0_10 (F := Ideal)) Wv (Proc.devRef (τ := τ) .tc main_v50) = Wv (Proc.devRef (τ := τ) .tc main_v50) := by
  simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']

theorem s11_res1 : after (hostOps0_11 (F := Ideal)) Wv (Proc.devRef (τ := τ) .tc main_v50) = Wv (Proc.devRef (τ := τ) .tc main_v50) := by
  simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']

theorem s12_res1 : after (hostOps0_12 (F := Ideal)) Wv (Proc.devRef (τ := τ) .tc main_v50) = Wv (Proc.devRef (τ := τ) .tc main_v50) := by
  simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']

theorem s13_res1 : after (hostOps0_13 (F := Ideal)) Wv (Proc.devRef (τ := τ) .tc main_v50) = Wv (Proc.devRef (τ := τ) .tc main_v50) := by
  simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']

theorem s14_res1 : after (hostOps0_14 (F := Ideal)) Wv (Proc.devRef (τ := τ) .tc main_v50) = Wv (Proc.devRef (τ := τ) .tc main_v50) := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']

theorem s15_res1 : after (hostOps0_15 (F := Ideal)) Wv (Proc.devRef (τ := τ) .tc main_v50) = Wv (Proc.devRef (τ := τ) .tc main_v50) := by
  simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']

end Stretch

section Walk
variable (m : (ℓ : Loc nD τ sig) → Buf (Elt Ideal) ℓ) (c : Dev nD)

theorem W2_agg1 : (W2 m c (Proc.devRef (τ := τ) .tc main_v39) : FVec Ideal SX .f32) = Host.scatterAdd (F := Ideal) (rowScatterDims 50000 400000 256 hostFacts.swf) (zeroX hostFacts) (dstIdx hostFacts 1 (by norm_num) (m ((c.tc : Thread nD τ).loc main_arg5))) (Host.gather (rowGatherDims 50000 400000 256 hostFacts.gwf) (m ((c.tc : Thread nD τ).loc main_arg0)) (srcIdx hostFacts 1 (by norm_num) (m ((c.tc : Thread nD τ).loc main_arg4)))) := by
  unfold W2; rw [s2_agg, W1_arg0, W1_arg4, W1_arg5]

theorem W2_deg1 : (W2 m c (Proc.devRef (τ := τ) .tc main_v44) : FVec Ideal SN .f32) = Host.scatterAdd (F := Ideal) (degScatterDims hostFacts.swf1) (broadcastInDim SN ![] hostFacts.bN (constant (F := Ideal) S0 .f32 0x00000000#32)) (dstIdx hostFacts 1 (by norm_num) (m ((c.tc : Thread nD τ).loc main_arg5))) (broadcastInDim SE ![] hostFacts.bE (constant (F := Ideal) S0 .f32 0x3F800000#32)) := by
  unfold W2; rw [s2_deg, W1_arg5, W1_ones]

theorem W2_cst1 : (W2 m c (Proc.devRef (τ := τ) .tc main_cst_9) : FVec Ideal S0 .f32) = constant (F := Ideal) S0 .f32 0x3F800000#32 := by
  unfold W2; rw [s2_cst]

/-- After stretch 3: the divisors of relation 1. -/
theorem W3_clip1 : (W3 m c (Proc.devRef (τ := τ) .tc main_v45) : FVec Ideal SN .f32) = degClip hostFacts 1 (by norm_num) (m ((c.tc : Thread nD τ).loc main_arg5)) := by
  unfold W3; rw [s3_clip, W2_cst1, W2_deg1]
  first | done | rfl

theorem W3_agg1 : (W3 m c (Proc.devRef (τ := τ) .tc main_v39) : FVec Ideal SX .f32) = Host.scatterAdd (F := Ideal) (rowScatterDims 50000 400000 256 hostFacts.swf) (zeroX hostFacts) (dstIdx hostFacts 1 (by norm_num) (m ((c.tc : Thread nD τ).loc main_arg5))) (Host.gather (rowGatherDims 50000 400000 256 hostFacts.gwf) (m ((c.tc : Thread nD τ).loc main_arg0)) (srcIdx hostFacts 1 (by norm_num) (m ((c.tc : Thread nD τ).loc main_arg4)))) := by
  unfold W3; rw [s3_agg]; exact W2_agg1 m c

/-- After stretch 4: relation 1's aggregate-first term. -/
theorem W4_res1 : (W4 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W4; rw [s4_res, W3_agg1, W3_clip1]
  first | done | rfl

theorem W5_res1 : (W5 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W5; rw [s5_res1]; exact W4_res1 m c

theorem W6_res1 : (W6 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W6; rw [s6_res1]; exact W5_res1 m c

theorem W7_res1 : (W7 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W7; rw [s7_res1]; exact W6_res1 m c

theorem W8_res1 : (W8 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W8; rw [s8_res1]; exact W7_res1 m c

theorem W9_res1 : (W9 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W9; rw [s9_res1]; exact W8_res1 m c

theorem W10_res1 : (W10 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W10; rw [s10_res1]; exact W9_res1 m c

theorem W11_res1 : (W11 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W11; rw [s11_res1]; exact W10_res1 m c

theorem W12_res1 : (W12 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W12; rw [s12_res1]; exact W11_res1 m c

theorem W13_res1 : (W13 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W13; rw [s13_res1]; exact W12_res1 m c

theorem W14_res1 : (W14 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W14; rw [s14_res1]; exact W13_res1 m c

theorem W15_res1 : (W15 m c (Proc.devRef (τ := τ) .tc main_v50) : FVec Ideal SX .f32) = K 1 (by norm_num) (m ((c.tc : Thread nD τ).loc main_arg0)) (m ((c.tc : Thread nD τ).loc main_arg4)) (m ((c.tc : Thread nD τ).loc main_arg5)) := by
  unfold W15; rw [s15_res1]; exact W14_res1 m c

end Walk

/-! ## Relation 2 -/

section Stretch
variable (Wv : Valuation τ sig (Elt Ideal))

/-- Stretch 4 leaves the aggregate of relation 2: the gathered rows summed into their targets. -/
theorem s4_agg : (after (hostOps0_4 (F := Ideal)) Wv (Proc.devRef (τ := τ) .tc main_v64) : FVec Ideal SX .f32)
    = Host.scatterAdd (F := Ideal) (rowScatterDims 50000 400000 256 hostFacts.swf) (zeroX hostFacts) (dstIdx hostFacts 2 (by norm_num) (Wv (Proc.devRef (τ := τ) .tc main_arg5))) (Host.gather (rowGatherDims 50000 400000 256 hostFacts.gwf) (Wv (Proc.devRef (τ := τ) .tc main_arg0)) (srcIdx hostFacts 2 (by norm_num) (Wv (Proc.devRef (τ := τ) .tc main_arg4)))) := by
  simp (disch := decide) only [hostOps0_4, after_cons, after_nil, nullary_result', unary_result', binary_result', ternary_result', quaternary_result', reshape_result', nullary_result_ne', unary_result_ne', binary_result_ne', ternary_result_ne', quaternary_result_ne', reshape_result_ne', nary_result_ne']
  first | done | rfl

/-- and the number of edges into each node, -/
theorem s4_deg : (after (hostOps0_4 (F := Ideal)) Wv (Proc.devRef (τ := τ) .tc main_v69) : FVec Ideal SN .f32)
    = Host.scatterAdd (F := Ideal) (degScatterDims hostFacts.swf1) (broadcastInDim SN ![] hostFacts.bN (constant (F := Ideal) S0 .f32 0x00000000#32)) (dstIdx hostFacts 2 (by norm_num) (Wv (Proc.devRef (τ := τ) .tc main_arg5))) (Wv (Proc.devRef (τ := τ) .tc main_v0) : FVec Ideal SE .f32) := by
  simp (disch := decide) only [hostOps0_4, after_cons, after_nil, nullary_result', unary_result', binary_result', ternary_result', quaternary_result', reshape_result', nullary_result_ne', unary_result_ne', binary_result_ne', ternary_result_ne', quaternary_result_ne', reshape_result_ne', nary_result_ne']
  first | done | rfl

/-- and the constant one. -/
theorem s4_cst : (after (hostOps0_4 (F := Ideal)) Wv (Proc.devRef (τ := τ) .tc main_cst_15) : FVec Ideal S0 .f32) = constant (F := Ideal) S0 .f32 0x3F800000#32 := by
  simp (disch := decide) only [hostOps0_4, after_cons, after_nil, nullary_result', unary_result', binary_result', ternary_result', quaternary_result', reshape_result', nullary_result_ne', unary_result_ne', binary_result_ne', ternary_result_ne', quaternary_result_ne', reshape_result_ne', nary_result_ne']
  first | done | rfl

/-- Stretch 5 clamps the degree below at one, -/
theorem s5_clip : (after (hostOps0_5 (F := Ideal)) Wv (Proc.devRef (τ := τ) .tc main_v70) : FVec Ideal SN .f32)
    = (maximumf (broadcastInDim SN ![] hostFacts.bN (id (Wv (Proc.devRef (τ := τ) .tc main_cst_15) : FVec Ideal S0 .f32))) (Wv (Proc.devRef (τ := τ) .tc main_v69) : FVec Ideal SN .f32) : FVec Ideal SN .f32) := by
  simp (disch := decide) only [hostOps0_5, after_cons, after_nil, nullary_result', unary_result', binary_result', ternary_result', quaternary_result', reshape_result', nullary_result_ne', unary_result_ne', binary_result_ne', ternary_result_ne', quaternary_result_ne', reshape_result_ne', nary_result_ne']
  first | done | rfl

/-- and does not write the aggregate. -/
theorem s5_agg : after (hostOps0_5 (F := Ideal)) Wv (Proc.devRef (τ := τ) .tc main_v64) = Wv (Proc.devRef (τ := τ) .tc main_v64) := by
  simp (disch := decide) only [hostOps0_5, after_cons, after_nil, nullary_result', unary_result', binary_result', ternary_result', quaternary_result', reshape_result', nullary_result_ne', unary_result_ne', binary_result_ne', ternary_result_ne', quaternary_result_ne', reshape_result_ne', nary_result_ne']

/-- Stretch 6 multiplies the aggregate by one over the clamped degree, spread along the rows. -/
theorem s6_res : (after (hostOps0_6 (F := Ideal)) Wv (Proc.devRef (τ := τ) .tc main_v75) : FVec Ideal SX .f32)
    = mulf (Wv (Proc.devRef (τ := τ) .tc main_v64) : FVec Ideal SX .f32) (rowSpread hostFacts (Host.divf (F := Ideal) (oneN hostFacts) (Wv (Proc.devRef (τ := τ) .tc main_v70) : FVec Ideal SN .f32))) := by
  simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']
  first | done | rfl

theorem s7_res2 : after (hostOps0_7 (F := Ideal)) Wv (Proc.devRef (τ := τ) .tc main_v75) = Wv (Proc.devRef (τ := τ) .tc main_v75) := by
  simp (disch := decide) only [hostOps0_7, after_cons, after_nil, nullary_result', unary_result', binary_result', ternary_result', quaternary_result', reshape_result', nullary_result_ne', unary_result_ne', binary_result_ne', ternary_result_ne', quaternary_result_ne', reshape_result_ne', nary_result_ne']

theorem s8_res2 : after (hostOps0_8 (F := Ideal)) Wv (Proc.devRef (τ := τ) .tc main_v75) = Wv (Proc.devRef (τ := τ) .tc main_v75) := by
  simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']

theorem s9_res2 : after (hostOps0_9 (F := Ideal)) Wv (Proc.devRef (τ := τ) .tc main_v75) = Wv (Proc.devRef (τ := τ) .tc main_v75) := by
  simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']

theorem s10_res2 : after (hostOps0_10 (F := Ideal)) Wv (Proc.devRef (τ := τ) .tc main_v75) = Wv (Proc.devRef (τ := τ) .tc main_v75) := by
  simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']

theorem s11_res2 : after (hostOps0_11 (F := Ideal)) Wv (Proc.devRef (τ := τ) .tc main_v75) = Wv (Proc.devRef (τ := τ) .tc main_v75) := by
  simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']

theorem s12_res2 : after (hostOps0_12 (F := Ideal)) Wv (Proc.devRef (τ := τ) .tc main_v75) = Wv (Proc.devRef (τ := τ) .tc main_v75) := by
  simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']

theorem s13_res2 : after (hostOps0_13 (F := Ideal)) Wv (Proc.devRef (τ := τ) .tc main_v75) = Wv (Proc.devRef (τ := τ) .tc main_v75) := by
  simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']

theorem s14_res2 : after (hostOps0_14 (F := Ideal)) Wv (Proc.devRef (τ := τ) .tc main_v75) = Wv (Proc.devRef (τ := τ) .tc main_v75) := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']

theorem s15_res2 : after (hostOps0_15 (F := Ideal)) Wv (Proc.devRef (τ := τ) .tc main_v75) = Wv (Proc.devRef (τ := τ) .tc main_v75) := by
  simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']

end Stretch

section Walk
variable (m : (ℓ : Loc nD τ sig) → Buf (Elt Ideal) ℓ) (c : Dev nD)

theorem W4_agg2 : (W4 m c (Proc.devRef (τ := τ) .tc main_v64) : FVec Ideal SX .f32) = Host.scatterAdd (F := Ideal) (rowScatterDims 50000 400000 256 hostFacts.swf) (zeroX hostFacts) (dstIdx hostFacts 2 (by norm_num) (m ((c.tc : Thread nD τ).loc main_arg5))) (Host.gather (rowGatherDims 50000 400000 256 hostFacts.gwf) (m ((c.tc : Thread nD τ).loc main_arg0)) (srcIdx hostFacts 2 (by norm_num) (m ((c.tc : Thread nD τ).loc main_arg4)))) := by
  unfold W4; rw [s4_agg, W3_arg0, W3_arg4, W3_arg5]

theorem W4_deg2 : (W4 m c (Proc.devRef (τ := τ) .tc main_v69) : FVec Ideal SN .f32) = Host.scatterAdd (F := Ideal) (degScatterDims hostFacts.swf1) (broadcastInDim SN ![] hostFacts.bN (constant (F := Ideal) S0 .f32 0x00000000#32)) (dstIdx hostFacts 2 (by norm_num) (m ((c.tc : Thread nD τ).loc main_arg5))) (broadcastInDim SE ![] hostFacts.bE (constant (F := Ideal) S0 .f32 0x3F800000#32)) := by
  unfold W4; rw [s4_deg, W3_arg5, W3_ones]

theorem W4_cst2 : (W4 m c (Proc.devRef (τ := τ) .tc main_cst_15) : FVec Ideal S0 .f32) = constant (F := Ideal) S0 .f32 0x3F800000#32 := by
  unfold W4; rw [s4_cst]

/-- After stretch 5: the divisors of relation 2. -/
theorem W5_clip2 : (W5 m c (Proc.devRef (τ := τ) .tc main_v70) : FVec Ideal SN .f32) = degClip hostFacts 2 (by norm_num) (m ((c.tc : Thread nD τ).loc main_arg5)) := by
  unfold W5; rw [s5_clip, W4_cst2, W4_deg2]
  first | done | rfl

theorem W5_agg2 : (W5 m c (Proc.devRef (τ := τ) .tc main_v64) : FVec Ideal SX .f32) = Host.scatterAdd (F := Ideal) (rowScatterDims 50000 400000 256 hostFacts.swf) (zeroX hostFacts) (dstIdx hostFacts 2 (by norm_num) (m ((c.tc : Thread nD τ).loc main_arg5))) (Host.gather (rowGatherDims 50000 400000 256 hostFacts.gwf) (m ((c.tc : Thread nD τ).loc main_arg0)) (srcIdx hostFacts 2 (by norm_num) (m ((c.tc : Thread nD τ).loc main_arg4)))) := by
  unfold W5; rw [s5_agg]; exact W4_agg2 m c

/-- After stretch 6: relation 2's aggregate-first term. -/
theorem W6_res2 : (W6 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W6; rw [s6_res, W5_agg2, W5_clip2]
  first | done | rfl

theorem W7_res2 : (W7 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W7; rw [s7_res2]; exact W6_res2 m c

theorem W8_res2 : (W8 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W8; rw [s8_res2]; exact W7_res2 m c

theorem W9_res2 : (W9 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W9; rw [s9_res2]; exact W8_res2 m c

theorem W10_res2 : (W10 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W10; rw [s10_res2]; exact W9_res2 m c

theorem W11_res2 : (W11 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W11; rw [s11_res2]; exact W10_res2 m c

theorem W12_res2 : (W12 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W12; rw [s12_res2]; exact W11_res2 m c

theorem W13_res2 : (W13 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W13; rw [s13_res2]; exact W12_res2 m c

theorem W14_res2 : (W14 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W14; rw [s14_res2]; exact W13_res2 m c

theorem W15_res2 : (W15 m c (Proc.devRef (τ := τ) .tc main_v75) : FVec Ideal SX .f32) = K 2 (by norm_num) (m ((c.tc : Thread nD τ).loc main_arg0)) (m ((c.tc : Thread nD τ).loc main_arg4)) (m ((c.tc : Thread nD τ).loc main_arg5)) := by
  unfold W15; rw [s15_res2]; exact W14_res2 m c

end Walk

/-! ## Relation 3 -/

section Stretch
variable (Wv : Valuation τ sig (Elt Ideal))

/-- Stretch 6 leaves the aggregate of relation 3: the gathered rows summed into their targets. -/
theorem s6_agg : (after (hostOps0_6 (F := Ideal)) Wv (Proc.devRef (τ := τ) .tc main_v89) : FVec Ideal SX .f32)
    = Host.scatterAdd (F := Ideal) (rowScatterDims 50000 400000 256 hostFacts.swf) (zeroX hostFacts) (dstIdx hostFacts 3 (by norm_num) (Wv (Proc.devRef (τ := τ) .tc main_arg5))) (Host.gather (rowGatherDims 50000 400000 256 hostFacts.gwf) (Wv (Proc.devRef (τ := τ) .tc main_arg0)) (srcIdx hostFacts 3 (by norm_num) (Wv (Proc.devRef (τ := τ) .tc main_arg4)))) := by
  simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']
  first | done | rfl

/-- and the number of edges into each node, -/
theorem s6_deg : (after (hostOps0_6 (F := Ideal)) Wv (Proc.devRef (τ := τ) .tc main_v94) : FVec Ideal SN .f32)
    = Host.scatterAdd (F := Ideal) (degScatterDims hostFacts.swf1) (broadcastInDim SN ![] hostFacts.bN (constant (F := Ideal) S0 .f32 0x00000000#32)) (dstIdx hostFacts 3 (by norm_num) (Wv (Proc.devRef (τ := τ) .tc main_arg5))) (Wv (Proc.devRef (τ := τ) .tc main_v0) : FVec Ideal SE .f32) := by
  simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']
  first | done | rfl

/-- and the constant one. -/
theorem s6_cst : (after (hostOps0_6 (F := Ideal)) Wv (Proc.devRef (τ := τ) .tc main_cst_21) : FVec Ideal S0 .f32) = constant (F := Ideal) S0 .f32 0x3F800000#32 := by
  simp (disch := decide) only [hostOps0_6, after_cons, after_nil, nullary_result', unary_result', binary_result', ternary_result', quaternary_result', reshape_result', nullary_result_ne', unary_result_ne', binary_result_ne', ternary_result_ne', quaternary_result_ne', reshape_result_ne', nary_result_ne']
  first | done | rfl

/-- Stretch 7 clamps the degree below at one, -/
theorem s7_clip : (after (hostOps0_7 (F := Ideal)) Wv (Proc.devRef (τ := τ) .tc main_v95) : FVec Ideal SN .f32)
    = (maximumf (broadcastInDim SN ![] hostFacts.bN (id (Wv (Proc.devRef (τ := τ) .tc main_cst_21) : FVec Ideal S0 .f32))) (Wv (Proc.devRef (τ := τ) .tc main_v94) : FVec Ideal SN .f32) : FVec Ideal SN .f32) := by
  simp (disch := decide) only [hostOps0_7, after_cons, after_nil, nullary_result', unary_result', binary_result', ternary_result', quaternary_result', reshape_result', nullary_result_ne', unary_result_ne', binary_result_ne', ternary_result_ne', quaternary_result_ne', reshape_result_ne', nary_result_ne']
  first | done | rfl

/-- and does not write the aggregate. -/
theorem s7_agg : after (hostOps0_7 (F := Ideal)) Wv (Proc.devRef (τ := τ) .tc main_v89) = Wv (Proc.devRef (τ := τ) .tc main_v89) := by
  simp (disch := decide) only [hostOps0_7, after_cons, after_nil, nullary_result', unary_result', binary_result', ternary_result', quaternary_result', reshape_result', nullary_result_ne', unary_result_ne', binary_result_ne', ternary_result_ne', quaternary_result_ne', reshape_result_ne', nary_result_ne']

/-- Stretch 8 multiplies the aggregate by one over the clamped degree, spread along the rows. -/
theorem s8_res : (after (hostOps0_8 (F := Ideal)) Wv (Proc.devRef (τ := τ) .tc main_v100) : FVec Ideal SX .f32)
    = mulf (Wv (Proc.devRef (τ := τ) .tc main_v89) : FVec Ideal SX .f32) (rowSpread hostFacts (Host.divf (F := Ideal) (oneN hostFacts) (Wv (Proc.devRef (τ := τ) .tc main_v95) : FVec Ideal SN .f32))) := by
  simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']
  first | done | rfl

theorem s9_res3 : after (hostOps0_9 (F := Ideal)) Wv (Proc.devRef (τ := τ) .tc main_v100) = Wv (Proc.devRef (τ := τ) .tc main_v100) := by
  simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']

theorem s10_res3 : after (hostOps0_10 (F := Ideal)) Wv (Proc.devRef (τ := τ) .tc main_v100) = Wv (Proc.devRef (τ := τ) .tc main_v100) := by
  simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']

theorem s11_res3 : after (hostOps0_11 (F := Ideal)) Wv (Proc.devRef (τ := τ) .tc main_v100) = Wv (Proc.devRef (τ := τ) .tc main_v100) := by
  simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']

theorem s12_res3 : after (hostOps0_12 (F := Ideal)) Wv (Proc.devRef (τ := τ) .tc main_v100) = Wv (Proc.devRef (τ := τ) .tc main_v100) := by
  simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']

theorem s13_res3 : after (hostOps0_13 (F := Ideal)) Wv (Proc.devRef (τ := τ) .tc main_v100) = Wv (Proc.devRef (τ := τ) .tc main_v100) := by
  simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']

theorem s14_res3 : after (hostOps0_14 (F := Ideal)) Wv (Proc.devRef (τ := τ) .tc main_v100) = Wv (Proc.devRef (τ := τ) .tc main_v100) := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']

theorem s15_res3 : after (hostOps0_15 (F := Ideal)) Wv (Proc.devRef (τ := τ) .tc main_v100) = Wv (Proc.devRef (τ := τ) .tc main_v100) := by
  simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']

end Stretch

section Walk
variable (m : (ℓ : Loc nD τ sig) → Buf (Elt Ideal) ℓ) (c : Dev nD)

theorem W6_agg3 : (W6 m c (Proc.devRef (τ := τ) .tc main_v89) : FVec Ideal SX .f32) = Host.scatterAdd (F := Ideal) (rowScatterDims 50000 400000 256 hostFacts.swf) (zeroX hostFacts) (dstIdx hostFacts 3 (by norm_num) (m ((c.tc : Thread nD τ).loc main_arg5))) (Host.gather (rowGatherDims 50000 400000 256 hostFacts.gwf) (m ((c.tc : Thread nD τ).loc main_arg0)) (srcIdx hostFacts 3 (by norm_num) (m ((c.tc : Thread nD τ).loc main_arg4)))) := by
  unfold W6; rw [s6_agg, W5_arg0, W5_arg4, W5_arg5]

theorem W6_deg3 : (W6 m c (Proc.devRef (τ := τ) .tc main_v94) : FVec Ideal SN .f32) = Host.scatterAdd (F := Ideal) (degScatterDims hostFacts.swf1) (broadcastInDim SN ![] hostFacts.bN (constant (F := Ideal) S0 .f32 0x00000000#32)) (dstIdx hostFacts 3 (by norm_num) (m ((c.tc : Thread nD τ).loc main_arg5))) (broadcastInDim SE ![] hostFacts.bE (constant (F := Ideal) S0 .f32 0x3F800000#32)) := by
  unfold W6; rw [s6_deg, W5_arg5, W5_ones]

theorem W6_cst3 : (W6 m c (Proc.devRef (τ := τ) .tc main_cst_21) : FVec Ideal S0 .f32) = constant (F := Ideal) S0 .f32 0x3F800000#32 := by
  unfold W6; rw [s6_cst]

/-- After stretch 7: the divisors of relation 3. -/
theorem W7_clip3 : (W7 m c (Proc.devRef (τ := τ) .tc main_v95) : FVec Ideal SN .f32) = degClip hostFacts 3 (by norm_num) (m ((c.tc : Thread nD τ).loc main_arg5)) := by
  unfold W7; rw [s7_clip, W6_cst3, W6_deg3]
  first | done | rfl

theorem W7_agg3 : (W7 m c (Proc.devRef (τ := τ) .tc main_v89) : FVec Ideal SX .f32) = Host.scatterAdd (F := Ideal) (rowScatterDims 50000 400000 256 hostFacts.swf) (zeroX hostFacts) (dstIdx hostFacts 3 (by norm_num) (m ((c.tc : Thread nD τ).loc main_arg5))) (Host.gather (rowGatherDims 50000 400000 256 hostFacts.gwf) (m ((c.tc : Thread nD τ).loc main_arg0)) (srcIdx hostFacts 3 (by norm_num) (m ((c.tc : Thread nD τ).loc main_arg4)))) := by
  unfold W7; rw [s7_agg]; exact W6_agg3 m c

/-- After stretch 8: relation 3's aggregate-first term. -/
theorem W8_res3 : (W8 m c (Proc.devRef (τ := τ) .tc main_v100) : FVec Ideal SX .f32) = K 3 (by norm_num) (m ((c.tc : Thread nD τ).loc main_arg0)) (m ((c.tc : Thread nD τ).loc main_arg4)) (m ((c.tc : Thread nD τ).loc main_arg5)) := by
  unfold W8; rw [s8_res, W7_agg3, W7_clip3]
  first | done | rfl

theorem W9_res3 : (W9 m c (Proc.devRef (τ := τ) .tc main_v100) : FVec Ideal SX .f32) = K 3 (by norm_num) (m ((c.tc : Thread nD τ).loc main_arg0)) (m ((c.tc : Thread nD τ).loc main_arg4)) (m ((c.tc : Thread nD τ).loc main_arg5)) := by
  unfold W9; rw [s9_res3]; exact W8_res3 m c

theorem W10_res3 : (W10 m c (Proc.devRef (τ := τ) .tc main_v100) : FVec Ideal SX .f32) = K 3 (by norm_num) (m ((c.tc : Thread nD τ).loc main_arg0)) (m ((c.tc : Thread nD τ).loc main_arg4)) (m ((c.tc : Thread nD τ).loc main_arg5)) := by
  unfold W10; rw [s10_res3]; exact W9_res3 m c

theorem W11_res3 : (W11 m c (Proc.devRef (τ := τ) .tc main_v100) : FVec Ideal SX .f32) = K 3 (by norm_num) (m ((c.tc : Thread nD τ).loc main_arg0)) (m ((c.tc : Thread nD τ).loc main_arg4)) (m ((c.tc : Thread nD τ).loc main_arg5)) := by
  unfold W11; rw [s11_res3]; exact W10_res3 m c

theorem W12_res3 : (W12 m c (Proc.devRef (τ := τ) .tc main_v100) : FVec Ideal SX .f32) = K 3 (by norm_num) (m ((c.tc : Thread nD τ).loc main_arg0)) (m ((c.tc : Thread nD τ).loc main_arg4)) (m ((c.tc : Thread nD τ).loc main_arg5)) := by
  unfold W12; rw [s12_res3]; exact W11_res3 m c

theorem W13_res3 : (W13 m c (Proc.devRef (τ := τ) .tc main_v100) : FVec Ideal SX .f32) = K 3 (by norm_num) (m ((c.tc : Thread nD τ).loc main_arg0)) (m ((c.tc : Thread nD τ).loc main_arg4)) (m ((c.tc : Thread nD τ).loc main_arg5)) := by
  unfold W13; rw [s13_res3]; exact W12_res3 m c

theorem W14_res3 : (W14 m c (Proc.devRef (τ := τ) .tc main_v100) : FVec Ideal SX .f32) = K 3 (by norm_num) (m ((c.tc : Thread nD τ).loc main_arg0)) (m ((c.tc : Thread nD τ).loc main_arg4)) (m ((c.tc : Thread nD τ).loc main_arg5)) := by
  unfold W14; rw [s14_res3]; exact W13_res3 m c

theorem W15_res3 : (W15 m c (Proc.devRef (τ := τ) .tc main_v100) : FVec Ideal SX .f32) = K 3 (by norm_num) (m ((c.tc : Thread nD τ).loc main_arg0)) (m ((c.tc : Thread nD τ).loc main_arg4)) (m ((c.tc : Thread nD τ).loc main_arg5)) := by
  unfold W15; rw [s15_res3]; exact W14_res3 m c

end Walk

end Cert.KernelIdeal.HostSide

end
-- ==== Proof.KerHostSegB.lean ====
/-
  Relations 4 to 7, stretch by stretch.

  For relation k, stretch 2k gathers the source rows of the node table and sums them into their
  target rows (the aggregate), and counts the edges into each node (the degree); stretch 2k+1 clamps
  the degree below at one; the first operations of stretch 2k+2 multiply the aggregate by one over
  the clamped degree, spread along the rows.  Over the arguments this is the relation's
  aggregate-first term `K k`.  No later stretch writes a relation's result, so it is still in
  memory when the last stretch stacks the slabs.  (Relation 7's product is formed by the last
  stretch itself.)
-/
import proofs.«137636_j2181843386580_2_alg».proof.Proof.KerHostSegA

set_option maxRecDepth 16384

noncomputable section

namespace Cert.KernelIdeal.HostSide

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand Cert.RGcn Cert.LibAggRows

/-! ## Relation 4 -/

section Stretch
variable (Wv : Valuation τ sig (Elt Ideal))

/-- Stretch 8 leaves the aggregate of relation 4: the gathered rows summed into their targets. -/
theorem s8_agg : (after (hostOps0_8 (F := Ideal)) Wv (Proc.devRef (τ := τ) .tc main_v114) : FVec Ideal SX .f32)
    = Host.scatterAdd (F := Ideal) (rowScatterDims 50000 400000 256 hostFacts.swf) (zeroX hostFacts) (dstIdx hostFacts 4 (by norm_num) (Wv (Proc.devRef (τ := τ) .tc main_arg5))) (Host.gather (rowGatherDims 50000 400000 256 hostFacts.gwf) (Wv (Proc.devRef (τ := τ) .tc main_arg0)) (srcIdx hostFacts 4 (by norm_num) (Wv (Proc.devRef (τ := τ) .tc main_arg4)))) := by
  simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']
  first | done | rfl

/-- and the number of edges into each node, -/
theorem s8_deg : (after (hostOps0_8 (F := Ideal)) Wv (Proc.devRef (τ := τ) .tc main_v119) : FVec Ideal SN .f32)
    = Host.scatterAdd (F := Ideal) (degScatterDims hostFacts.swf1) (broadcastInDim SN ![] hostFacts.bN (constant (F := Ideal) S0 .f32 0x00000000#32)) (dstIdx hostFacts 4 (by norm_num) (Wv (Proc.devRef (τ := τ) .tc main_arg5))) (Wv (Proc.devRef (τ := τ) .tc main_v0) : FVec Ideal SE .f32) := by
  simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']
  first | done | rfl

/-- and the constant one. -/
theorem s8_cst : (after (hostOps0_8 (F := Ideal)) Wv (Proc.devRef (τ := τ) .tc main_cst_27) : FVec Ideal S0 .f32) = constant (F := Ideal) S0 .f32 0x3F800000#32 := by
  simp (disch := decide) only [hostOps0_8, after_cons, after_nil, nullary_result', unary_result', binary_result', ternary_result', quaternary_result', reshape_result', nullary_result_ne', unary_result_ne', binary_result_ne', ternary_result_ne', quaternary_result_ne', reshape_result_ne', nary_result_ne']
  first | done | rfl

/-- Stretch 9 clamps the degree below at one, -/
theorem s9_clip : (after (hostOps0_9 (F := Ideal)) Wv (Proc.devRef (τ := τ) .tc main_v120) : FVec Ideal SN .f32)
    = (maximumf (broadcastInDim SN ![] hostFacts.bN (id (Wv (Proc.devRef (τ := τ) .tc main_cst_27) : FVec Ideal S0 .f32))) (Wv (Proc.devRef (τ := τ) .tc main_v119) : FVec Ideal SN .f32) : FVec Ideal SN .f32) := by
  simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']
  first | done | rfl

/-- and does not write the aggregate. -/
theorem s9_agg : after (hostOps0_9 (F := Ideal)) Wv (Proc.devRef (τ := τ) .tc main_v114) = Wv (Proc.devRef (τ := τ) .tc main_v114) := by
  simp (disch := decide) only [hostOps0_9, after_cons, after_nil, nullary_result', unary_result', binary_result', ternary_result', quaternary_result', reshape_result', nullary_result_ne', unary_result_ne', binary_result_ne', ternary_result_ne', quaternary_result_ne', reshape_result_ne', nary_result_ne']

/-- Stretch 10 multiplies the aggregate by one over the clamped degree, spread along the rows. -/
theorem s10_res : (after (hostOps0_10 (F := Ideal)) Wv (Proc.devRef (τ := τ) .tc main_v125) : FVec Ideal SX .f32)
    = mulf (Wv (Proc.devRef (τ := τ) .tc main_v114) : FVec Ideal SX .f32) (rowSpread hostFacts (Host.divf (F := Ideal) (oneN hostFacts) (Wv (Proc.devRef (τ := τ) .tc main_v120) : FVec Ideal SN .f32))) := by
  simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']
  first | done | rfl

theorem s11_res4 : after (hostOps0_11 (F := Ideal)) Wv (Proc.devRef (τ := τ) .tc main_v125) = Wv (Proc.devRef (τ := τ) .tc main_v125) := by
  simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']

theorem s12_res4 : after (hostOps0_12 (F := Ideal)) Wv (Proc.devRef (τ := τ) .tc main_v125) = Wv (Proc.devRef (τ := τ) .tc main_v125) := by
  simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']

theorem s13_res4 : after (hostOps0_13 (F := Ideal)) Wv (Proc.devRef (τ := τ) .tc main_v125) = Wv (Proc.devRef (τ := τ) .tc main_v125) := by
  simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']

theorem s14_res4 : after (hostOps0_14 (F := Ideal)) Wv (Proc.devRef (τ := τ) .tc main_v125) = Wv (Proc.devRef (τ := τ) .tc main_v125) := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']

theorem s15_res4 : after (hostOps0_15 (F := Ideal)) Wv (Proc.devRef (τ := τ) .tc main_v125) = Wv (Proc.devRef (τ := τ) .tc main_v125) := by
  simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']

end Stretch

section Walk
variable (m : (ℓ : Loc nD τ sig) → Buf (Elt Ideal) ℓ) (c : Dev nD)

theorem W8_agg4 : (W8 m c (Proc.devRef (τ := τ) .tc main_v114) : FVec Ideal SX .f32) = Host.scatterAdd (F := Ideal) (rowScatterDims 50000 400000 256 hostFacts.swf) (zeroX hostFacts) (dstIdx hostFacts 4 (by norm_num) (m ((c.tc : Thread nD τ).loc main_arg5))) (Host.gather (rowGatherDims 50000 400000 256 hostFacts.gwf) (m ((c.tc : Thread nD τ).loc main_arg0)) (srcIdx hostFacts 4 (by norm_num) (m ((c.tc : Thread nD τ).loc main_arg4)))) := by
  unfold W8; rw [s8_agg, W7_arg0, W7_arg4, W7_arg5]

theorem W8_deg4 : (W8 m c (Proc.devRef (τ := τ) .tc main_v119) : FVec Ideal SN .f32) = Host.scatterAdd (F := Ideal) (degScatterDims hostFacts.swf1) (broadcastInDim SN ![] hostFacts.bN (constant (F := Ideal) S0 .f32 0x00000000#32)) (dstIdx hostFacts 4 (by norm_num) (m ((c.tc : Thread nD τ).loc main_arg5))) (broadcastInDim SE ![] hostFacts.bE (constant (F := Ideal) S0 .f32 0x3F800000#32)) := by
  unfold W8; rw [s8_deg, W7_arg5, W7_ones]

theorem W8_cst4 : (W8 m c (Proc.devRef (τ := τ) .tc main_cst_27) : FVec Ideal S0 .f32) = constant (F := Ideal) S0 .f32 0x3F800000#32 := by
  unfold W8; rw [s8_cst]

/-- After stretch 9: the divisors of relation 4. -/
theorem W9_clip4 : (W9 m c (Proc.devRef (τ := τ) .tc main_v120) : FVec Ideal SN .f32) = degClip hostFacts 4 (by norm_num) (m ((c.tc : Thread nD τ).loc main_arg5)) := by
  unfold W9; rw [s9_clip, W8_cst4, W8_deg4]
  first | done | rfl

theorem W9_agg4 : (W9 m c (Proc.devRef (τ := τ) .tc main_v114) : FVec Ideal SX .f32) = Host.scatterAdd (F := Ideal) (rowScatterDims 50000 400000 256 hostFacts.swf) (zeroX hostFacts) (dstIdx hostFacts 4 (by norm_num) (m ((c.tc : Thread nD τ).loc main_arg5))) (Host.gather (rowGatherDims 50000 400000 256 hostFacts.gwf) (m ((c.tc : Thread nD τ).loc main_arg0)) (srcIdx hostFacts 4 (by norm_num) (m ((c.tc : Thread nD τ).loc main_arg4)))) := by
  unfold W9; rw [s9_agg]; exact W8_agg4 m c

/-- After stretch 10: relation 4's aggregate-first term. -/
theorem W10_res4 : (W10 m c (Proc.devRef (τ := τ) .tc main_v125) : FVec Ideal SX .f32) = K 4 (by norm_num) (m ((c.tc : Thread nD τ).loc main_arg0)) (m ((c.tc : Thread nD τ).loc main_arg4)) (m ((c.tc : Thread nD τ).loc main_arg5)) := by
  unfold W10; rw [s10_res, W9_agg4, W9_clip4]
  first | done | rfl

theorem W11_res4 : (W11 m c (Proc.devRef (τ := τ) .tc main_v125) : FVec Ideal SX .f32) = K 4 (by norm_num) (m ((c.tc : Thread nD τ).loc main_arg0)) (m ((c.tc : Thread nD τ).loc main_arg4)) (m ((c.tc : Thread nD τ).loc main_arg5)) := by
  unfold W11; rw [s11_res4]; exact W10_res4 m c

theorem W12_res4 : (W12 m c (Proc.devRef (τ := τ) .tc main_v125) : FVec Ideal SX .f32) = K 4 (by norm_num) (m ((c.tc : Thread nD τ).loc main_arg0)) (m ((c.tc : Thread nD τ).loc main_arg4)) (m ((c.tc : Thread nD τ).loc main_arg5)) := by
  unfold W12; rw [s12_res4]; exact W11_res4 m c

theorem W13_res4 : (W13 m c (Proc.devRef (τ := τ) .tc main_v125) : FVec Ideal SX .f32) = K 4 (by norm_num) (m ((c.tc : Thread nD τ).loc main_arg0)) (m ((c.tc : Thread nD τ).loc main_arg4)) (m ((c.tc : Thread nD τ).loc main_arg5)) := by
  unfold W13; rw [s13_res4]; exact W12_res4 m c

theorem W14_res4 : (W14 m c (Proc.devRef (τ := τ) .tc main_v125) : FVec Ideal SX .f32) = K 4 (by norm_num) (m ((c.tc : Thread nD τ).loc main_arg0)) (m ((c.tc : Thread nD τ).loc main_arg4)) (m ((c.tc : Thread nD τ).loc main_arg5)) := by
  unfold W14; rw [s14_res4]; exact W13_res4 m c

theorem W15_res4 : (W15 m c (Proc.devRef (τ := τ) .tc main_v125) : FVec Ideal SX .f32) = K 4 (by norm_num) (m ((c.tc : Thread nD τ).loc main_arg0)) (m ((c.tc : Thread nD τ).loc main_arg4)) (m ((c.tc : Thread nD τ).loc main_arg5)) := by
  unfold W15; rw [s15_res4]; exact W14_res4 m c

end Walk

/-! ## Relation 5 -/

section Stretch
variable (Wv : Valuation τ sig (Elt Ideal))

/-- Stretch 10 leaves the aggregate of relation 5: the gathered rows summed into their targets. -/
theorem s10_agg : (after (hostOps0_10 (F := Ideal)) Wv (Proc.devRef (τ := τ) .tc main_v139) : FVec Ideal SX .f32)
    = Host.scatterAdd (F := Ideal) (rowScatterDims 50000 400000 256 hostFacts.swf) (zeroX hostFacts) (dstIdx hostFacts 5 (by norm_num) (Wv (Proc.devRef (τ := τ) .tc main_arg5))) (Host.gather (rowGatherDims 50000 400000 256 hostFacts.gwf) (Wv (Proc.devRef (τ := τ) .tc main_arg0)) (srcIdx hostFacts 5 (by norm_num) (Wv (Proc.devRef (τ := τ) .tc main_arg4)))) := by
  simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']
  first | done | rfl

/-- and the number of edges into each node, -/
theorem s10_deg : (after (hostOps0_10 (F := Ideal)) Wv (Proc.devRef (τ := τ) .tc main_v144) : FVec Ideal SN .f32)
    = Host.scatterAdd (F := Ideal) (degScatterDims hostFacts.swf1) (broadcastInDim SN ![] hostFacts.bN (constant (F := Ideal) S0 .f32 0x00000000#32)) (dstIdx hostFacts 5 (by norm_num) (Wv (Proc.devRef (τ := τ) .tc main_arg5))) (Wv (Proc.devRef (τ := τ) .tc main_v0) : FVec Ideal SE .f32) := by
  simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']
  first | done | rfl

/-- and the constant one. -/
theorem s10_cst : (after (hostOps0_10 (F := Ideal)) Wv (Proc.devRef (τ := τ) .tc main_cst_33) : FVec Ideal S0 .f32) = constant (F := Ideal) S0 .f32 0x3F800000#32 := by
  simp (disch := decide) only [hostOps0_10, after_cons, after_nil, nullary_result', unary_result', binary_result', ternary_result', quaternary_result', reshape_result', nullary_result_ne', unary_result_ne', binary_result_ne', ternary_result_ne', quaternary_result_ne', reshape_result_ne', nary_result_ne']
  first | done | rfl

/-- Stretch 11 clamps the degree below at one, -/
theorem s11_clip : (after (hostOps0_11 (F := Ideal)) Wv (Proc.devRef (τ := τ) .tc main_v145) : FVec Ideal SN .f32)
    = (maximumf (broadcastInDim SN ![] hostFacts.bN (id (Wv (Proc.devRef (τ := τ) .tc main_cst_33) : FVec Ideal S0 .f32))) (Wv (Proc.devRef (τ := τ) .tc main_v144) : FVec Ideal SN .f32) : FVec Ideal SN .f32) := by
  simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']
  first | done | rfl

/-- and does not write the aggregate. -/
theorem s11_agg : after (hostOps0_11 (F := Ideal)) Wv (Proc.devRef (τ := τ) .tc main_v139) = Wv (Proc.devRef (τ := τ) .tc main_v139) := by
  simp (disch := decide) only [hostOps0_11, after_cons, after_nil, nullary_result', unary_result', binary_result', ternary_result', quaternary_result', reshape_result', nullary_result_ne', unary_result_ne', binary_result_ne', ternary_result_ne', quaternary_result_ne', reshape_result_ne', nary_result_ne']

/-- Stretch 12 multiplies the aggregate by one over the clamped degree, spread along the rows. -/
theorem s12_res : (after (hostOps0_12 (F := Ideal)) Wv (Proc.devRef (τ := τ) .tc main_v150) : FVec Ideal SX .f32)
    = mulf (Wv (Proc.devRef (τ := τ) .tc main_v139) : FVec Ideal SX .f32) (rowSpread hostFacts (Host.divf (F := Ideal) (oneN hostFacts) (Wv (Proc.devRef (τ := τ) .tc main_v145) : FVec Ideal SN .f32))) := by
  simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']
  first | done | rfl

theorem s13_res5 : after (hostOps0_13 (F := Ideal)) Wv (Proc.devRef (τ := τ) .tc main_v150) = Wv (Proc.devRef (τ := τ) .tc main_v150) := by
  simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']

theorem s14_res5 : after (hostOps0_14 (F := Ideal)) Wv (Proc.devRef (τ := τ) .tc main_v150) = Wv (Proc.devRef (τ := τ) .tc main_v150) := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']

theorem s15_res5 : after (hostOps0_15 (F := Ideal)) Wv (Proc.devRef (τ := τ) .tc main_v150) = Wv (Proc.devRef (τ := τ) .tc main_v150) := by
  simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']

end Stretch

section Walk
variable (m : (ℓ : Loc nD τ sig) → Buf (Elt Ideal) ℓ) (c : Dev nD)

theorem W10_agg5 : (W10 m c (Proc.devRef (τ := τ) .tc main_v139) : FVec Ideal SX .f32) = Host.scatterAdd (F := Ideal) (rowScatterDims 50000 400000 256 hostFacts.swf) (zeroX hostFacts) (dstIdx hostFacts 5 (by norm_num) (m ((c.tc : Thread nD τ).loc main_arg5))) (Host.gather (rowGatherDims 50000 400000 256 hostFacts.gwf) (m ((c.tc : Thread nD τ).loc main_arg0)) (srcIdx hostFacts 5 (by norm_num) (m ((c.tc : Thread nD τ).loc main_arg4)))) := by
  unfold W10; rw [s10_agg, W9_arg0, W9_arg4, W9_arg5]

theorem W10_deg5 : (W10 m c (Proc.devRef (τ := τ) .tc main_v144) : FVec Ideal SN .f32) = Host.scatterAdd (F := Ideal) (degScatterDims hostFacts.swf1) (broadcastInDim SN ![] hostFacts.bN (constant (F := Ideal) S0 .f32 0x00000000#32)) (dstIdx hostFacts 5 (by norm_num) (m ((c.tc : Thread nD τ).loc main_arg5))) (broadcastInDim SE ![] hostFacts.bE (constant (F := Ideal) S0 .f32 0x3F800000#32)) := by
  unfold W10; rw [s10_deg, W9_arg5, W9_ones]

theorem W10_cst5 : (W10 m c (Proc.devRef (τ := τ) .tc main_cst_33) : FVec Ideal S0 .f32) = constant (F := Ideal) S0 .f32 0x3F800000#32 := by
  unfold W10; rw [s10_cst]

/-- After stretch 11: the divisors of relation 5. -/
theorem W11_clip5 : (W11 m c (Proc.devRef (τ := τ) .tc main_v145) : FVec Ideal SN .f32) = degClip hostFacts 5 (by norm_num) (m ((c.tc : Thread nD τ).loc main_arg5)) := by
  unfold W11; rw [s11_clip, W10_cst5, W10_deg5]
  first | done | rfl

theorem W11_agg5 : (W11 m c (Proc.devRef (τ := τ) .tc main_v139) : FVec Ideal SX .f32) = Host.scatterAdd (F := Ideal) (rowScatterDims 50000 400000 256 hostFacts.swf) (zeroX hostFacts) (dstIdx hostFacts 5 (by norm_num) (m ((c.tc : Thread nD τ).loc main_arg5))) (Host.gather (rowGatherDims 50000 400000 256 hostFacts.gwf) (m ((c.tc : Thread nD τ).loc main_arg0)) (srcIdx hostFacts 5 (by norm_num) (m ((c.tc : Thread nD τ).loc main_arg4)))) := by
  unfold W11; rw [s11_agg]; exact W10_agg5 m c

/-- After stretch 12: relation 5's aggregate-first term. -/
theorem W12_res5 : (W12 m c (Proc.devRef (τ := τ) .tc main_v150) : FVec Ideal SX .f32) = K 5 (by norm_num) (m ((c.tc : Thread nD τ).loc main_arg0)) (m ((c.tc : Thread nD τ).loc main_arg4)) (m ((c.tc : Thread nD τ).loc main_arg5)) := by
  unfold W12; rw [s12_res, W11_agg5, W11_clip5]
  first | done | rfl

theorem W13_res5 : (W13 m c (Proc.devRef (τ := τ) .tc main_v150) : FVec Ideal SX .f32) = K 5 (by norm_num) (m ((c.tc : Thread nD τ).loc main_arg0)) (m ((c.tc : Thread nD τ).loc main_arg4)) (m ((c.tc : Thread nD τ).loc main_arg5)) := by
  unfold W13; rw [s13_res5]; exact W12_res5 m c

theorem W14_res5 : (W14 m c (Proc.devRef (τ := τ) .tc main_v150) : FVec Ideal SX .f32) = K 5 (by norm_num) (m ((c.tc : Thread nD τ).loc main_arg0)) (m ((c.tc : Thread nD τ).loc main_arg4)) (m ((c.tc : Thread nD τ).loc main_arg5)) := by
  unfold W14; rw [s14_res5]; exact W13_res5 m c

theorem W15_res5 : (W15 m c (Proc.devRef (τ := τ) .tc main_v150) : FVec Ideal SX .f32) = K 5 (by norm_num) (m ((c.tc : Thread nD τ).loc main_arg0)) (m ((c.tc : Thread nD τ).loc main_arg4)) (m ((c.tc : Thread nD τ).loc main_arg5)) := by
  unfold W15; rw [s15_res5]; exact W14_res5 m c

end Walk

/-! ## Relation 6 -/

section Stretch
variable (Wv : Valuation τ sig (Elt Ideal))

/-- Stretch 12 leaves the aggregate of relation 6: the gathered rows summed into their targets. -/
theorem s12_agg : (after (hostOps0_12 (F := Ideal)) Wv (Proc.devRef (τ := τ) .tc main_v164) : FVec Ideal SX .f32)
    = Host.scatterAdd (F := Ideal) (rowScatterDims 50000 400000 256 hostFacts.swf) (zeroX hostFacts) (dstIdx hostFacts 6 (by norm_num) (Wv (Proc.devRef (τ := τ) .tc main_arg5))) (Host.gather (rowGatherDims 50000 400000 256 hostFacts.gwf) (Wv (Proc.devRef (τ := τ) .tc main_arg0)) (srcIdx hostFacts 6 (by norm_num) (Wv (Proc.devRef (τ := τ) .tc main_arg4)))) := by
  simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']
  first | done | rfl

/-- and the number of edges into each node, -/
theorem s12_deg : (after (hostOps0_12 (F := Ideal)) Wv (Proc.devRef (τ := τ) .tc main_v169) : FVec Ideal SN .f32)
    = Host.scatterAdd (F := Ideal) (degScatterDims hostFacts.swf1) (broadcastInDim SN ![] hostFacts.bN (constant (F := Ideal) S0 .f32 0x00000000#32)) (dstIdx hostFacts 6 (by norm_num) (Wv (Proc.devRef (τ := τ) .tc main_arg5))) (Wv (Proc.devRef (τ := τ) .tc main_v0) : FVec Ideal SE .f32) := by
  simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']
  first | done | rfl

/-- and the constant one. -/
theorem s12_cst : (after (hostOps0_12 (F := Ideal)) Wv (Proc.devRef (τ := τ) .tc main_cst_39) : FVec Ideal S0 .f32) = constant (F := Ideal) S0 .f32 0x3F800000#32 := by
  simp (disch := decide) only [hostOps0_12, after_cons, after_nil, nullary_result', unary_result', binary_result', ternary_result', quaternary_result', reshape_result', nullary_result_ne', unary_result_ne', binary_result_ne', ternary_result_ne', quaternary_result_ne', reshape_result_ne', nary_result_ne']
  first | done | rfl

/-- Stretch 13 clamps the degree below at one, -/
theorem s13_clip : (after (hostOps0_13 (F := Ideal)) Wv (Proc.devRef (τ := τ) .tc main_v170) : FVec Ideal SN .f32)
    = (maximumf (broadcastInDim SN ![] hostFacts.bN (id (Wv (Proc.devRef (τ := τ) .tc main_cst_39) : FVec Ideal S0 .f32))) (Wv (Proc.devRef (τ := τ) .tc main_v169) : FVec Ideal SN .f32) : FVec Ideal SN .f32) := by
  simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']
  first | done | rfl

/-- and does not write the aggregate. -/
theorem s13_agg : after (hostOps0_13 (F := Ideal)) Wv (Proc.devRef (τ := τ) .tc main_v164) = Wv (Proc.devRef (τ := τ) .tc main_v164) := by
  simp (disch := decide) only [hostOps0_13, after_cons, after_nil, nullary_result', unary_result', binary_result', ternary_result', quaternary_result', reshape_result', nullary_result_ne', unary_result_ne', binary_result_ne', ternary_result_ne', quaternary_result_ne', reshape_result_ne', nary_result_ne']

/-- Stretch 14 multiplies the aggregate by one over the clamped degree, spread along the rows. -/
theorem s14_res : (after (hostOps0_14 (F := Ideal)) Wv (Proc.devRef (τ := τ) .tc main_v175) : FVec Ideal SX .f32)
    = mulf (Wv (Proc.devRef (τ := τ) .tc main_v164) : FVec Ideal SX .f32) (rowSpread hostFacts (Host.divf (F := Ideal) (oneN hostFacts) (Wv (Proc.devRef (τ := τ) .tc main_v170) : FVec Ideal SN .f32))) := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']
  first | done | rfl

theorem s15_res6 : after (hostOps0_15 (F := Ideal)) Wv (Proc.devRef (τ := τ) .tc main_v175) = Wv (Proc.devRef (τ := τ) .tc main_v175) := by
  simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']

end Stretch

section Walk
variable (m : (ℓ : Loc nD τ sig) → Buf (Elt Ideal) ℓ) (c : Dev nD)

theorem W12_agg6 : (W12 m c (Proc.devRef (τ := τ) .tc main_v164) : FVec Ideal SX .f32) = Host.scatterAdd (F := Ideal) (rowScatterDims 50000 400000 256 hostFacts.swf) (zeroX hostFacts) (dstIdx hostFacts 6 (by norm_num) (m ((c.tc : Thread nD τ).loc main_arg5))) (Host.gather (rowGatherDims 50000 400000 256 hostFacts.gwf) (m ((c.tc : Thread nD τ).loc main_arg0)) (srcIdx hostFacts 6 (by norm_num) (m ((c.tc : Thread nD τ).loc main_arg4)))) := by
  unfold W12; rw [s12_agg, W11_arg0, W11_arg4, W11_arg5]

theorem W12_deg6 : (W12 m c (Proc.devRef (τ := τ) .tc main_v169) : FVec Ideal SN .f32) = Host.scatterAdd (F := Ideal) (degScatterDims hostFacts.swf1) (broadcastInDim SN ![] hostFacts.bN (constant (F := Ideal) S0 .f32 0x00000000#32)) (dstIdx hostFacts 6 (by norm_num) (m ((c.tc : Thread nD τ).loc main_arg5))) (broadcastInDim SE ![] hostFacts.bE (constant (F := Ideal) S0 .f32 0x3F800000#32)) := by
  unfold W12; rw [s12_deg, W11_arg5, W11_ones]

theorem W12_cst6 : (W12 m c (Proc.devRef (τ := τ) .tc main_cst_39) : FVec Ideal S0 .f32) = constant (F := Ideal) S0 .f32 0x3F800000#32 := by
  unfold W12; rw [s12_cst]

/-- After stretch 13: the divisors of relation 6. -/
theorem W13_clip6 : (W13 m c (Proc.devRef (τ := τ) .tc main_v170) : FVec Ideal SN .f32) = degClip hostFacts 6 (by norm_num) (m ((c.tc : Thread nD τ).loc main_arg5)) := by
  unfold W13; rw [s13_clip, W12_cst6, W12_deg6]
  first | done | rfl

theorem W13_agg6 : (W13 m c (Proc.devRef (τ := τ) .tc main_v164) : FVec Ideal SX .f32) = Host.scatterAdd (F := Ideal) (rowScatterDims 50000 400000 256 hostFacts.swf) (zeroX hostFacts) (dstIdx hostFacts 6 (by norm_num) (m ((c.tc : Thread nD τ).loc main_arg5))) (Host.gather (rowGatherDims 50000 400000 256 hostFacts.gwf) (m ((c.tc : Thread nD τ).loc main_arg0)) (srcIdx hostFacts 6 (by norm_num) (m ((c.tc : Thread nD τ).loc main_arg4)))) := by
  unfold W13; rw [s13_agg]; exact W12_agg6 m c

/-- After stretch 14: relation 6's aggregate-first term. -/
theorem W14_res6 : (W14 m c (Proc.devRef (τ := τ) .tc main_v175) : FVec Ideal SX .f32) = K 6 (by norm_num) (m ((c.tc : Thread nD τ).loc main_arg0)) (m ((c.tc : Thread nD τ).loc main_arg4)) (m ((c.tc : Thread nD τ).loc main_arg5)) := by
  unfold W14; rw [s14_res, W13_agg6, W13_clip6]
  first | done | rfl

theorem W15_res6 : (W15 m c (Proc.devRef (τ := τ) .tc main_v175) : FVec Ideal SX .f32) = K 6 (by norm_num) (m ((c.tc : Thread nD τ).loc main_arg0)) (m ((c.tc : Thread nD τ).loc main_arg4)) (m ((c.tc : Thread nD τ).loc main_arg5)) := by
  unfold W15; rw [s15_res6]; exact W14_res6 m c

end Walk

/-! ## Relation 7 -/

section Stretch
variable (Wv : Valuation τ sig (Elt Ideal))

/-- Stretch 14 leaves the aggregate of relation 7: the gathered rows summed into their targets. -/
theorem s14_agg : (after (hostOps0_14 (F := Ideal)) Wv (Proc.devRef (τ := τ) .tc main_v189) : FVec Ideal SX .f32)
    = Host.scatterAdd (F := Ideal) (rowScatterDims 50000 400000 256 hostFacts.swf) (zeroX hostFacts) (dstIdx hostFacts 7 (by norm_num) (Wv (Proc.devRef (τ := τ) .tc main_arg5))) (Host.gather (rowGatherDims 50000 400000 256 hostFacts.gwf) (Wv (Proc.devRef (τ := τ) .tc main_arg0)) (srcIdx hostFacts 7 (by norm_num) (Wv (Proc.devRef (τ := τ) .tc main_arg4)))) := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']
  first | done | rfl

/-- and the number of edges into each node, -/
theorem s14_deg : (after (hostOps0_14 (F := Ideal)) Wv (Proc.devRef (τ := τ) .tc main_v194) : FVec Ideal SN .f32)
    = Host.scatterAdd (F := Ideal) (degScatterDims hostFacts.swf1) (broadcastInDim SN ![] hostFacts.bN (constant (F := Ideal) S0 .f32 0x00000000#32)) (dstIdx hostFacts 7 (by norm_num) (Wv (Proc.devRef (τ := τ) .tc main_arg5))) (Wv (Proc.devRef (τ := τ) .tc main_v0) : FVec Ideal SE .f32) := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']
  first | done | rfl

/-- and the constant one. -/
theorem s14_cst : (after (hostOps0_14 (F := Ideal)) Wv (Proc.devRef (τ := τ) .tc main_cst_45) : FVec Ideal S0 .f32) = constant (F := Ideal) S0 .f32 0x3F800000#32 := by
  simp (disch := decide) only [hostOps0_14, after_cons, after_nil, nullary_result', unary_result', binary_result', ternary_result', quaternary_result', reshape_result', nullary_result_ne', unary_result_ne', binary_result_ne', ternary_result_ne', quaternary_result_ne', reshape_result_ne', nary_result_ne']
  first | done | rfl

/-- Stretch 15 clamps the degree below at one, -/
theorem s15_clip : (after (hostOps0_15 (F := Ideal)) Wv (Proc.devRef (τ := τ) .tc main_v195) : FVec Ideal SN .f32)
    = (maximumf (broadcastInDim SN ![] hostFacts.bN (id (Wv (Proc.devRef (τ := τ) .tc main_cst_45) : FVec Ideal S0 .f32))) (Wv (Proc.devRef (τ := τ) .tc main_v194) : FVec Ideal SN .f32) : FVec Ideal SN .f32) := by
  simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']
  first | done | rfl

/-- and does not write the aggregate. -/
theorem s15_agg : after (hostOps0_15 (F := Ideal)) Wv (Proc.devRef (τ := τ) .tc main_v189) = Wv (Proc.devRef (τ := τ) .tc main_v189) := by
  simp (disch := decide) only [hostOps0_15, after_cons, after_nil, nullary_result', unary_result', binary_result', ternary_result', quaternary_result', reshape_result', nullary_result_ne', unary_result_ne', binary_result_ne', ternary_result_ne', quaternary_result_ne', reshape_result_ne', nary_result_ne']

end Stretch

section Walk
variable (m : (ℓ : Loc nD τ sig) → Buf (Elt Ideal) ℓ) (c : Dev nD)

theorem W14_agg7 : (W14 m c (Proc.devRef (τ := τ) .tc main_v189) : FVec Ideal SX .f32) = Host.scatterAdd (F := Ideal) (rowScatterDims 50000 400000 256 hostFacts.swf) (zeroX hostFacts) (dstIdx hostFacts 7 (by norm_num) (m ((c.tc : Thread nD τ).loc main_arg5))) (Host.gather (rowGatherDims 50000 400000 256 hostFacts.gwf) (m ((c.tc : Thread nD τ).loc main_arg0)) (srcIdx hostFacts 7 (by norm_num) (m ((c.tc : Thread nD τ).loc main_arg4)))) := by
  unfold W14; rw [s14_agg, W13_arg0, W13_arg4, W13_arg5]

theorem W14_deg7 : (W14 m c (Proc.devRef (τ := τ) .tc main_v194) : FVec Ideal SN .f32) = Host.scatterAdd (F := Ideal) (degScatterDims hostFacts.swf1) (broadcastInDim SN ![] hostFacts.bN (constant (F := Ideal) S0 .f32 0x00000000#32)) (dstIdx hostFacts 7 (by norm_num) (m ((c.tc : Thread nD τ).loc main_arg5))) (broadcastInDim SE ![] hostFacts.bE (constant (F := Ideal) S0 .f32 0x3F800000#32)) := by
  unfold W14; rw [s14_deg, W13_arg5, W13_ones]

theorem W14_cst7 : (W14 m c (Proc.devRef (τ := τ) .tc main_cst_45) : FVec Ideal S0 .f32) = constant (F := Ideal) S0 .f32 0x3F800000#32 := by
  unfold W14; rw [s14_cst]

/-- After stretch 15: the divisors of relation 7. -/
theorem W15_clip7 : (W15 m c (Proc.devRef (τ := τ) .tc main_v195) : FVec Ideal SN .f32) = degClip hostFacts 7 (by norm_num) (m ((c.tc : Thread nD τ).loc main_arg5)) := by
  unfold W15; rw [s15_clip, W14_cst7, W14_deg7]
  first | done | rfl

theorem W15_agg7 : (W15 m c (Proc.devRef (τ := τ) .tc main_v189) : FVec Ideal SX .f32) = Host.scatterAdd (F := Ideal) (rowScatterDims 50000 400000 256 hostFacts.swf) (zeroX hostFacts) (dstIdx hostFacts 7 (by norm_num) (m ((c.tc : Thread nD τ).loc main_arg5))) (Host.gather (rowGatherDims 50000 400000 256 hostFacts.gwf) (m ((c.tc : Thread nD τ).loc main_arg0)) (srcIdx hostFacts 7 (by norm_num) (m ((c.tc : Thread nD τ).loc main_arg4)))) := by
  unfold W15; rw [s15_agg]; exact W14_agg7 m c

end Walk

end Cert.KernelIdeal.HostSide

end
-- ==== Proof.KerHostSeg.lean ====
/-
  The slab stack the region finds.

  The last stretch forms relation 7's product, puts a leading unit axis in front of the eight
  relations' results and of the node table, and stacks the nine slabs along it.  Each result is
  still in memory as its relation left it, and equals that relation's aggregate-first term over the
  arguments; so the stack is `stackTerm` of the arguments.
-/
import proofs.«137636_j2181843386580_2_alg».proof.Proof.KerHostSegB

set_option maxRecDepth 16384

noncomputable section

namespace Cert.KernelIdeal.HostSide

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand Cert.RGcn Cert.LibAggRows

section Stretch
variable (Wv : Valuation τ sig (Elt Ideal))

/-- The last stretch stacks the nine slabs. -/
theorem s16_stack : (after (hostOps0_16 (F := Ideal)) Wv (Proc.devRef (τ := τ) .tc main_v210) : FVec Ideal S9x50000x256 .f32)
    = concatenate S9x50000x256 0
        [⟨S1x50000x256, slab (Wv (Proc.devRef (τ := τ) .tc main_v25) : FVec Ideal SX .f32)⟩,
         ⟨S1x50000x256, slab (Wv (Proc.devRef (τ := τ) .tc main_v50) : FVec Ideal SX .f32)⟩,
         ⟨S1x50000x256, slab (Wv (Proc.devRef (τ := τ) .tc main_v75) : FVec Ideal SX .f32)⟩,
         ⟨S1x50000x256, slab (Wv (Proc.devRef (τ := τ) .tc main_v100) : FVec Ideal SX .f32)⟩,
         ⟨S1x50000x256, slab (Wv (Proc.devRef (τ := τ) .tc main_v125) : FVec Ideal SX .f32)⟩,
         ⟨S1x50000x256, slab (Wv (Proc.devRef (τ := τ) .tc main_v150) : FVec Ideal SX .f32)⟩,
         ⟨S1x50000x256, slab (Wv (Proc.devRef (τ := τ) .tc main_v175) : FVec Ideal SX .f32)⟩,
         ⟨S1x50000x256, slab (mulf (Wv (Proc.devRef (τ := τ) .tc main_v189) : FVec Ideal SX .f32) (rowSpread hostFacts (Host.divf (F := Ideal) (oneN hostFacts) (Wv (Proc.devRef (τ := τ) .tc main_v195) : FVec Ideal SN .f32))))⟩,
         ⟨S1x50000x256, slab (Wv (Proc.devRef (τ := τ) .tc main_arg0) : FVec Ideal SX .f32)⟩]
        concatenates_S1x50000x256_S1x50000x256_S1x50000x256_S1x50000x256_S1x50000x256_S1x50000x256_S1x50000x256_S1x50000x256_S1x50000x256_S9x50000x256_d0 := by
  simp (disch := decide) only [hostOps0_16, after_cons, after_nil, nullary_result', unary_result', binary_result', ternary_result', quaternary_result', reshape_result', nullary_result_ne', unary_result_ne', binary_result_ne', ternary_result_ne', quaternary_result_ne', reshape_result_ne', nary_result_ne', nary9_result']
  first | done | rfl

end Stretch

variable (m : (ℓ : Loc nD τ sig) → Buf (Elt Ideal) ℓ)

/-- When the region is entered its first array is the slab stack of the arguments. -/
theorem V_stack (c : Dev nD) :
    (V (F := Ideal) m c main_v210 : S9x50000x256.Idx → EReal)
      = stackTerm (m ((c.tc : Thread nD τ).loc main_arg0)) (m ((c.tc : Thread nD τ).loc main_arg4))
          (m ((c.tc : Thread nD τ).loc main_arg5)) := by
  show (V0 (F := Ideal) m c (Proc.devRef (τ := τ) .tc main_v210) : S9x50000x256.Idx → EReal) = _
  rw [V0_eq]; unfold W16
  rw [s16_stack, W15_res0, W15_res1, W15_res2, W15_res3, W15_res4, W15_res5, W15_res6, W15_agg7, W15_clip7, W15_arg0]
  rfl

end Cert.KernelIdeal.HostSide

end
-- ==== Proof.KerHostSegRest.lean ====
/-
  The memory the region finds, read at the weight stack and at the bias row.

  The host operations before the region come in seventeen stretches.  Only the last stretch writes the
  weight stack (the eight relation matrices and the self-loop matrix with a unit axis in front, stacked)
  and the bias row (the bias reshaped), and it reads them off arguments no stretch writes.  So the memory
  after the first sixteen stretches holds those arguments as launched, and the last stretch applied to it
  gives the two arrays as terms over the launched arguments.
-/
import proofs.«137636_j2181843386580_2_alg».proof.Proof.KerHostTerms
import proofs.«137636_j2181843386580_2_alg».proof.Proof.KFrameIArgs

noncomputable section

namespace Cert.KernelIdeal.HostSide

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand Cert.RGcn

variable (m : (ℓ : Loc nD τ sig) → Buf (Elt Ideal) ℓ)

/-- The stretches of host operations before the last one. -/
abbrev headOps : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- All the operations before the region are those of the first sixteen stretches followed by the last stretch's. -/
theorem prefix_split : List.flatten (prefixOps (F := Ideal)) = List.flatten headOps ++ hostOps0_16 (F := Ideal) := by
  show List.flatten (headOps ++ [hostOps0_16 (F := Ideal)]) = _
  rw [List.flatten_append]
  exact congrArg (List.flatten headOps ++ ·) (List.append_nil (hostOps0_16 (F := Ideal)))

/-- Core c's memory after the first sixteen stretches. -/
abbrev Wv (c : Dev nD) : Valuation τ sig (Elt Ideal) := StableHlo.after (List.flatten headOps) (fun b => m (c, b))

/-- What the region finds at a reference is the last stretch applied to the memory after the first sixteen. -/
theorem V_at_tail (c : Dev nD) (b : Ref sig .tc) :
    V (F := Ideal) m c b = StableHlo.after (hostOps0_16 (F := Ideal)) (Wv m c) (Proc.devRef .tc b) := by
  show StableHlo.after (List.flatten (prefixOps (F := Ideal))) (fun b => m (c, b)) (Proc.devRef .tc b) = _
  rw [prefix_split, StableHlo.after_append]

section Tail
variable (W : Valuation τ sig (Elt Ideal))

/-- The last stretch leaves the weight stack of the two weight arguments it finds. -/
theorem tail_wcat :
    (StableHlo.after (hostOps0_16 (F := Ideal)) W (Proc.devRef .tc main_v212) : S9x256x256.Idx → EReal)
      = wcatTerm (W (Proc.devRef .tc main_arg1)) (W (Proc.devRef .tc main_arg3)) := by
  simp only [hostOps0_16]
  after_results_simp
  rfl

/-- The last stretch leaves the bias argument it finds, as a row. -/
theorem tail_bias :
    (StableHlo.after (hostOps0_16 (F := Ideal)) W (Proc.devRef .tc main_v213) : S1x256.Idx → EReal)
      = biasTerm (W (Proc.devRef .tc main_arg2)) := by
  simp only [hostOps0_16]
  after_results_simp
  rfl

/-- The last stretch writes none of the three arguments. -/
theorem tail_arg1 : StableHlo.after (hostOps0_16 (F := Ideal)) W (Proc.devRef .tc main_arg1) = W (Proc.devRef .tc main_arg1) := by
  simp only [hostOps0_16]
  after_results_simp

theorem tail_arg2 : StableHlo.after (hostOps0_16 (F := Ideal)) W (Proc.devRef .tc main_arg2) = W (Proc.devRef .tc main_arg2) := by
  simp only [hostOps0_16]
  after_results_simp

theorem tail_arg3 : StableHlo.after (hostOps0_16 (F := Ideal)) W (Proc.devRef .tc main_arg3) = W (Proc.devRef .tc main_arg3) := by
  simp only [hostOps0_16]
  after_results_simp

end Tail

/-- After the first sixteen stretches the three arguments are as launched. -/
theorem Wv_arg1 (c : Dev nD) : Wv m c (Proc.devRef .tc main_arg1) = m ((c.tc : Thread nD τ).loc main_arg1) :=
  (tail_arg1 (Wv m c)).symm.trans ((V_at_tail m c main_arg1).symm.trans (V_main_arg1 (F := Ideal) m c))

theorem Wv_arg2 (c : Dev nD) : Wv m c (Proc.devRef .tc main_arg2) = m ((c.tc : Thread nD τ).loc main_arg2) :=
  (tail_arg2 (Wv m c)).symm.trans ((V_at_tail m c main_arg2).symm.trans (V_main_arg2 (F := Ideal) m c))

theorem Wv_arg3 (c : Dev nD) : Wv m c (Proc.devRef .tc main_arg3) = m ((c.tc : Thread nD τ).loc main_arg3) :=
  (tail_arg3 (Wv m c)).symm.trans ((V_at_tail m c main_arg3).symm.trans (V_main_arg3 (F := Ideal) m c))

/-- When the region is entered its second array is the weight stack of the arguments. -/
theorem V_wcat (c : Dev nD) :
    (V (F := Ideal) m c main_v212 : S9x256x256.Idx → EReal)
      = wcatTerm (m ((c.tc : Thread nD τ).loc main_arg1)) (m ((c.tc : Thread nD τ).loc main_arg3)) :=
  (V_at_tail m c main_v212).trans ((tail_wcat (Wv m c)).trans (congrArg₂ wcatTerm (Wv_arg1 m c) (Wv_arg3 m c)))

/-- When the region is entered its third array is the bias as a row. -/
theorem V_bias (c : Dev nD) :
    (V (F := Ideal) m c main_v213 : S1x256.Idx → EReal) = biasTerm (m ((c.tc : Thread nD τ).loc main_arg2)) :=
  (V_at_tail m c main_v213).trans ((tail_bias (Wv m c)).trans (congrArg biasTerm (Wv_arg2 m c)))

end Cert.KernelIdeal.HostSide

end
-- ==== Proof.KerRead.lean ====
/-
  The three arrays the region stages, read at an entry.

  Slab `r` of the stack at `(i, k)` is relation `r`'s aggregate-first term at `(i, k)` for `r < 8` and the node
  table's entry for `r = 8`; matrix `r` of the weight stack is the relation's weight matrix for `r < 8` and the
  self-loop matrix for `r = 8`; the bias row at column `j` is the bias at `j`.
-/
import proofs.«137636_j2181843386580_2_alg».proof.Proof.KerHostTerms
import Idealize.ShloMosaic.Lib.Pipeline.Value

noncomputable section

namespace Cert.KernelIdeal.HostSide

open Idealize.ShloMosaic Idealize.ShloMosaic.ValueIdx
open Cert.KernelIdeal Cert.RGcn

variable [hK : Cert.KernelIdeal.Facts]
open Cert.KernelIdeal.Facts₀

/-- A table under a leading unit axis, read at an entry. -/
theorem slab_apply (a : FVec Ideal SX .f32) (i : Fin 50000) (k : Fin 256) :
    slab a (ix3 (0 : Fin 1) i k) = a (ix2 i k) := by
  unfold slab
  exact broadcastInDim_apply ![1, 2] _ a (ix3 (0 : Fin 1) i k) (ix2 i k) (fun b => by
    match b with
    | ⟨0, _⟩ => show i.val = if (50000 : ℕ) = 1 then 0 else i.val; rw [if_neg (by norm_num)]
    | ⟨1, _⟩ => show k.val = if (256 : ℕ) = 1 then 0 else k.val; rw [if_neg (by norm_num)])

/-- Slab 0 of the stack: relation 0's aggregate-first term. -/
theorem stack_apply_0 (X : FVec Ideal SX .f32) (src dst : IVec SI 32) (i : Fin 50000) (k : Fin 256) :
    stackTerm X src dst (ix3 (⟨0, by norm_num⟩ : Fin 9) i k) = (K 0 (by norm_num) X src dst) (ix2 i k) := by
  unfold stackTerm
  rw [concatenate_apply_piece (a := (0 : Fin 3)) _ _ (ix3 (⟨0, by norm_num⟩ : Fin 9) i k) 0 (by simp) S1x50000x256
      (slab (K 0 (by norm_num) X src dst)) rfl rfl 0 (by simp) (ix3 (0 : Fin 1) i k)
      (fun b hb => by
        match b with
        | ⟨0, _⟩ => exact absurd rfl hb
        | ⟨1, _⟩ => rfl
        | ⟨2, _⟩ => rfl) rfl]
  exact slab_apply _ i k

/-- Slab 1 of the stack: relation 1's aggregate-first term. -/
theorem stack_apply_1 (X : FVec Ideal SX .f32) (src dst : IVec SI 32) (i : Fin 50000) (k : Fin 256) :
    stackTerm X src dst (ix3 (⟨1, by norm_num⟩ : Fin 9) i k) = (K 1 (by norm_num) X src dst) (ix2 i k) := by
  unfold stackTerm
  rw [concatenate_apply_piece (a := (0 : Fin 3)) _ _ (ix3 (⟨1, by norm_num⟩ : Fin 9) i k) 1 (by simp) S1x50000x256
      (slab (K 1 (by norm_num) X src dst)) rfl rfl 1 (by simp) (ix3 (0 : Fin 1) i k)
      (fun b hb => by
        match b with
        | ⟨0, _⟩ => exact absurd rfl hb
        | ⟨1, _⟩ => rfl
        | ⟨2, _⟩ => rfl) rfl]
  exact slab_apply _ i k

/-- Slab 2 of the stack: relation 2's aggregate-first term. -/
theorem stack_apply_2 (X : FVec Ideal SX .f32) (src dst : IVec SI 32) (i : Fin 50000) (k : Fin 256) :
    stackTerm X src dst (ix3 (⟨2, by norm_num⟩ : Fin 9) i k) = (K 2 (by norm_num) X src dst) (ix2 i k) := by
  unfold stackTerm
  rw [concatenate_apply_piece (a := (0 : Fin 3)) _ _ (ix3 (⟨2, by norm_num⟩ : Fin 9) i k) 2 (by simp) S1x50000x256
      (slab (K 2 (by norm_num) X src dst)) rfl rfl 2 (by simp) (ix3 (0 : Fin 1) i k)
      (fun b hb => by
        match b with
        | ⟨0, _⟩ => exact absurd rfl hb
        | ⟨1, _⟩ => rfl
        | ⟨2, _⟩ => rfl) rfl]
  exact slab_apply _ i k

/-- Slab 3 of the stack: relation 3's aggregate-first term. -/
theorem stack_apply_3 (X : FVec Ideal SX .f32) (src dst : IVec SI 32) (i : Fin 50000) (k : Fin 256) :
    stackTerm X src dst (ix3 (⟨3, by norm_num⟩ : Fin 9) i k) = (K 3 (by norm_num) X src dst) (ix2 i k) := by
  unfold stackTerm
  rw [concatenate_apply_piece (a := (0 : Fin 3)) _ _ (ix3 (⟨3, by norm_num⟩ : Fin 9) i k) 3 (by simp) S1x50000x256
      (slab (K 3 (by norm_num) X src dst)) rfl rfl 3 (by simp) (ix3 (0 : Fin 1) i k)
      (fun b hb => by
        match b with
        | ⟨0, _⟩ => exact absurd rfl hb
        | ⟨1, _⟩ => rfl
        | ⟨2, _⟩ => rfl) rfl]
  exact slab_apply _ i k

/-- Slab 4 of the stack: relation 4's aggregate-first term. -/
theorem stack_apply_4 (X : FVec Ideal SX .f32) (src dst : IVec SI 32) (i : Fin 50000) (k : Fin 256) :
    stackTerm X src dst (ix3 (⟨4, by norm_num⟩ : Fin 9) i k) = (K 4 (by norm_num) X src dst) (ix2 i k) := by
  unfold stackTerm
  rw [concatenate_apply_piece (a := (0 : Fin 3)) _ _ (ix3 (⟨4, by norm_num⟩ : Fin 9) i k) 4 (by simp) S1x50000x256
      (slab (K 4 (by norm_num) X src dst)) rfl rfl 4 (by simp) (ix3 (0 : Fin 1) i k)
      (fun b hb => by
        match b with
        | ⟨0, _⟩ => exact absurd rfl hb
        | ⟨1, _⟩ => rfl
        | ⟨2, _⟩ => rfl) rfl]
  exact slab_apply _ i k

/-- Slab 5 of the stack: relation 5's aggregate-first term. -/
theorem stack_apply_5 (X : FVec Ideal SX .f32) (src dst : IVec SI 32) (i : Fin 50000) (k : Fin 256) :
    stackTerm X src dst (ix3 (⟨5, by norm_num⟩ : Fin 9) i k) = (K 5 (by norm_num) X src dst) (ix2 i k) := by
  unfold stackTerm
  rw [concatenate_apply_piece (a := (0 : Fin 3)) _ _ (ix3 (⟨5, by norm_num⟩ : Fin 9) i k) 5 (by simp) S1x50000x256
      (slab (K 5 (by norm_num) X src dst)) rfl rfl 5 (by simp) (ix3 (0 : Fin 1) i k)
      (fun b hb => by
        match b with
        | ⟨0, _⟩ => exact absurd rfl hb
        | ⟨1, _⟩ => rfl
        | ⟨2, _⟩ => rfl) rfl]
  exact slab_apply _ i k

/-- Slab 6 of the stack: relation 6's aggregate-first term. -/
theorem stack_apply_6 (X : FVec Ideal SX .f32) (src dst : IVec SI 32) (i : Fin 50000) (k : Fin 256) :
    stackTerm X src dst (ix3 (⟨6, by norm_num⟩ : Fin 9) i k) = (K 6 (by norm_num) X src dst) (ix2 i k) := by
  unfold stackTerm
  rw [concatenate_apply_piece (a := (0 : Fin 3)) _ _ (ix3 (⟨6, by norm_num⟩ : Fin 9) i k) 6 (by simp) S1x50000x256
      (slab (K 6 (by norm_num) X src dst)) rfl rfl 6 (by simp) (ix3 (0 : Fin 1) i k)
      (fun b hb => by
        match b with
        | ⟨0, _⟩ => exact absurd rfl hb
        | ⟨1, _⟩ => rfl
        | ⟨2, _⟩ => rfl) rfl]
  exact slab_apply _ i k

/-- Slab 7 of the stack: relation 7's aggregate-first term. -/
theorem stack_apply_7 (X : FVec Ideal SX .f32) (src dst : IVec SI 32) (i : Fin 50000) (k : Fin 256) :
    stackTerm X src dst (ix3 (⟨7, by norm_num⟩ : Fin 9) i k) = (K 7 (by norm_num) X src dst) (ix2 i k) := by
  unfold stackTerm
  rw [concatenate_apply_piece (a := (0 : Fin 3)) _ _ (ix3 (⟨7, by norm_num⟩ : Fin 9) i k) 7 (by simp) S1x50000x256
      (slab (K 7 (by norm_num) X src dst)) rfl rfl 7 (by simp) (ix3 (0 : Fin 1) i k)
      (fun b hb => by
        match b with
        | ⟨0, _⟩ => exact absurd rfl hb
        | ⟨1, _⟩ => rfl
        | ⟨2, _⟩ => rfl) rfl]
  exact slab_apply _ i k

/-- Slab 8 of the stack: the node table. -/
theorem stack_apply_8 (X : FVec Ideal SX .f32) (src dst : IVec SI 32) (i : Fin 50000) (k : Fin 256) :
    stackTerm X src dst (ix3 (⟨8, by norm_num⟩ : Fin 9) i k) = (X) (ix2 i k) := by
  unfold stackTerm
  rw [concatenate_apply_piece (a := (0 : Fin 3)) _ _ (ix3 (⟨8, by norm_num⟩ : Fin 9) i k) 8 (by simp) S1x50000x256
      (slab (X)) rfl rfl 8 (by simp) (ix3 (0 : Fin 1) i k)
      (fun b hb => by
        match b with
        | ⟨0, _⟩ => exact absurd rfl hb
        | ⟨1, _⟩ => rfl
        | ⟨2, _⟩ => rfl) rfl]
  exact slab_apply _ i k

/-- Matrix `r < 8` of the weight stack is the relation's. -/
theorem wcat_apply_lt (W : FVec Ideal SW .f32) (L : FVec Ideal SL .f32) (r : Fin 9) (hr : r.val < 8) (k j : Fin 256) :
    wcatTerm W L (ix3 r k j) = W (ix3 (⟨r.val, hr⟩ : Fin 8) k j) := by
  unfold wcatTerm
  exact concatenate_pair_apply_left (0 : Fin 3) W _ _ (ix3 r k j) rfl (ix3 (⟨r.val, hr⟩ : Fin 8) k j) (fun b => by
    match b with
    | ⟨0, _⟩ => rfl
    | ⟨1, _⟩ => rfl
    | ⟨2, _⟩ => rfl)

/-- Matrix 8 of the weight stack is the self-loop matrix. -/
theorem wcat_apply_last (W : FVec Ideal SW .f32) (L : FVec Ideal SL .f32) (k j : Fin 256) :
    wcatTerm W L (ix3 (⟨8, by norm_num⟩ : Fin 9) k j) = L (ix2 k j) := by
  unfold wcatTerm
  rw [concatenate_pair_apply_right (s₂ := S1x256x256) (0 : Fin 3) W _ _ (ix3 (⟨8, by norm_num⟩ : Fin 9) k j) rfl rfl (ix3 (0 : Fin 1) k j)
    (fun b hb => by
      match b with
      | ⟨0, _⟩ => exact absurd rfl hb
      | ⟨1, _⟩ => rfl
      | ⟨2, _⟩ => rfl) rfl]
  exact broadcastInDim_apply ![1, 2] _ L (ix3 (0 : Fin 1) k j) (ix2 k j) (fun b => by
    match b with
    | ⟨0, _⟩ => show k.val = if (256 : ℕ) = 1 then 0 else k.val; rw [if_neg (by norm_num)]
    | ⟨1, _⟩ => show j.val = if (256 : ℕ) = 1 then 0 else j.val; rw [if_neg (by norm_num)])

/-- The bias row at a column. -/
theorem bias_apply (b : FVec Ideal S256 .f32) (j : Fin 256) :
    biasTerm b (ix2 (0 : Fin 1) j) = b (ix1 j) := by
  unfold biasTerm
  exact shapeCast_apply b _ (ix2 (0 : Fin 1) j) (ix1 j) (by
    rw [Shape.rowMajor_val_one, Shape.rowMajor_val_two]
    show j.val = 0 * 256 + j.val
    omega)

end Cert.KernelIdeal.HostSide

end
-- ==== Proof.RefValue.lean ====
/-
  The reference's result as one named term.

  The reference adds, from the zero table, the eight relations' transform-first contributions in order, then
  the self-loop product `x · loop_weight`, then the bias laid along the rows, and clamps below at zero:

      out = max(((((0 + T 0) + T 1) + … + T 7) + x · L) + b, 0).

  `refFull` is that term over the argument arrays.
-/
import proofs.«137636_j2181843386580_2_alg».proof.Proof.HostTerms
import proofs.«137636_j2181843386580_2_alg».proof.ReferenceIdeal

noncomputable section

open scoped BigOperators

namespace Cert.RGcn.Ref

open Idealize.ShloMosaic Idealize.ShloMosaic.TcCoe Idealize.ShloMosaic.ValueIdx Idealize.SL.Sem
open Cert.ReferenceIdeal Cert.RGcn

variable [hR : Cert.ReferenceIdeal.Facts]
open Cert.ReferenceIdeal.Facts₀

/-- The side conditions the reference states, as the host terms take them. -/
theorem hostFacts : HostFacts where
  bE := bcast_S_S400000
  cE := shapeCasts_S1x400000_S400000
  bE1 := bcast_S400000_S400000x1_0
  bX := bcast_S_S50000x256
  bN := bcast_S_S50000
  bN1 := bcast_S50000_S50000x1_0
  bNX := bcast_S50000x1_S50000x256_0_1
  sI := fun r hr => match r, hr with
    | 0, _ => slices_S8x400000_S1x400000_0_0
    | 1, _ => slices_S8x400000_S1x400000_1_0
    | 2, _ => slices_S8x400000_S1x400000_2_0
    | 3, _ => slices_S8x400000_S1x400000_3_0
    | 4, _ => slices_S8x400000_S1x400000_4_0
    | 5, _ => slices_S8x400000_S1x400000_5_0
    | 6, _ => slices_S8x400000_S1x400000_6_0
    | 7, _ => slices_S8x400000_S1x400000_7_0
    | (n + 8), h => absurd h (by omega)
  gwf := gather_S50000x256_S400000x1_S400000x256_1_0_n_n_0_1_1256_wf
  swf := scatter_S50000x256_S400000x1_S400000x256_1_0_0_1_wf
  swf1 := scatter_S50000_S400000x1_S400000_n_0_0_1_wf

/-- The slicing facts of the weight stack, one per relation. -/
theorem wSlices : ∀ r : ℕ, r < 8 → SW.Slices ![r, 0, 0] SW1 := fun r hr => match r, hr with
  | 0, _ => slices_S8x256x256_S1x256x256_0_0_0
  | 1, _ => slices_S8x256x256_S1x256x256_1_0_0
  | 2, _ => slices_S8x256x256_S1x256x256_2_0_0
  | 3, _ => slices_S8x256x256_S1x256x256_3_0_0
  | 4, _ => slices_S8x256x256_S1x256x256_4_0_0
  | 5, _ => slices_S8x256x256_S1x256x256_5_0_0
  | 6, _ => slices_S8x256x256_S1x256x256_6_0_0
  | 7, _ => slices_S8x256x256_S1x256x256_7_0_0
  | (n + 8), h => absurd h (by omega)

/-- Relation `r`'s weight matrix. -/
def wSlice (r : ℕ) (hr : r < 8) (W : FVec Ideal SW .f32) : FVec Ideal SL .f32 :=
  shapeCast SL (extractStridedSlice SW1 ![r, 0, 0] W (wSlices r hr)) shapeCasts_S1x256x256_S256x256

/-- The reference's matrix product record. -/
abbrev dd : DotDims SX SL SX := dot_S50000x256_S256x256_S50000x256_1_0_0_1_n_n

/-- Relation `r`'s contribution, transform first. -/
def T (r : ℕ) (hr : r < 8) (X : FVec Ideal SX .f32) (W : FVec Ideal SW .f32) (src dst : IVec SI 32) : FVec Ideal SX .f32 :=
  refTerm hostFacts dd r hr X (wSlice r hr W) src dst

/-- The bias laid along the rows. -/
def biasRows (b : FVec Ideal S256 .f32) : FVec Ideal SX .f32 :=
  broadcastInDim S50000x256 ![0, 1] bcast_S1x256_S50000x256_0_1 (broadcastInDim S1x256 ![1] bcast_S256_S1x256_1 b)

/-- THE REFERENCE'S RESULT over the argument arrays. -/
def refFull (X : FVec Ideal SX .f32) (W : FVec Ideal SW .f32) (b : FVec Ideal S256 .f32) (L : FVec Ideal SL .f32)
    (src dst : IVec SI 32) : FVec Ideal SX .f32 :=
  maximumf
    (addf (addf (addf (addf (addf (addf (addf (addf (addf (addf (zeroX hostFacts)
      (T 0 (by norm_num) X W src dst)) (T 1 (by norm_num) X W src dst)) (T 2 (by norm_num) X W src dst))
      (T 3 (by norm_num) X W src dst)) (T 4 (by norm_num) X W src dst)) (T 5 (by norm_num) X W src dst))
      (T 6 (by norm_num) X W src dst)) (T 7 (by norm_num) X W src dst))
      (Host.dotGeneral (F := Ideal) dd none X L)) (biasRows b))
    (zeroX hostFacts)

end Cert.RGcn.Ref

end
-- ==== Proof.RefRead.lean ====
/-
  The reference's result read at an entry.

  Relation `r`'s weight matrix at `(k, j)` is the stack's entry `(r, k, j)`; the bias laid along the rows reads
  the bias at the column; so the result at `(i, j)` is

      max(((((0 + T 0 (i,j)) + … + T 7 (i,j)) + ∑ k, x(i,k) · L(k,j)) + b j, 0).
-/
import proofs.«137636_j2181843386580_2_alg».proof.Proof.RefValue
import proofs.«137636_j2181843386580_2_alg».proof.Proof.LibDotsNT
import Idealize.ShloMosaic.Lib.Pipeline.Value

noncomputable section

open scoped BigOperators

namespace Cert.RGcn.Ref

open Idealize.ShloMosaic Idealize.ShloMosaic.ValueIdx
open Cert.ReferenceIdeal Cert.RGcn

variable [hR : Cert.ReferenceIdeal.Facts]
open Cert.ReferenceIdeal.Facts₀

/-- Relation `r`'s weight matrix, read at an entry. -/
theorem wSlice_apply (r : ℕ) (hr : r < 8) (W : FVec Ideal SW .f32) (k j : Fin 256) :
    wSlice r hr W (ix2 k j) = W (ix3 (⟨r, hr⟩ : Fin 8) k j) := by
  unfold wSlice
  rw [shapeCast_apply _ _ (ix2 k j) (ix3 (0 : Fin 1) k j) (by
    rw [Shape.rowMajor_val_three, Shape.rowMajor_val_two]
    show (0 * 256 + k.val) * 256 + j.val = k.val * 256 + j.val
    omega)]
  exact extractStridedSlice_apply ![r, 0, 0] W (wSlices r hr) (ix3 (0 : Fin 1) k j) (ix3 (⟨r, hr⟩ : Fin 8) k j) (fun a => by
    match a with
    | ⟨0, _⟩ => show r = r + 0; rfl
    | ⟨1, _⟩ => show k.val = 0 + k.val; omega
    | ⟨2, _⟩ => show j.val = 0 + j.val; omega)

/-- The bias laid along the rows, read at an entry. -/
theorem biasRows_apply (b : FVec Ideal S256 .f32) (i : Fin 50000) (j : Fin 256) :
    biasRows b (ix2 i j) = b (ix1 j) := by
  unfold biasRows
  rw [broadcastInDim_apply ![0, 1] _ _ (ix2 i j) (ix2 (0 : Fin 1) j) (fun a => by
        match a with
        | ⟨0, _⟩ => show (0 : ℕ) = if (1 : ℕ) = 1 then 0 else _; rw [if_pos rfl]
        | ⟨1, _⟩ => show j.val = if (256 : ℕ) = 1 then 0 else j.val; rw [if_neg (by norm_num)]),
    broadcastInDim_apply ![1] _ b (ix2 (0 : Fin 1) j) (ix1 j) (fun a => by
        match a with
        | ⟨0, _⟩ => show j.val = if (256 : ℕ) = 1 then 0 else j.val; rw [if_neg (by norm_num)])]

/-- THE REFERENCE'S RESULT AT AN ENTRY. -/
theorem refFull_apply (X : FVec Ideal SX .f32) (W : FVec Ideal SW .f32) (b : FVec Ideal S256 .f32) (L : FVec Ideal SL .f32)
    (src dst : IVec SI 32) (i : Fin 50000) (j : Fin 256) :
    refFull X W b L src dst (ix2 i j)
      = max ((((((((((Ideal.ofBits .f32 0x00000000#32
          + T 0 (by norm_num) X W src dst (ix2 i j)) + T 1 (by norm_num) X W src dst (ix2 i j))
          + T 2 (by norm_num) X W src dst (ix2 i j)) + T 3 (by norm_num) X W src dst (ix2 i j))
          + T 4 (by norm_num) X W src dst (ix2 i j)) + T 5 (by norm_num) X W src dst (ix2 i j))
          + T 6 (by norm_num) X W src dst (ix2 i j)) + T 7 (by norm_num) X W src dst (ix2 i j))
          + ∑ k : Fin 256, X (ix2 i k) * L (ix2 k j)) + b (ix1 j)) (Ideal.ofBits .f32 0x00000000#32) := by
  have hb := biasRows_apply b i j
  have hd : Host.dotGeneral (F := Ideal) dd none X L (ix2 i j) = ∑ k : Fin 256, X (ix2 i k) * L (ix2 k j) :=
    Cert.LibDotsNT.plain_dotGeneral_apply dd rfl rfl rfl rfl rfl rfl none _ X L i j
  rw [← hb, ← hd]
  rfl

end Cert.RGcn.Ref

end
-- ==== Proof.Entry.lean ====
/-
  The two results agree entry by entry.

  At `(i, j)` the kernel's region computes, from the staged arrays,

      max((((0 + S 0) + S 1) + … + S 8) + bias j, 0),     S r = ∑ k, stack(r, i, k) · weights(r, k, j),

  and the reference computes  max(((((0 + T 0) + … + T 7) + ∑ k, x(i,k) · L(k,j)) + b j, 0).  For `r < 8` slab `r`
  of the stack is relation `r`'s aggregate-first term and matrix `r` is the relation's weight matrix, so
  `S r = T r` by the law joining a relation's two forms; slab 8 is the node table and matrix 8 the self-loop
  matrix, so `S 8` is the self-loop product; the bias row reads the bias.  The two sums have the same
  association, so nothing else is needed.
-/
import proofs.«137636_j2181843386580_2_alg».proof.Proof.KerRead
import proofs.«137636_j2181843386580_2_alg».proof.Proof.RefRead

noncomputable section

open scoped BigOperators

namespace Cert.RGcn

open Idealize.ShloMosaic Idealize.ShloMosaic.ValueIdx
open Cert.LibRealSums Cert.KernelIdeal.HostSide Cert.RGcn.Ref

variable [hK : Cert.KernelIdeal.Facts] [hR : Cert.ReferenceIdeal.Facts]

/-- A relation's slab times its weight matrix is the relation's transform-first term. -/
theorem slab_mul_eq (r : ℕ) (hr : r < 8) (X : FVec Ideal SX .f32) (W : FVec Ideal SW .f32) (src dst : IVec SI 32)
    (hX : ∀ a, IsReal (X a)) (hW : ∀ a, IsReal (W a)) (i : Fin 50000) (j : Fin 256) :
    ∑ k : Fin 256, K r hr X src dst (ix2 i k) * W (ix3 (⟨r, hr⟩ : Fin 8) k j) = T r hr X W src dst (ix2 i j) := by
  have h := term_eq Cert.RGcn.Ref.hostFacts dd rfl rfl rfl rfl rfl rfl r hr X (wSlice r hr W) src dst hX
    (fun a => by
      obtain ⟨k', j', rfl⟩ : ∃ (k' j' : Fin 256), a = ix2 k' j' := ⟨a 0, a 1, eq_ix2 a⟩
      rw [wSlice_apply]; exact hW _) i j
  refine (Finset.sum_congr rfl fun k _ => ?_).trans h
  rw [wSlice_apply]
  rfl

/-- THE ENTRIES AGREE. -/
theorem entry_eq (X : FVec Ideal SX .f32) (W : FVec Ideal SW .f32) (b : FVec Ideal Cert.ReferenceIdeal.S256 .f32) (L : FVec Ideal SL .f32)
    (src dst : IVec SI 32) (hX : ∀ a, IsReal (X a)) (hW : ∀ a, IsReal (W a)) (i : Fin 50000) (j : Fin 256) :
    max ((((((((((Ideal.ofBits .f32 0x00000000#32
        + ∑ k : Fin 256, stackTerm X src dst (ix3 (⟨0, by norm_num⟩ : Fin 9) i k) * wcatTerm W L (ix3 (⟨0, by norm_num⟩ : Fin 9) k j))
        + ∑ k : Fin 256, stackTerm X src dst (ix3 (⟨1, by norm_num⟩ : Fin 9) i k) * wcatTerm W L (ix3 (⟨1, by norm_num⟩ : Fin 9) k j))
        + ∑ k : Fin 256, stackTerm X src dst (ix3 (⟨2, by norm_num⟩ : Fin 9) i k) * wcatTerm W L (ix3 (⟨2, by norm_num⟩ : Fin 9) k j))
        + ∑ k : Fin 256, stackTerm X src dst (ix3 (⟨3, by norm_num⟩ : Fin 9) i k) * wcatTerm W L (ix3 (⟨3, by norm_num⟩ : Fin 9) k j))
        + ∑ k : Fin 256, stackTerm X src dst (ix3 (⟨4, by norm_num⟩ : Fin 9) i k) * wcatTerm W L (ix3 (⟨4, by norm_num⟩ : Fin 9) k j))
        + ∑ k : Fin 256, stackTerm X src dst (ix3 (⟨5, by norm_num⟩ : Fin 9) i k) * wcatTerm W L (ix3 (⟨5, by norm_num⟩ : Fin 9) k j))
        + ∑ k : Fin 256, stackTerm X src dst (ix3 (⟨6, by norm_num⟩ : Fin 9) i k) * wcatTerm W L (ix3 (⟨6, by norm_num⟩ : Fin 9) k j))
        + ∑ k : Fin 256, stackTerm X src dst (ix3 (⟨7, by norm_num⟩ : Fin 9) i k) * wcatTerm W L (ix3 (⟨7, by norm_num⟩ : Fin 9) k j))
        + ∑ k : Fin 256, stackTerm X src dst (ix3 (⟨8, by norm_num⟩ : Fin 9) i k) * wcatTerm W L (ix3 (⟨8, by norm_num⟩ : Fin 9) k j))
        + biasTerm b (ix2 (0 : Fin 1) j)) (Ideal.ofBits .f32 0x00000000#32)
      = refFull X W b L src dst (ix2 i j) := by
  rw [refFull_apply, bias_apply]
  simp only [stack_apply_0, stack_apply_1, stack_apply_2, stack_apply_3, stack_apply_4, stack_apply_5, stack_apply_6,
    stack_apply_7, stack_apply_8, wcat_apply_last,
    wcat_apply_lt W L (⟨0, by norm_num⟩ : Fin 9) (by norm_num), wcat_apply_lt W L (⟨1, by norm_num⟩ : Fin 9) (by norm_num),
    wcat_apply_lt W L (⟨2, by norm_num⟩ : Fin 9) (by norm_num), wcat_apply_lt W L (⟨3, by norm_num⟩ : Fin 9) (by norm_num),
    wcat_apply_lt W L (⟨4, by norm_num⟩ : Fin 9) (by norm_num), wcat_apply_lt W L (⟨5, by norm_num⟩ : Fin 9) (by norm_num),
    wcat_apply_lt W L (⟨6, by norm_num⟩ : Fin 9) (by norm_num), wcat_apply_lt W L (⟨7, by norm_num⟩ : Fin 9) (by norm_num)]
  rw [slab_mul_eq 0 (by norm_num) X W src dst hX hW i j, slab_mul_eq 1 (by norm_num) X W src dst hX hW i j,
    slab_mul_eq 2 (by norm_num) X W src dst hX hW i j, slab_mul_eq 3 (by norm_num) X W src dst hX hW i j,
    slab_mul_eq 4 (by norm_num) X W src dst hX hW i j, slab_mul_eq 5 (by norm_num) X W src dst hX hW i j,
    slab_mul_eq 6 (by norm_num) X W src dst hX hW i j, slab_mul_eq 7 (by norm_num) X W src dst hX hW i j]

end Cert.RGcn

end
-- ==== Proof.KerFinal.lean ====
/-
  The output array after the run is the reference's result.

  The output array ends holding any function `G` that every written-back block agrees with entry by entry
  (the blocks tile the array).  At row `i = 5000 n + p` and column `q` the block of tile `n` holds the nine
  products' sum plus the bias, clamped at zero, over the three arrays the region stages; those arrays are the
  slab stack, the weight stack and the bias row of the arguments; and that entry is the reference's result at
  `(i, q)`.
-/
import proofs.«137636_j2181843386580_2_alg».proof.Proof.KerArrI
import proofs.«137636_j2181843386580_2_alg».proof.Proof.KerHostSeg
import proofs.«137636_j2181843386580_2_alg».proof.Proof.KerHostSegRest
import proofs.«137636_j2181843386580_2_alg».proof.Proof.Entry

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen Cert.KernelIdeal.HostSide Cert.RGcn Cert.LibRealSums

variable [hR : Cert.ReferenceIdeal.Facts]
variable (m : (ℓ : Loc nD τ sig) → Buf (Elt Ideal) ℓ)

/-- What the output array ends holding: the reference's result over the kernel's own argument arrays. -/
def Gout (c : Dev nD) : S50000x256.Idx → EReal :=
  Cert.RGcn.Ref.refFull (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- THE OUTPUT ARRAY after the run is the reference's result, when the node table and the relation weights hold
    real numbers. -/
theorem final (c : Dev nD) (hX : ∀ a, IsReal (m ((c.tc : Thread nD τ).loc main_arg0) a))
    (hW : ∀ a, IsReal (m ((c.tc : Thread nD τ).loc main_arg1) a)) :
    (dats (F := Ideal) m 0 c).arrAt 3 cfg0.N = Gout m c :=
  final_of m c (Gout m c) (fun n hn p q i hi => by
    have hrow : ∀ h, (⟨5000 * n + p.val, h⟩ : Fin 50000) = i := fun h => Fin.ext hi.symm
    rw [P_eight, V_stack, V_wcat, V_bias]
    simp only [S_def, hrow]
    exact entry_eq _ _ _ _ _ _ hX hW i q)

end Cert.KernelIdeal.Hand

end
-- ==== Proof.RefOps.lean ====
/-
  The reference's @main as lists of its host operations, one list per printed window of @main (the functions
  jax outlined stand inline at their calls); each window is the sequence of its list, so @main is the sequence of
  the five lists one after the other; each operation touches TensorCore buffers only and allocates nothing.
-/
import proofs.«137636_j2181843386580_2_alg».proof.Proof.Gen.ReferenceIdeal
import Idealize.ShloMosaic.Lib.StableHlo.Run

noncomputable section

namespace Cert.RGcn.Ref

open Cert.ReferenceIdeal Cert.ReferenceIdeal.Gen Idealize.ShloMosaic Idealize.ShloMosaic.TcCoe Idealize.SL.Sem Idealize.ShloMosaic.StableHlo

variable {F : FTy → Type} [FloatOps F]
/-- The operations of window 0 of @main, in order. -/
abbrev opsP0 : List (HloOp τ sig (Elt F)) :=
  [ nullary main_cst (constant S_ .f32 0x00000000#32),
    unary main_cst main_v0 (broadcastInDim S50000x256 ![] bcast_S_S50000x256 : (⟨S_, .f32⟩ : BufTy).Contents (Elt F) → (⟨S50000x256, .f32⟩ : BufTy).Contents (Elt F)),
    unary main_arg1 main_v1 ((extractStridedSlice S1x256x256 ![0, 0, 0] · slices_S8x256x256_S1x256x256_0_0_0) : (⟨S8x256x256, .f32⟩ : BufTy).Contents (Elt F) → (⟨S1x256x256, .f32⟩ : BufTy).Contents (Elt F)),
    reshape main_v1 main_v2 rfl shapeCasts_S1x256x256_S256x256,
    binary main_arg0 main_v2 main_v3 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v4 ((extractStridedSlice S1x400000 ![0, 0] · slices_S8x400000_S1x400000_0_0) : (⟨S8x400000, .i32⟩ : BufTy).Contents (Elt F) → (⟨S1x400000, .i32⟩ : BufTy).Contents (Elt F)),
    reshape main_v4 main_v5 rfl shapeCasts_S1x400000_S400000,
    nullary main_c (constantI S_ 32 0#32),
    unary main_c main_v6 (broadcastInDim S400000 ![] bcast_S_S400000 : (⟨S_, .i32⟩ : BufTy).Contents (Elt F) → (⟨S400000, .i32⟩ : BufTy).Contents (Elt F)),
    binary main_v5 main_v6 main_v7 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v8 (broadcastInDim S400000 ![] bcast_S_S400000 : (⟨S_, .i32⟩ : BufTy).Contents (Elt F) → (⟨S400000, .i32⟩ : BufTy).Contents (Elt F)),
    binary main_v5 main_v8 main_v9 (addi : (⟨S400000, .i32⟩ : BufTy).Contents (Elt F) → (⟨S400000, .i32⟩ : BufTy).Contents (Elt F) → (⟨S400000, .i32⟩ : BufTy).Contents (Elt F)),
    ternary main_v7 main_v9 main_v5 main_v10 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v10 main_v11 (broadcastInDim S400000x1 ![0] bcast_S400000_S400000x1_0 : (⟨S400000, .i32⟩ : BufTy).Contents (Elt F) → (⟨S400000x1, .i32⟩ : BufTy).Contents (Elt F)),
    binary main_v3 main_v11 main_v12 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v13 ((extractStridedSlice S1x400000 ![0, 0] · slices_S8x400000_S1x400000_0_0) : (⟨S8x400000, .i32⟩ : BufTy).Contents (Elt F) → (⟨S1x400000, .i32⟩ : BufTy).Contents (Elt F)),
    reshape main_v13 main_v14 rfl shapeCasts_S1x400000_S400000,
    nullary main_cst_1 (constant S_ .f32 0x00000000#32),
    unary main_cst_1 main_v15 (broadcastInDim S50000x256 ![] bcast_S_S50000x256 : (⟨S_, .f32⟩ : BufTy).Contents (Elt F) → (⟨S50000x256, .f32⟩ : BufTy).Contents (Elt F)),
    unary main_v14 main_v16 (broadcastInDim S400000x1 ![0] bcast_S400000_S400000x1_0 : (⟨S400000, .i32⟩ : BufTy).Contents (Elt F) → (⟨S400000x1, .i32⟩ : BufTy).Contents (Elt F)),
    ternary main_v15 main_v16 main_v12 main_v17 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_2 (constant S_ .f32 0x3F800000#32),
    unary main_cst_2 main_v18 (broadcastInDim S400000 ![] bcast_S_S400000 : (⟨S_, .f32⟩ : BufTy).Contents (Elt F) → (⟨S400000, .f32⟩ : BufTy).Contents (Elt F)),
    unary main_arg5 main_v19 ((extractStridedSlice S1x400000 ![0, 0] · slices_S8x400000_S1x400000_0_0) : (⟨S8x400000, .i32⟩ : BufTy).Contents (Elt F) → (⟨S1x400000, .i32⟩ : BufTy).Contents (Elt F)),
    reshape main_v19 main_v20 rfl shapeCasts_S1x400000_S400000,
    nullary main_cst_3 (constant S_ .f32 0x00000000#32),
    unary main_cst_3 main_v21 (broadcastInDim S50000 ![] bcast_S_S50000 : (⟨S_, .f32⟩ : BufTy).Contents (Elt F) → (⟨S50000, .f32⟩ : BufTy).Contents (Elt F)),
    unary main_v20 main_v22 (broadcastInDim S400000x1 ![0] bcast_S400000_S400000x1_0 : (⟨S400000, .i32⟩ : BufTy).Contents (Elt F) → (⟨S400000x1, .i32⟩ : BufTy).Contents (Elt F)),
    ternary main_v21 main_v22 main_v18 main_v23 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_4 (constant S_ .f32 0x3F800000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v23) (TRef.of (T := ⟨S50000, .f32⟩) main_v24) maximumf,
    unary main_v24 main_v25 (broadcastInDim S50000x1 ![0] bcast_S50000_S50000x1_0 : (⟨S50000, .f32⟩ : BufTy).Contents (Elt F) → (⟨S50000x1, .f32⟩ : BufTy).Contents (Elt F)),
    unary main_v25 main_v26 (broadcastInDim S50000x256 ![0, 1] bcast_S50000x1_S50000x256_0_1 : (⟨S50000x1, .f32⟩ : BufTy).Contents (Elt F) → (⟨S50000x256, .f32⟩ : BufTy).Contents (Elt F)),
    binary main_v17 main_v26 main_v27 (Host.divf : (⟨S50000x256, .f32⟩ : BufTy).Contents (Elt F) → (⟨S50000x256, .f32⟩ : BufTy).Contents (Elt F) → (⟨S50000x256, .f32⟩ : BufTy).Contents (Elt F)),
    binary main_v0 main_v27 main_v28 (addf : (⟨S50000x256, .f32⟩ : BufTy).Contents (Elt F) → (⟨S50000x256, .f32⟩ : BufTy).Contents (Elt F) → (⟨S50000x256, .f32⟩ : BufTy).Contents (Elt F)),
    unary main_arg1 main_v29 ((extractStridedSlice S1x256x256 ![1, 0, 0] · slices_S8x256x256_S1x256x256_1_0_0) : (⟨S8x256x256, .f32⟩ : BufTy).Contents (Elt F) → (⟨S1x256x256, .f32⟩ : BufTy).Contents (Elt F)),
    reshape main_v29 main_v30 rfl shapeCasts_S1x256x256_S256x256,
    binary main_arg0 main_v30 main_v31 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v32 ((extractStridedSlice S1x400000 ![1, 0] · slices_S8x400000_S1x400000_1_0) : (⟨S8x400000, .i32⟩ : BufTy).Contents (Elt F) → (⟨S1x400000, .i32⟩ : BufTy).Contents (Elt F)),
    reshape main_v32 main_v33 rfl shapeCasts_S1x400000_S400000,
    nullary main_c_5 (constantI S_ 32 0#32),
    unary main_c_5 main_v34 (broadcastInDim S400000 ![] bcast_S_S400000 : (⟨S_, .i32⟩ : BufTy).Contents (Elt F) → (⟨S400000, .i32⟩ : BufTy).Contents (Elt F)),
    binary main_v33 main_v34 main_v35 (cmpi .slt : (⟨S400000, .i32⟩ : BufTy).Contents (Elt F) → (⟨S400000, .i32⟩ : BufTy).Contents (Elt F) → (⟨S400000, .i1⟩ : BufTy).Contents (Elt F)),
    nullary main_c_6 (constantI S_ 32 50000#32),
    unary main_c_6 main_v36 (broadcastInDim S400000 ![] bcast_S_S400000 : (⟨S_, .i32⟩ : BufTy).Contents (Elt F) → (⟨S400000, .i32⟩ : BufTy).Contents (Elt F)),
    binary main_v33 main_v36 main_v37 (addi : (⟨S400000, .i32⟩ : BufTy).Contents (Elt F) → (⟨S400000, .i32⟩ : BufTy).Contents (Elt F) → (⟨S400000, .i32⟩ : BufTy).Contents (Elt F)),
    ternary main_v35 main_v37 main_v33 main_v38 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v38 main_v39 (broadcastInDim S400000x1 ![0] bcast_S400000_S400000x1_0 : (⟨S400000, .i32⟩ : BufTy).Contents (Elt F) → (⟨S400000x1, .i32⟩ : BufTy).Contents (Elt F)),
    binary main_v31 main_v39 main_v40 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v41 ((extractStridedSlice S1x400000 ![1, 0] · slices_S8x400000_S1x400000_1_0) : (⟨S8x400000, .i32⟩ : BufTy).Contents (Elt F) → (⟨S1x400000, .i32⟩ : BufTy).Contents (Elt F)),
    reshape main_v41 main_v42 rfl shapeCasts_S1x400000_S400000,
    nullary main_cst_7 (constant S_ .f32 0x00000000#32),
    unary main_cst_7 main_v43 (broadcastInDim S50000x256 ![] bcast_S_S50000x256 : (⟨S_, .f32⟩ : BufTy).Contents (Elt F) → (⟨S50000x256, .f32⟩ : BufTy).Contents (Elt F)),
    unary main_v42 main_v44 (broadcastInDim S400000x1 ![0] bcast_S400000_S400000x1_0 : (⟨S400000, .i32⟩ : BufTy).Contents (Elt F) → (⟨S400000x1, .i32⟩ : BufTy).Contents (Elt F)),
    ternary main_v43 main_v44 main_v40 main_v45 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_8 (constant S_ .f32 0x3F800000#32),
    unary main_cst_8 main_v46 (broadcastInDim S400000 ![] bcast_S_S400000 : (⟨S_, .f32⟩ : BufTy).Contents (Elt F) → (⟨S400000, .f32⟩ : BufTy).Contents (Elt F)),
    unary main_arg5 main_v47 ((extractStridedSlice S1x400000 ![1, 0] · slices_S8x400000_S1x400000_1_0) : (⟨S8x400000, .i32⟩ : BufTy).Contents (Elt F) → (⟨S1x400000, .i32⟩ : BufTy).Contents (Elt F)),
    reshape main_v47 main_v48 rfl shapeCasts_S1x400000_S400000 ]

set_option maxRecDepth 8192 in
set_option maxHeartbeats 4000000 in
/-- Window 0 is the sequence of its operations. -/
theorem part0_eq (c : Dev nD) : main_part0 (F := F) c = (seq opsP0 : Prog (TpuEff nD τ sig (Elt F) (Pipeline.Sig Λ₀ (Fin 0) fun p => (pcfgs (F := F) p).Adm) .tc) PUnit) := rfl

/-- Each touches TensorCore buffers only. -/
theorem opsP0_sub : (opsP0 : List (HloOp τ sig (Elt F))).Forall fun op => op.bufs ⊆ tcRefs τ sig :=
  ⟨nullary_bufs_sub .., unary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub ..⟩

/-- None allocates. -/
theorem opsP0_fresh : ∀ op ∈ (opsP0 : List (HloOp τ sig (Elt F))), op.fresh = ∅ := by
  intro _ h; (repeat (cases h with | head => rfl | tail _ h => ?_)); exact nomatch h

/-- The operations of window 1 of @main, in order. -/
abbrev opsP1 : List (HloOp τ sig (Elt F)) :=
  [ nullary main_cst_9 (constant S_ .f32 0x00000000#32),
    unary main_cst_9 main_v49 (broadcastInDim S50000 ![] bcast_S_S50000 : (⟨S_, .f32⟩ : BufTy).Contents (Elt F) → (⟨S50000, .f32⟩ : BufTy).Contents (Elt F)),
    unary main_v48 main_v50 (broadcastInDim S400000x1 ![0] bcast_S400000_S400000x1_0 : (⟨S400000, .i32⟩ : BufTy).Contents (Elt F) → (⟨S400000x1, .i32⟩ : BufTy).Contents (Elt F)),
    ternary main_v49 main_v50 main_v46 main_v51 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_10 (constant S_ .f32 0x3F800000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_v51) (TRef.of (T := ⟨S50000, .f32⟩) main_v52) maximumf,
    unary main_v52 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x256 ![0, 1] bcast_S50000x1_S50000x256_0_1 : (⟨S50000x1, .f32⟩ : BufTy).Contents (Elt F) → (⟨S50000x256, .f32⟩ : BufTy).Contents (Elt F)),
    binary main_v45 main_v54 main_v55 (Host.divf : (⟨S50000x256, .f32⟩ : BufTy).Contents (Elt F) → (⟨S50000x256, .f32⟩ : BufTy).Contents (Elt F) → (⟨S50000x256, .f32⟩ : BufTy).Contents (Elt F)),
    binary main_v28 main_v55 main_v56 (addf : (⟨S50000x256, .f32⟩ : BufTy).Contents (Elt F) → (⟨S50000x256, .f32⟩ : BufTy).Contents (Elt F) → (⟨S50000x256, .f32⟩ : BufTy).Contents (Elt F)),
    unary main_arg1 main_v57 ((extractStridedSlice S1x256x256 ![2, 0, 0] · slices_S8x256x256_S1x256x256_2_0_0) : (⟨S8x256x256, .f32⟩ : BufTy).Contents (Elt F) → (⟨S1x256x256, .f32⟩ : BufTy).Contents (Elt F)),
    reshape main_v57 main_v58 rfl shapeCasts_S1x256x256_S256x256,
    binary main_arg0 main_v58 main_v59 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v60 ((extractStridedSlice S1x400000 ![2, 0] · slices_S8x400000_S1x400000_2_0) : (⟨S8x400000, .i32⟩ : BufTy).Contents (Elt F) → (⟨S1x400000, .i32⟩ : BufTy).Contents (Elt F)),
    reshape main_v60 main_v61 rfl shapeCasts_S1x400000_S400000,
    nullary main_c_11 (constantI S_ 32 0#32),
    unary main_c_11 main_v62 (broadcastInDim S400000 ![] bcast_S_S400000 : (⟨S_, .i32⟩ : BufTy).Contents (Elt F) → (⟨S400000, .i32⟩ : BufTy).Contents (Elt F)),
    binary main_v61 main_v62 main_v63 (cmpi .slt : (⟨S400000, .i32⟩ : BufTy).Contents (Elt F) → (⟨S400000, .i32⟩ : BufTy).Contents (Elt F) → (⟨S400000, .i1⟩ : BufTy).Contents (Elt F)),
    nullary main_c_12 (constantI S_ 32 50000#32),
    unary main_c_12 main_v64 (broadcastInDim S400000 ![] bcast_S_S400000 : (⟨S_, .i32⟩ : BufTy).Contents (Elt F) → (⟨S400000, .i32⟩ : BufTy).Contents (Elt F)),
    binary main_v61 main_v64 main_v65 (addi : (⟨S400000, .i32⟩ : BufTy).Contents (Elt F) → (⟨S400000, .i32⟩ : BufTy).Contents (Elt F) → (⟨S400000, .i32⟩ : BufTy).Contents (Elt F)),
    ternary main_v63 main_v65 main_v61 main_v66 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v66 main_v67 (broadcastInDim S400000x1 ![0] bcast_S400000_S400000x1_0 : (⟨S400000, .i32⟩ : BufTy).Contents (Elt F) → (⟨S400000x1, .i32⟩ : BufTy).Contents (Elt F)),
    binary main_v59 main_v67 main_v68 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v69 ((extractStridedSlice S1x400000 ![2, 0] · slices_S8x400000_S1x400000_2_0) : (⟨S8x400000, .i32⟩ : BufTy).Contents (Elt F) → (⟨S1x400000, .i32⟩ : BufTy).Contents (Elt F)),
    reshape main_v69 main_v70 rfl shapeCasts_S1x400000_S400000,
    nullary main_cst_13 (constant S_ .f32 0x00000000#32),
    unary main_cst_13 main_v71 (broadcastInDim S50000x256 ![] bcast_S_S50000x256 : (⟨S_, .f32⟩ : BufTy).Contents (Elt F) → (⟨S50000x256, .f32⟩ : BufTy).Contents (Elt F)),
    unary main_v70 main_v72 (broadcastInDim S400000x1 ![0] bcast_S400000_S400000x1_0 : (⟨S400000, .i32⟩ : BufTy).Contents (Elt F) → (⟨S400000x1, .i32⟩ : BufTy).Contents (Elt F)),
    ternary main_v71 main_v72 main_v68 main_v73 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_14 (constant S_ .f32 0x3F800000#32),
    unary main_cst_14 main_v74 (broadcastInDim S400000 ![] bcast_S_S400000 : (⟨S_, .f32⟩ : BufTy).Contents (Elt F) → (⟨S400000, .f32⟩ : BufTy).Contents (Elt F)),
    unary main_arg5 main_v75 ((extractStridedSlice S1x400000 ![2, 0] · slices_S8x400000_S1x400000_2_0) : (⟨S8x400000, .i32⟩ : BufTy).Contents (Elt F) → (⟨S1x400000, .i32⟩ : BufTy).Contents (Elt F)),
    reshape main_v75 main_v76 rfl shapeCasts_S1x400000_S400000,
    nullary main_cst_15 (constant S_ .f32 0x00000000#32),
    unary main_cst_15 main_v77 (broadcastInDim S50000 ![] bcast_S_S50000 : (⟨S_, .f32⟩ : BufTy).Contents (Elt F) → (⟨S50000, .f32⟩ : BufTy).Contents (Elt F)),
    unary main_v76 main_v78 (broadcastInDim S400000x1 ![0] bcast_S400000_S400000x1_0 : (⟨S400000, .i32⟩ : BufTy).Contents (Elt F) → (⟨S400000x1, .i32⟩ : BufTy).Contents (Elt F)),
    ternary main_v77 main_v78 main_v74 main_v79 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_16 (constant S_ .f32 0x3F800000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v79) (TRef.of (T := ⟨S50000, .f32⟩) main_v80) maximumf,
    unary main_v80 main_v81 (broadcastInDim S50000x1 ![0] bcast_S50000_S50000x1_0 : (⟨S50000, .f32⟩ : BufTy).Contents (Elt F) → (⟨S50000x1, .f32⟩ : BufTy).Contents (Elt F)),
    unary main_v81 main_v82 (broadcastInDim S50000x256 ![0, 1] bcast_S50000x1_S50000x256_0_1 : (⟨S50000x1, .f32⟩ : BufTy).Contents (Elt F) → (⟨S50000x256, .f32⟩ : BufTy).Contents (Elt F)),
    binary main_v73 main_v82 main_v83 (Host.divf : (⟨S50000x256, .f32⟩ : BufTy).Contents (Elt F) → (⟨S50000x256, .f32⟩ : BufTy).Contents (Elt F) → (⟨S50000x256, .f32⟩ : BufTy).Contents (Elt F)),
    binary main_v56 main_v83 main_v84 (addf : (⟨S50000x256, .f32⟩ : BufTy).Contents (Elt F) → (⟨S50000x256, .f32⟩ : BufTy).Contents (Elt F) → (⟨S50000x256, .f32⟩ : BufTy).Contents (Elt F)),
    unary main_arg1 main_v85 ((extractStridedSlice S1x256x256 ![3, 0, 0] · slices_S8x256x256_S1x256x256_3_0_0) : (⟨S8x256x256, .f32⟩ : BufTy).Contents (Elt F) → (⟨S1x256x256, .f32⟩ : BufTy).Contents (Elt F)),
    reshape main_v85 main_v86 rfl shapeCasts_S1x256x256_S256x256,
    binary main_arg0 main_v86 main_v87 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v88 ((extractStridedSlice S1x400000 ![3, 0] · slices_S8x400000_S1x400000_3_0) : (⟨S8x400000, .i32⟩ : BufTy).Contents (Elt F) → (⟨S1x400000, .i32⟩ : BufTy).Contents (Elt F)),
    reshape main_v88 main_v89 rfl shapeCasts_S1x400000_S400000,
    nullary main_c_17 (constantI S_ 32 0#32),
    unary main_c_17 main_v90 (broadcastInDim S400000 ![] bcast_S_S400000 : (⟨S_, .i32⟩ : BufTy).Contents (Elt F) → (⟨S400000, .i32⟩ : BufTy).Contents (Elt F)),
    binary main_v89 main_v90 main_v91 (cmpi .slt : (⟨S400000, .i32⟩ : BufTy).Contents (Elt F) → (⟨S400000, .i32⟩ : BufTy).Contents (Elt F) → (⟨S400000, .i1⟩ : BufTy).Contents (Elt F)),
    nullary main_c_18 (constantI S_ 32 50000#32),
    unary main_c_18 main_v92 (broadcastInDim S400000 ![] bcast_S_S400000 : (⟨S_, .i32⟩ : BufTy).Contents (Elt F) → (⟨S400000, .i32⟩ : BufTy).Contents (Elt F)),
    binary main_v89 main_v92 main_v93 (addi : (⟨S400000, .i32⟩ : BufTy).Contents (Elt F) → (⟨S400000, .i32⟩ : BufTy).Contents (Elt F) → (⟨S400000, .i32⟩ : BufTy).Contents (Elt F)),
    ternary main_v91 main_v93 main_v89 main_v94 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v94 main_v95 (broadcastInDim S400000x1 ![0] bcast_S400000_S400000x1_0 : (⟨S400000, .i32⟩ : BufTy).Contents (Elt F) → (⟨S400000x1, .i32⟩ : BufTy).Contents (Elt F)),
    binary main_v87 main_v95 main_v96 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v97 ((extractStridedSlice S1x400000 ![3, 0] · slices_S8x400000_S1x400000_3_0) : (⟨S8x400000, .i32⟩ : BufTy).Contents (Elt F) → (⟨S1x400000, .i32⟩ : BufTy).Contents (Elt F)),
    reshape main_v97 main_v98 rfl shapeCasts_S1x400000_S400000 ]

set_option maxRecDepth 8192 in
set_option maxHeartbeats 4000000 in
/-- Window 1 is the sequence of its operations. -/
theorem part1_eq (c : Dev nD) : main_part1 (F := F) c = (seq opsP1 : Prog (TpuEff nD τ sig (Elt F) (Pipeline.Sig Λ₀ (Fin 0) fun p => (pcfgs (F := F) p).Adm) .tc) PUnit) := rfl

/-- Each touches TensorCore buffers only. -/
theorem opsP1_sub : (opsP1 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩

/-- None allocates. -/
theorem opsP1_fresh : ∀ op ∈ (opsP1 : List (HloOp τ sig (Elt F))), op.fresh = ∅ := by
  intro _ h; (repeat (cases h with | head => rfl | tail _ h => ?_)); exact nomatch h

/-- The operations of window 2 of @main, in order. -/
abbrev opsP2 : List (HloOp τ sig (Elt F)) :=
  [ nullary main_cst_19 (constant S_ .f32 0x00000000#32),
    unary main_cst_19 main_v99 (broadcastInDim S50000x256 ![] bcast_S_S50000x256 : (⟨S_, .f32⟩ : BufTy).Contents (Elt F) → (⟨S50000x256, .f32⟩ : BufTy).Contents (Elt F)),
    unary main_v98 main_v100 (broadcastInDim S400000x1 ![0] bcast_S400000_S400000x1_0 : (⟨S400000, .i32⟩ : BufTy).Contents (Elt F) → (⟨S400000x1, .i32⟩ : BufTy).Contents (Elt F)),
    ternary main_v99 main_v100 main_v96 main_v101 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_20 (constant S_ .f32 0x3F800000#32),
    unary main_cst_20 main_v102 (broadcastInDim S400000 ![] bcast_S_S400000 : (⟨S_, .f32⟩ : BufTy).Contents (Elt F) → (⟨S400000, .f32⟩ : BufTy).Contents (Elt F)),
    unary main_arg5 main_v103 ((extractStridedSlice S1x400000 ![3, 0] · slices_S8x400000_S1x400000_3_0) : (⟨S8x400000, .i32⟩ : BufTy).Contents (Elt F) → (⟨S1x400000, .i32⟩ : BufTy).Contents (Elt F)),
    reshape main_v103 main_v104 rfl shapeCasts_S1x400000_S400000,
    nullary main_cst_21 (constant S_ .f32 0x00000000#32),
    unary main_cst_21 main_v105 (broadcastInDim S50000 ![] bcast_S_S50000 : (⟨S_, .f32⟩ : BufTy).Contents (Elt F) → (⟨S50000, .f32⟩ : BufTy).Contents (Elt F)),
    unary main_v104 main_v106 (broadcastInDim S400000x1 ![0] bcast_S400000_S400000x1_0 : (⟨S400000, .i32⟩ : BufTy).Contents (Elt F) → (⟨S400000x1, .i32⟩ : BufTy).Contents (Elt F)),
    ternary main_v105 main_v106 main_v102 main_v107 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_22 (constant S_ .f32 0x3F800000#32),
    TRef.unary (TRef.of (T := ⟨S_, .f32⟩) main_cst_22) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_v107) (TRef.of (T := ⟨S50000, .f32⟩) main_v108) maximumf,
    unary main_v108 main_v109 (broadcastInDim S50000x1 ![0] bcast_S50000_S50000x1_0 : (⟨S50000, .f32⟩ : BufTy).Contents (Elt F) → (⟨S50000x1, .f32⟩ : BufTy).Contents (Elt F)),
    unary main_v109 main_v110 (broadcastInDim S50000x256 ![0, 1] bcast_S50000x1_S50000x256_0_1 : (⟨S50000x1, .f32⟩ : BufTy).Contents (Elt F) → (⟨S50000x256, .f32⟩ : BufTy).Contents (Elt F)),
    binary main_v101 main_v110 main_v111 (Host.divf : (⟨S50000x256, .f32⟩ : BufTy).Contents (Elt F) → (⟨S50000x256, .f32⟩ : BufTy).Contents (Elt F) → (⟨S50000x256, .f32⟩ : BufTy).Contents (Elt F)),
    binary main_v84 main_v111 main_v112 (addf : (⟨S50000x256, .f32⟩ : BufTy).Contents (Elt F) → (⟨S50000x256, .f32⟩ : BufTy).Contents (Elt F) → (⟨S50000x256, .f32⟩ : BufTy).Contents (Elt F)),
    unary main_arg1 main_v113 ((extractStridedSlice S1x256x256 ![4, 0, 0] · slices_S8x256x256_S1x256x256_4_0_0) : (⟨S8x256x256, .f32⟩ : BufTy).Contents (Elt F) → (⟨S1x256x256, .f32⟩ : BufTy).Contents (Elt F)),
    reshape main_v113 main_v114 rfl shapeCasts_S1x256x256_S256x256,
    binary main_arg0 main_v114 main_v115 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v116 ((extractStridedSlice S1x400000 ![4, 0] · slices_S8x400000_S1x400000_4_0) : (⟨S8x400000, .i32⟩ : BufTy).Contents (Elt F) → (⟨S1x400000, .i32⟩ : BufTy).Contents (Elt F)),
    reshape main_v116 main_v117 rfl shapeCasts_S1x400000_S400000,
    nullary main_c_23 (constantI S_ 32 0#32),
    unary main_c_23 main_v118 (broadcastInDim S400000 ![] bcast_S_S400000 : (⟨S_, .i32⟩ : BufTy).Contents (Elt F) → (⟨S400000, .i32⟩ : BufTy).Contents (Elt F)),
    binary main_v117 main_v118 main_v119 (cmpi .slt : (⟨S400000, .i32⟩ : BufTy).Contents (Elt F) → (⟨S400000, .i32⟩ : BufTy).Contents (Elt F) → (⟨S400000, .i1⟩ : BufTy).Contents (Elt F)),
    nullary main_c_24 (constantI S_ 32 50000#32),
    unary main_c_24 main_v120 (broadcastInDim S400000 ![] bcast_S_S400000 : (⟨S_, .i32⟩ : BufTy).Contents (Elt F) → (⟨S400000, .i32⟩ : BufTy).Contents (Elt F)),
    binary main_v117 main_v120 main_v121 (addi : (⟨S400000, .i32⟩ : BufTy).Contents (Elt F) → (⟨S400000, .i32⟩ : BufTy).Contents (Elt F) → (⟨S400000, .i32⟩ : BufTy).Contents (Elt F)),
    ternary main_v119 main_v121 main_v117 main_v122 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v122 main_v123 (broadcastInDim S400000x1 ![0] bcast_S400000_S400000x1_0 : (⟨S400000, .i32⟩ : BufTy).Contents (Elt F) → (⟨S400000x1, .i32⟩ : BufTy).Contents (Elt F)),
    binary main_v115 main_v123 main_v124 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v125 ((extractStridedSlice S1x400000 ![4, 0] · slices_S8x400000_S1x400000_4_0) : (⟨S8x400000, .i32⟩ : BufTy).Contents (Elt F) → (⟨S1x400000, .i32⟩ : BufTy).Contents (Elt F)),
    reshape main_v125 main_v126 rfl shapeCasts_S1x400000_S400000,
    nullary main_cst_25 (constant S_ .f32 0x00000000#32),
    unary main_cst_25 main_v127 (broadcastInDim S50000x256 ![] bcast_S_S50000x256 : (⟨S_, .f32⟩ : BufTy).Contents (Elt F) → (⟨S50000x256, .f32⟩ : BufTy).Contents (Elt F)),
    unary main_v126 main_v128 (broadcastInDim S400000x1 ![0] bcast_S400000_S400000x1_0 : (⟨S400000, .i32⟩ : BufTy).Contents (Elt F) → (⟨S400000x1, .i32⟩ : BufTy).Contents (Elt F)),
    ternary main_v127 main_v128 main_v124 main_v129 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_26 (constant S_ .f32 0x3F800000#32),
    unary main_cst_26 main_v130 (broadcastInDim S400000 ![] bcast_S_S400000 : (⟨S_, .f32⟩ : BufTy).Contents (Elt F) → (⟨S400000, .f32⟩ : BufTy).Contents (Elt F)),
    unary main_arg5 main_v131 ((extractStridedSlice S1x400000 ![4, 0] · slices_S8x400000_S1x400000_4_0) : (⟨S8x400000, .i32⟩ : BufTy).Contents (Elt F) → (⟨S1x400000, .i32⟩ : BufTy).Contents (Elt F)),
    reshape main_v131 main_v132 rfl shapeCasts_S1x400000_S400000,
    nullary main_cst_27 (constant S_ .f32 0x00000000#32),
    unary main_cst_27 main_v133 (broadcastInDim S50000 ![] bcast_S_S50000 : (⟨S_, .f32⟩ : BufTy).Contents (Elt F) → (⟨S50000, .f32⟩ : BufTy).Contents (Elt F)),
    unary main_v132 main_v134 (broadcastInDim S400000x1 ![0] bcast_S400000_S400000x1_0 : (⟨S400000, .i32⟩ : BufTy).Contents (Elt F) → (⟨S400000x1, .i32⟩ : BufTy).Contents (Elt F)),
    ternary main_v133 main_v134 main_v130 main_v135 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_28 (constant S_ .f32 0x3F800000#32),
    TRef.unary (TRef.of (T := ⟨S_, .f32⟩) main_cst_28) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_v135) (TRef.of (T := ⟨S50000, .f32⟩) main_v136) maximumf,
    unary main_v136 main_v137 (broadcastInDim S50000x1 ![0] bcast_S50000_S50000x1_0 : (⟨S50000, .f32⟩ : BufTy).Contents (Elt F) → (⟨S50000x1, .f32⟩ : BufTy).Contents (Elt F)),
    unary main_v137 main_v138 (broadcastInDim S50000x256 ![0, 1] bcast_S50000x1_S50000x256_0_1 : (⟨S50000x1, .f32⟩ : BufTy).Contents (Elt F) → (⟨S50000x256, .f32⟩ : BufTy).Contents (Elt F)),
    binary main_v129 main_v138 main_v139 (Host.divf : (⟨S50000x256, .f32⟩ : BufTy).Contents (Elt F) → (⟨S50000x256, .f32⟩ : BufTy).Contents (Elt F) → (⟨S50000x256, .f32⟩ : BufTy).Contents (Elt F)),
    binary main_v112 main_v139 main_v140 (addf : (⟨S50000x256, .f32⟩ : BufTy).Contents (Elt F) → (⟨S50000x256, .f32⟩ : BufTy).Contents (Elt F) → (⟨S50000x256, .f32⟩ : BufTy).Contents (Elt F)),
    unary main_arg1 main_v141 ((extractStridedSlice S1x256x256 ![5, 0, 0] · slices_S8x256x256_S1x256x256_5_0_0) : (⟨S8x256x256, .f32⟩ : BufTy).Contents (Elt F) → (⟨S1x256x256, .f32⟩ : BufTy).Contents (Elt F)),
    reshape main_v141 main_v142 rfl shapeCasts_S1x256x256_S256x256,
    binary main_arg0 main_v142 main_v143 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v144 ((extractStridedSlice S1x400000 ![5, 0] · slices_S8x400000_S1x400000_5_0) : (⟨S8x400000, .i32⟩ : BufTy).Contents (Elt F) → (⟨S1x400000, .i32⟩ : BufTy).Contents (Elt F)),
    reshape main_v144 main_v145 rfl shapeCasts_S1x400000_S400000,
    nullary main_c_29 (constantI S_ 32 0#32),
    unary main_c_29 main_v146 (broadcastInDim S400000 ![] bcast_S_S400000 : (⟨S_, .i32⟩ : BufTy).Contents (Elt F) → (⟨S400000, .i32⟩ : BufTy).Contents (Elt F)),
    binary main_v145 main_v146 main_v147 (cmpi .slt : (⟨S400000, .i32⟩ : BufTy).Contents (Elt F) → (⟨S400000, .i32⟩ : BufTy).Contents (Elt F) → (⟨S400000, .i1⟩ : BufTy).Contents (Elt F)) ]

set_option maxRecDepth 8192 in
set_option maxHeartbeats 4000000 in
/-- Window 2 is the sequence of its operations. -/
theorem part2_eq (c : Dev nD) : main_part2 (F := F) c = (seq opsP2 : Prog (TpuEff nD τ sig (Elt F) (Pipeline.Sig Λ₀ (Fin 0) fun p => (pcfgs (F := F) p).Adm) .tc) PUnit) := rfl

/-- Each touches TensorCore buffers only. -/
theorem opsP2_sub : (opsP2 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub .., nullary_bufs_sub .., unary_bufs_sub .., binary_bufs_sub ..⟩

/-- None allocates. -/
theorem opsP2_fresh : ∀ op ∈ (opsP2 : List (HloOp τ sig (Elt F))), op.fresh = ∅ := by
  intro _ h; (repeat (cases h with | head => rfl | tail _ h => ?_)); exact nomatch h

/-- The operations of window 3 of @main, in order. -/
abbrev opsP3 : List (HloOp τ sig (Elt F)) :=
  [ nullary main_c_30 (constantI S_ 32 50000#32),
    unary main_c_30 main_v148 (broadcastInDim S400000 ![] bcast_S_S400000 : (⟨S_, .i32⟩ : BufTy).Contents (Elt F) → (⟨S400000, .i32⟩ : BufTy).Contents (Elt F)),
    binary main_v145 main_v148 main_v149 (addi : (⟨S400000, .i32⟩ : BufTy).Contents (Elt F) → (⟨S400000, .i32⟩ : BufTy).Contents (Elt F) → (⟨S400000, .i32⟩ : BufTy).Contents (Elt F)),
    ternary main_v147 main_v149 main_v145 main_v150 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v150 main_v151 (broadcastInDim S400000x1 ![0] bcast_S400000_S400000x1_0 : (⟨S400000, .i32⟩ : BufTy).Contents (Elt F) → (⟨S400000x1, .i32⟩ : BufTy).Contents (Elt F)),
    binary main_v143 main_v151 main_v152 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v153 ((extractStridedSlice S1x400000 ![5, 0] · slices_S8x400000_S1x400000_5_0) : (⟨S8x400000, .i32⟩ : BufTy).Contents (Elt F) → (⟨S1x400000, .i32⟩ : BufTy).Contents (Elt F)),
    reshape main_v153 main_v154 rfl shapeCasts_S1x400000_S400000,
    nullary main_cst_31 (constant S_ .f32 0x00000000#32),
    unary main_cst_31 main_v155 (broadcastInDim S50000x256 ![] bcast_S_S50000x256 : (⟨S_, .f32⟩ : BufTy).Contents (Elt F) → (⟨S50000x256, .f32⟩ : BufTy).Contents (Elt F)),
    unary main_v154 main_v156 (broadcastInDim S400000x1 ![0] bcast_S400000_S400000x1_0 : (⟨S400000, .i32⟩ : BufTy).Contents (Elt F) → (⟨S400000x1, .i32⟩ : BufTy).Contents (Elt F)),
    ternary main_v155 main_v156 main_v152 main_v157 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_32 (constant S_ .f32 0x3F800000#32),
    unary main_cst_32 main_v158 (broadcastInDim S400000 ![] bcast_S_S400000 : (⟨S_, .f32⟩ : BufTy).Contents (Elt F) → (⟨S400000, .f32⟩ : BufTy).Contents (Elt F)),
    unary main_arg5 main_v159 ((extractStridedSlice S1x400000 ![5, 0] · slices_S8x400000_S1x400000_5_0) : (⟨S8x400000, .i32⟩ : BufTy).Contents (Elt F) → (⟨S1x400000, .i32⟩ : BufTy).Contents (Elt F)),
    reshape main_v159 main_v160 rfl shapeCasts_S1x400000_S400000,
    nullary main_cst_33 (constant S_ .f32 0x00000000#32),
    unary main_cst_33 main_v161 (broadcastInDim S50000 ![] bcast_S_S50000 : (⟨S_, .f32⟩ : BufTy).Contents (Elt F) → (⟨S50000, .f32⟩ : BufTy).Contents (Elt F)),
    unary main_v160 main_v162 (broadcastInDim S400000x1 ![0] bcast_S400000_S400000x1_0 : (⟨S400000, .i32⟩ : BufTy).Contents (Elt F) → (⟨S400000x1, .i32⟩ : BufTy).Contents (Elt F)),
    ternary main_v161 main_v162 main_v158 main_v163 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_34 (constant S_ .f32 0x3F800000#32),
    TRef.unary (TRef.of (T := ⟨S_, .f32⟩) main_cst_34) (TRef.of (T := ⟨S_, .f32⟩) main_call5_v0) id,
    TRef.unary (TRef.of (T := ⟨S_, .f32⟩) main_call5_v0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_v163) (TRef.of (T := ⟨S50000, .f32⟩) main_v164) maximumf,
    unary main_v164 main_v165 (broadcastInDim S50000x1 ![0] bcast_S50000_S50000x1_0 : (⟨S50000, .f32⟩ : BufTy).Contents (Elt F) → (⟨S50000x1, .f32⟩ : BufTy).Contents (Elt F)),
    unary main_v165 main_v166 (broadcastInDim S50000x256 ![0, 1] bcast_S50000x1_S50000x256_0_1 : (⟨S50000x1, .f32⟩ : BufTy).Contents (Elt F) → (⟨S50000x256, .f32⟩ : BufTy).Contents (Elt F)),
    binary main_v157 main_v166 main_v167 (Host.divf : (⟨S50000x256, .f32⟩ : BufTy).Contents (Elt F) → (⟨S50000x256, .f32⟩ : BufTy).Contents (Elt F) → (⟨S50000x256, .f32⟩ : BufTy).Contents (Elt F)),
    binary main_v140 main_v167 main_v168 (addf : (⟨S50000x256, .f32⟩ : BufTy).Contents (Elt F) → (⟨S50000x256, .f32⟩ : BufTy).Contents (Elt F) → (⟨S50000x256, .f32⟩ : BufTy).Contents (Elt F)),
    unary main_arg1 main_v169 ((extractStridedSlice S1x256x256 ![6, 0, 0] · slices_S8x256x256_S1x256x256_6_0_0) : (⟨S8x256x256, .f32⟩ : BufTy).Contents (Elt F) → (⟨S1x256x256, .f32⟩ : BufTy).Contents (Elt F)),
    reshape main_v169 main_v170 rfl shapeCasts_S1x256x256_S256x256,
    binary main_arg0 main_v170 main_v171 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v172 ((extractStridedSlice S1x400000 ![6, 0] · slices_S8x400000_S1x400000_6_0) : (⟨S8x400000, .i32⟩ : BufTy).Contents (Elt F) → (⟨S1x400000, .i32⟩ : BufTy).Contents (Elt F)),
    reshape main_v172 main_v173 rfl shapeCasts_S1x400000_S400000,
    nullary main_c_35 (constantI S_ 32 0#32),
    unary main_c_35 main_v174 (broadcastInDim S400000 ![] bcast_S_S400000 : (⟨S_, .i32⟩ : BufTy).Contents (Elt F) → (⟨S400000, .i32⟩ : BufTy).Contents (Elt F)),
    binary main_v173 main_v174 main_v175 (cmpi .slt : (⟨S400000, .i32⟩ : BufTy).Contents (Elt F) → (⟨S400000, .i32⟩ : BufTy).Contents (Elt F) → (⟨S400000, .i1⟩ : BufTy).Contents (Elt F)),
    nullary main_c_36 (constantI S_ 32 50000#32),
    unary main_c_36 main_v176 (broadcastInDim S400000 ![] bcast_S_S400000 : (⟨S_, .i32⟩ : BufTy).Contents (Elt F) → (⟨S400000, .i32⟩ : BufTy).Contents (Elt F)),
    binary main_v173 main_v176 main_v177 (addi : (⟨S400000, .i32⟩ : BufTy).Contents (Elt F) → (⟨S400000, .i32⟩ : BufTy).Contents (Elt F) → (⟨S400000, .i32⟩ : BufTy).Contents (Elt F)),
    ternary main_v175 main_v177 main_v173 main_v178 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v178 main_v179 (broadcastInDim S400000x1 ![0] bcast_S400000_S400000x1_0 : (⟨S400000, .i32⟩ : BufTy).Contents (Elt F) → (⟨S400000x1, .i32⟩ : BufTy).Contents (Elt F)),
    binary main_v171 main_v179 main_v180 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v181 ((extractStridedSlice S1x400000 ![6, 0] · slices_S8x400000_S1x400000_6_0) : (⟨S8x400000, .i32⟩ : BufTy).Contents (Elt F) → (⟨S1x400000, .i32⟩ : BufTy).Contents (Elt F)),
    reshape main_v181 main_v182 rfl shapeCasts_S1x400000_S400000,
    nullary main_cst_37 (constant S_ .f32 0x00000000#32),
    unary main_cst_37 main_v183 (broadcastInDim S50000x256 ![] bcast_S_S50000x256 : (⟨S_, .f32⟩ : BufTy).Contents (Elt F) → (⟨S50000x256, .f32⟩ : BufTy).Contents (Elt F)),
    unary main_v182 main_v184 (broadcastInDim S400000x1 ![0] bcast_S400000_S400000x1_0 : (⟨S400000, .i32⟩ : BufTy).Contents (Elt F) → (⟨S400000x1, .i32⟩ : BufTy).Contents (Elt F)),
    ternary main_v183 main_v184 main_v180 main_v185 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_38 (constant S_ .f32 0x3F800000#32),
    unary main_cst_38 main_v186 (broadcastInDim S400000 ![] bcast_S_S400000 : (⟨S_, .f32⟩ : BufTy).Contents (Elt F) → (⟨S400000, .f32⟩ : BufTy).Contents (Elt F)),
    unary main_arg5 main_v187 ((extractStridedSlice S1x400000 ![6, 0] · slices_S8x400000_S1x400000_6_0) : (⟨S8x400000, .i32⟩ : BufTy).Contents (Elt F) → (⟨S1x400000, .i32⟩ : BufTy).Contents (Elt F)),
    reshape main_v187 main_v188 rfl shapeCasts_S1x400000_S400000,
    nullary main_cst_39 (constant S_ .f32 0x00000000#32),
    unary main_cst_39 main_v189 (broadcastInDim S50000 ![] bcast_S_S50000 : (⟨S_, .f32⟩ : BufTy).Contents (Elt F) → (⟨S50000, .f32⟩ : BufTy).Contents (Elt F)),
    unary main_v188 main_v190 (broadcastInDim S400000x1 ![0] bcast_S400000_S400000x1_0 : (⟨S400000, .i32⟩ : BufTy).Contents (Elt F) → (⟨S400000x1, .i32⟩ : BufTy).Contents (Elt F)),
    ternary main_v189 main_v190 main_v186 main_v191 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_40 (constant S_ .f32 0x3F800000#32),
    TRef.unary (TRef.of (T := ⟨S_, .f32⟩) main_cst_40) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_v191) (TRef.of (T := ⟨S50000, .f32⟩) main_v192) maximumf,
    unary main_v192 main_v193 (broadcastInDim S50000x1 ![0] bcast_S50000_S50000x1_0 : (⟨S50000, .f32⟩ : BufTy).Contents (Elt F) → (⟨S50000x1, .f32⟩ : BufTy).Contents (Elt F)),
    unary main_v193 main_v194 (broadcastInDim S50000x256 ![0, 1] bcast_S50000x1_S50000x256_0_1 : (⟨S50000x1, .f32⟩ : BufTy).Contents (Elt F) → (⟨S50000x256, .f32⟩ : BufTy).Contents (Elt F)),
    binary main_v185 main_v194 main_v195 (Host.divf : (⟨S50000x256, .f32⟩ : BufTy).Contents (Elt F) → (⟨S50000x256, .f32⟩ : BufTy).Contents (Elt F) → (⟨S50000x256, .f32⟩ : BufTy).Contents (Elt F)),
    binary main_v168 main_v195 main_v196 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
/-- Window 3 is the sequence of its operations. -/
theorem part3_eq (c : Dev nD) : main_part3 (F := F) c = (seq opsP3 : Prog (TpuEff nD τ sig (Elt F) (Pipeline.Sig Λ₀ (Fin 0) fun p => (pcfgs (F := F) p).Adm) .tc) PUnit) := rfl

/-- Each touches TensorCore buffers only. -/
theorem opsP3_sub : (opsP3 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub ..⟩

/-- None allocates. -/
theorem opsP3_fresh : ∀ op ∈ (opsP3 : List (HloOp τ sig (Elt F))), op.fresh = ∅ := by
  intro _ h; (repeat (cases h with | head => rfl | tail _ h => ?_)); exact nomatch h

/-- The operations of window 4 of @main, in order. -/
abbrev opsP4 : List (HloOp τ sig (Elt F)) :=
  [ unary main_arg1 main_v197 ((extractStridedSlice S1x256x256 ![7, 0, 0] · slices_S8x256x256_S1x256x256_7_0_0) : (⟨S8x256x256, .f32⟩ : BufTy).Contents (Elt F) → (⟨S1x256x256, .f32⟩ : BufTy).Contents (Elt F)),
    reshape main_v197 main_v198 rfl shapeCasts_S1x256x256_S256x256,
    binary main_arg0 main_v198 main_v199 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v200 ((extractStridedSlice S1x400000 ![7, 0] · slices_S8x400000_S1x400000_7_0) : (⟨S8x400000, .i32⟩ : BufTy).Contents (Elt F) → (⟨S1x400000, .i32⟩ : BufTy).Contents (Elt F)),
    reshape main_v200 main_v201 rfl shapeCasts_S1x400000_S400000,
    nullary main_c_41 (constantI S_ 32 0#32),
    unary main_c_41 main_v202 (broadcastInDim S400000 ![] bcast_S_S400000 : (⟨S_, .i32⟩ : BufTy).Contents (Elt F) → (⟨S400000, .i32⟩ : BufTy).Contents (Elt F)),
    binary main_v201 main_v202 main_v203 (cmpi .slt : (⟨S400000, .i32⟩ : BufTy).Contents (Elt F) → (⟨S400000, .i32⟩ : BufTy).Contents (Elt F) → (⟨S400000, .i1⟩ : BufTy).Contents (Elt F)),
    nullary main_c_42 (constantI S_ 32 50000#32),
    unary main_c_42 main_v204 (broadcastInDim S400000 ![] bcast_S_S400000 : (⟨S_, .i32⟩ : BufTy).Contents (Elt F) → (⟨S400000, .i32⟩ : BufTy).Contents (Elt F)),
    binary main_v201 main_v204 main_v205 (addi : (⟨S400000, .i32⟩ : BufTy).Contents (Elt F) → (⟨S400000, .i32⟩ : BufTy).Contents (Elt F) → (⟨S400000, .i32⟩ : BufTy).Contents (Elt F)),
    ternary main_v203 main_v205 main_v201 main_v206 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v206 main_v207 (broadcastInDim S400000x1 ![0] bcast_S400000_S400000x1_0 : (⟨S400000, .i32⟩ : BufTy).Contents (Elt F) → (⟨S400000x1, .i32⟩ : BufTy).Contents (Elt F)),
    binary main_v199 main_v207 main_v208 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v209 ((extractStridedSlice S1x400000 ![7, 0] · slices_S8x400000_S1x400000_7_0) : (⟨S8x400000, .i32⟩ : BufTy).Contents (Elt F) → (⟨S1x400000, .i32⟩ : BufTy).Contents (Elt F)),
    reshape main_v209 main_v210 rfl shapeCasts_S1x400000_S400000,
    nullary main_cst_43 (constant S_ .f32 0x00000000#32),
    unary main_cst_43 main_v211 (broadcastInDim S50000x256 ![] bcast_S_S50000x256 : (⟨S_, .f32⟩ : BufTy).Contents (Elt F) → (⟨S50000x256, .f32⟩ : BufTy).Contents (Elt F)),
    unary main_v210 main_v212 (broadcastInDim S400000x1 ![0] bcast_S400000_S400000x1_0 : (⟨S400000, .i32⟩ : BufTy).Contents (Elt F) → (⟨S400000x1, .i32⟩ : BufTy).Contents (Elt F)),
    ternary main_v211 main_v212 main_v208 main_v213 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_44 (constant S_ .f32 0x3F800000#32),
    unary main_cst_44 main_v214 (broadcastInDim S400000 ![] bcast_S_S400000 : (⟨S_, .f32⟩ : BufTy).Contents (Elt F) → (⟨S400000, .f32⟩ : BufTy).Contents (Elt F)),
    unary main_arg5 main_v215 ((extractStridedSlice S1x400000 ![7, 0] · slices_S8x400000_S1x400000_7_0) : (⟨S8x400000, .i32⟩ : BufTy).Contents (Elt F) → (⟨S1x400000, .i32⟩ : BufTy).Contents (Elt F)),
    reshape main_v215 main_v216 rfl shapeCasts_S1x400000_S400000,
    nullary main_cst_45 (constant S_ .f32 0x00000000#32),
    unary main_cst_45 main_v217 (broadcastInDim S50000 ![] bcast_S_S50000 : (⟨S_, .f32⟩ : BufTy).Contents (Elt F) → (⟨S50000, .f32⟩ : BufTy).Contents (Elt F)),
    unary main_v216 main_v218 (broadcastInDim S400000x1 ![0] bcast_S400000_S400000x1_0 : (⟨S400000, .i32⟩ : BufTy).Contents (Elt F) → (⟨S400000x1, .i32⟩ : BufTy).Contents (Elt F)),
    ternary main_v217 main_v218 main_v214 main_v219 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_46 (constant S_ .f32 0x3F800000#32),
    TRef.unary (TRef.of (T := ⟨S_, .f32⟩) main_cst_46) (TRef.of (T := ⟨S_, .f32⟩) main_call7_v0) id,
    TRef.unary (TRef.of (T := ⟨S_, .f32⟩) main_call7_v0) (TRef.of (T := ⟨S50000, .f32⟩) main_call7_v1) (broadcastInDim S50000 ![] bcast_S_S50000),
    TRef.binary (TRef.of (T := ⟨S50000, .f32⟩) main_call7_v1) (TRef.of (T := ⟨S50000, .f32⟩) main_v219) (TRef.of (T := ⟨S50000, .f32⟩) main_v220) maximumf,
    unary main_v220 main_v221 (broadcastInDim S50000x1 ![0] bcast_S50000_S50000x1_0 : (⟨S50000, .f32⟩ : BufTy).Contents (Elt F) → (⟨S50000x1, .f32⟩ : BufTy).Contents (Elt F)),
    unary main_v221 main_v222 (broadcastInDim S50000x256 ![0, 1] bcast_S50000x1_S50000x256_0_1 : (⟨S50000x1, .f32⟩ : BufTy).Contents (Elt F) → (⟨S50000x256, .f32⟩ : BufTy).Contents (Elt F)),
    binary main_v213 main_v222 main_v223 (Host.divf : (⟨S50000x256, .f32⟩ : BufTy).Contents (Elt F) → (⟨S50000x256, .f32⟩ : BufTy).Contents (Elt F) → (⟨S50000x256, .f32⟩ : BufTy).Contents (Elt F)),
    binary main_v196 main_v223 main_v224 (addf : (⟨S50000x256, .f32⟩ : BufTy).Contents (Elt F) → (⟨S50000x256, .f32⟩ : BufTy).Contents (Elt F) → (⟨S50000x256, .f32⟩ : BufTy).Contents (Elt F)),
    binary main_arg0 main_arg3 main_v225 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v224 main_v225 main_v226 (addf : (⟨S50000x256, .f32⟩ : BufTy).Contents (Elt F) → (⟨S50000x256, .f32⟩ : BufTy).Contents (Elt F) → (⟨S50000x256, .f32⟩ : BufTy).Contents (Elt F)),
    unary main_arg2 main_v227 (broadcastInDim S1x256 ![1] bcast_S256_S1x256_1 : (⟨S256, .f32⟩ : BufTy).Contents (Elt F) → (⟨S1x256, .f32⟩ : BufTy).Contents (Elt F)),
    unary main_v227 main_v228 (broadcastInDim S50000x256 ![0, 1] bcast_S1x256_S50000x256_0_1 : (⟨S1x256, .f32⟩ : BufTy).Contents (Elt F) → (⟨S50000x256, .f32⟩ : BufTy).Contents (Elt F)),
    binary main_v226 main_v228 main_v229 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x256, .f32⟩) main_call8_v0) (broadcastInDim S50000x256 ![] bcast_S_S50000x256),
    TRef.binary (TRef.of (T := ⟨S50000x256, .f32⟩) main_v229) (TRef.of (T := ⟨S50000x256, .f32⟩) main_call8_v0) (TRef.of (T := ⟨S50000x256, .f32⟩) main_v230) maximumf ]

set_option maxRecDepth 8192 in
set_option maxHeartbeats 4000000 in
/-- Window 4 is the sequence of its operations. -/
theorem part4_eq (c : Dev nD) : main_part4 (F := F) c = (seq opsP4 : Prog (TpuEff nD τ sig (Elt F) (Pipeline.Sig Λ₀ (Fin 0) fun p => (pcfgs (F := F) p).Adm) .tc) PUnit) := rfl

/-- Each touches TensorCore buffers only. -/
theorem opsP4_sub : (opsP4 : List (HloOp τ sig (Elt F))).Forall fun op => op.bufs ⊆ tcRefs τ sig :=
  ⟨unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩

/-- None allocates. -/
theorem opsP4_fresh : ∀ op ∈ (opsP4 : List (HloOp τ sig (Elt F))), op.fresh = ∅ := by
  intro _ h; (repeat (cases h with | head => rfl | tail _ h => ?_)); exact nomatch h

/-- @main's operations, window after window. -/
abbrev ops : List (HloOp τ sig (Elt F)) := opsP0 ++ (opsP1 ++ (opsP2 ++ (opsP3 ++ opsP4)))

/-- @main is the sequence of its operations. -/
theorem main_eq (c : Dev nD) : main (F := F) c = seq ops := by
  show (main_part0 (F := F) c >>= fun _ => main_part1 (F := F) c >>= fun _ => main_part2 (F := F) c >>= fun _ =>
    main_part3 (F := F) c >>= fun _ => main_part4 (F := F) c) = _
  rw [seq_append, seq_append, seq_append, seq_append, part0_eq, part1_eq, part2_eq, part3_eq, part4_eq]

theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of their concatenation. -/
theorem forall_append' {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- Every operation touches TensorCore buffers only. -/
theorem ops_sub : (ops : List (HloOp τ sig (Elt F))).Forall fun op => op.bufs ⊆ tcRefs τ sig :=
  forall_append' opsP0_sub (forall_append' opsP1_sub (forall_append' opsP2_sub (forall_append' opsP3_sub opsP4_sub)))

/-- No operation allocates. -/
theorem ops_fresh : ∀ op ∈ (ops : List (HloOp τ sig (Elt F))), op.fresh = ∅ := fun op h =>
  (List.mem_append.mp h).elim (opsP0_fresh op) fun h => (List.mem_append.mp h).elim (opsP1_fresh op) fun h =>
    (List.mem_append.mp h).elim (opsP2_fresh op) fun h => (List.mem_append.mp h).elim (opsP3_fresh op) (opsP4_fresh op)

end Cert.RGcn.Ref

end
-- ==== Proof.RefArgs.lean ====
/-
  No operation of the reference writes an argument of @main: each writes its own result buffer only, and no
  result buffer is an argument.  So the fold of the operations leaves every argument as launched.
-/
import proofs.«137636_j2181843386580_2_alg».proof.Proof.RefOps

noncomputable section

namespace Cert.RGcn.Ref

open Cert.ReferenceIdeal Cert.ReferenceIdeal.Gen Idealize.ShloMosaic Idealize.ShloMosaic.TcCoe Idealize.SL.Sem Idealize.ShloMosaic.StableHlo

variable {F : FTy → Type} [FloatOps F]
theorem opsP0_keeps_arg0 : ∀ op ∈ (opsP0 : List (HloOp τ sig (Elt F))), Proc.devRef (τ := τ) .tc main_arg0 ∉ op.writes :=
  List.forall_iff_forall_mem.mp (by
    simp only [opsP0, List.Forall, nullary_writes, unary_writes, binary_writes, ternary_writes, reshape_writes, Finset.mem_singleton]
    repeat' apply And.intro
    all_goals exact devRef_ne_of_ne (by decide))
theorem opsP0_keeps_arg1 : ∀ op ∈ (opsP0 : List (HloOp τ sig (Elt F))), Proc.devRef (τ := τ) .tc main_arg1 ∉ op.writes :=
  List.forall_iff_forall_mem.mp (by
    simp only [opsP0, List.Forall, nullary_writes, unary_writes, binary_writes, ternary_writes, reshape_writes, Finset.mem_singleton]
    repeat' apply And.intro
    all_goals exact devRef_ne_of_ne (by decide))
theorem opsP0_keeps_arg2 : ∀ op ∈ (opsP0 : List (HloOp τ sig (Elt F))), Proc.devRef (τ := τ) .tc main_arg2 ∉ op.writes :=
  List.forall_iff_forall_mem.mp (by
    simp only [opsP0, List.Forall, nullary_writes, unary_writes, binary_writes, ternary_writes, reshape_writes, Finset.mem_singleton]
    repeat' apply And.intro
    all_goals exact devRef_ne_of_ne (by decide))
theorem opsP0_keeps_arg3 : ∀ op ∈ (opsP0 : List (HloOp τ sig (Elt F))), Proc.devRef (τ := τ) .tc main_arg3 ∉ op.writes :=
  List.forall_iff_forall_mem.mp (by
    simp only [opsP0, List.Forall, nullary_writes, unary_writes, binary_writes, ternary_writes, reshape_writes, Finset.mem_singleton]
    repeat' apply And.intro
    all_goals exact devRef_ne_of_ne (by decide))
theorem opsP0_keeps_arg4 : ∀ op ∈ (opsP0 : List (HloOp τ sig (Elt F))), Proc.devRef (τ := τ) .tc main_arg4 ∉ op.writes :=
  List.forall_iff_forall_mem.mp (by
    simp only [opsP0, List.Forall, nullary_writes, unary_writes, binary_writes, ternary_writes, reshape_writes, Finset.mem_singleton]
    repeat' apply And.intro
    all_goals exact devRef_ne_of_ne (by decide))
theorem opsP0_keeps_arg5 : ∀ op ∈ (opsP0 : List (HloOp τ sig (Elt F))), Proc.devRef (τ := τ) .tc main_arg5 ∉ op.writes :=
  List.forall_iff_forall_mem.mp (by
    simp only [opsP0, List.Forall, nullary_writes, unary_writes, binary_writes, ternary_writes, reshape_writes, Finset.mem_singleton]
    repeat' apply And.intro
    all_goals exact devRef_ne_of_ne (by decide))
theorem opsP1_keeps_arg0 : ∀ op ∈ (opsP1 : List (HloOp τ sig (Elt F))), Proc.devRef (τ := τ) .tc main_arg0 ∉ op.writes :=
  List.forall_iff_forall_mem.mp (by
    simp only [opsP1, List.Forall, nullary_writes, unary_writes, binary_writes, ternary_writes, reshape_writes, Finset.mem_singleton]
    repeat' apply And.intro
    all_goals exact devRef_ne_of_ne (by decide))
theorem opsP1_keeps_arg1 : ∀ op ∈ (opsP1 : List (HloOp τ sig (Elt F))), Proc.devRef (τ := τ) .tc main_arg1 ∉ op.writes :=
  List.forall_iff_forall_mem.mp (by
    simp only [opsP1, List.Forall, nullary_writes, unary_writes, binary_writes, ternary_writes, reshape_writes, Finset.mem_singleton]
    repeat' apply And.intro
    all_goals exact devRef_ne_of_ne (by decide))
theorem opsP1_keeps_arg2 : ∀ op ∈ (opsP1 : List (HloOp τ sig (Elt F))), Proc.devRef (τ := τ) .tc main_arg2 ∉ op.writes :=
  List.forall_iff_forall_mem.mp (by
    simp only [opsP1, List.Forall, nullary_writes, unary_writes, binary_writes, ternary_writes, reshape_writes, Finset.mem_singleton]
    repeat' apply And.intro
    all_goals exact devRef_ne_of_ne (by decide))
theorem opsP1_keeps_arg3 : ∀ op ∈ (opsP1 : List (HloOp τ sig (Elt F))), Proc.devRef (τ := τ) .tc main_arg3 ∉ op.writes :=
  List.forall_iff_forall_mem.mp (by
    simp only [opsP1, List.Forall, nullary_writes, unary_writes, binary_writes, ternary_writes, reshape_writes, Finset.mem_singleton]
    repeat' apply And.intro
    all_goals exact devRef_ne_of_ne (by decide))
theorem opsP1_keeps_arg4 : ∀ op ∈ (opsP1 : List (HloOp τ sig (Elt F))), Proc.devRef (τ := τ) .tc main_arg4 ∉ op.writes :=
  List.forall_iff_forall_mem.mp (by
    simp only [opsP1, List.Forall, nullary_writes, unary_writes, binary_writes, ternary_writes, reshape_writes, Finset.mem_singleton]
    repeat' apply And.intro
    all_goals exact devRef_ne_of_ne (by decide))
theorem opsP1_keeps_arg5 : ∀ op ∈ (opsP1 : List (HloOp τ sig (Elt F))), Proc.devRef (τ := τ) .tc main_arg5 ∉ op.writes :=
  List.forall_iff_forall_mem.mp (by
    simp only [opsP1, List.Forall, nullary_writes, unary_writes, binary_writes, ternary_writes, reshape_writes, Finset.mem_singleton]
    repeat' apply And.intro
    all_goals exact devRef_ne_of_ne (by decide))
theorem opsP2_keeps_arg0 : ∀ op ∈ (opsP2 : List (HloOp τ sig (Elt F))), Proc.devRef (τ := τ) .tc main_arg0 ∉ op.writes :=
  List.forall_iff_forall_mem.mp (by
    simp only [opsP2, List.Forall, nullary_writes, unary_writes, binary_writes, ternary_writes, reshape_writes, Finset.mem_singleton]
    repeat' apply And.intro
    all_goals exact devRef_ne_of_ne (by decide))
theorem opsP2_keeps_arg1 : ∀ op ∈ (opsP2 : List (HloOp τ sig (Elt F))), Proc.devRef (τ := τ) .tc main_arg1 ∉ op.writes :=
  List.forall_iff_forall_mem.mp (by
    simp only [opsP2, List.Forall, nullary_writes, unary_writes, binary_writes, ternary_writes, reshape_writes, Finset.mem_singleton]
    repeat' apply And.intro
    all_goals exact devRef_ne_of_ne (by decide))
theorem opsP2_keeps_arg2 : ∀ op ∈ (opsP2 : List (HloOp τ sig (Elt F))), Proc.devRef (τ := τ) .tc main_arg2 ∉ op.writes :=
  List.forall_iff_forall_mem.mp (by
    simp only [opsP2, List.Forall, nullary_writes, unary_writes, binary_writes, ternary_writes, reshape_writes, Finset.mem_singleton]
    repeat' apply And.intro
    all_goals exact devRef_ne_of_ne (by decide))
theorem opsP2_keeps_arg3 : ∀ op ∈ (opsP2 : List (HloOp τ sig (Elt F))), Proc.devRef (τ := τ) .tc main_arg3 ∉ op.writes :=
  List.forall_iff_forall_mem.mp (by
    simp only [opsP2, List.Forall, nullary_writes, unary_writes, binary_writes, ternary_writes, reshape_writes, Finset.mem_singleton]
    repeat' apply And.intro
    all_goals exact devRef_ne_of_ne (by decide))
theorem opsP2_keeps_arg4 : ∀ op ∈ (opsP2 : List (HloOp τ sig (Elt F))), Proc.devRef (τ := τ) .tc main_arg4 ∉ op.writes :=
  List.forall_iff_forall_mem.mp (by
    simp only [opsP2, List.Forall, nullary_writes, unary_writes, binary_writes, ternary_writes, reshape_writes, Finset.mem_singleton]
    repeat' apply And.intro
    all_goals exact devRef_ne_of_ne (by decide))
theorem opsP2_keeps_arg5 : ∀ op ∈ (opsP2 : List (HloOp τ sig (Elt F))), Proc.devRef (τ := τ) .tc main_arg5 ∉ op.writes :=
  List.forall_iff_forall_mem.mp (by
    simp only [opsP2, List.Forall, nullary_writes, unary_writes, binary_writes, ternary_writes, reshape_writes, Finset.mem_singleton]
    repeat' apply And.intro
    all_goals exact devRef_ne_of_ne (by decide))
theorem opsP3_keeps_arg0 : ∀ op ∈ (opsP3 : List (HloOp τ sig (Elt F))), Proc.devRef (τ := τ) .tc main_arg0 ∉ op.writes :=
  List.forall_iff_forall_mem.mp (by
    simp only [opsP3, List.Forall, nullary_writes, unary_writes, binary_writes, ternary_writes, reshape_writes, Finset.mem_singleton]
    repeat' apply And.intro
    all_goals exact devRef_ne_of_ne (by decide))
theorem opsP3_keeps_arg1 : ∀ op ∈ (opsP3 : List (HloOp τ sig (Elt F))), Proc.devRef (τ := τ) .tc main_arg1 ∉ op.writes :=
  List.forall_iff_forall_mem.mp (by
    simp only [opsP3, List.Forall, nullary_writes, unary_writes, binary_writes, ternary_writes, reshape_writes, Finset.mem_singleton]
    repeat' apply And.intro
    all_goals exact devRef_ne_of_ne (by decide))
theorem opsP3_keeps_arg2 : ∀ op ∈ (opsP3 : List (HloOp τ sig (Elt F))), Proc.devRef (τ := τ) .tc main_arg2 ∉ op.writes :=
  List.forall_iff_forall_mem.mp (by
    simp only [opsP3, List.Forall, nullary_writes, unary_writes, binary_writes, ternary_writes, reshape_writes, Finset.mem_singleton]
    repeat' apply And.intro
    all_goals exact devRef_ne_of_ne (by decide))
theorem opsP3_keeps_arg3 : ∀ op ∈ (opsP3 : List (HloOp τ sig (Elt F))), Proc.devRef (τ := τ) .tc main_arg3 ∉ op.writes :=
  List.forall_iff_forall_mem.mp (by
    simp only [opsP3, List.Forall, nullary_writes, unary_writes, binary_writes, ternary_writes, reshape_writes, Finset.mem_singleton]
    repeat' apply And.intro
    all_goals exact devRef_ne_of_ne (by decide))
theorem opsP3_keeps_arg4 : ∀ op ∈ (opsP3 : List (HloOp τ sig (Elt F))), Proc.devRef (τ := τ) .tc main_arg4 ∉ op.writes :=
  List.forall_iff_forall_mem.mp (by
    simp only [opsP3, List.Forall, nullary_writes, unary_writes, binary_writes, ternary_writes, reshape_writes, Finset.mem_singleton]
    repeat' apply And.intro
    all_goals exact devRef_ne_of_ne (by decide))
theorem opsP3_keeps_arg5 : ∀ op ∈ (opsP3 : List (HloOp τ sig (Elt F))), Proc.devRef (τ := τ) .tc main_arg5 ∉ op.writes :=
  List.forall_iff_forall_mem.mp (by
    simp only [opsP3, List.Forall, nullary_writes, unary_writes, binary_writes, ternary_writes, reshape_writes, Finset.mem_singleton]
    repeat' apply And.intro
    all_goals exact devRef_ne_of_ne (by decide))
theorem opsP4_keeps_arg0 : ∀ op ∈ (opsP4 : List (HloOp τ sig (Elt F))), Proc.devRef (τ := τ) .tc main_arg0 ∉ op.writes :=
  List.forall_iff_forall_mem.mp (by
    simp only [opsP4, List.Forall, nullary_writes, unary_writes, binary_writes, ternary_writes, reshape_writes, Finset.mem_singleton]
    repeat' apply And.intro
    all_goals exact devRef_ne_of_ne (by decide))
theorem opsP4_keeps_arg1 : ∀ op ∈ (opsP4 : List (HloOp τ sig (Elt F))), Proc.devRef (τ := τ) .tc main_arg1 ∉ op.writes :=
  List.forall_iff_forall_mem.mp (by
    simp only [opsP4, List.Forall, nullary_writes, unary_writes, binary_writes, ternary_writes, reshape_writes, Finset.mem_singleton]
    repeat' apply And.intro
    all_goals exact devRef_ne_of_ne (by decide))
theorem opsP4_keeps_arg2 : ∀ op ∈ (opsP4 : List (HloOp τ sig (Elt F))), Proc.devRef (τ := τ) .tc main_arg2 ∉ op.writes :=
  List.forall_iff_forall_mem.mp (by
    simp only [opsP4, List.Forall, nullary_writes, unary_writes, binary_writes, ternary_writes, reshape_writes, Finset.mem_singleton]
    repeat' apply And.intro
    all_goals exact devRef_ne_of_ne (by decide))
theorem opsP4_keeps_arg3 : ∀ op ∈ (opsP4 : List (HloOp τ sig (Elt F))), Proc.devRef (τ := τ) .tc main_arg3 ∉ op.writes :=
  List.forall_iff_forall_mem.mp (by
    simp only [opsP4, List.Forall, nullary_writes, unary_writes, binary_writes, ternary_writes, reshape_writes, Finset.mem_singleton]
    repeat' apply And.intro
    all_goals exact devRef_ne_of_ne (by decide))
theorem opsP4_keeps_arg4 : ∀ op ∈ (opsP4 : List (HloOp τ sig (Elt F))), Proc.devRef (τ := τ) .tc main_arg4 ∉ op.writes :=
  List.forall_iff_forall_mem.mp (by
    simp only [opsP4, List.Forall, nullary_writes, unary_writes, binary_writes, ternary_writes, reshape_writes, Finset.mem_singleton]
    repeat' apply And.intro
    all_goals exact devRef_ne_of_ne (by decide))
theorem opsP4_keeps_arg5 : ∀ op ∈ (opsP4 : List (HloOp τ sig (Elt F))), Proc.devRef (τ := τ) .tc main_arg5 ∉ op.writes :=
  List.forall_iff_forall_mem.mp (by
    simp only [opsP4, List.Forall, nullary_writes, unary_writes, binary_writes, ternary_writes, reshape_writes, Finset.mem_singleton]
    repeat' apply And.intro
    all_goals exact devRef_ne_of_ne (by decide))

/-- Argument 0 is never written. -/
theorem arg0_after (M : Valuation τ sig (Elt F)) :
    after (ops (F := F)) M (Proc.devRef .tc main_arg0) = M (Proc.devRef .tc main_arg0) :=
  after_of_forall_not_mem (b := Proc.devRef .tc main_arg0) _ _ fun op h =>
    (List.mem_append.mp h).elim (opsP0_keeps_arg0 op) fun h => (List.mem_append.mp h).elim (opsP1_keeps_arg0 op) fun h =>
      (List.mem_append.mp h).elim (opsP2_keeps_arg0 op) fun h => (List.mem_append.mp h).elim (opsP3_keeps_arg0 op) (opsP4_keeps_arg0 op)

/-- Argument 1 is never written. -/
theorem arg1_after (M : Valuation τ sig (Elt F)) :
    after (ops (F := F)) M (Proc.devRef .tc main_arg1) = M (Proc.devRef .tc main_arg1) :=
  after_of_forall_not_mem (b := Proc.devRef .tc main_arg1) _ _ fun op h =>
    (List.mem_append.mp h).elim (opsP0_keeps_arg1 op) fun h => (List.mem_append.mp h).elim (opsP1_keeps_arg1 op) fun h =>
      (List.mem_append.mp h).elim (opsP2_keeps_arg1 op) fun h => (List.mem_append.mp h).elim (opsP3_keeps_arg1 op) (opsP4_keeps_arg1 op)

/-- Argument 2 is never written. -/
theorem arg2_after (M : Valuation τ sig (Elt F)) :
    after (ops (F := F)) M (Proc.devRef .tc main_arg2) = M (Proc.devRef .tc main_arg2) :=
  after_of_forall_not_mem (b := Proc.devRef .tc main_arg2) _ _ fun op h =>
    (List.mem_append.mp h).elim (opsP0_keeps_arg2 op) fun h => (List.mem_append.mp h).elim (opsP1_keeps_arg2 op) fun h =>
      (List.mem_append.mp h).elim (opsP2_keeps_arg2 op) fun h => (List.mem_append.mp h).elim (opsP3_keeps_arg2 op) (opsP4_keeps_arg2 op)

/-- Argument 3 is never written. -/
theorem arg3_after (M : Valuation τ sig (Elt F)) :
    after (ops (F := F)) M (Proc.devRef .tc main_arg3) = M (Proc.devRef .tc main_arg3) :=
  after_of_forall_not_mem (b := Proc.devRef .tc main_arg3) _ _ fun op h =>
    (List.mem_append.mp h).elim (opsP0_keeps_arg3 op) fun h => (List.mem_append.mp h).elim (opsP1_keeps_arg3 op) fun h =>
      (List.mem_append.mp h).elim (opsP2_keeps_arg3 op) fun h => (List.mem_append.mp h).elim (opsP3_keeps_arg3 op) (opsP4_keeps_arg3 op)

/-- Argument 4 is never written. -/
theorem arg4_after (M : Valuation τ sig (Elt F)) :
    after (ops (F := F)) M (Proc.devRef .tc main_arg4) = M (Proc.devRef .tc main_arg4) :=
  after_of_forall_not_mem (b := Proc.devRef .tc main_arg4) _ _ fun op h =>
    (List.mem_append.mp h).elim (opsP0_keeps_arg4 op) fun h => (List.mem_append.mp h).elim (opsP1_keeps_arg4 op) fun h =>
      (List.mem_append.mp h).elim (opsP2_keeps_arg4 op) fun h => (List.mem_append.mp h).elim (opsP3_keeps_arg4 op) (opsP4_keeps_arg4 op)

/-- Argument 5 is never written. -/
theorem arg5_after (M : Valuation τ sig (Elt F)) :
    after (ops (F := F)) M (Proc.devRef .tc main_arg5) = M (Proc.devRef .tc main_arg5) :=
  after_of_forall_not_mem (b := Proc.devRef .tc main_arg5) _ _ fun op h =>
    (List.mem_append.mp h).elim (opsP0_keeps_arg5 op) fun h => (List.mem_append.mp h).elim (opsP1_keeps_arg5 op) fun h =>
      (List.mem_append.mp h).elim (opsP2_keeps_arg5 op) fun h => (List.mem_append.mp h).elim (opsP3_keeps_arg5 op) (opsP4_keeps_arg5 op)

end Cert.RGcn.Ref

end
-- ==== Proof.RefSegs.lean ====
/-
  The reference's operations cut relation by relation, and what each cut computes.

  The first cut holds the zero table and relation 0, cuts 1 to 7 one relation each, the last the self-loop product,
  the bias and the clamp.  From any memory, relation `k`'s cut leaves in its result buffer the previous cut's
  result plus the relation's transform-first term of the arguments; no cut writes an argument.
-/
import proofs.«137636_j2181843386580_2_alg».proof.Proof.RefOps
import proofs.«137636_j2181843386580_2_alg».proof.Proof.RefValue

noncomputable section

namespace Cert.RGcn.Ref

open Cert.ReferenceIdeal Cert.ReferenceIdeal.Gen Idealize.ShloMosaic Idealize.ShloMosaic.TcCoe Idealize.SL.Sem Idealize.ShloMosaic.StableHlo

variable {F : FTy → Type} [FloatOps F]
/-- The operations of relation 0 (after the zero table's two), in order. -/
abbrev seg0 : List (HloOp τ sig (Elt F)) :=
  [ nullary main_cst (constant S_ .f32 0x00000000#32),
    unary main_cst main_v0 (broadcastInDim S50000x256 ![] bcast_S_S50000x256 : (⟨S_, .f32⟩ : BufTy).Contents (Elt F) → (⟨S50000x256, .f32⟩ : BufTy).Contents (Elt F)),
    unary main_arg1 main_v1 ((extractStridedSlice S1x256x256 ![0, 0, 0] · slices_S8x256x256_S1x256x256_0_0_0) : (⟨S8x256x256, .f32⟩ : BufTy).Contents (Elt F) → (⟨S1x256x256, .f32⟩ : BufTy).Contents (Elt F)),
    reshape main_v1 main_v2 rfl shapeCasts_S1x256x256_S256x256,
    binary main_arg0 main_v2 main_v3 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v4 ((extractStridedSlice S1x400000 ![0, 0] · slices_S8x400000_S1x400000_0_0) : (⟨S8x400000, .i32⟩ : BufTy).Contents (Elt F) → (⟨S1x400000, .i32⟩ : BufTy).Contents (Elt F)),
    reshape main_v4 main_v5 rfl shapeCasts_S1x400000_S400000,
    nullary main_c (constantI S_ 32 0#32),
    unary main_c main_v6 (broadcastInDim S400000 ![] bcast_S_S400000 : (⟨S_, .i32⟩ : BufTy).Contents (Elt F) → (⟨S400000, .i32⟩ : BufTy).Contents (Elt F)),
    binary main_v5 main_v6 main_v7 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v8 (broadcastInDim S400000 ![] bcast_S_S400000 : (⟨S_, .i32⟩ : BufTy).Contents (Elt F) → (⟨S400000, .i32⟩ : BufTy).Contents (Elt F)),
    binary main_v5 main_v8 main_v9 (addi : (⟨S400000, .i32⟩ : BufTy).Contents (Elt F) → (⟨S400000, .i32⟩ : BufTy).Contents (Elt F) → (⟨S400000, .i32⟩ : BufTy).Contents (Elt F)),
    ternary main_v7 main_v9 main_v5 main_v10 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v10 main_v11 (broadcastInDim S400000x1 ![0] bcast_S400000_S400000x1_0 : (⟨S400000, .i32⟩ : BufTy).Contents (Elt F) → (⟨S400000x1, .i32⟩ : BufTy).Contents (Elt F)),
    binary main_v3 main_v11 main_v12 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v13 ((extractStridedSlice S1x400000 ![0, 0] · slices_S8x400000_S1x400000_0_0) : (⟨S8x400000, .i32⟩ : BufTy).Contents (Elt F) → (⟨S1x400000, .i32⟩ : BufTy).Contents (Elt F)),
    reshape main_v13 main_v14 rfl shapeCasts_S1x400000_S400000,
    nullary main_cst_1 (constant S_ .f32 0x00000000#32),
    unary main_cst_1 main_v15 (broadcastInDim S50000x256 ![] bcast_S_S50000x256 : (⟨S_, .f32⟩ : BufTy).Contents (Elt F) → (⟨S50000x256, .f32⟩ : BufTy).Contents (Elt F)),
    unary main_v14 main_v16 (broadcastInDim S400000x1 ![0] bcast_S400000_S400000x1_0 : (⟨S400000, .i32⟩ : BufTy).Contents (Elt F) → (⟨S400000x1, .i32⟩ : BufTy).Contents (Elt F)),
    ternary main_v15 main_v16 main_v12 main_v17 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_2 (constant S_ .f32 0x3F800000#32),
    unary main_cst_2 main_v18 (broadcastInDim S400000 ![] bcast_S_S400000 : (⟨S_, .f32⟩ : BufTy).Contents (Elt F) → (⟨S400000, .f32⟩ : BufTy).Contents (Elt F)),
    unary main_arg5 main_v19 ((extractStridedSlice S1x400000 ![0, 0] · slices_S8x400000_S1x400000_0_0) : (⟨S8x400000, .i32⟩ : BufTy).Contents (Elt F) → (⟨S1x400000, .i32⟩ : BufTy).Contents (Elt F)),
    reshape main_v19 main_v20 rfl shapeCasts_S1x400000_S400000,
    nullary main_cst_3 (constant S_ .f32 0x00000000#32),
    unary main_cst_3 main_v21 (broadcastInDim S50000 ![] bcast_S_S50000 : (⟨S_, .f32⟩ : BufTy).Contents (Elt F) → (⟨S50000, .f32⟩ : BufTy).Contents (Elt F)),
    unary main_v20 main_v22 (broadcastInDim S400000x1 ![0] bcast_S400000_S400000x1_0 : (⟨S400000, .i32⟩ : BufTy).Contents (Elt F) → (⟨S400000x1, .i32⟩ : BufTy).Contents (Elt F)),
    ternary main_v21 main_v22 main_v18 main_v23 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_4 (constant S_ .f32 0x3F800000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v23) (TRef.of (T := ⟨S50000, .f32⟩) main_v24) maximumf,
    unary main_v24 main_v25 (broadcastInDim S50000x1 ![0] bcast_S50000_S50000x1_0 : (⟨S50000, .f32⟩ : BufTy).Contents (Elt F) → (⟨S50000x1, .f32⟩ : BufTy).Contents (Elt F)),
    unary main_v25 main_v26 (broadcastInDim S50000x256 ![0, 1] bcast_S50000x1_S50000x256_0_1 : (⟨S50000x1, .f32⟩ : BufTy).Contents (Elt F) → (⟨S50000x256, .f32⟩ : BufTy).Contents (Elt F)),
    binary main_v17 main_v26 main_v27 (Host.divf : (⟨S50000x256, .f32⟩ : BufTy).Contents (Elt F) → (⟨S50000x256, .f32⟩ : BufTy).Contents (Elt F) → (⟨S50000x256, .f32⟩ : BufTy).Contents (Elt F)),
    binary main_v0 main_v27 main_v28 (addf : (⟨S50000x256, .f32⟩ : BufTy).Contents (Elt F) → (⟨S50000x256, .f32⟩ : BufTy).Contents (Elt F) → (⟨S50000x256, .f32⟩ : BufTy).Contents (Elt F)) ]

/-- The operations of relation 1, in order. -/
abbrev seg1 : List (HloOp τ sig (Elt F)) :=
  [ unary main_arg1 main_v29 ((extractStridedSlice S1x256x256 ![1, 0, 0] · slices_S8x256x256_S1x256x256_1_0_0) : (⟨S8x256x256, .f32⟩ : BufTy).Contents (Elt F) → (⟨S1x256x256, .f32⟩ : BufTy).Contents (Elt F)),
    reshape main_v29 main_v30 rfl shapeCasts_S1x256x256_S256x256,
    binary main_arg0 main_v30 main_v31 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v32 ((extractStridedSlice S1x400000 ![1, 0] · slices_S8x400000_S1x400000_1_0) : (⟨S8x400000, .i32⟩ : BufTy).Contents (Elt F) → (⟨S1x400000, .i32⟩ : BufTy).Contents (Elt F)),
    reshape main_v32 main_v33 rfl shapeCasts_S1x400000_S400000,
    nullary main_c_5 (constantI S_ 32 0#32),
    unary main_c_5 main_v34 (broadcastInDim S400000 ![] bcast_S_S400000 : (⟨S_, .i32⟩ : BufTy).Contents (Elt F) → (⟨S400000, .i32⟩ : BufTy).Contents (Elt F)),
    binary main_v33 main_v34 main_v35 (cmpi .slt : (⟨S400000, .i32⟩ : BufTy).Contents (Elt F) → (⟨S400000, .i32⟩ : BufTy).Contents (Elt F) → (⟨S400000, .i1⟩ : BufTy).Contents (Elt F)),
    nullary main_c_6 (constantI S_ 32 50000#32),
    unary main_c_6 main_v36 (broadcastInDim S400000 ![] bcast_S_S400000 : (⟨S_, .i32⟩ : BufTy).Contents (Elt F) → (⟨S400000, .i32⟩ : BufTy).Contents (Elt F)),
    binary main_v33 main_v36 main_v37 (addi : (⟨S400000, .i32⟩ : BufTy).Contents (Elt F) → (⟨S400000, .i32⟩ : BufTy).Contents (Elt F) → (⟨S400000, .i32⟩ : BufTy).Contents (Elt F)),
    ternary main_v35 main_v37 main_v33 main_v38 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v38 main_v39 (broadcastInDim S400000x1 ![0] bcast_S400000_S400000x1_0 : (⟨S400000, .i32⟩ : BufTy).Contents (Elt F) → (⟨S400000x1, .i32⟩ : BufTy).Contents (Elt F)),
    binary main_v31 main_v39 main_v40 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v41 ((extractStridedSlice S1x400000 ![1, 0] · slices_S8x400000_S1x400000_1_0) : (⟨S8x400000, .i32⟩ : BufTy).Contents (Elt F) → (⟨S1x400000, .i32⟩ : BufTy).Contents (Elt F)),
    reshape main_v41 main_v42 rfl shapeCasts_S1x400000_S400000,
    nullary main_cst_7 (constant S_ .f32 0x00000000#32),
    unary main_cst_7 main_v43 (broadcastInDim S50000x256 ![] bcast_S_S50000x256 : (⟨S_, .f32⟩ : BufTy).Contents (Elt F) → (⟨S50000x256, .f32⟩ : BufTy).Contents (Elt F)),
    unary main_v42 main_v44 (broadcastInDim S400000x1 ![0] bcast_S400000_S400000x1_0 : (⟨S400000, .i32⟩ : BufTy).Contents (Elt F) → (⟨S400000x1, .i32⟩ : BufTy).Contents (Elt F)),
    ternary main_v43 main_v44 main_v40 main_v45 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_8 (constant S_ .f32 0x3F800000#32),
    unary main_cst_8 main_v46 (broadcastInDim S400000 ![] bcast_S_S400000 : (⟨S_, .f32⟩ : BufTy).Contents (Elt F) → (⟨S400000, .f32⟩ : BufTy).Contents (Elt F)),
    unary main_arg5 main_v47 ((extractStridedSlice S1x400000 ![1, 0] · slices_S8x400000_S1x400000_1_0) : (⟨S8x400000, .i32⟩ : BufTy).Contents (Elt F) → (⟨S1x400000, .i32⟩ : BufTy).Contents (Elt F)),
    reshape main_v47 main_v48 rfl shapeCasts_S1x400000_S400000,
    nullary main_cst_9 (constant S_ .f32 0x00000000#32),
    unary main_cst_9 main_v49 (broadcastInDim S50000 ![] bcast_S_S50000 : (⟨S_, .f32⟩ : BufTy).Contents (Elt F) → (⟨S50000, .f32⟩ : BufTy).Contents (Elt F)),
    unary main_v48 main_v50 (broadcastInDim S400000x1 ![0] bcast_S400000_S400000x1_0 : (⟨S400000, .i32⟩ : BufTy).Contents (Elt F) → (⟨S400000x1, .i32⟩ : BufTy).Contents (Elt F)),
    ternary main_v49 main_v50 main_v46 main_v51 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_10 (constant S_ .f32 0x3F800000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_v51) (TRef.of (T := ⟨S50000, .f32⟩) main_v52) maximumf,
    unary main_v52 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x256 ![0, 1] bcast_S50000x1_S50000x256_0_1 : (⟨S50000x1, .f32⟩ : BufTy).Contents (Elt F) → (⟨S50000x256, .f32⟩ : BufTy).Contents (Elt F)),
    binary main_v45 main_v54 main_v55 (Host.divf : (⟨S50000x256, .f32⟩ : BufTy).Contents (Elt F) → (⟨S50000x256, .f32⟩ : BufTy).Contents (Elt F) → (⟨S50000x256, .f32⟩ : BufTy).Contents (Elt F)),
    binary main_v28 main_v55 main_v56 (addf : (⟨S50000x256, .f32⟩ : BufTy).Contents (Elt F) → (⟨S50000x256, .f32⟩ : BufTy).Contents (Elt F) → (⟨S50000x256, .f32⟩ : BufTy).Contents (Elt F)) ]

/-- The operations of relation 2, in order. -/
abbrev seg2 : List (HloOp τ sig (Elt F)) :=
  [ unary main_arg1 main_v57 ((extractStridedSlice S1x256x256 ![2, 0, 0] · slices_S8x256x256_S1x256x256_2_0_0) : (⟨S8x256x256, .f32⟩ : BufTy).Contents (Elt F) → (⟨S1x256x256, .f32⟩ : BufTy).Contents (Elt F)),
    reshape main_v57 main_v58 rfl shapeCasts_S1x256x256_S256x256,
    binary main_arg0 main_v58 main_v59 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v60 ((extractStridedSlice S1x400000 ![2, 0] · slices_S8x400000_S1x400000_2_0) : (⟨S8x400000, .i32⟩ : BufTy).Contents (Elt F) → (⟨S1x400000, .i32⟩ : BufTy).Contents (Elt F)),
    reshape main_v60 main_v61 rfl shapeCasts_S1x400000_S400000,
    nullary main_c_11 (constantI S_ 32 0#32),
    unary main_c_11 main_v62 (broadcastInDim S400000 ![] bcast_S_S400000 : (⟨S_, .i32⟩ : BufTy).Contents (Elt F) → (⟨S400000, .i32⟩ : BufTy).Contents (Elt F)),
    binary main_v61 main_v62 main_v63 (cmpi .slt : (⟨S400000, .i32⟩ : BufTy).Contents (Elt F) → (⟨S400000, .i32⟩ : BufTy).Contents (Elt F) → (⟨S400000, .i1⟩ : BufTy).Contents (Elt F)),
    nullary main_c_12 (constantI S_ 32 50000#32),
    unary main_c_12 main_v64 (broadcastInDim S400000 ![] bcast_S_S400000 : (⟨S_, .i32⟩ : BufTy).Contents (Elt F) → (⟨S400000, .i32⟩ : BufTy).Contents (Elt F)),
    binary main_v61 main_v64 main_v65 (addi : (⟨S400000, .i32⟩ : BufTy).Contents (Elt F) → (⟨S400000, .i32⟩ : BufTy).Contents (Elt F) → (⟨S400000, .i32⟩ : BufTy).Contents (Elt F)),
    ternary main_v63 main_v65 main_v61 main_v66 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v66 main_v67 (broadcastInDim S400000x1 ![0] bcast_S400000_S400000x1_0 : (⟨S400000, .i32⟩ : BufTy).Contents (Elt F) → (⟨S400000x1, .i32⟩ : BufTy).Contents (Elt F)),
    binary main_v59 main_v67 main_v68 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v69 ((extractStridedSlice S1x400000 ![2, 0] · slices_S8x400000_S1x400000_2_0) : (⟨S8x400000, .i32⟩ : BufTy).Contents (Elt F) → (⟨S1x400000, .i32⟩ : BufTy).Contents (Elt F)),
    reshape main_v69 main_v70 rfl shapeCasts_S1x400000_S400000,
    nullary main_cst_13 (constant S_ .f32 0x00000000#32),
    unary main_cst_13 main_v71 (broadcastInDim S50000x256 ![] bcast_S_S50000x256 : (⟨S_, .f32⟩ : BufTy).Contents (Elt F) → (⟨S50000x256, .f32⟩ : BufTy).Contents (Elt F)),
    unary main_v70 main_v72 (broadcastInDim S400000x1 ![0] bcast_S400000_S400000x1_0 : (⟨S400000, .i32⟩ : BufTy).Contents (Elt F) → (⟨S400000x1, .i32⟩ : BufTy).Contents (Elt F)),
    ternary main_v71 main_v72 main_v68 main_v73 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_14 (constant S_ .f32 0x3F800000#32),
    unary main_cst_14 main_v74 (broadcastInDim S400000 ![] bcast_S_S400000 : (⟨S_, .f32⟩ : BufTy).Contents (Elt F) → (⟨S400000, .f32⟩ : BufTy).Contents (Elt F)),
    unary main_arg5 main_v75 ((extractStridedSlice S1x400000 ![2, 0] · slices_S8x400000_S1x400000_2_0) : (⟨S8x400000, .i32⟩ : BufTy).Contents (Elt F) → (⟨S1x400000, .i32⟩ : BufTy).Contents (Elt F)),
    reshape main_v75 main_v76 rfl shapeCasts_S1x400000_S400000,
    nullary main_cst_15 (constant S_ .f32 0x00000000#32),
    unary main_cst_15 main_v77 (broadcastInDim S50000 ![] bcast_S_S50000 : (⟨S_, .f32⟩ : BufTy).Contents (Elt F) → (⟨S50000, .f32⟩ : BufTy).Contents (Elt F)),
    unary main_v76 main_v78 (broadcastInDim S400000x1 ![0] bcast_S400000_S400000x1_0 : (⟨S400000, .i32⟩ : BufTy).Contents (Elt F) → (⟨S400000x1, .i32⟩ : BufTy).Contents (Elt F)),
    ternary main_v77 main_v78 main_v74 main_v79 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_16 (constant S_ .f32 0x3F800000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v79) (TRef.of (T := ⟨S50000, .f32⟩) main_v80) maximumf,
    unary main_v80 main_v81 (broadcastInDim S50000x1 ![0] bcast_S50000_S50000x1_0 : (⟨S50000, .f32⟩ : BufTy).Contents (Elt F) → (⟨S50000x1, .f32⟩ : BufTy).Contents (Elt F)),
    unary main_v81 main_v82 (broadcastInDim S50000x256 ![0, 1] bcast_S50000x1_S50000x256_0_1 : (⟨S50000x1, .f32⟩ : BufTy).Contents (Elt F) → (⟨S50000x256, .f32⟩ : BufTy).Contents (Elt F)),
    binary main_v73 main_v82 main_v83 (Host.divf : (⟨S50000x256, .f32⟩ : BufTy).Contents (Elt F) → (⟨S50000x256, .f32⟩ : BufTy).Contents (Elt F) → (⟨S50000x256, .f32⟩ : BufTy).Contents (Elt F)),
    binary main_v56 main_v83 main_v84 (addf : (⟨S50000x256, .f32⟩ : BufTy).Contents (Elt F) → (⟨S50000x256, .f32⟩ : BufTy).Contents (Elt F) → (⟨S50000x256, .f32⟩ : BufTy).Contents (Elt F)) ]

/-- The operations of relation 3, in order. -/
abbrev seg3 : List (HloOp τ sig (Elt F)) :=
  [ unary main_arg1 main_v85 ((extractStridedSlice S1x256x256 ![3, 0, 0] · slices_S8x256x256_S1x256x256_3_0_0) : (⟨S8x256x256, .f32⟩ : BufTy).Contents (Elt F) → (⟨S1x256x256, .f32⟩ : BufTy).Contents (Elt F)),
    reshape main_v85 main_v86 rfl shapeCasts_S1x256x256_S256x256,
    binary main_arg0 main_v86 main_v87 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v88 ((extractStridedSlice S1x400000 ![3, 0] · slices_S8x400000_S1x400000_3_0) : (⟨S8x400000, .i32⟩ : BufTy).Contents (Elt F) → (⟨S1x400000, .i32⟩ : BufTy).Contents (Elt F)),
    reshape main_v88 main_v89 rfl shapeCasts_S1x400000_S400000,
    nullary main_c_17 (constantI S_ 32 0#32),
    unary main_c_17 main_v90 (broadcastInDim S400000 ![] bcast_S_S400000 : (⟨S_, .i32⟩ : BufTy).Contents (Elt F) → (⟨S400000, .i32⟩ : BufTy).Contents (Elt F)),
    binary main_v89 main_v90 main_v91 (cmpi .slt : (⟨S400000, .i32⟩ : BufTy).Contents (Elt F) → (⟨S400000, .i32⟩ : BufTy).Contents (Elt F) → (⟨S400000, .i1⟩ : BufTy).Contents (Elt F)),
    nullary main_c_18 (constantI S_ 32 50000#32),
    unary main_c_18 main_v92 (broadcastInDim S400000 ![] bcast_S_S400000 : (⟨S_, .i32⟩ : BufTy).Contents (Elt F) → (⟨S400000, .i32⟩ : BufTy).Contents (Elt F)),
    binary main_v89 main_v92 main_v93 (addi : (⟨S400000, .i32⟩ : BufTy).Contents (Elt F) → (⟨S400000, .i32⟩ : BufTy).Contents (Elt F) → (⟨S400000, .i32⟩ : BufTy).Contents (Elt F)),
    ternary main_v91 main_v93 main_v89 main_v94 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v94 main_v95 (broadcastInDim S400000x1 ![0] bcast_S400000_S400000x1_0 : (⟨S400000, .i32⟩ : BufTy).Contents (Elt F) → (⟨S400000x1, .i32⟩ : BufTy).Contents (Elt F)),
    binary main_v87 main_v95 main_v96 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v97 ((extractStridedSlice S1x400000 ![3, 0] · slices_S8x400000_S1x400000_3_0) : (⟨S8x400000, .i32⟩ : BufTy).Contents (Elt F) → (⟨S1x400000, .i32⟩ : BufTy).Contents (Elt F)),
    reshape main_v97 main_v98 rfl shapeCasts_S1x400000_S400000,
    nullary main_cst_19 (constant S_ .f32 0x00000000#32),
    unary main_cst_19 main_v99 (broadcastInDim S50000x256 ![] bcast_S_S50000x256 : (⟨S_, .f32⟩ : BufTy).Contents (Elt F) → (⟨S50000x256, .f32⟩ : BufTy).Contents (Elt F)),
    unary main_v98 main_v100 (broadcastInDim S400000x1 ![0] bcast_S400000_S400000x1_0 : (⟨S400000, .i32⟩ : BufTy).Contents (Elt F) → (⟨S400000x1, .i32⟩ : BufTy).Contents (Elt F)),
    ternary main_v99 main_v100 main_v96 main_v101 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_20 (constant S_ .f32 0x3F800000#32),
    unary main_cst_20 main_v102 (broadcastInDim S400000 ![] bcast_S_S400000 : (⟨S_, .f32⟩ : BufTy).Contents (Elt F) → (⟨S400000, .f32⟩ : BufTy).Contents (Elt F)),
    unary main_arg5 main_v103 ((extractStridedSlice S1x400000 ![3, 0] · slices_S8x400000_S1x400000_3_0) : (⟨S8x400000, .i32⟩ : BufTy).Contents (Elt F) → (⟨S1x400000, .i32⟩ : BufTy).Contents (Elt F)),
    reshape main_v103 main_v104 rfl shapeCasts_S1x400000_S400000,
    nullary main_cst_21 (constant S_ .f32 0x00000000#32),
    unary main_cst_21 main_v105 (broadcastInDim S50000 ![] bcast_S_S50000 : (⟨S_, .f32⟩ : BufTy).Contents (Elt F) → (⟨S50000, .f32⟩ : BufTy).Contents (Elt F)),
    unary main_v104 main_v106 (broadcastInDim S400000x1 ![0] bcast_S400000_S400000x1_0 : (⟨S400000, .i32⟩ : BufTy).Contents (Elt F) → (⟨S400000x1, .i32⟩ : BufTy).Contents (Elt F)),
    ternary main_v105 main_v106 main_v102 main_v107 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_22 (constant S_ .f32 0x3F800000#32),
    TRef.unary (TRef.of (T := ⟨S_, .f32⟩) main_cst_22) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_v107) (TRef.of (T := ⟨S50000, .f32⟩) main_v108) maximumf,
    unary main_v108 main_v109 (broadcastInDim S50000x1 ![0] bcast_S50000_S50000x1_0 : (⟨S50000, .f32⟩ : BufTy).Contents (Elt F) → (⟨S50000x1, .f32⟩ : BufTy).Contents (Elt F)),
    unary main_v109 main_v110 (broadcastInDim S50000x256 ![0, 1] bcast_S50000x1_S50000x256_0_1 : (⟨S50000x1, .f32⟩ : BufTy).Contents (Elt F) → (⟨S50000x256, .f32⟩ : BufTy).Contents (Elt F)),
    binary main_v101 main_v110 main_v111 (Host.divf : (⟨S50000x256, .f32⟩ : BufTy).Contents (Elt F) → (⟨S50000x256, .f32⟩ : BufTy).Contents (Elt F) → (⟨S50000x256, .f32⟩ : BufTy).Contents (Elt F)),
    binary main_v84 main_v111 main_v112 (addf : (⟨S50000x256, .f32⟩ : BufTy).Contents (Elt F) → (⟨S50000x256, .f32⟩ : BufTy).Contents (Elt F) → (⟨S50000x256, .f32⟩ : BufTy).Contents (Elt F)) ]

/-- The operations of relation 4, in order. -/
abbrev seg4 : List (HloOp τ sig (Elt F)) :=
  [ unary main_arg1 main_v113 ((extractStridedSlice S1x256x256 ![4, 0, 0] · slices_S8x256x256_S1x256x256_4_0_0) : (⟨S8x256x256, .f32⟩ : BufTy).Contents (Elt F) → (⟨S1x256x256, .f32⟩ : BufTy).Contents (Elt F)),
    reshape main_v113 main_v114 rfl shapeCasts_S1x256x256_S256x256,
    binary main_arg0 main_v114 main_v115 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v116 ((extractStridedSlice S1x400000 ![4, 0] · slices_S8x400000_S1x400000_4_0) : (⟨S8x400000, .i32⟩ : BufTy).Contents (Elt F) → (⟨S1x400000, .i32⟩ : BufTy).Contents (Elt F)),
    reshape main_v116 main_v117 rfl shapeCasts_S1x400000_S400000,
    nullary main_c_23 (constantI S_ 32 0#32),
    unary main_c_23 main_v118 (broadcastInDim S400000 ![] bcast_S_S400000 : (⟨S_, .i32⟩ : BufTy).Contents (Elt F) → (⟨S400000, .i32⟩ : BufTy).Contents (Elt F)),
    binary main_v117 main_v118 main_v119 (cmpi .slt : (⟨S400000, .i32⟩ : BufTy).Contents (Elt F) → (⟨S400000, .i32⟩ : BufTy).Contents (Elt F) → (⟨S400000, .i1⟩ : BufTy).Contents (Elt F)),
    nullary main_c_24 (constantI S_ 32 50000#32),
    unary main_c_24 main_v120 (broadcastInDim S400000 ![] bcast_S_S400000 : (⟨S_, .i32⟩ : BufTy).Contents (Elt F) → (⟨S400000, .i32⟩ : BufTy).Contents (Elt F)),
    binary main_v117 main_v120 main_v121 (addi : (⟨S400000, .i32⟩ : BufTy).Contents (Elt F) → (⟨S400000, .i32⟩ : BufTy).Contents (Elt F) → (⟨S400000, .i32⟩ : BufTy).Contents (Elt F)),
    ternary main_v119 main_v121 main_v117 main_v122 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v122 main_v123 (broadcastInDim S400000x1 ![0] bcast_S400000_S400000x1_0 : (⟨S400000, .i32⟩ : BufTy).Contents (Elt F) → (⟨S400000x1, .i32⟩ : BufTy).Contents (Elt F)),
    binary main_v115 main_v123 main_v124 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v125 ((extractStridedSlice S1x400000 ![4, 0] · slices_S8x400000_S1x400000_4_0) : (⟨S8x400000, .i32⟩ : BufTy).Contents (Elt F) → (⟨S1x400000, .i32⟩ : BufTy).Contents (Elt F)),
    reshape main_v125 main_v126 rfl shapeCasts_S1x400000_S400000,
    nullary main_cst_25 (constant S_ .f32 0x00000000#32),
    unary main_cst_25 main_v127 (broadcastInDim S50000x256 ![] bcast_S_S50000x256 : (⟨S_, .f32⟩ : BufTy).Contents (Elt F) → (⟨S50000x256, .f32⟩ : BufTy).Contents (Elt F)),
    unary main_v126 main_v128 (broadcastInDim S400000x1 ![0] bcast_S400000_S400000x1_0 : (⟨S400000, .i32⟩ : BufTy).Contents (Elt F) → (⟨S400000x1, .i32⟩ : BufTy).Contents (Elt F)),
    ternary main_v127 main_v128 main_v124 main_v129 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_26 (constant S_ .f32 0x3F800000#32),
    unary main_cst_26 main_v130 (broadcastInDim S400000 ![] bcast_S_S400000 : (⟨S_, .f32⟩ : BufTy).Contents (Elt F) → (⟨S400000, .f32⟩ : BufTy).Contents (Elt F)),
    unary main_arg5 main_v131 ((extractStridedSlice S1x400000 ![4, 0] · slices_S8x400000_S1x400000_4_0) : (⟨S8x400000, .i32⟩ : BufTy).Contents (Elt F) → (⟨S1x400000, .i32⟩ : BufTy).Contents (Elt F)),
    reshape main_v131 main_v132 rfl shapeCasts_S1x400000_S400000,
    nullary main_cst_27 (constant S_ .f32 0x00000000#32),
    unary main_cst_27 main_v133 (broadcastInDim S50000 ![] bcast_S_S50000 : (⟨S_, .f32⟩ : BufTy).Contents (Elt F) → (⟨S50000, .f32⟩ : BufTy).Contents (Elt F)),
    unary main_v132 main_v134 (broadcastInDim S400000x1 ![0] bcast_S400000_S400000x1_0 : (⟨S400000, .i32⟩ : BufTy).Contents (Elt F) → (⟨S400000x1, .i32⟩ : BufTy).Contents (Elt F)),
    ternary main_v133 main_v134 main_v130 main_v135 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_28 (constant S_ .f32 0x3F800000#32),
    TRef.unary (TRef.of (T := ⟨S_, .f32⟩) main_cst_28) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_v135) (TRef.of (T := ⟨S50000, .f32⟩) main_v136) maximumf,
    unary main_v136 main_v137 (broadcastInDim S50000x1 ![0] bcast_S50000_S50000x1_0 : (⟨S50000, .f32⟩ : BufTy).Contents (Elt F) → (⟨S50000x1, .f32⟩ : BufTy).Contents (Elt F)),
    unary main_v137 main_v138 (broadcastInDim S50000x256 ![0, 1] bcast_S50000x1_S50000x256_0_1 : (⟨S50000x1, .f32⟩ : BufTy).Contents (Elt F) → (⟨S50000x256, .f32⟩ : BufTy).Contents (Elt F)),
    binary main_v129 main_v138 main_v139 (Host.divf : (⟨S50000x256, .f32⟩ : BufTy).Contents (Elt F) → (⟨S50000x256, .f32⟩ : BufTy).Contents (Elt F) → (⟨S50000x256, .f32⟩ : BufTy).Contents (Elt F)),
    binary main_v112 main_v139 main_v140 (addf : (⟨S50000x256, .f32⟩ : BufTy).Contents (Elt F) → (⟨S50000x256, .f32⟩ : BufTy).Contents (Elt F) → (⟨S50000x256, .f32⟩ : BufTy).Contents (Elt F)) ]

/-- The operations of relation 5, in order. -/
abbrev seg5 : List (HloOp τ sig (Elt F)) :=
  [ unary main_arg1 main_v141 ((extractStridedSlice S1x256x256 ![5, 0, 0] · slices_S8x256x256_S1x256x256_5_0_0) : (⟨S8x256x256, .f32⟩ : BufTy).Contents (Elt F) → (⟨S1x256x256, .f32⟩ : BufTy).Contents (Elt F)),
    reshape main_v141 main_v142 rfl shapeCasts_S1x256x256_S256x256,
    binary main_arg0 main_v142 main_v143 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v144 ((extractStridedSlice S1x400000 ![5, 0] · slices_S8x400000_S1x400000_5_0) : (⟨S8x400000, .i32⟩ : BufTy).Contents (Elt F) → (⟨S1x400000, .i32⟩ : BufTy).Contents (Elt F)),
    reshape main_v144 main_v145 rfl shapeCasts_S1x400000_S400000,
    nullary main_c_29 (constantI S_ 32 0#32),
    unary main_c_29 main_v146 (broadcastInDim S400000 ![] bcast_S_S400000 : (⟨S_, .i32⟩ : BufTy).Contents (Elt F) → (⟨S400000, .i32⟩ : BufTy).Contents (Elt F)),
    binary main_v145 main_v146 main_v147 (cmpi .slt : (⟨S400000, .i32⟩ : BufTy).Contents (Elt F) → (⟨S400000, .i32⟩ : BufTy).Contents (Elt F) → (⟨S400000, .i1⟩ : BufTy).Contents (Elt F)),
    nullary main_c_30 (constantI S_ 32 50000#32),
    unary main_c_30 main_v148 (broadcastInDim S400000 ![] bcast_S_S400000 : (⟨S_, .i32⟩ : BufTy).Contents (Elt F) → (⟨S400000, .i32⟩ : BufTy).Contents (Elt F)),
    binary main_v145 main_v148 main_v149 (addi : (⟨S400000, .i32⟩ : BufTy).Contents (Elt F) → (⟨S400000, .i32⟩ : BufTy).Contents (Elt F) → (⟨S400000, .i32⟩ : BufTy).Contents (Elt F)),
    ternary main_v147 main_v149 main_v145 main_v150 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v150 main_v151 (broadcastInDim S400000x1 ![0] bcast_S400000_S400000x1_0 : (⟨S400000, .i32⟩ : BufTy).Contents (Elt F) → (⟨S400000x1, .i32⟩ : BufTy).Contents (Elt F)),
    binary main_v143 main_v151 main_v152 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v153 ((extractStridedSlice S1x400000 ![5, 0] · slices_S8x400000_S1x400000_5_0) : (⟨S8x400000, .i32⟩ : BufTy).Contents (Elt F) → (⟨S1x400000, .i32⟩ : BufTy).Contents (Elt F)),
    reshape main_v153 main_v154 rfl shapeCasts_S1x400000_S400000,
    nullary main_cst_31 (constant S_ .f32 0x00000000#32),
    unary main_cst_31 main_v155 (broadcastInDim S50000x256 ![] bcast_S_S50000x256 : (⟨S_, .f32⟩ : BufTy).Contents (Elt F) → (⟨S50000x256, .f32⟩ : BufTy).Contents (Elt F)),
    unary main_v154 main_v156 (broadcastInDim S400000x1 ![0] bcast_S400000_S400000x1_0 : (⟨S400000, .i32⟩ : BufTy).Contents (Elt F) → (⟨S400000x1, .i32⟩ : BufTy).Contents (Elt F)),
    ternary main_v155 main_v156 main_v152 main_v157 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_32 (constant S_ .f32 0x3F800000#32),
    unary main_cst_32 main_v158 (broadcastInDim S400000 ![] bcast_S_S400000 : (⟨S_, .f32⟩ : BufTy).Contents (Elt F) → (⟨S400000, .f32⟩ : BufTy).Contents (Elt F)),
    unary main_arg5 main_v159 ((extractStridedSlice S1x400000 ![5, 0] · slices_S8x400000_S1x400000_5_0) : (⟨S8x400000, .i32⟩ : BufTy).Contents (Elt F) → (⟨S1x400000, .i32⟩ : BufTy).Contents (Elt F)),
    reshape main_v159 main_v160 rfl shapeCasts_S1x400000_S400000,
    nullary main_cst_33 (constant S_ .f32 0x00000000#32),
    unary main_cst_33 main_v161 (broadcastInDim S50000 ![] bcast_S_S50000 : (⟨S_, .f32⟩ : BufTy).Contents (Elt F) → (⟨S50000, .f32⟩ : BufTy).Contents (Elt F)),
    unary main_v160 main_v162 (broadcastInDim S400000x1 ![0] bcast_S400000_S400000x1_0 : (⟨S400000, .i32⟩ : BufTy).Contents (Elt F) → (⟨S400000x1, .i32⟩ : BufTy).Contents (Elt F)),
    ternary main_v161 main_v162 main_v158 main_v163 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_34 (constant S_ .f32 0x3F800000#32),
    TRef.unary (TRef.of (T := ⟨S_, .f32⟩) main_cst_34) (TRef.of (T := ⟨S_, .f32⟩) main_call5_v0) id,
    TRef.unary (TRef.of (T := ⟨S_, .f32⟩) main_call5_v0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_v163) (TRef.of (T := ⟨S50000, .f32⟩) main_v164) maximumf,
    unary main_v164 main_v165 (broadcastInDim S50000x1 ![0] bcast_S50000_S50000x1_0 : (⟨S50000, .f32⟩ : BufTy).Contents (Elt F) → (⟨S50000x1, .f32⟩ : BufTy).Contents (Elt F)),
    unary main_v165 main_v166 (broadcastInDim S50000x256 ![0, 1] bcast_S50000x1_S50000x256_0_1 : (⟨S50000x1, .f32⟩ : BufTy).Contents (Elt F) → (⟨S50000x256, .f32⟩ : BufTy).Contents (Elt F)),
    binary main_v157 main_v166 main_v167 (Host.divf : (⟨S50000x256, .f32⟩ : BufTy).Contents (Elt F) → (⟨S50000x256, .f32⟩ : BufTy).Contents (Elt F) → (⟨S50000x256, .f32⟩ : BufTy).Contents (Elt F)),
    binary main_v140 main_v167 main_v168 (addf : (⟨S50000x256, .f32⟩ : BufTy).Contents (Elt F) → (⟨S50000x256, .f32⟩ : BufTy).Contents (Elt F) → (⟨S50000x256, .f32⟩ : BufTy).Contents (Elt F)) ]

/-- The operations of relation 6, in order. -/
abbrev seg6 : List (HloOp τ sig (Elt F)) :=
  [ unary main_arg1 main_v169 ((extractStridedSlice S1x256x256 ![6, 0, 0] · slices_S8x256x256_S1x256x256_6_0_0) : (⟨S8x256x256, .f32⟩ : BufTy).Contents (Elt F) → (⟨S1x256x256, .f32⟩ : BufTy).Contents (Elt F)),
    reshape main_v169 main_v170 rfl shapeCasts_S1x256x256_S256x256,
    binary main_arg0 main_v170 main_v171 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v172 ((extractStridedSlice S1x400000 ![6, 0] · slices_S8x400000_S1x400000_6_0) : (⟨S8x400000, .i32⟩ : BufTy).Contents (Elt F) → (⟨S1x400000, .i32⟩ : BufTy).Contents (Elt F)),
    reshape main_v172 main_v173 rfl shapeCasts_S1x400000_S400000,
    nullary main_c_35 (constantI S_ 32 0#32),
    unary main_c_35 main_v174 (broadcastInDim S400000 ![] bcast_S_S400000 : (⟨S_, .i32⟩ : BufTy).Contents (Elt F) → (⟨S400000, .i32⟩ : BufTy).Contents (Elt F)),
    binary main_v173 main_v174 main_v175 (cmpi .slt : (⟨S400000, .i32⟩ : BufTy).Contents (Elt F) → (⟨S400000, .i32⟩ : BufTy).Contents (Elt F) → (⟨S400000, .i1⟩ : BufTy).Contents (Elt F)),
    nullary main_c_36 (constantI S_ 32 50000#32),
    unary main_c_36 main_v176 (broadcastInDim S400000 ![] bcast_S_S400000 : (⟨S_, .i32⟩ : BufTy).Contents (Elt F) → (⟨S400000, .i32⟩ : BufTy).Contents (Elt F)),
    binary main_v173 main_v176 main_v177 (addi : (⟨S400000, .i32⟩ : BufTy).Contents (Elt F) → (⟨S400000, .i32⟩ : BufTy).Contents (Elt F) → (⟨S400000, .i32⟩ : BufTy).Contents (Elt F)),
    ternary main_v175 main_v177 main_v173 main_v178 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v178 main_v179 (broadcastInDim S400000x1 ![0] bcast_S400000_S400000x1_0 : (⟨S400000, .i32⟩ : BufTy).Contents (Elt F) → (⟨S400000x1, .i32⟩ : BufTy).Contents (Elt F)),
    binary main_v171 main_v179 main_v180 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v181 ((extractStridedSlice S1x400000 ![6, 0] · slices_S8x400000_S1x400000_6_0) : (⟨S8x400000, .i32⟩ : BufTy).Contents (Elt F) → (⟨S1x400000, .i32⟩ : BufTy).Contents (Elt F)),
    reshape main_v181 main_v182 rfl shapeCasts_S1x400000_S400000,
    nullary main_cst_37 (constant S_ .f32 0x00000000#32),
    unary main_cst_37 main_v183 (broadcastInDim S50000x256 ![] bcast_S_S50000x256 : (⟨S_, .f32⟩ : BufTy).Contents (Elt F) → (⟨S50000x256, .f32⟩ : BufTy).Contents (Elt F)),
    unary main_v182 main_v184 (broadcastInDim S400000x1 ![0] bcast_S400000_S400000x1_0 : (⟨S400000, .i32⟩ : BufTy).Contents (Elt F) → (⟨S400000x1, .i32⟩ : BufTy).Contents (Elt F)),
    ternary main_v183 main_v184 main_v180 main_v185 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_38 (constant S_ .f32 0x3F800000#32),
    unary main_cst_38 main_v186 (broadcastInDim S400000 ![] bcast_S_S400000 : (⟨S_, .f32⟩ : BufTy).Contents (Elt F) → (⟨S400000, .f32⟩ : BufTy).Contents (Elt F)),
    unary main_arg5 main_v187 ((extractStridedSlice S1x400000 ![6, 0] · slices_S8x400000_S1x400000_6_0) : (⟨S8x400000, .i32⟩ : BufTy).Contents (Elt F) → (⟨S1x400000, .i32⟩ : BufTy).Contents (Elt F)),
    reshape main_v187 main_v188 rfl shapeCasts_S1x400000_S400000,
    nullary main_cst_39 (constant S_ .f32 0x00000000#32),
    unary main_cst_39 main_v189 (broadcastInDim S50000 ![] bcast_S_S50000 : (⟨S_, .f32⟩ : BufTy).Contents (Elt F) → (⟨S50000, .f32⟩ : BufTy).Contents (Elt F)),
    unary main_v188 main_v190 (broadcastInDim S400000x1 ![0] bcast_S400000_S400000x1_0 : (⟨S400000, .i32⟩ : BufTy).Contents (Elt F) → (⟨S400000x1, .i32⟩ : BufTy).Contents (Elt F)),
    ternary main_v189 main_v190 main_v186 main_v191 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_40 (constant S_ .f32 0x3F800000#32),
    TRef.unary (TRef.of (T := ⟨S_, .f32⟩) main_cst_40) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_v191) (TRef.of (T := ⟨S50000, .f32⟩) main_v192) maximumf,
    unary main_v192 main_v193 (broadcastInDim S50000x1 ![0] bcast_S50000_S50000x1_0 : (⟨S50000, .f32⟩ : BufTy).Contents (Elt F) → (⟨S50000x1, .f32⟩ : BufTy).Contents (Elt F)),
    unary main_v193 main_v194 (broadcastInDim S50000x256 ![0, 1] bcast_S50000x1_S50000x256_0_1 : (⟨S50000x1, .f32⟩ : BufTy).Contents (Elt F) → (⟨S50000x256, .f32⟩ : BufTy).Contents (Elt F)),
    binary main_v185 main_v194 main_v195 (Host.divf : (⟨S50000x256, .f32⟩ : BufTy).Contents (Elt F) → (⟨S50000x256, .f32⟩ : BufTy).Contents (Elt F) → (⟨S50000x256, .f32⟩ : BufTy).Contents (Elt F)),
    binary main_v168 main_v195 main_v196 (addf : (⟨S50000x256, .f32⟩ : BufTy).Contents (Elt F) → (⟨S50000x256, .f32⟩ : BufTy).Contents (Elt F) → (⟨S50000x256, .f32⟩ : BufTy).Contents (Elt F)) ]

/-- The operations of relation 7, in order. -/
abbrev seg7 : List (HloOp τ sig (Elt F)) :=
  [ unary main_arg1 main_v197 ((extractStridedSlice S1x256x256 ![7, 0, 0] · slices_S8x256x256_S1x256x256_7_0_0) : (⟨S8x256x256, .f32⟩ : BufTy).Contents (Elt F) → (⟨S1x256x256, .f32⟩ : BufTy).Contents (Elt F)),
    reshape main_v197 main_v198 rfl shapeCasts_S1x256x256_S256x256,
    binary main_arg0 main_v198 main_v199 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v200 ((extractStridedSlice S1x400000 ![7, 0] · slices_S8x400000_S1x400000_7_0) : (⟨S8x400000, .i32⟩ : BufTy).Contents (Elt F) → (⟨S1x400000, .i32⟩ : BufTy).Contents (Elt F)),
    reshape main_v200 main_v201 rfl shapeCasts_S1x400000_S400000,
    nullary main_c_41 (constantI S_ 32 0#32),
    unary main_c_41 main_v202 (broadcastInDim S400000 ![] bcast_S_S400000 : (⟨S_, .i32⟩ : BufTy).Contents (Elt F) → (⟨S400000, .i32⟩ : BufTy).Contents (Elt F)),
    binary main_v201 main_v202 main_v203 (cmpi .slt : (⟨S400000, .i32⟩ : BufTy).Contents (Elt F) → (⟨S400000, .i32⟩ : BufTy).Contents (Elt F) → (⟨S400000, .i1⟩ : BufTy).Contents (Elt F)),
    nullary main_c_42 (constantI S_ 32 50000#32),
    unary main_c_42 main_v204 (broadcastInDim S400000 ![] bcast_S_S400000 : (⟨S_, .i32⟩ : BufTy).Contents (Elt F) → (⟨S400000, .i32⟩ : BufTy).Contents (Elt F)),
    binary main_v201 main_v204 main_v205 (addi : (⟨S400000, .i32⟩ : BufTy).Contents (Elt F) → (⟨S400000, .i32⟩ : BufTy).Contents (Elt F) → (⟨S400000, .i32⟩ : BufTy).Contents (Elt F)),
    ternary main_v203 main_v205 main_v201 main_v206 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v206 main_v207 (broadcastInDim S400000x1 ![0] bcast_S400000_S400000x1_0 : (⟨S400000, .i32⟩ : BufTy).Contents (Elt F) → (⟨S400000x1, .i32⟩ : BufTy).Contents (Elt F)),
    binary main_v199 main_v207 main_v208 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_arg5 main_v209 ((extractStridedSlice S1x400000 ![7, 0] · slices_S8x400000_S1x400000_7_0) : (⟨S8x400000, .i32⟩ : BufTy).Contents (Elt F) → (⟨S1x400000, .i32⟩ : BufTy).Contents (Elt F)),
    reshape main_v209 main_v210 rfl shapeCasts_S1x400000_S400000,
    nullary main_cst_43 (constant S_ .f32 0x00000000#32),
    unary main_cst_43 main_v211 (broadcastInDim S50000x256 ![] bcast_S_S50000x256 : (⟨S_, .f32⟩ : BufTy).Contents (Elt F) → (⟨S50000x256, .f32⟩ : BufTy).Contents (Elt F)),
    unary main_v210 main_v212 (broadcastInDim S400000x1 ![0] bcast_S400000_S400000x1_0 : (⟨S400000, .i32⟩ : BufTy).Contents (Elt F) → (⟨S400000x1, .i32⟩ : BufTy).Contents (Elt F)),
    ternary main_v211 main_v212 main_v208 main_v213 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_44 (constant S_ .f32 0x3F800000#32),
    unary main_cst_44 main_v214 (broadcastInDim S400000 ![] bcast_S_S400000 : (⟨S_, .f32⟩ : BufTy).Contents (Elt F) → (⟨S400000, .f32⟩ : BufTy).Contents (Elt F)),
    unary main_arg5 main_v215 ((extractStridedSlice S1x400000 ![7, 0] · slices_S8x400000_S1x400000_7_0) : (⟨S8x400000, .i32⟩ : BufTy).Contents (Elt F) → (⟨S1x400000, .i32⟩ : BufTy).Contents (Elt F)),
    reshape main_v215 main_v216 rfl shapeCasts_S1x400000_S400000,
    nullary main_cst_45 (constant S_ .f32 0x00000000#32),
    unary main_cst_45 main_v217 (broadcastInDim S50000 ![] bcast_S_S50000 : (⟨S_, .f32⟩ : BufTy).Contents (Elt F) → (⟨S50000, .f32⟩ : BufTy).Contents (Elt F)),
    unary main_v216 main_v218 (broadcastInDim S400000x1 ![0] bcast_S400000_S400000x1_0 : (⟨S400000, .i32⟩ : BufTy).Contents (Elt F) → (⟨S400000x1, .i32⟩ : BufTy).Contents (Elt F)),
    ternary main_v217 main_v218 main_v214 main_v219 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_46 (constant S_ .f32 0x3F800000#32),
    TRef.unary (TRef.of (T := ⟨S_, .f32⟩) main_cst_46) (TRef.of (T := ⟨S_, .f32⟩) main_call7_v0) id,
    TRef.unary (TRef.of (T := ⟨S_, .f32⟩) main_call7_v0) (TRef.of (T := ⟨S50000, .f32⟩) main_call7_v1) (broadcastInDim S50000 ![] bcast_S_S50000),
    TRef.binary (TRef.of (T := ⟨S50000, .f32⟩) main_call7_v1) (TRef.of (T := ⟨S50000, .f32⟩) main_v219) (TRef.of (T := ⟨S50000, .f32⟩) main_v220) maximumf,
    unary main_v220 main_v221 (broadcastInDim S50000x1 ![0] bcast_S50000_S50000x1_0 : (⟨S50000, .f32⟩ : BufTy).Contents (Elt F) → (⟨S50000x1, .f32⟩ : BufTy).Contents (Elt F)),
    unary main_v221 main_v222 (broadcastInDim S50000x256 ![0, 1] bcast_S50000x1_S50000x256_0_1 : (⟨S50000x1, .f32⟩ : BufTy).Contents (Elt F) → (⟨S50000x256, .f32⟩ : BufTy).Contents (Elt F)),
    binary main_v213 main_v222 main_v223 (Host.divf : (⟨S50000x256, .f32⟩ : BufTy).Contents (Elt F) → (⟨S50000x256, .f32⟩ : BufTy).Contents (Elt F) → (⟨S50000x256, .f32⟩ : BufTy).Contents (Elt F)),
    binary main_v196 main_v223 main_v224 (addf : (⟨S50000x256, .f32⟩ : BufTy).Contents (Elt F) → (⟨S50000x256, .f32⟩ : BufTy).Contents (Elt F) → (⟨S50000x256, .f32⟩ : BufTy).Contents (Elt F)) ]

/-- The closing operations: self-loop product, bias, clamp. -/
abbrev seg8 : List (HloOp τ sig (Elt F)) :=
  [ binary main_arg0 main_arg3 main_v225 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v224 main_v225 main_v226 (addf : (⟨S50000x256, .f32⟩ : BufTy).Contents (Elt F) → (⟨S50000x256, .f32⟩ : BufTy).Contents (Elt F) → (⟨S50000x256, .f32⟩ : BufTy).Contents (Elt F)),
    unary main_arg2 main_v227 (broadcastInDim S1x256 ![1] bcast_S256_S1x256_1 : (⟨S256, .f32⟩ : BufTy).Contents (Elt F) → (⟨S1x256, .f32⟩ : BufTy).Contents (Elt F)),
    unary main_v227 main_v228 (broadcastInDim S50000x256 ![0, 1] bcast_S1x256_S50000x256_0_1 : (⟨S1x256, .f32⟩ : BufTy).Contents (Elt F) → (⟨S50000x256, .f32⟩ : BufTy).Contents (Elt F)),
    binary main_v226 main_v228 main_v229 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x256, .f32⟩) main_call8_v0) (broadcastInDim S50000x256 ![] bcast_S_S50000x256),
    TRef.binary (TRef.of (T := ⟨S50000x256, .f32⟩) main_v229) (TRef.of (T := ⟨S50000x256, .f32⟩) main_call8_v0) (TRef.of (T := ⟨S50000x256, .f32⟩) main_v230) maximumf ]

/-- The fold over two lists run one after the other is the fold over the second from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- @main's operations are the cuts one after the other. -/
theorem ops_segs : (ops : List (HloOp τ sig (Elt F))) = seg0 ++ (seg1 ++ (seg2 ++ (seg3 ++ (seg4 ++ (seg5 ++ (seg6 ++ (seg7 ++ seg8))))))) := rfl

theorem seg0_keeps_arg0 : ∀ op ∈ (seg0 : List (HloOp τ sig (Elt F))), Proc.devRef (τ := τ) .tc main_arg0 ∉ op.writes :=
  List.forall_iff_forall_mem.mp (by
    simp only [seg0, List.Forall, nullary_writes, unary_writes, binary_writes, ternary_writes, reshape_writes, Finset.mem_singleton]
    repeat' apply And.intro
    all_goals exact devRef_ne_of_ne (by decide))
theorem seg0_keeps_arg1 : ∀ op ∈ (seg0 : List (HloOp τ sig (Elt F))), Proc.devRef (τ := τ) .tc main_arg1 ∉ op.writes :=
  List.forall_iff_forall_mem.mp (by
    simp only [seg0, List.Forall, nullary_writes, unary_writes, binary_writes, ternary_writes, reshape_writes, Finset.mem_singleton]
    repeat' apply And.intro
    all_goals exact devRef_ne_of_ne (by decide))
theorem seg0_keeps_arg2 : ∀ op ∈ (seg0 : List (HloOp τ sig (Elt F))), Proc.devRef (τ := τ) .tc main_arg2 ∉ op.writes :=
  List.forall_iff_forall_mem.mp (by
    simp only [seg0, List.Forall, nullary_writes, unary_writes, binary_writes, ternary_writes, reshape_writes, Finset.mem_singleton]
    repeat' apply And.intro
    all_goals exact devRef_ne_of_ne (by decide))
theorem seg0_keeps_arg3 : ∀ op ∈ (seg0 : List (HloOp τ sig (Elt F))), Proc.devRef (τ := τ) .tc main_arg3 ∉ op.writes :=
  List.forall_iff_forall_mem.mp (by
    simp only [seg0, List.Forall, nullary_writes, unary_writes, binary_writes, ternary_writes, reshape_writes, Finset.mem_singleton]
    repeat' apply And.intro
    all_goals exact devRef_ne_of_ne (by decide))
theorem seg0_keeps_arg4 : ∀ op ∈ (seg0 : List (HloOp τ sig (Elt F))), Proc.devRef (τ := τ) .tc main_arg4 ∉ op.writes :=
  List.forall_iff_forall_mem.mp (by
    simp only [seg0, List.Forall, nullary_writes, unary_writes, binary_writes, ternary_writes, reshape_writes, Finset.mem_singleton]
    repeat' apply And.intro
    all_goals exact devRef_ne_of_ne (by decide))
theorem seg0_keeps_arg5 : ∀ op ∈ (seg0 : List (HloOp τ sig (Elt F))), Proc.devRef (τ := τ) .tc main_arg5 ∉ op.writes :=
  List.forall_iff_forall_mem.mp (by
    simp only [seg0, List.Forall, nullary_writes, unary_writes, binary_writes, ternary_writes, reshape_writes, Finset.mem_singleton]
    repeat' apply And.intro
    all_goals exact devRef_ne_of_ne (by decide))
theorem seg1_keeps_arg0 : ∀ op ∈ (seg1 : List (HloOp τ sig (Elt F))), Proc.devRef (τ := τ) .tc main_arg0 ∉ op.writes :=
  List.forall_iff_forall_mem.mp (by
    simp only [seg1, List.Forall, nullary_writes, unary_writes, binary_writes, ternary_writes, reshape_writes, Finset.mem_singleton]
    repeat' apply And.intro
    all_goals exact devRef_ne_of_ne (by decide))
theorem seg1_keeps_arg1 : ∀ op ∈ (seg1 : List (HloOp τ sig (Elt F))), Proc.devRef (τ := τ) .tc main_arg1 ∉ op.writes :=
  List.forall_iff_forall_mem.mp (by
    simp only [seg1, List.Forall, nullary_writes, unary_writes, binary_writes, ternary_writes, reshape_writes, Finset.mem_singleton]
    repeat' apply And.intro
    all_goals exact devRef_ne_of_ne (by decide))
theorem seg1_keeps_arg2 : ∀ op ∈ (seg1 : List (HloOp τ sig (Elt F))), Proc.devRef (τ := τ) .tc main_arg2 ∉ op.writes :=
  List.forall_iff_forall_mem.mp (by
    simp only [seg1, List.Forall, nullary_writes, unary_writes, binary_writes, ternary_writes, reshape_writes, Finset.mem_singleton]
    repeat' apply And.intro
    all_goals exact devRef_ne_of_ne (by decide))
theorem seg1_keeps_arg3 : ∀ op ∈ (seg1 : List (HloOp τ sig (Elt F))), Proc.devRef (τ := τ) .tc main_arg3 ∉ op.writes :=
  List.forall_iff_forall_mem.mp (by
    simp only [seg1, List.Forall, nullary_writes, unary_writes, binary_writes, ternary_writes, reshape_writes, Finset.mem_singleton]
    repeat' apply And.intro
    all_goals exact devRef_ne_of_ne (by decide))
theorem seg1_keeps_arg4 : ∀ op ∈ (seg1 : List (HloOp τ sig (Elt F))), Proc.devRef (τ := τ) .tc main_arg4 ∉ op.writes :=
  List.forall_iff_forall_mem.mp (by
    simp only [seg1, List.Forall, nullary_writes, unary_writes, binary_writes, ternary_writes, reshape_writes, Finset.mem_singleton]
    repeat' apply And.intro
    all_goals exact devRef_ne_of_ne (by decide))
theorem seg1_keeps_arg5 : ∀ op ∈ (seg1 : List (HloOp τ sig (Elt F))), Proc.devRef (τ := τ) .tc main_arg5 ∉ op.writes :=
  List.forall_iff_forall_mem.mp (by
    simp only [seg1, List.Forall, nullary_writes, unary_writes, binary_writes, ternary_writes, reshape_writes, Finset.mem_singleton]
    repeat' apply And.intro
    all_goals exact devRef_ne_of_ne (by decide))
theorem seg2_keeps_arg0 : ∀ op ∈ (seg2 : List (HloOp τ sig (Elt F))), Proc.devRef (τ := τ) .tc main_arg0 ∉ op.writes :=
  List.forall_iff_forall_mem.mp (by
    simp only [seg2, List.Forall, nullary_writes, unary_writes, binary_writes, ternary_writes, reshape_writes, Finset.mem_singleton]
    repeat' apply And.intro
    all_goals exact devRef_ne_of_ne (by decide))
theorem seg2_keeps_arg1 : ∀ op ∈ (seg2 : List (HloOp τ sig (Elt F))), Proc.devRef (τ := τ) .tc main_arg1 ∉ op.writes :=
  List.forall_iff_forall_mem.mp (by
    simp only [seg2, List.Forall, nullary_writes, unary_writes, binary_writes, ternary_writes, reshape_writes, Finset.mem_singleton]
    repeat' apply And.intro
    all_goals exact devRef_ne_of_ne (by decide))
theorem seg2_keeps_arg2 : ∀ op ∈ (seg2 : List (HloOp τ sig (Elt F))), Proc.devRef (τ := τ) .tc main_arg2 ∉ op.writes :=
  List.forall_iff_forall_mem.mp (by
    simp only [seg2, List.Forall, nullary_writes, unary_writes, binary_writes, ternary_writes, reshape_writes, Finset.mem_singleton]
    repeat' apply And.intro
    all_goals exact devRef_ne_of_ne (by decide))
theorem seg2_keeps_arg3 : ∀ op ∈ (seg2 : List (HloOp τ sig (Elt F))), Proc.devRef (τ := τ) .tc main_arg3 ∉ op.writes :=
  List.forall_iff_forall_mem.mp (by
    simp only [seg2, List.Forall, nullary_writes, unary_writes, binary_writes, ternary_writes, reshape_writes, Finset.mem_singleton]
    repeat' apply And.intro
    all_goals exact devRef_ne_of_ne (by decide))
theorem seg2_keeps_arg4 : ∀ op ∈ (seg2 : List (HloOp τ sig (Elt F))), Proc.devRef (τ := τ) .tc main_arg4 ∉ op.writes :=
  List.forall_iff_forall_mem.mp (by
    simp only [seg2, List.Forall, nullary_writes, unary_writes, binary_writes, ternary_writes, reshape_writes, Finset.mem_singleton]
    repeat' apply And.intro
    all_goals exact devRef_ne_of_ne (by decide))
theorem seg2_keeps_arg5 : ∀ op ∈ (seg2 : List (HloOp τ sig (Elt F))), Proc.devRef (τ := τ) .tc main_arg5 ∉ op.writes :=
  List.forall_iff_forall_mem.mp (by
    simp only [seg2, List.Forall, nullary_writes, unary_writes, binary_writes, ternary_writes, reshape_writes, Finset.mem_singleton]
    repeat' apply And.intro
    all_goals exact devRef_ne_of_ne (by decide))
theorem seg3_keeps_arg0 : ∀ op ∈ (seg3 : List (HloOp τ sig (Elt F))), Proc.devRef (τ := τ) .tc main_arg0 ∉ op.writes :=
  List.forall_iff_forall_mem.mp (by
    simp only [seg3, List.Forall, nullary_writes, unary_writes, binary_writes, ternary_writes, reshape_writes, Finset.mem_singleton]
    repeat' apply And.intro
    all_goals exact devRef_ne_of_ne (by decide))
theorem seg3_keeps_arg1 : ∀ op ∈ (seg3 : List (HloOp τ sig (Elt F))), Proc.devRef (τ := τ) .tc main_arg1 ∉ op.writes :=
  List.forall_iff_forall_mem.mp (by
    simp only [seg3, List.Forall, nullary_writes, unary_writes, binary_writes, ternary_writes, reshape_writes, Finset.mem_singleton]
    repeat' apply And.intro
    all_goals exact devRef_ne_of_ne (by decide))
theorem seg3_keeps_arg2 : ∀ op ∈ (seg3 : List (HloOp τ sig (Elt F))), Proc.devRef (τ := τ) .tc main_arg2 ∉ op.writes :=
  List.forall_iff_forall_mem.mp (by
    simp only [seg3, List.Forall, nullary_writes, unary_writes, binary_writes, ternary_writes, reshape_writes, Finset.mem_singleton]
    repeat' apply And.intro
    all_goals exact devRef_ne_of_ne (by decide))
theorem seg3_keeps_arg3 : ∀ op ∈ (seg3 : List (HloOp τ sig (Elt F))), Proc.devRef (τ := τ) .tc main_arg3 ∉ op.writes :=
  List.forall_iff_forall_mem.mp (by
    simp only [seg3, List.Forall, nullary_writes, unary_writes, binary_writes, ternary_writes, reshape_writes, Finset.mem_singleton]
    repeat' apply And.intro
    all_goals exact devRef_ne_of_ne (by decide))
theorem seg3_keeps_arg4 : ∀ op ∈ (seg3 : List (HloOp τ sig (Elt F))), Proc.devRef (τ := τ) .tc main_arg4 ∉ op.writes :=
  List.forall_iff_forall_mem.mp (by
    simp only [seg3, List.Forall, nullary_writes, unary_writes, binary_writes, ternary_writes, reshape_writes, Finset.mem_singleton]
    repeat' apply And.intro
    all_goals exact devRef_ne_of_ne (by decide))
theorem seg3_keeps_arg5 : ∀ op ∈ (seg3 : List (HloOp τ sig (Elt F))), Proc.devRef (τ := τ) .tc main_arg5 ∉ op.writes :=
  List.forall_iff_forall_mem.mp (by
    simp only [seg3, List.Forall, nullary_writes, unary_writes, binary_writes, ternary_writes, reshape_writes, Finset.mem_singleton]
    repeat' apply And.intro
    all_goals exact devRef_ne_of_ne (by decide))
theorem seg4_keeps_arg0 : ∀ op ∈ (seg4 : List (HloOp τ sig (Elt F))), Proc.devRef (τ := τ) .tc main_arg0 ∉ op.writes :=
  List.forall_iff_forall_mem.mp (by
    simp only [seg4, List.Forall, nullary_writes, unary_writes, binary_writes, ternary_writes, reshape_writes, Finset.mem_singleton]
    repeat' apply And.intro
    all_goals exact devRef_ne_of_ne (by decide))
theorem seg4_keeps_arg1 : ∀ op ∈ (seg4 : List (HloOp τ sig (Elt F))), Proc.devRef (τ := τ) .tc main_arg1 ∉ op.writes :=
  List.forall_iff_forall_mem.mp (by
    simp only [seg4, List.Forall, nullary_writes, unary_writes, binary_writes, ternary_writes, reshape_writes, Finset.mem_singleton]
    repeat' apply And.intro
    all_goals exact devRef_ne_of_ne (by decide))
theorem seg4_keeps_arg2 : ∀ op ∈ (seg4 : List (HloOp τ sig (Elt F))), Proc.devRef (τ := τ) .tc main_arg2 ∉ op.writes :=
  List.forall_iff_forall_mem.mp (by
    simp only [seg4, List.Forall, nullary_writes, unary_writes, binary_writes, ternary_writes, reshape_writes, Finset.mem_singleton]
    repeat' apply And.intro
    all_goals exact devRef_ne_of_ne (by decide))
theorem seg4_keeps_arg3 : ∀ op ∈ (seg4 : List (HloOp τ sig (Elt F))), Proc.devRef (τ := τ) .tc main_arg3 ∉ op.writes :=
  List.forall_iff_forall_mem.mp (by
    simp only [seg4, List.Forall, nullary_writes, unary_writes, binary_writes, ternary_writes, reshape_writes, Finset.mem_singleton]
    repeat' apply And.intro
    all_goals exact devRef_ne_of_ne (by decide))
theorem seg4_keeps_arg4 : ∀ op ∈ (seg4 : List (HloOp τ sig (Elt F))), Proc.devRef (τ := τ) .tc main_arg4 ∉ op.writes :=
  List.forall_iff_forall_mem.mp (by
    simp only [seg4, List.Forall, nullary_writes, unary_writes, binary_writes, ternary_writes, reshape_writes, Finset.mem_singleton]
    repeat' apply And.intro
    all_goals exact devRef_ne_of_ne (by decide))
theorem seg4_keeps_arg5 : ∀ op ∈ (seg4 : List (HloOp τ sig (Elt F))), Proc.devRef (τ := τ) .tc main_arg5 ∉ op.writes :=
  List.forall_iff_forall_mem.mp (by
    simp only [seg4, List.Forall, nullary_writes, unary_writes, binary_writes, ternary_writes, reshape_writes, Finset.mem_singleton]
    repeat' apply And.intro
    all_goals exact devRef_ne_of_ne (by decide))
theorem seg5_keeps_arg0 : ∀ op ∈ (seg5 : List (HloOp τ sig (Elt F))), Proc.devRef (τ := τ) .tc main_arg0 ∉ op.writes :=
  List.forall_iff_forall_mem.mp (by
    simp only [seg5, List.Forall, nullary_writes, unary_writes, binary_writes, ternary_writes, reshape_writes, Finset.mem_singleton]
    repeat' apply And.intro
    all_goals exact devRef_ne_of_ne (by decide))
theorem seg5_keeps_arg1 : ∀ op ∈ (seg5 : List (HloOp τ sig (Elt F))), Proc.devRef (τ := τ) .tc main_arg1 ∉ op.writes :=
  List.forall_iff_forall_mem.mp (by
    simp only [seg5, List.Forall, nullary_writes, unary_writes, binary_writes, ternary_writes, reshape_writes, Finset.mem_singleton]
    repeat' apply And.intro
    all_goals exact devRef_ne_of_ne (by decide))
theorem seg5_keeps_arg2 : ∀ op ∈ (seg5 : List (HloOp τ sig (Elt F))), Proc.devRef (τ := τ) .tc main_arg2 ∉ op.writes :=
  List.forall_iff_forall_mem.mp (by
    simp only [seg5, List.Forall, nullary_writes, unary_writes, binary_writes, ternary_writes, reshape_writes, Finset.mem_singleton]
    repeat' apply And.intro
    all_goals exact devRef_ne_of_ne (by decide))
theorem seg5_keeps_arg3 : ∀ op ∈ (seg5 : List (HloOp τ sig (Elt F))), Proc.devRef (τ := τ) .tc main_arg3 ∉ op.writes :=
  List.forall_iff_forall_mem.mp (by
    simp only [seg5, List.Forall, nullary_writes, unary_writes, binary_writes, ternary_writes, reshape_writes, Finset.mem_singleton]
    repeat' apply And.intro
    all_goals exact devRef_ne_of_ne (by decide))
theorem seg5_keeps_arg4 : ∀ op ∈ (seg5 : List (HloOp τ sig (Elt F))), Proc.devRef (τ := τ) .tc main_arg4 ∉ op.writes :=
  List.forall_iff_forall_mem.mp (by
    simp only [seg5, List.Forall, nullary_writes, unary_writes, binary_writes, ternary_writes, reshape_writes, Finset.mem_singleton]
    repeat' apply And.intro
    all_goals exact devRef_ne_of_ne (by decide))
theorem seg5_keeps_arg5 : ∀ op ∈ (seg5 : List (HloOp τ sig (Elt F))), Proc.devRef (τ := τ) .tc main_arg5 ∉ op.writes :=
  List.forall_iff_forall_mem.mp (by
    simp only [seg5, List.Forall, nullary_writes, unary_writes, binary_writes, ternary_writes, reshape_writes, Finset.mem_singleton]
    repeat' apply And.intro
    all_goals exact devRef_ne_of_ne (by decide))
theorem seg6_keeps_arg0 : ∀ op ∈ (seg6 : List (HloOp τ sig (Elt F))), Proc.devRef (τ := τ) .tc main_arg0 ∉ op.writes :=
  List.forall_iff_forall_mem.mp (by
    simp only [seg6, List.Forall, nullary_writes, unary_writes, binary_writes, ternary_writes, reshape_writes, Finset.mem_singleton]
    repeat' apply And.intro
    all_goals exact devRef_ne_of_ne (by decide))
theorem seg6_keeps_arg1 : ∀ op ∈ (seg6 : List (HloOp τ sig (Elt F))), Proc.devRef (τ := τ) .tc main_arg1 ∉ op.writes :=
  List.forall_iff_forall_mem.mp (by
    simp only [seg6, List.Forall, nullary_writes, unary_writes, binary_writes, ternary_writes, reshape_writes, Finset.mem_singleton]
    repeat' apply And.intro
    all_goals exact devRef_ne_of_ne (by decide))
theorem seg6_keeps_arg2 : ∀ op ∈ (seg6 : List (HloOp τ sig (Elt F))), Proc.devRef (τ := τ) .tc main_arg2 ∉ op.writes :=
  List.forall_iff_forall_mem.mp (by
    simp only [seg6, List.Forall, nullary_writes, unary_writes, binary_writes, ternary_writes, reshape_writes, Finset.mem_singleton]
    repeat' apply And.intro
    all_goals exact devRef_ne_of_ne (by decide))
theorem seg6_keeps_arg3 : ∀ op ∈ (seg6 : List (HloOp τ sig (Elt F))), Proc.devRef (τ := τ) .tc main_arg3 ∉ op.writes :=
  List.forall_iff_forall_mem.mp (by
    simp only [seg6, List.Forall, nullary_writes, unary_writes, binary_writes, ternary_writes, reshape_writes, Finset.mem_singleton]
    repeat' apply And.intro
    all_goals exact devRef_ne_of_ne (by decide))
theorem seg6_keeps_arg4 : ∀ op ∈ (seg6 : List (HloOp τ sig (Elt F))), Proc.devRef (τ := τ) .tc main_arg4 ∉ op.writes :=
  List.forall_iff_forall_mem.mp (by
    simp only [seg6, List.Forall, nullary_writes, unary_writes, binary_writes, ternary_writes, reshape_writes, Finset.mem_singleton]
    repeat' apply And.intro
    all_goals exact devRef_ne_of_ne (by decide))
theorem seg6_keeps_arg5 : ∀ op ∈ (seg6 : List (HloOp τ sig (Elt F))), Proc.devRef (τ := τ) .tc main_arg5 ∉ op.writes :=
  List.forall_iff_forall_mem.mp (by
    simp only [seg6, List.Forall, nullary_writes, unary_writes, binary_writes, ternary_writes, reshape_writes, Finset.mem_singleton]
    repeat' apply And.intro
    all_goals exact devRef_ne_of_ne (by decide))
theorem seg7_keeps_arg0 : ∀ op ∈ (seg7 : List (HloOp τ sig (Elt F))), Proc.devRef (τ := τ) .tc main_arg0 ∉ op.writes :=
  List.forall_iff_forall_mem.mp (by
    simp only [seg7, List.Forall, nullary_writes, unary_writes, binary_writes, ternary_writes, reshape_writes, Finset.mem_singleton]
    repeat' apply And.intro
    all_goals exact devRef_ne_of_ne (by decide))
theorem seg7_keeps_arg1 : ∀ op ∈ (seg7 : List (HloOp τ sig (Elt F))), Proc.devRef (τ := τ) .tc main_arg1 ∉ op.writes :=
  List.forall_iff_forall_mem.mp (by
    simp only [seg7, List.Forall, nullary_writes, unary_writes, binary_writes, ternary_writes, reshape_writes, Finset.mem_singleton]
    repeat' apply And.intro
    all_goals exact devRef_ne_of_ne (by decide))
theorem seg7_keeps_arg2 : ∀ op ∈ (seg7 : List (HloOp τ sig (Elt F))), Proc.devRef (τ := τ) .tc main_arg2 ∉ op.writes :=
  List.forall_iff_forall_mem.mp (by
    simp only [seg7, List.Forall, nullary_writes, unary_writes, binary_writes, ternary_writes, reshape_writes, Finset.mem_singleton]
    repeat' apply And.intro
    all_goals exact devRef_ne_of_ne (by decide))
theorem seg7_keeps_arg3 : ∀ op ∈ (seg7 : List (HloOp τ sig (Elt F))), Proc.devRef (τ := τ) .tc main_arg3 ∉ op.writes :=
  List.forall_iff_forall_mem.mp (by
    simp only [seg7, List.Forall, nullary_writes, unary_writes, binary_writes, ternary_writes, reshape_writes, Finset.mem_singleton]
    repeat' apply And.intro
    all_goals exact devRef_ne_of_ne (by decide))
theorem seg7_keeps_arg4 : ∀ op ∈ (seg7 : List (HloOp τ sig (Elt F))), Proc.devRef (τ := τ) .tc main_arg4 ∉ op.writes :=
  List.forall_iff_forall_mem.mp (by
    simp only [seg7, List.Forall, nullary_writes, unary_writes, binary_writes, ternary_writes, reshape_writes, Finset.mem_singleton]
    repeat' apply And.intro
    all_goals exact devRef_ne_of_ne (by decide))
theorem seg7_keeps_arg5 : ∀ op ∈ (seg7 : List (HloOp τ sig (Elt F))), Proc.devRef (τ := τ) .tc main_arg5 ∉ op.writes :=
  List.forall_iff_forall_mem.mp (by
    simp only [seg7, List.Forall, nullary_writes, unary_writes, binary_writes, ternary_writes, reshape_writes, Finset.mem_singleton]
    repeat' apply And.intro
    all_goals exact devRef_ne_of_ne (by decide))

end Cert.RGcn.Ref

end
-- ==== Proof.RefSegResA.lean ====
/-
  What the cuts of relations 0 to 3 compute, from any memory.

  A relation's cut is run in five parts, each short enough to be read at one buffer: the relation's
  weight matrix sliced out of the stack and the node table multiplied by it; the source rows of the
  product gathered and summed into their target rows; the edges into each node counted; the count
  clamped below at one; the sum divided by the clamped count, spread along the rows, and added to
  the previous cut's result.  No part writes a buffer an earlier part produced, nor an argument, so
  the five values compose to the previous result plus the relation's transform-first term `T k`.
-/
import proofs.«137636_j2181843386580_2_alg».proof.Proof.RefSegs

set_option maxRecDepth 16384

noncomputable section

namespace Cert.RGcn.Ref

open Cert.ReferenceIdeal Cert.ReferenceIdeal.Gen Idealize.ShloMosaic Idealize.ShloMosaic.TcCoe Idealize.SL.Sem Idealize.ShloMosaic.StableHlo
open Cert.RGcn Cert.LibAggRows

/-- A line run in two parts. -/
theorem after_take_drop {Val : EltTy → Type} (n : ℕ) (l : List (HloOp τ sig Val)) (G : Valuation τ sig Val) :
    after l G = after (l.drop n) (after (l.take n) G) := by
  rw [← Idealize.ShloMosaic.StableHlo.after_append, List.take_append_drop]

/-! ## Relation 0 -/

/-- The relation's weight matrix is sliced out of the stack and the node table multiplied by it. -/
theorem seg0_p1_dot (Wv : Valuation τ sig (Elt Ideal)) : (after ((seg0 (F := Ideal)).take 5) Wv (Proc.devRef (τ := τ) .tc main_v3) : FVec Ideal SX .f32)
    = Host.dotGeneral (F := Ideal) (φ₁ := .f32) dd none (Wv (Proc.devRef (τ := τ) .tc main_arg0)) (wSlice 0 (by norm_num) (Wv (Proc.devRef (τ := τ) .tc main_arg1))) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg0_p1_keep_arg4 (Wv : Valuation τ sig (Elt Ideal)) : after ((seg0 (F := Ideal)).take 5) Wv (Proc.devRef (τ := τ) .tc main_arg4) = Wv (Proc.devRef (τ := τ) .tc main_arg4) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg0_p1_keep_arg5 (Wv : Valuation τ sig (Elt Ideal)) : after ((seg0 (F := Ideal)).take 5) Wv (Proc.devRef (τ := τ) .tc main_arg5) = Wv (Proc.devRef (τ := τ) .tc main_arg5) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
/-- The first operations build the zero table. -/
theorem seg0_p1_zero (Wv : Valuation τ sig (Elt Ideal)) : (after ((seg0 (F := Ideal)).take 5) Wv (Proc.devRef (τ := τ) .tc main_v0) : FVec Ideal SX .f32) = zeroX hostFacts := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- The source rows of the product are gathered and summed into their target rows. -/
theorem seg0_p2_num (Wv : Valuation τ sig (Elt Ideal)) : (after (((seg0 (F := Ideal)).drop 5).take 17) Wv (Proc.devRef (τ := τ) .tc main_v17) : FVec Ideal SX .f32)
    = Host.scatterAdd (F := Ideal) (rowScatterDims 50000 400000 256 hostFacts.swf) (zeroX hostFacts) (dstIdx hostFacts 0 (by norm_num) (Wv (Proc.devRef (τ := τ) .tc main_arg5)))
        (Host.gather (rowGatherDims 50000 400000 256 hostFacts.gwf) (Wv (Proc.devRef (τ := τ) .tc main_v3) : FVec Ideal SX .f32) (srcIdx hostFacts 0 (by norm_num) (Wv (Proc.devRef (τ := τ) .tc main_arg4)))) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg0_p2_keep_arg5 (Wv : Valuation τ sig (Elt Ideal)) : after (((seg0 (F := Ideal)).drop 5).take 17) Wv (Proc.devRef (τ := τ) .tc main_arg5) = Wv (Proc.devRef (τ := τ) .tc main_arg5) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg0_p2_keep_prev (Wv : Valuation τ sig (Elt Ideal)) : after (((seg0 (F := Ideal)).drop 5).take 17) Wv (Proc.devRef (τ := τ) .tc main_v0) = Wv (Proc.devRef (τ := τ) .tc main_v0) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The edges into each node are counted, -/
theorem seg0_p3a_deg (Wv : Valuation τ sig (Elt Ideal)) : (after ((((seg0 (F := Ideal)).drop 5).drop 17).take 8) Wv (Proc.devRef (τ := τ) .tc main_v23) : FVec Ideal SN .f32)
    = Host.scatterAdd (F := Ideal) (degScatterDims hostFacts.swf1) (broadcastInDim SN ![] hostFacts.bN (constant (F := Ideal) S0 .f32 0x00000000#32))
        (dstIdx hostFacts 0 (by norm_num) (Wv (Proc.devRef (τ := τ) .tc main_arg5))) (broadcastInDim SE ![] hostFacts.bE (constant (F := Ideal) S0 .f32 0x3F800000#32)) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg0_p3a_keep_num (Wv : Valuation τ sig (Elt Ideal)) : after ((((seg0 (F := Ideal)).drop 5).drop 17).take 8) Wv (Proc.devRef (τ := τ) .tc main_v17) = Wv (Proc.devRef (τ := τ) .tc main_v17) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg0_p3a_keep_prev (Wv : Valuation τ sig (Elt Ideal)) : after ((((seg0 (F := Ideal)).drop 5).drop 17).take 8) Wv (Proc.devRef (τ := τ) .tc main_v0) = Wv (Proc.devRef (τ := τ) .tc main_v0) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- and the count clamped below at one. -/
theorem seg0_p3b_clip (Wv : Valuation τ sig (Elt Ideal)) : (after (((((seg0 (F := Ideal)).drop 5).drop 17).drop 8).take 4) Wv (Proc.devRef (τ := τ) .tc main_v24) : FVec Ideal SN .f32)
    = (maximumf (broadcastInDim SN ![] hostFacts.bN (id (constant (F := Ideal) S0 .f32 0x3F800000#32))) (Wv (Proc.devRef (τ := τ) .tc main_v23) : FVec Ideal SN .f32) : FVec Ideal SN .f32) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg0_p3b_keep_num (Wv : Valuation τ sig (Elt Ideal)) : after (((((seg0 (F := Ideal)).drop 5).drop 17).drop 8).take 4) Wv (Proc.devRef (τ := τ) .tc main_v17) = Wv (Proc.devRef (τ := τ) .tc main_v17) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg0_p3b_keep_prev (Wv : Valuation τ sig (Elt Ideal)) : after (((((seg0 (F := Ideal)).drop 5).drop 17).drop 8).take 4) Wv (Proc.devRef (τ := τ) .tc main_v0) = Wv (Proc.devRef (τ := τ) .tc main_v0) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The sum is divided by the clamped count, spread along the rows, and added to what came before. -/
theorem seg0_p4_res (Wv : Valuation τ sig (Elt Ideal)) : (after (((((seg0 (F := Ideal)).drop 5).drop 17).drop 8).drop 4) Wv (Proc.devRef (τ := τ) .tc main_v28) : FVec Ideal SX .f32)
    = addf (Wv (Proc.devRef (τ := τ) .tc main_v0) : FVec Ideal SX .f32) (Host.divf (F := Ideal) (Wv (Proc.devRef (τ := τ) .tc main_v17) : FVec Ideal SX .f32) (rowSpread hostFacts (Wv (Proc.devRef (τ := τ) .tc main_v24) : FVec Ideal SN .f32))) := by
  simp (disch := decide) only [seg0, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- Relation 0's cut adds the relation's term to what came before. -/
theorem seg0_res (Wv : Valuation τ sig (Elt Ideal)) :
    after (seg0 (F := Ideal)) Wv (Proc.devRef (τ := τ) .tc main_v28)
      = addf (zeroX hostFacts) (T 0 (by norm_num) (Wv (Proc.devRef (τ := τ) .tc main_arg0)) (Wv (Proc.devRef (τ := τ) .tc main_arg1)) (Wv (Proc.devRef (τ := τ) .tc main_arg4)) (Wv (Proc.devRef (τ := τ) .tc main_arg5))) := by
  rw [after_take_drop 5 (seg0 (F := Ideal)) Wv, after_take_drop 17 ((seg0 (F := Ideal)).drop 5), after_take_drop 8 (((seg0 (F := Ideal)).drop 5).drop 17),
    after_take_drop 4 ((((seg0 (F := Ideal)).drop 5).drop 17).drop 8)]
  rw [seg0_p4_res, seg0_p3b_clip, seg0_p3a_deg, seg0_p3b_keep_num, seg0_p3a_keep_num, seg0_p2_num, seg0_p1_dot,
    seg0_p3b_keep_prev, seg0_p3a_keep_prev, seg0_p2_keep_prev, seg0_p1_zero,
    seg0_p2_keep_arg5, seg0_p1_keep_arg5, seg0_p1_keep_arg4]
  unfold T refTerm degClip
  rfl

/-! ## Relation 1 -/

/-- The relation's weight matrix is sliced out of the stack and the node table multiplied by it. -/
theorem seg1_p1_dot (Wv : Valuation τ sig (Elt Ideal)) : (after ((seg1 (F := Ideal)).take 3) Wv (Proc.devRef (τ := τ) .tc main_v31) : FVec Ideal SX .f32)
    = Host.dotGeneral (F := Ideal) (φ₁ := .f32) dd none (Wv (Proc.devRef (τ := τ) .tc main_arg0)) (wSlice 1 (by norm_num) (Wv (Proc.devRef (τ := τ) .tc main_arg1))) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg1_p1_keep_arg4 (Wv : Valuation τ sig (Elt Ideal)) : after ((seg1 (F := Ideal)).take 3) Wv (Proc.devRef (τ := τ) .tc main_arg4) = Wv (Proc.devRef (τ := τ) .tc main_arg4) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg1_p1_keep_arg5 (Wv : Valuation τ sig (Elt Ideal)) : after ((seg1 (F := Ideal)).take 3) Wv (Proc.devRef (τ := τ) .tc main_arg5) = Wv (Proc.devRef (τ := τ) .tc main_arg5) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg1_p1_keep_prev (Wv : Valuation τ sig (Elt Ideal)) : after ((seg1 (F := Ideal)).take 3) Wv (Proc.devRef (τ := τ) .tc main_v28) = Wv (Proc.devRef (τ := τ) .tc main_v28) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The source rows of the product are gathered and summed into their target rows. -/
theorem seg1_p2_num (Wv : Valuation τ sig (Elt Ideal)) : (after (((seg1 (F := Ideal)).drop 3).take 17) Wv (Proc.devRef (τ := τ) .tc main_v45) : FVec Ideal SX .f32)
    = Host.scatterAdd (F := Ideal) (rowScatterDims 50000 400000 256 hostFacts.swf) (zeroX hostFacts) (dstIdx hostFacts 1 (by norm_num) (Wv (Proc.devRef (τ := τ) .tc main_arg5)))
        (Host.gather (rowGatherDims 50000 400000 256 hostFacts.gwf) (Wv (Proc.devRef (τ := τ) .tc main_v31) : FVec Ideal SX .f32) (srcIdx hostFacts 1 (by norm_num) (Wv (Proc.devRef (τ := τ) .tc main_arg4)))) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg1_p2_keep_arg5 (Wv : Valuation τ sig (Elt Ideal)) : after (((seg1 (F := Ideal)).drop 3).take 17) Wv (Proc.devRef (τ := τ) .tc main_arg5) = Wv (Proc.devRef (τ := τ) .tc main_arg5) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg1_p2_keep_prev (Wv : Valuation τ sig (Elt Ideal)) : after (((seg1 (F := Ideal)).drop 3).take 17) Wv (Proc.devRef (τ := τ) .tc main_v28) = Wv (Proc.devRef (τ := τ) .tc main_v28) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The edges into each node are counted, -/
theorem seg1_p3a_deg (Wv : Valuation τ sig (Elt Ideal)) : (after ((((seg1 (F := Ideal)).drop 3).drop 17).take 8) Wv (Proc.devRef (τ := τ) .tc main_v51) : FVec Ideal SN .f32)
    = Host.scatterAdd (F := Ideal) (degScatterDims hostFacts.swf1) (broadcastInDim SN ![] hostFacts.bN (constant (F := Ideal) S0 .f32 0x00000000#32))
        (dstIdx hostFacts 1 (by norm_num) (Wv (Proc.devRef (τ := τ) .tc main_arg5))) (broadcastInDim SE ![] hostFacts.bE (constant (F := Ideal) S0 .f32 0x3F800000#32)) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg1_p3a_keep_num (Wv : Valuation τ sig (Elt Ideal)) : after ((((seg1 (F := Ideal)).drop 3).drop 17).take 8) Wv (Proc.devRef (τ := τ) .tc main_v45) = Wv (Proc.devRef (τ := τ) .tc main_v45) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg1_p3a_keep_prev (Wv : Valuation τ sig (Elt Ideal)) : after ((((seg1 (F := Ideal)).drop 3).drop 17).take 8) Wv (Proc.devRef (τ := τ) .tc main_v28) = Wv (Proc.devRef (τ := τ) .tc main_v28) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- and the count clamped below at one. -/
theorem seg1_p3b_clip (Wv : Valuation τ sig (Elt Ideal)) : (after (((((seg1 (F := Ideal)).drop 3).drop 17).drop 8).take 4) Wv (Proc.devRef (τ := τ) .tc main_v52) : FVec Ideal SN .f32)
    = (maximumf (broadcastInDim SN ![] hostFacts.bN (id (constant (F := Ideal) S0 .f32 0x3F800000#32))) (Wv (Proc.devRef (τ := τ) .tc main_v51) : FVec Ideal SN .f32) : FVec Ideal SN .f32) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg1_p3b_keep_num (Wv : Valuation τ sig (Elt Ideal)) : after (((((seg1 (F := Ideal)).drop 3).drop 17).drop 8).take 4) Wv (Proc.devRef (τ := τ) .tc main_v45) = Wv (Proc.devRef (τ := τ) .tc main_v45) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg1_p3b_keep_prev (Wv : Valuation τ sig (Elt Ideal)) : after (((((seg1 (F := Ideal)).drop 3).drop 17).drop 8).take 4) Wv (Proc.devRef (τ := τ) .tc main_v28) = Wv (Proc.devRef (τ := τ) .tc main_v28) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The sum is divided by the clamped count, spread along the rows, and added to what came before. -/
theorem seg1_p4_res (Wv : Valuation τ sig (Elt Ideal)) : (after (((((seg1 (F := Ideal)).drop 3).drop 17).drop 8).drop 4) Wv (Proc.devRef (τ := τ) .tc main_v56) : FVec Ideal SX .f32)
    = addf (Wv (Proc.devRef (τ := τ) .tc main_v28) : FVec Ideal SX .f32) (Host.divf (F := Ideal) (Wv (Proc.devRef (τ := τ) .tc main_v45) : FVec Ideal SX .f32) (rowSpread hostFacts (Wv (Proc.devRef (τ := τ) .tc main_v52) : FVec Ideal SN .f32))) := by
  simp (disch := decide) only [seg1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- Relation 1's cut adds the relation's term to what came before. -/
theorem seg1_res (Wv : Valuation τ sig (Elt Ideal)) :
    after (seg1 (F := Ideal)) Wv (Proc.devRef (τ := τ) .tc main_v56)
      = addf (Wv (Proc.devRef (τ := τ) .tc main_v28)) (T 1 (by norm_num) (Wv (Proc.devRef (τ := τ) .tc main_arg0)) (Wv (Proc.devRef (τ := τ) .tc main_arg1)) (Wv (Proc.devRef (τ := τ) .tc main_arg4)) (Wv (Proc.devRef (τ := τ) .tc main_arg5))) := by
  rw [after_take_drop 3 (seg1 (F := Ideal)) Wv, after_take_drop 17 ((seg1 (F := Ideal)).drop 3), after_take_drop 8 (((seg1 (F := Ideal)).drop 3).drop 17),
    after_take_drop 4 ((((seg1 (F := Ideal)).drop 3).drop 17).drop 8)]
  rw [seg1_p4_res, seg1_p3b_clip, seg1_p3a_deg, seg1_p3b_keep_num, seg1_p3a_keep_num, seg1_p2_num, seg1_p1_dot,
    seg1_p3b_keep_prev, seg1_p3a_keep_prev, seg1_p2_keep_prev, seg1_p1_keep_prev,
    seg1_p2_keep_arg5, seg1_p1_keep_arg5, seg1_p1_keep_arg4]
  unfold T refTerm degClip
  rfl

/-! ## Relation 2 -/

/-- The relation's weight matrix is sliced out of the stack and the node table multiplied by it. -/
theorem seg2_p1_dot (Wv : Valuation τ sig (Elt Ideal)) : (after ((seg2 (F := Ideal)).take 3) Wv (Proc.devRef (τ := τ) .tc main_v59) : FVec Ideal SX .f32)
    = Host.dotGeneral (F := Ideal) (φ₁ := .f32) dd none (Wv (Proc.devRef (τ := τ) .tc main_arg0)) (wSlice 2 (by norm_num) (Wv (Proc.devRef (τ := τ) .tc main_arg1))) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg2_p1_keep_arg4 (Wv : Valuation τ sig (Elt Ideal)) : after ((seg2 (F := Ideal)).take 3) Wv (Proc.devRef (τ := τ) .tc main_arg4) = Wv (Proc.devRef (τ := τ) .tc main_arg4) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg2_p1_keep_arg5 (Wv : Valuation τ sig (Elt Ideal)) : after ((seg2 (F := Ideal)).take 3) Wv (Proc.devRef (τ := τ) .tc main_arg5) = Wv (Proc.devRef (τ := τ) .tc main_arg5) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg2_p1_keep_prev (Wv : Valuation τ sig (Elt Ideal)) : after ((seg2 (F := Ideal)).take 3) Wv (Proc.devRef (τ := τ) .tc main_v56) = Wv (Proc.devRef (τ := τ) .tc main_v56) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The source rows of the product are gathered and summed into their target rows. -/
theorem seg2_p2_num (Wv : Valuation τ sig (Elt Ideal)) : (after (((seg2 (F := Ideal)).drop 3).take 17) Wv (Proc.devRef (τ := τ) .tc main_v73) : FVec Ideal SX .f32)
    = Host.scatterAdd (F := Ideal) (rowScatterDims 50000 400000 256 hostFacts.swf) (zeroX hostFacts) (dstIdx hostFacts 2 (by norm_num) (Wv (Proc.devRef (τ := τ) .tc main_arg5)))
        (Host.gather (rowGatherDims 50000 400000 256 hostFacts.gwf) (Wv (Proc.devRef (τ := τ) .tc main_v59) : FVec Ideal SX .f32) (srcIdx hostFacts 2 (by norm_num) (Wv (Proc.devRef (τ := τ) .tc main_arg4)))) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg2_p2_keep_arg5 (Wv : Valuation τ sig (Elt Ideal)) : after (((seg2 (F := Ideal)).drop 3).take 17) Wv (Proc.devRef (τ := τ) .tc main_arg5) = Wv (Proc.devRef (τ := τ) .tc main_arg5) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg2_p2_keep_prev (Wv : Valuation τ sig (Elt Ideal)) : after (((seg2 (F := Ideal)).drop 3).take 17) Wv (Proc.devRef (τ := τ) .tc main_v56) = Wv (Proc.devRef (τ := τ) .tc main_v56) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The edges into each node are counted, -/
theorem seg2_p3a_deg (Wv : Valuation τ sig (Elt Ideal)) : (after ((((seg2 (F := Ideal)).drop 3).drop 17).take 8) Wv (Proc.devRef (τ := τ) .tc main_v79) : FVec Ideal SN .f32)
    = Host.scatterAdd (F := Ideal) (degScatterDims hostFacts.swf1) (broadcastInDim SN ![] hostFacts.bN (constant (F := Ideal) S0 .f32 0x00000000#32))
        (dstIdx hostFacts 2 (by norm_num) (Wv (Proc.devRef (τ := τ) .tc main_arg5))) (broadcastInDim SE ![] hostFacts.bE (constant (F := Ideal) S0 .f32 0x3F800000#32)) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg2_p3a_keep_num (Wv : Valuation τ sig (Elt Ideal)) : after ((((seg2 (F := Ideal)).drop 3).drop 17).take 8) Wv (Proc.devRef (τ := τ) .tc main_v73) = Wv (Proc.devRef (τ := τ) .tc main_v73) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg2_p3a_keep_prev (Wv : Valuation τ sig (Elt Ideal)) : after ((((seg2 (F := Ideal)).drop 3).drop 17).take 8) Wv (Proc.devRef (τ := τ) .tc main_v56) = Wv (Proc.devRef (τ := τ) .tc main_v56) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- and the count clamped below at one. -/
theorem seg2_p3b_clip (Wv : Valuation τ sig (Elt Ideal)) : (after (((((seg2 (F := Ideal)).drop 3).drop 17).drop 8).take 4) Wv (Proc.devRef (τ := τ) .tc main_v80) : FVec Ideal SN .f32)
    = (maximumf (broadcastInDim SN ![] hostFacts.bN (id (constant (F := Ideal) S0 .f32 0x3F800000#32))) (Wv (Proc.devRef (τ := τ) .tc main_v79) : FVec Ideal SN .f32) : FVec Ideal SN .f32) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg2_p3b_keep_num (Wv : Valuation τ sig (Elt Ideal)) : after (((((seg2 (F := Ideal)).drop 3).drop 17).drop 8).take 4) Wv (Proc.devRef (τ := τ) .tc main_v73) = Wv (Proc.devRef (τ := τ) .tc main_v73) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg2_p3b_keep_prev (Wv : Valuation τ sig (Elt Ideal)) : after (((((seg2 (F := Ideal)).drop 3).drop 17).drop 8).take 4) Wv (Proc.devRef (τ := τ) .tc main_v56) = Wv (Proc.devRef (τ := τ) .tc main_v56) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The sum is divided by the clamped count, spread along the rows, and added to what came before. -/
theorem seg2_p4_res (Wv : Valuation τ sig (Elt Ideal)) : (after (((((seg2 (F := Ideal)).drop 3).drop 17).drop 8).drop 4) Wv (Proc.devRef (τ := τ) .tc main_v84) : FVec Ideal SX .f32)
    = addf (Wv (Proc.devRef (τ := τ) .tc main_v56) : FVec Ideal SX .f32) (Host.divf (F := Ideal) (Wv (Proc.devRef (τ := τ) .tc main_v73) : FVec Ideal SX .f32) (rowSpread hostFacts (Wv (Proc.devRef (τ := τ) .tc main_v80) : FVec Ideal SN .f32))) := by
  simp (disch := decide) only [seg2, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- Relation 2's cut adds the relation's term to what came before. -/
theorem seg2_res (Wv : Valuation τ sig (Elt Ideal)) :
    after (seg2 (F := Ideal)) Wv (Proc.devRef (τ := τ) .tc main_v84)
      = addf (Wv (Proc.devRef (τ := τ) .tc main_v56)) (T 2 (by norm_num) (Wv (Proc.devRef (τ := τ) .tc main_arg0)) (Wv (Proc.devRef (τ := τ) .tc main_arg1)) (Wv (Proc.devRef (τ := τ) .tc main_arg4)) (Wv (Proc.devRef (τ := τ) .tc main_arg5))) := by
  rw [after_take_drop 3 (seg2 (F := Ideal)) Wv, after_take_drop 17 ((seg2 (F := Ideal)).drop 3), after_take_drop 8 (((seg2 (F := Ideal)).drop 3).drop 17),
    after_take_drop 4 ((((seg2 (F := Ideal)).drop 3).drop 17).drop 8)]
  rw [seg2_p4_res, seg2_p3b_clip, seg2_p3a_deg, seg2_p3b_keep_num, seg2_p3a_keep_num, seg2_p2_num, seg2_p1_dot,
    seg2_p3b_keep_prev, seg2_p3a_keep_prev, seg2_p2_keep_prev, seg2_p1_keep_prev,
    seg2_p2_keep_arg5, seg2_p1_keep_arg5, seg2_p1_keep_arg4]
  unfold T refTerm degClip
  rfl

/-! ## Relation 3 -/

/-- The relation's weight matrix is sliced out of the stack and the node table multiplied by it. -/
theorem seg3_p1_dot (Wv : Valuation τ sig (Elt Ideal)) : (after ((seg3 (F := Ideal)).take 3) Wv (Proc.devRef (τ := τ) .tc main_v87) : FVec Ideal SX .f32)
    = Host.dotGeneral (F := Ideal) (φ₁ := .f32) dd none (Wv (Proc.devRef (τ := τ) .tc main_arg0)) (wSlice 3 (by norm_num) (Wv (Proc.devRef (τ := τ) .tc main_arg1))) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg3_p1_keep_arg4 (Wv : Valuation τ sig (Elt Ideal)) : after ((seg3 (F := Ideal)).take 3) Wv (Proc.devRef (τ := τ) .tc main_arg4) = Wv (Proc.devRef (τ := τ) .tc main_arg4) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg3_p1_keep_arg5 (Wv : Valuation τ sig (Elt Ideal)) : after ((seg3 (F := Ideal)).take 3) Wv (Proc.devRef (τ := τ) .tc main_arg5) = Wv (Proc.devRef (τ := τ) .tc main_arg5) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg3_p1_keep_prev (Wv : Valuation τ sig (Elt Ideal)) : after ((seg3 (F := Ideal)).take 3) Wv (Proc.devRef (τ := τ) .tc main_v84) = Wv (Proc.devRef (τ := τ) .tc main_v84) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The source rows of the product are gathered and summed into their target rows. -/
theorem seg3_p2_num (Wv : Valuation τ sig (Elt Ideal)) : (after (((seg3 (F := Ideal)).drop 3).take 17) Wv (Proc.devRef (τ := τ) .tc main_v101) : FVec Ideal SX .f32)
    = Host.scatterAdd (F := Ideal) (rowScatterDims 50000 400000 256 hostFacts.swf) (zeroX hostFacts) (dstIdx hostFacts 3 (by norm_num) (Wv (Proc.devRef (τ := τ) .tc main_arg5)))
        (Host.gather (rowGatherDims 50000 400000 256 hostFacts.gwf) (Wv (Proc.devRef (τ := τ) .tc main_v87) : FVec Ideal SX .f32) (srcIdx hostFacts 3 (by norm_num) (Wv (Proc.devRef (τ := τ) .tc main_arg4)))) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg3_p2_keep_arg5 (Wv : Valuation τ sig (Elt Ideal)) : after (((seg3 (F := Ideal)).drop 3).take 17) Wv (Proc.devRef (τ := τ) .tc main_arg5) = Wv (Proc.devRef (τ := τ) .tc main_arg5) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg3_p2_keep_prev (Wv : Valuation τ sig (Elt Ideal)) : after (((seg3 (F := Ideal)).drop 3).take 17) Wv (Proc.devRef (τ := τ) .tc main_v84) = Wv (Proc.devRef (τ := τ) .tc main_v84) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The edges into each node are counted, -/
theorem seg3_p3a_deg (Wv : Valuation τ sig (Elt Ideal)) : (after ((((seg3 (F := Ideal)).drop 3).drop 17).take 8) Wv (Proc.devRef (τ := τ) .tc main_v107) : FVec Ideal SN .f32)
    = Host.scatterAdd (F := Ideal) (degScatterDims hostFacts.swf1) (broadcastInDim SN ![] hostFacts.bN (constant (F := Ideal) S0 .f32 0x00000000#32))
        (dstIdx hostFacts 3 (by norm_num) (Wv (Proc.devRef (τ := τ) .tc main_arg5))) (broadcastInDim SE ![] hostFacts.bE (constant (F := Ideal) S0 .f32 0x3F800000#32)) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg3_p3a_keep_num (Wv : Valuation τ sig (Elt Ideal)) : after ((((seg3 (F := Ideal)).drop 3).drop 17).take 8) Wv (Proc.devRef (τ := τ) .tc main_v101) = Wv (Proc.devRef (τ := τ) .tc main_v101) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg3_p3a_keep_prev (Wv : Valuation τ sig (Elt Ideal)) : after ((((seg3 (F := Ideal)).drop 3).drop 17).take 8) Wv (Proc.devRef (τ := τ) .tc main_v84) = Wv (Proc.devRef (τ := τ) .tc main_v84) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- and the count clamped below at one. -/
theorem seg3_p3b_clip (Wv : Valuation τ sig (Elt Ideal)) : (after (((((seg3 (F := Ideal)).drop 3).drop 17).drop 8).take 4) Wv (Proc.devRef (τ := τ) .tc main_v108) : FVec Ideal SN .f32)
    = (maximumf (broadcastInDim SN ![] hostFacts.bN (id (constant (F := Ideal) S0 .f32 0x3F800000#32))) (Wv (Proc.devRef (τ := τ) .tc main_v107) : FVec Ideal SN .f32) : FVec Ideal SN .f32) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg3_p3b_keep_num (Wv : Valuation τ sig (Elt Ideal)) : after (((((seg3 (F := Ideal)).drop 3).drop 17).drop 8).take 4) Wv (Proc.devRef (τ := τ) .tc main_v101) = Wv (Proc.devRef (τ := τ) .tc main_v101) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg3_p3b_keep_prev (Wv : Valuation τ sig (Elt Ideal)) : after (((((seg3 (F := Ideal)).drop 3).drop 17).drop 8).take 4) Wv (Proc.devRef (τ := τ) .tc main_v84) = Wv (Proc.devRef (τ := τ) .tc main_v84) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The sum is divided by the clamped count, spread along the rows, and added to what came before. -/
theorem seg3_p4_res (Wv : Valuation τ sig (Elt Ideal)) : (after (((((seg3 (F := Ideal)).drop 3).drop 17).drop 8).drop 4) Wv (Proc.devRef (τ := τ) .tc main_v112) : FVec Ideal SX .f32)
    = addf (Wv (Proc.devRef (τ := τ) .tc main_v84) : FVec Ideal SX .f32) (Host.divf (F := Ideal) (Wv (Proc.devRef (τ := τ) .tc main_v101) : FVec Ideal SX .f32) (rowSpread hostFacts (Wv (Proc.devRef (τ := τ) .tc main_v108) : FVec Ideal SN .f32))) := by
  simp (disch := decide) only [seg3, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- Relation 3's cut adds the relation's term to what came before. -/
theorem seg3_res (Wv : Valuation τ sig (Elt Ideal)) :
    after (seg3 (F := Ideal)) Wv (Proc.devRef (τ := τ) .tc main_v112)
      = addf (Wv (Proc.devRef (τ := τ) .tc main_v84)) (T 3 (by norm_num) (Wv (Proc.devRef (τ := τ) .tc main_arg0)) (Wv (Proc.devRef (τ := τ) .tc main_arg1)) (Wv (Proc.devRef (τ := τ) .tc main_arg4)) (Wv (Proc.devRef (τ := τ) .tc main_arg5))) := by
  rw [after_take_drop 3 (seg3 (F := Ideal)) Wv, after_take_drop 17 ((seg3 (F := Ideal)).drop 3), after_take_drop 8 (((seg3 (F := Ideal)).drop 3).drop 17),
    after_take_drop 4 ((((seg3 (F := Ideal)).drop 3).drop 17).drop 8)]
  rw [seg3_p4_res, seg3_p3b_clip, seg3_p3a_deg, seg3_p3b_keep_num, seg3_p3a_keep_num, seg3_p2_num, seg3_p1_dot,
    seg3_p3b_keep_prev, seg3_p3a_keep_prev, seg3_p2_keep_prev, seg3_p1_keep_prev,
    seg3_p2_keep_arg5, seg3_p1_keep_arg5, seg3_p1_keep_arg4]
  unfold T refTerm degClip
  rfl

end Cert.RGcn.Ref

end
-- ==== Proof.RefSegResB.lean ====
/-
  What the cuts of relations 4 to 7 and the closing cut compute, from any memory.

  Relations 4 to 7 go as relations 0 to 3.  The closing cut adds the self-loop product and the
  bias, laid along the rows, to the relations' sum and clamps the result below at zero.
-/
import proofs.«137636_j2181843386580_2_alg».proof.Proof.RefSegResA

set_option maxRecDepth 16384

noncomputable section

namespace Cert.RGcn.Ref

open Cert.ReferenceIdeal Cert.ReferenceIdeal.Gen Idealize.ShloMosaic Idealize.ShloMosaic.TcCoe Idealize.SL.Sem Idealize.ShloMosaic.StableHlo
open Cert.RGcn Cert.LibAggRows

/-! ## Relation 4 -/

/-- The relation's weight matrix is sliced out of the stack and the node table multiplied by it. -/
theorem seg4_p1_dot (Wv : Valuation τ sig (Elt Ideal)) : (after ((seg4 (F := Ideal)).take 3) Wv (Proc.devRef (τ := τ) .tc main_v115) : FVec Ideal SX .f32)
    = Host.dotGeneral (F := Ideal) (φ₁ := .f32) dd none (Wv (Proc.devRef (τ := τ) .tc main_arg0)) (wSlice 4 (by norm_num) (Wv (Proc.devRef (τ := τ) .tc main_arg1))) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg4_p1_keep_arg4 (Wv : Valuation τ sig (Elt Ideal)) : after ((seg4 (F := Ideal)).take 3) Wv (Proc.devRef (τ := τ) .tc main_arg4) = Wv (Proc.devRef (τ := τ) .tc main_arg4) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg4_p1_keep_arg5 (Wv : Valuation τ sig (Elt Ideal)) : after ((seg4 (F := Ideal)).take 3) Wv (Proc.devRef (τ := τ) .tc main_arg5) = Wv (Proc.devRef (τ := τ) .tc main_arg5) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg4_p1_keep_prev (Wv : Valuation τ sig (Elt Ideal)) : after ((seg4 (F := Ideal)).take 3) Wv (Proc.devRef (τ := τ) .tc main_v112) = Wv (Proc.devRef (τ := τ) .tc main_v112) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The source rows of the product are gathered and summed into their target rows. -/
theorem seg4_p2_num (Wv : Valuation τ sig (Elt Ideal)) : (after (((seg4 (F := Ideal)).drop 3).take 17) Wv (Proc.devRef (τ := τ) .tc main_v129) : FVec Ideal SX .f32)
    = Host.scatterAdd (F := Ideal) (rowScatterDims 50000 400000 256 hostFacts.swf) (zeroX hostFacts) (dstIdx hostFacts 4 (by norm_num) (Wv (Proc.devRef (τ := τ) .tc main_arg5)))
        (Host.gather (rowGatherDims 50000 400000 256 hostFacts.gwf) (Wv (Proc.devRef (τ := τ) .tc main_v115) : FVec Ideal SX .f32) (srcIdx hostFacts 4 (by norm_num) (Wv (Proc.devRef (τ := τ) .tc main_arg4)))) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg4_p2_keep_arg5 (Wv : Valuation τ sig (Elt Ideal)) : after (((seg4 (F := Ideal)).drop 3).take 17) Wv (Proc.devRef (τ := τ) .tc main_arg5) = Wv (Proc.devRef (τ := τ) .tc main_arg5) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg4_p2_keep_prev (Wv : Valuation τ sig (Elt Ideal)) : after (((seg4 (F := Ideal)).drop 3).take 17) Wv (Proc.devRef (τ := τ) .tc main_v112) = Wv (Proc.devRef (τ := τ) .tc main_v112) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The edges into each node are counted, -/
theorem seg4_p3a_deg (Wv : Valuation τ sig (Elt Ideal)) : (after ((((seg4 (F := Ideal)).drop 3).drop 17).take 8) Wv (Proc.devRef (τ := τ) .tc main_v135) : FVec Ideal SN .f32)
    = Host.scatterAdd (F := Ideal) (degScatterDims hostFacts.swf1) (broadcastInDim SN ![] hostFacts.bN (constant (F := Ideal) S0 .f32 0x00000000#32))
        (dstIdx hostFacts 4 (by norm_num) (Wv (Proc.devRef (τ := τ) .tc main_arg5))) (broadcastInDim SE ![] hostFacts.bE (constant (F := Ideal) S0 .f32 0x3F800000#32)) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg4_p3a_keep_num (Wv : Valuation τ sig (Elt Ideal)) : after ((((seg4 (F := Ideal)).drop 3).drop 17).take 8) Wv (Proc.devRef (τ := τ) .tc main_v129) = Wv (Proc.devRef (τ := τ) .tc main_v129) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg4_p3a_keep_prev (Wv : Valuation τ sig (Elt Ideal)) : after ((((seg4 (F := Ideal)).drop 3).drop 17).take 8) Wv (Proc.devRef (τ := τ) .tc main_v112) = Wv (Proc.devRef (τ := τ) .tc main_v112) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- and the count clamped below at one. -/
theorem seg4_p3b_clip (Wv : Valuation τ sig (Elt Ideal)) : (after (((((seg4 (F := Ideal)).drop 3).drop 17).drop 8).take 4) Wv (Proc.devRef (τ := τ) .tc main_v136) : FVec Ideal SN .f32)
    = (maximumf (broadcastInDim SN ![] hostFacts.bN (id (constant (F := Ideal) S0 .f32 0x3F800000#32))) (Wv (Proc.devRef (τ := τ) .tc main_v135) : FVec Ideal SN .f32) : FVec Ideal SN .f32) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg4_p3b_keep_num (Wv : Valuation τ sig (Elt Ideal)) : after (((((seg4 (F := Ideal)).drop 3).drop 17).drop 8).take 4) Wv (Proc.devRef (τ := τ) .tc main_v129) = Wv (Proc.devRef (τ := τ) .tc main_v129) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg4_p3b_keep_prev (Wv : Valuation τ sig (Elt Ideal)) : after (((((seg4 (F := Ideal)).drop 3).drop 17).drop 8).take 4) Wv (Proc.devRef (τ := τ) .tc main_v112) = Wv (Proc.devRef (τ := τ) .tc main_v112) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The sum is divided by the clamped count, spread along the rows, and added to what came before. -/
theorem seg4_p4_res (Wv : Valuation τ sig (Elt Ideal)) : (after (((((seg4 (F := Ideal)).drop 3).drop 17).drop 8).drop 4) Wv (Proc.devRef (τ := τ) .tc main_v140) : FVec Ideal SX .f32)
    = addf (Wv (Proc.devRef (τ := τ) .tc main_v112) : FVec Ideal SX .f32) (Host.divf (F := Ideal) (Wv (Proc.devRef (τ := τ) .tc main_v129) : FVec Ideal SX .f32) (rowSpread hostFacts (Wv (Proc.devRef (τ := τ) .tc main_v136) : FVec Ideal SN .f32))) := by
  simp (disch := decide) only [seg4, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- Relation 4's cut adds the relation's term to what came before. -/
theorem seg4_res (Wv : Valuation τ sig (Elt Ideal)) :
    after (seg4 (F := Ideal)) Wv (Proc.devRef (τ := τ) .tc main_v140)
      = addf (Wv (Proc.devRef (τ := τ) .tc main_v112)) (T 4 (by norm_num) (Wv (Proc.devRef (τ := τ) .tc main_arg0)) (Wv (Proc.devRef (τ := τ) .tc main_arg1)) (Wv (Proc.devRef (τ := τ) .tc main_arg4)) (Wv (Proc.devRef (τ := τ) .tc main_arg5))) := by
  rw [after_take_drop 3 (seg4 (F := Ideal)) Wv, after_take_drop 17 ((seg4 (F := Ideal)).drop 3), after_take_drop 8 (((seg4 (F := Ideal)).drop 3).drop 17),
    after_take_drop 4 ((((seg4 (F := Ideal)).drop 3).drop 17).drop 8)]
  rw [seg4_p4_res, seg4_p3b_clip, seg4_p3a_deg, seg4_p3b_keep_num, seg4_p3a_keep_num, seg4_p2_num, seg4_p1_dot,
    seg4_p3b_keep_prev, seg4_p3a_keep_prev, seg4_p2_keep_prev, seg4_p1_keep_prev,
    seg4_p2_keep_arg5, seg4_p1_keep_arg5, seg4_p1_keep_arg4]
  unfold T refTerm degClip
  rfl

/-! ## Relation 5 -/

/-- The relation's weight matrix is sliced out of the stack and the node table multiplied by it. -/
theorem seg5_p1_dot (Wv : Valuation τ sig (Elt Ideal)) : (after ((seg5 (F := Ideal)).take 3) Wv (Proc.devRef (τ := τ) .tc main_v143) : FVec Ideal SX .f32)
    = Host.dotGeneral (F := Ideal) (φ₁ := .f32) dd none (Wv (Proc.devRef (τ := τ) .tc main_arg0)) (wSlice 5 (by norm_num) (Wv (Proc.devRef (τ := τ) .tc main_arg1))) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg5_p1_keep_arg4 (Wv : Valuation τ sig (Elt Ideal)) : after ((seg5 (F := Ideal)).take 3) Wv (Proc.devRef (τ := τ) .tc main_arg4) = Wv (Proc.devRef (τ := τ) .tc main_arg4) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg5_p1_keep_arg5 (Wv : Valuation τ sig (Elt Ideal)) : after ((seg5 (F := Ideal)).take 3) Wv (Proc.devRef (τ := τ) .tc main_arg5) = Wv (Proc.devRef (τ := τ) .tc main_arg5) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg5_p1_keep_prev (Wv : Valuation τ sig (Elt Ideal)) : after ((seg5 (F := Ideal)).take 3) Wv (Proc.devRef (τ := τ) .tc main_v140) = Wv (Proc.devRef (τ := τ) .tc main_v140) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The source rows of the product are gathered and summed into their target rows. -/
theorem seg5_p2_num (Wv : Valuation τ sig (Elt Ideal)) : (after (((seg5 (F := Ideal)).drop 3).take 17) Wv (Proc.devRef (τ := τ) .tc main_v157) : FVec Ideal SX .f32)
    = Host.scatterAdd (F := Ideal) (rowScatterDims 50000 400000 256 hostFacts.swf) (zeroX hostFacts) (dstIdx hostFacts 5 (by norm_num) (Wv (Proc.devRef (τ := τ) .tc main_arg5)))
        (Host.gather (rowGatherDims 50000 400000 256 hostFacts.gwf) (Wv (Proc.devRef (τ := τ) .tc main_v143) : FVec Ideal SX .f32) (srcIdx hostFacts 5 (by norm_num) (Wv (Proc.devRef (τ := τ) .tc main_arg4)))) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg5_p2_keep_arg5 (Wv : Valuation τ sig (Elt Ideal)) : after (((seg5 (F := Ideal)).drop 3).take 17) Wv (Proc.devRef (τ := τ) .tc main_arg5) = Wv (Proc.devRef (τ := τ) .tc main_arg5) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg5_p2_keep_prev (Wv : Valuation τ sig (Elt Ideal)) : after (((seg5 (F := Ideal)).drop 3).take 17) Wv (Proc.devRef (τ := τ) .tc main_v140) = Wv (Proc.devRef (τ := τ) .tc main_v140) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The edges into each node are counted, -/
theorem seg5_p3a_deg (Wv : Valuation τ sig (Elt Ideal)) : (after ((((seg5 (F := Ideal)).drop 3).drop 17).take 8) Wv (Proc.devRef (τ := τ) .tc main_v163) : FVec Ideal SN .f32)
    = Host.scatterAdd (F := Ideal) (degScatterDims hostFacts.swf1) (broadcastInDim SN ![] hostFacts.bN (constant (F := Ideal) S0 .f32 0x00000000#32))
        (dstIdx hostFacts 5 (by norm_num) (Wv (Proc.devRef (τ := τ) .tc main_arg5))) (broadcastInDim SE ![] hostFacts.bE (constant (F := Ideal) S0 .f32 0x3F800000#32)) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg5_p3a_keep_num (Wv : Valuation τ sig (Elt Ideal)) : after ((((seg5 (F := Ideal)).drop 3).drop 17).take 8) Wv (Proc.devRef (τ := τ) .tc main_v157) = Wv (Proc.devRef (τ := τ) .tc main_v157) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg5_p3a_keep_prev (Wv : Valuation τ sig (Elt Ideal)) : after ((((seg5 (F := Ideal)).drop 3).drop 17).take 8) Wv (Proc.devRef (τ := τ) .tc main_v140) = Wv (Proc.devRef (τ := τ) .tc main_v140) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- and the count clamped below at one. -/
theorem seg5_p3b_clip (Wv : Valuation τ sig (Elt Ideal)) : (after (((((seg5 (F := Ideal)).drop 3).drop 17).drop 8).take 4) Wv (Proc.devRef (τ := τ) .tc main_v164) : FVec Ideal SN .f32)
    = (maximumf (broadcastInDim SN ![] hostFacts.bN (id (constant (F := Ideal) S0 .f32 0x3F800000#32))) (Wv (Proc.devRef (τ := τ) .tc main_v163) : FVec Ideal SN .f32) : FVec Ideal SN .f32) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg5_p3b_keep_num (Wv : Valuation τ sig (Elt Ideal)) : after (((((seg5 (F := Ideal)).drop 3).drop 17).drop 8).take 4) Wv (Proc.devRef (τ := τ) .tc main_v157) = Wv (Proc.devRef (τ := τ) .tc main_v157) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg5_p3b_keep_prev (Wv : Valuation τ sig (Elt Ideal)) : after (((((seg5 (F := Ideal)).drop 3).drop 17).drop 8).take 4) Wv (Proc.devRef (τ := τ) .tc main_v140) = Wv (Proc.devRef (τ := τ) .tc main_v140) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The sum is divided by the clamped count, spread along the rows, and added to what came before. -/
theorem seg5_p4_res (Wv : Valuation τ sig (Elt Ideal)) : (after (((((seg5 (F := Ideal)).drop 3).drop 17).drop 8).drop 4) Wv (Proc.devRef (τ := τ) .tc main_v168) : FVec Ideal SX .f32)
    = addf (Wv (Proc.devRef (τ := τ) .tc main_v140) : FVec Ideal SX .f32) (Host.divf (F := Ideal) (Wv (Proc.devRef (τ := τ) .tc main_v157) : FVec Ideal SX .f32) (rowSpread hostFacts (Wv (Proc.devRef (τ := τ) .tc main_v164) : FVec Ideal SN .f32))) := by
  simp (disch := decide) only [seg5, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- Relation 5's cut adds the relation's term to what came before. -/
theorem seg5_res (Wv : Valuation τ sig (Elt Ideal)) :
    after (seg5 (F := Ideal)) Wv (Proc.devRef (τ := τ) .tc main_v168)
      = addf (Wv (Proc.devRef (τ := τ) .tc main_v140)) (T 5 (by norm_num) (Wv (Proc.devRef (τ := τ) .tc main_arg0)) (Wv (Proc.devRef (τ := τ) .tc main_arg1)) (Wv (Proc.devRef (τ := τ) .tc main_arg4)) (Wv (Proc.devRef (τ := τ) .tc main_arg5))) := by
  rw [after_take_drop 3 (seg5 (F := Ideal)) Wv, after_take_drop 17 ((seg5 (F := Ideal)).drop 3), after_take_drop 8 (((seg5 (F := Ideal)).drop 3).drop 17),
    after_take_drop 4 ((((seg5 (F := Ideal)).drop 3).drop 17).drop 8)]
  rw [seg5_p4_res, seg5_p3b_clip, seg5_p3a_deg, seg5_p3b_keep_num, seg5_p3a_keep_num, seg5_p2_num, seg5_p1_dot,
    seg5_p3b_keep_prev, seg5_p3a_keep_prev, seg5_p2_keep_prev, seg5_p1_keep_prev,
    seg5_p2_keep_arg5, seg5_p1_keep_arg5, seg5_p1_keep_arg4]
  unfold T refTerm degClip
  rfl

/-! ## Relation 6 -/

/-- The relation's weight matrix is sliced out of the stack and the node table multiplied by it. -/
theorem seg6_p1_dot (Wv : Valuation τ sig (Elt Ideal)) : (after ((seg6 (F := Ideal)).take 3) Wv (Proc.devRef (τ := τ) .tc main_v171) : FVec Ideal SX .f32)
    = Host.dotGeneral (F := Ideal) (φ₁ := .f32) dd none (Wv (Proc.devRef (τ := τ) .tc main_arg0)) (wSlice 6 (by norm_num) (Wv (Proc.devRef (τ := τ) .tc main_arg1))) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg6_p1_keep_arg4 (Wv : Valuation τ sig (Elt Ideal)) : after ((seg6 (F := Ideal)).take 3) Wv (Proc.devRef (τ := τ) .tc main_arg4) = Wv (Proc.devRef (τ := τ) .tc main_arg4) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg6_p1_keep_arg5 (Wv : Valuation τ sig (Elt Ideal)) : after ((seg6 (F := Ideal)).take 3) Wv (Proc.devRef (τ := τ) .tc main_arg5) = Wv (Proc.devRef (τ := τ) .tc main_arg5) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg6_p1_keep_prev (Wv : Valuation τ sig (Elt Ideal)) : after ((seg6 (F := Ideal)).take 3) Wv (Proc.devRef (τ := τ) .tc main_v168) = Wv (Proc.devRef (τ := τ) .tc main_v168) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The source rows of the product are gathered and summed into their target rows. -/
theorem seg6_p2_num (Wv : Valuation τ sig (Elt Ideal)) : (after (((seg6 (F := Ideal)).drop 3).take 17) Wv (Proc.devRef (τ := τ) .tc main_v185) : FVec Ideal SX .f32)
    = Host.scatterAdd (F := Ideal) (rowScatterDims 50000 400000 256 hostFacts.swf) (zeroX hostFacts) (dstIdx hostFacts 6 (by norm_num) (Wv (Proc.devRef (τ := τ) .tc main_arg5)))
        (Host.gather (rowGatherDims 50000 400000 256 hostFacts.gwf) (Wv (Proc.devRef (τ := τ) .tc main_v171) : FVec Ideal SX .f32) (srcIdx hostFacts 6 (by norm_num) (Wv (Proc.devRef (τ := τ) .tc main_arg4)))) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg6_p2_keep_arg5 (Wv : Valuation τ sig (Elt Ideal)) : after (((seg6 (F := Ideal)).drop 3).take 17) Wv (Proc.devRef (τ := τ) .tc main_arg5) = Wv (Proc.devRef (τ := τ) .tc main_arg5) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg6_p2_keep_prev (Wv : Valuation τ sig (Elt Ideal)) : after (((seg6 (F := Ideal)).drop 3).take 17) Wv (Proc.devRef (τ := τ) .tc main_v168) = Wv (Proc.devRef (τ := τ) .tc main_v168) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The edges into each node are counted, -/
theorem seg6_p3a_deg (Wv : Valuation τ sig (Elt Ideal)) : (after ((((seg6 (F := Ideal)).drop 3).drop 17).take 8) Wv (Proc.devRef (τ := τ) .tc main_v191) : FVec Ideal SN .f32)
    = Host.scatterAdd (F := Ideal) (degScatterDims hostFacts.swf1) (broadcastInDim SN ![] hostFacts.bN (constant (F := Ideal) S0 .f32 0x00000000#32))
        (dstIdx hostFacts 6 (by norm_num) (Wv (Proc.devRef (τ := τ) .tc main_arg5))) (broadcastInDim SE ![] hostFacts.bE (constant (F := Ideal) S0 .f32 0x3F800000#32)) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg6_p3a_keep_num (Wv : Valuation τ sig (Elt Ideal)) : after ((((seg6 (F := Ideal)).drop 3).drop 17).take 8) Wv (Proc.devRef (τ := τ) .tc main_v185) = Wv (Proc.devRef (τ := τ) .tc main_v185) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg6_p3a_keep_prev (Wv : Valuation τ sig (Elt Ideal)) : after ((((seg6 (F := Ideal)).drop 3).drop 17).take 8) Wv (Proc.devRef (τ := τ) .tc main_v168) = Wv (Proc.devRef (τ := τ) .tc main_v168) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- and the count clamped below at one. -/
theorem seg6_p3b_clip (Wv : Valuation τ sig (Elt Ideal)) : (after (((((seg6 (F := Ideal)).drop 3).drop 17).drop 8).take 4) Wv (Proc.devRef (τ := τ) .tc main_v192) : FVec Ideal SN .f32)
    = (maximumf (broadcastInDim SN ![] hostFacts.bN (id (constant (F := Ideal) S0 .f32 0x3F800000#32))) (Wv (Proc.devRef (τ := τ) .tc main_v191) : FVec Ideal SN .f32) : FVec Ideal SN .f32) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg6_p3b_keep_num (Wv : Valuation τ sig (Elt Ideal)) : after (((((seg6 (F := Ideal)).drop 3).drop 17).drop 8).take 4) Wv (Proc.devRef (τ := τ) .tc main_v185) = Wv (Proc.devRef (τ := τ) .tc main_v185) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg6_p3b_keep_prev (Wv : Valuation τ sig (Elt Ideal)) : after (((((seg6 (F := Ideal)).drop 3).drop 17).drop 8).take 4) Wv (Proc.devRef (τ := τ) .tc main_v168) = Wv (Proc.devRef (τ := τ) .tc main_v168) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The sum is divided by the clamped count, spread along the rows, and added to what came before. -/
theorem seg6_p4_res (Wv : Valuation τ sig (Elt Ideal)) : (after (((((seg6 (F := Ideal)).drop 3).drop 17).drop 8).drop 4) Wv (Proc.devRef (τ := τ) .tc main_v196) : FVec Ideal SX .f32)
    = addf (Wv (Proc.devRef (τ := τ) .tc main_v168) : FVec Ideal SX .f32) (Host.divf (F := Ideal) (Wv (Proc.devRef (τ := τ) .tc main_v185) : FVec Ideal SX .f32) (rowSpread hostFacts (Wv (Proc.devRef (τ := τ) .tc main_v192) : FVec Ideal SN .f32))) := by
  simp (disch := decide) only [seg6, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- Relation 6's cut adds the relation's term to what came before. -/
theorem seg6_res (Wv : Valuation τ sig (Elt Ideal)) :
    after (seg6 (F := Ideal)) Wv (Proc.devRef (τ := τ) .tc main_v196)
      = addf (Wv (Proc.devRef (τ := τ) .tc main_v168)) (T 6 (by norm_num) (Wv (Proc.devRef (τ := τ) .tc main_arg0)) (Wv (Proc.devRef (τ := τ) .tc main_arg1)) (Wv (Proc.devRef (τ := τ) .tc main_arg4)) (Wv (Proc.devRef (τ := τ) .tc main_arg5))) := by
  rw [after_take_drop 3 (seg6 (F := Ideal)) Wv, after_take_drop 17 ((seg6 (F := Ideal)).drop 3), after_take_drop 8 (((seg6 (F := Ideal)).drop 3).drop 17),
    after_take_drop 4 ((((seg6 (F := Ideal)).drop 3).drop 17).drop 8)]
  rw [seg6_p4_res, seg6_p3b_clip, seg6_p3a_deg, seg6_p3b_keep_num, seg6_p3a_keep_num, seg6_p2_num, seg6_p1_dot,
    seg6_p3b_keep_prev, seg6_p3a_keep_prev, seg6_p2_keep_prev, seg6_p1_keep_prev,
    seg6_p2_keep_arg5, seg6_p1_keep_arg5, seg6_p1_keep_arg4]
  unfold T refTerm degClip
  rfl

/-! ## Relation 7 -/

/-- The relation's weight matrix is sliced out of the stack and the node table multiplied by it. -/
theorem seg7_p1_dot (Wv : Valuation τ sig (Elt Ideal)) : (after ((seg7 (F := Ideal)).take 3) Wv (Proc.devRef (τ := τ) .tc main_v199) : FVec Ideal SX .f32)
    = Host.dotGeneral (F := Ideal) (φ₁ := .f32) dd none (Wv (Proc.devRef (τ := τ) .tc main_arg0)) (wSlice 7 (by norm_num) (Wv (Proc.devRef (τ := τ) .tc main_arg1))) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg7_p1_keep_arg4 (Wv : Valuation τ sig (Elt Ideal)) : after ((seg7 (F := Ideal)).take 3) Wv (Proc.devRef (τ := τ) .tc main_arg4) = Wv (Proc.devRef (τ := τ) .tc main_arg4) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg7_p1_keep_arg5 (Wv : Valuation τ sig (Elt Ideal)) : after ((seg7 (F := Ideal)).take 3) Wv (Proc.devRef (τ := τ) .tc main_arg5) = Wv (Proc.devRef (τ := τ) .tc main_arg5) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg7_p1_keep_prev (Wv : Valuation τ sig (Elt Ideal)) : after ((seg7 (F := Ideal)).take 3) Wv (Proc.devRef (τ := τ) .tc main_v196) = Wv (Proc.devRef (τ := τ) .tc main_v196) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The source rows of the product are gathered and summed into their target rows. -/
theorem seg7_p2_num (Wv : Valuation τ sig (Elt Ideal)) : (after (((seg7 (F := Ideal)).drop 3).take 17) Wv (Proc.devRef (τ := τ) .tc main_v213) : FVec Ideal SX .f32)
    = Host.scatterAdd (F := Ideal) (rowScatterDims 50000 400000 256 hostFacts.swf) (zeroX hostFacts) (dstIdx hostFacts 7 (by norm_num) (Wv (Proc.devRef (τ := τ) .tc main_arg5)))
        (Host.gather (rowGatherDims 50000 400000 256 hostFacts.gwf) (Wv (Proc.devRef (τ := τ) .tc main_v199) : FVec Ideal SX .f32) (srcIdx hostFacts 7 (by norm_num) (Wv (Proc.devRef (τ := τ) .tc main_arg4)))) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg7_p2_keep_arg5 (Wv : Valuation τ sig (Elt Ideal)) : after (((seg7 (F := Ideal)).drop 3).take 17) Wv (Proc.devRef (τ := τ) .tc main_arg5) = Wv (Proc.devRef (τ := τ) .tc main_arg5) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg7_p2_keep_prev (Wv : Valuation τ sig (Elt Ideal)) : after (((seg7 (F := Ideal)).drop 3).take 17) Wv (Proc.devRef (τ := τ) .tc main_v196) = Wv (Proc.devRef (τ := τ) .tc main_v196) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The edges into each node are counted, -/
theorem seg7_p3a_deg (Wv : Valuation τ sig (Elt Ideal)) : (after ((((seg7 (F := Ideal)).drop 3).drop 17).take 8) Wv (Proc.devRef (τ := τ) .tc main_v219) : FVec Ideal SN .f32)
    = Host.scatterAdd (F := Ideal) (degScatterDims hostFacts.swf1) (broadcastInDim SN ![] hostFacts.bN (constant (F := Ideal) S0 .f32 0x00000000#32))
        (dstIdx hostFacts 7 (by norm_num) (Wv (Proc.devRef (τ := τ) .tc main_arg5))) (broadcastInDim SE ![] hostFacts.bE (constant (F := Ideal) S0 .f32 0x3F800000#32)) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg7_p3a_keep_num (Wv : Valuation τ sig (Elt Ideal)) : after ((((seg7 (F := Ideal)).drop 3).drop 17).take 8) Wv (Proc.devRef (τ := τ) .tc main_v213) = Wv (Proc.devRef (τ := τ) .tc main_v213) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg7_p3a_keep_prev (Wv : Valuation τ sig (Elt Ideal)) : after ((((seg7 (F := Ideal)).drop 3).drop 17).take 8) Wv (Proc.devRef (τ := τ) .tc main_v196) = Wv (Proc.devRef (τ := τ) .tc main_v196) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- and the count clamped below at one. -/
theorem seg7_p3b_clip (Wv : Valuation τ sig (Elt Ideal)) : (after (((((seg7 (F := Ideal)).drop 3).drop 17).drop 8).take 4) Wv (Proc.devRef (τ := τ) .tc main_v220) : FVec Ideal SN .f32)
    = (maximumf (broadcastInDim SN ![] hostFacts.bN (id (constant (F := Ideal) S0 .f32 0x3F800000#32))) (Wv (Proc.devRef (τ := τ) .tc main_v219) : FVec Ideal SN .f32) : FVec Ideal SN .f32) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl
theorem seg7_p3b_keep_num (Wv : Valuation τ sig (Elt Ideal)) : after (((((seg7 (F := Ideal)).drop 3).drop 17).drop 8).take 4) Wv (Proc.devRef (τ := τ) .tc main_v213) = Wv (Proc.devRef (τ := τ) .tc main_v213) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
theorem seg7_p3b_keep_prev (Wv : Valuation τ sig (Elt Ideal)) : after (((((seg7 (F := Ideal)).drop 3).drop 17).drop 8).take 4) Wv (Proc.devRef (τ := τ) .tc main_v196) = Wv (Proc.devRef (τ := τ) .tc main_v196) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']

/-- The sum is divided by the clamped count, spread along the rows, and added to what came before. -/
theorem seg7_p4_res (Wv : Valuation τ sig (Elt Ideal)) : (after (((((seg7 (F := Ideal)).drop 3).drop 17).drop 8).drop 4) Wv (Proc.devRef (τ := τ) .tc main_v224) : FVec Ideal SX .f32)
    = addf (Wv (Proc.devRef (τ := τ) .tc main_v196) : FVec Ideal SX .f32) (Host.divf (F := Ideal) (Wv (Proc.devRef (τ := τ) .tc main_v213) : FVec Ideal SX .f32) (rowSpread hostFacts (Wv (Proc.devRef (τ := τ) .tc main_v220) : FVec Ideal SN .f32))) := by
  simp (disch := decide) only [seg7, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- Relation 7's cut adds the relation's term to what came before. -/
theorem seg7_res (Wv : Valuation τ sig (Elt Ideal)) :
    after (seg7 (F := Ideal)) Wv (Proc.devRef (τ := τ) .tc main_v224)
      = addf (Wv (Proc.devRef (τ := τ) .tc main_v196)) (T 7 (by norm_num) (Wv (Proc.devRef (τ := τ) .tc main_arg0)) (Wv (Proc.devRef (τ := τ) .tc main_arg1)) (Wv (Proc.devRef (τ := τ) .tc main_arg4)) (Wv (Proc.devRef (τ := τ) .tc main_arg5))) := by
  rw [after_take_drop 3 (seg7 (F := Ideal)) Wv, after_take_drop 17 ((seg7 (F := Ideal)).drop 3), after_take_drop 8 (((seg7 (F := Ideal)).drop 3).drop 17),
    after_take_drop 4 ((((seg7 (F := Ideal)).drop 3).drop 17).drop 8)]
  rw [seg7_p4_res, seg7_p3b_clip, seg7_p3a_deg, seg7_p3b_keep_num, seg7_p3a_keep_num, seg7_p2_num, seg7_p1_dot,
    seg7_p3b_keep_prev, seg7_p3a_keep_prev, seg7_p2_keep_prev, seg7_p1_keep_prev,
    seg7_p2_keep_arg5, seg7_p1_keep_arg5, seg7_p1_keep_arg4]
  unfold T refTerm degClip
  rfl

/-! ## The closing cut -/

/-- The self-loop product and the bias, laid along the rows, are added to the relations' sum, -/
theorem seg8_p1_sum (Wv : Valuation τ sig (Elt Ideal)) : (after ((seg8 (F := Ideal)).take 5) Wv (Proc.devRef (τ := τ) .tc main_v229) : FVec Ideal SX .f32)
    = addf (addf (Wv (Proc.devRef (τ := τ) .tc main_v224)) (Host.dotGeneral (F := Ideal) (φ₁ := .f32) (φ₂ := .f32) dd none (Wv (Proc.devRef (τ := τ) .tc main_arg0)) (Wv (Proc.devRef (τ := τ) .tc main_arg3)))) (biasRows (Wv (Proc.devRef (τ := τ) .tc main_arg2))) := by
  simp (disch := decide) only [seg8, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- and the result clamped below at zero. -/
theorem seg8_p2_max (Wv : Valuation τ sig (Elt Ideal)) : (after ((seg8 (F := Ideal)).drop 5) Wv (Proc.devRef (τ := τ) .tc main_v230) : FVec Ideal SX .f32)
    = (maximumf (Wv (Proc.devRef (τ := τ) .tc main_v229) : FVec Ideal SX .f32) (zeroX hostFacts) : FVec Ideal SX .f32) := by
  simp (disch := decide) only [seg8, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne']
  first | done | rfl

/-- The closing cut adds the self-loop product and the bias and clamps at zero. -/
theorem seg8_res (Wv : Valuation τ sig (Elt Ideal)) :
    after (seg8 (F := Ideal)) Wv (Proc.devRef (τ := τ) .tc main_v230)
      = maximumf (addf (addf (Wv (Proc.devRef (τ := τ) .tc main_v224)) (Host.dotGeneral (F := Ideal) (φ₁ := .f32) (φ₂ := .f32) dd none (Wv (Proc.devRef (τ := τ) .tc main_arg0)) (Wv (Proc.devRef (τ := τ) .tc main_arg3))))
          (biasRows (Wv (Proc.devRef (τ := τ) .tc main_arg2)))) (zeroX hostFacts) := by
  rw [after_take_drop 5 (seg8 (F := Ideal)) Wv, seg8_p2_max, seg8_p1_sum]

end Cert.RGcn.Ref

end
-- ==== Proof.RefRes.lean ====
/-
  The fold of the reference's operations at the result buffer is the reference's result term of the arguments:
  cut by cut, each relation's term of the (unwritten) arguments is added to the sum so far, and the closing cut adds
  the self-loop product and the bias and clamps.
-/
import proofs.«137636_j2181843386580_2_alg».proof.Proof.RefSegResA
import proofs.«137636_j2181843386580_2_alg».proof.Proof.RefSegResB

noncomputable section

namespace Cert.RGcn.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 40000000 in
/-- The fold at the result buffer is the reference's result term of the arguments. -/
theorem res_after (M : Valuation τ sig (Elt Ideal)) :
    after (ops (F := Ideal)) M (Proc.devRef .tc main_v230)
      = refFull (M (Proc.devRef .tc main_arg0)) (M (Proc.devRef .tc main_arg1)) (M (Proc.devRef .tc main_arg2))
          (M (Proc.devRef .tc main_arg3)) (M (Proc.devRef .tc main_arg4)) (M (Proc.devRef .tc main_arg5)) := by
  have a0_0 : (after (seg0 (F := Ideal)) M) (Proc.devRef .tc main_arg0) = M (Proc.devRef .tc main_arg0) :=
    after_of_forall_not_mem _ _ seg0_keeps_arg0
  have a0_1 : (after (seg0 (F := Ideal)) M) (Proc.devRef .tc main_arg1) = M (Proc.devRef .tc main_arg1) :=
    after_of_forall_not_mem _ _ seg0_keeps_arg1
  have a0_2 : (after (seg0 (F := Ideal)) M) (Proc.devRef .tc main_arg2) = M (Proc.devRef .tc main_arg2) :=
    after_of_forall_not_mem _ _ seg0_keeps_arg2
  have a0_3 : (after (seg0 (F := Ideal)) M) (Proc.devRef .tc main_arg3) = M (Proc.devRef .tc main_arg3) :=
    after_of_forall_not_mem _ _ seg0_keeps_arg3
  have a0_4 : (after (seg0 (F := Ideal)) M) (Proc.devRef .tc main_arg4) = M (Proc.devRef .tc main_arg4) :=
    after_of_forall_not_mem _ _ seg0_keeps_arg4
  have a0_5 : (after (seg0 (F := Ideal)) M) (Proc.devRef .tc main_arg5) = M (Proc.devRef .tc main_arg5) :=
    after_of_forall_not_mem _ _ seg0_keeps_arg5
  have r0 : (after (seg0 (F := Ideal)) M) (Proc.devRef .tc main_v28) = (addf (zeroX hostFacts) (T 0 (by norm_num) (M (Proc.devRef .tc main_arg0)) (M (Proc.devRef .tc main_arg1)) (M (Proc.devRef .tc main_arg4)) (M (Proc.devRef .tc main_arg5)))) := seg0_res M
  have a1_0 : (after (seg1 (F := Ideal)) (after (seg0 (F := Ideal)) M)) (Proc.devRef .tc main_arg0) = M (Proc.devRef .tc main_arg0) :=
    (after_of_forall_not_mem _ _ seg1_keeps_arg0).trans a0_0
  have a1_1 : (after (seg1 (F := Ideal)) (after (seg0 (F := Ideal)) M)) (Proc.devRef .tc main_arg1) = M (Proc.devRef .tc main_arg1) :=
    (after_of_forall_not_mem _ _ seg1_keeps_arg1).trans a0_1
  have a1_2 : (after (seg1 (F := Ideal)) (after (seg0 (F := Ideal)) M)) (Proc.devRef .tc main_arg2) = M (Proc.devRef .tc main_arg2) :=
    (after_of_forall_not_mem _ _ seg1_keeps_arg2).trans a0_2
  have a1_3 : (after (seg1 (F := Ideal)) (after (seg0 (F := Ideal)) M)) (Proc.devRef .tc main_arg3) = M (Proc.devRef .tc main_arg3) :=
    (after_of_forall_not_mem _ _ seg1_keeps_arg3).trans a0_3
  have a1_4 : (after (seg1 (F := Ideal)) (after (seg0 (F := Ideal)) M)) (Proc.devRef .tc main_arg4) = M (Proc.devRef .tc main_arg4) :=
    (after_of_forall_not_mem _ _ seg1_keeps_arg4).trans a0_4
  have a1_5 : (after (seg1 (F := Ideal)) (after (seg0 (F := Ideal)) M)) (Proc.devRef .tc main_arg5) = M (Proc.devRef .tc main_arg5) :=
    (after_of_forall_not_mem _ _ seg1_keeps_arg5).trans a0_5
  have r1 : (after (seg1 (F := Ideal)) (after (seg0 (F := Ideal)) M)) (Proc.devRef .tc main_v56) = (addf (addf (zeroX hostFacts) (T 0 (by norm_num) (M (Proc.devRef .tc main_arg0)) (M (Proc.devRef .tc main_arg1)) (M (Proc.devRef .tc main_arg4)) (M (Proc.devRef .tc main_arg5)))) (T 1 (by norm_num) (M (Proc.devRef .tc main_arg0)) (M (Proc.devRef .tc main_arg1)) (M (Proc.devRef .tc main_arg4)) (M (Proc.devRef .tc main_arg5)))) := by
    rw [seg1_res, r0, a0_0, a0_1, a0_4, a0_5]
  have a2_0 : (after (seg2 (F := Ideal)) (after (seg1 (F := Ideal)) (after (seg0 (F := Ideal)) M))) (Proc.devRef .tc main_arg0) = M (Proc.devRef .tc main_arg0) :=
    (after_of_forall_not_mem _ _ seg2_keeps_arg0).trans a1_0
  have a2_1 : (after (seg2 (F := Ideal)) (after (seg1 (F := Ideal)) (after (seg0 (F := Ideal)) M))) (Proc.devRef .tc main_arg1) = M (Proc.devRef .tc main_arg1) :=
    (after_of_forall_not_mem _ _ seg2_keeps_arg1).trans a1_1
  have a2_2 : (after (seg2 (F := Ideal)) (after (seg1 (F := Ideal)) (after (seg0 (F := Ideal)) M))) (Proc.devRef .tc main_arg2) = M (Proc.devRef .tc main_arg2) :=
    (after_of_forall_not_mem _ _ seg2_keeps_arg2).trans a1_2
  have a2_3 : (after (seg2 (F := Ideal)) (after (seg1 (F := Ideal)) (after (seg0 (F := Ideal)) M))) (Proc.devRef .tc main_arg3) = M (Proc.devRef .tc main_arg3) :=
    (after_of_forall_not_mem _ _ seg2_keeps_arg3).trans a1_3
  have a2_4 : (after (seg2 (F := Ideal)) (after (seg1 (F := Ideal)) (after (seg0 (F := Ideal)) M))) (Proc.devRef .tc main_arg4) = M (Proc.devRef .tc main_arg4) :=
    (after_of_forall_not_mem _ _ seg2_keeps_arg4).trans a1_4
  have a2_5 : (after (seg2 (F := Ideal)) (after (seg1 (F := Ideal)) (after (seg0 (F := Ideal)) M))) (Proc.devRef .tc main_arg5) = M (Proc.devRef .tc main_arg5) :=
    (after_of_forall_not_mem _ _ seg2_keeps_arg5).trans a1_5
  have r2 : (after (seg2 (F := Ideal)) (after (seg1 (F := Ideal)) (after (seg0 (F := Ideal)) M))) (Proc.devRef .tc main_v84) = (addf (addf (addf (zeroX hostFacts) (T 0 (by norm_num) (M (Proc.devRef .tc main_arg0)) (M (Proc.devRef .tc main_arg1)) (M (Proc.devRef .tc main_arg4)) (M (Proc.devRef .tc main_arg5)))) (T 1 (by norm_num) (M (Proc.devRef .tc main_arg0)) (M (Proc.devRef .tc main_arg1)) (M (Proc.devRef .tc main_arg4)) (M (Proc.devRef .tc main_arg5)))) (T 2 (by norm_num) (M (Proc.devRef .tc main_arg0)) (M (Proc.devRef .tc main_arg1)) (M (Proc.devRef .tc main_arg4)) (M (Proc.devRef .tc main_arg5)))) := by
    rw [seg2_res, r1, a1_0, a1_1, a1_4, a1_5]
  have a3_0 : (after (seg3 (F := Ideal)) (after (seg2 (F := Ideal)) (after (seg1 (F := Ideal)) (after (seg0 (F := Ideal)) M)))) (Proc.devRef .tc main_arg0) = M (Proc.devRef .tc main_arg0) :=
    (after_of_forall_not_mem _ _ seg3_keeps_arg0).trans a2_0
  have a3_1 : (after (seg3 (F := Ideal)) (after (seg2 (F := Ideal)) (after (seg1 (F := Ideal)) (after (seg0 (F := Ideal)) M)))) (Proc.devRef .tc main_arg1) = M (Proc.devRef .tc main_arg1) :=
    (after_of_forall_not_mem _ _ seg3_keeps_arg1).trans a2_1
  have a3_2 : (after (seg3 (F := Ideal)) (after (seg2 (F := Ideal)) (after (seg1 (F := Ideal)) (after (seg0 (F := Ideal)) M)))) (Proc.devRef .tc main_arg2) = M (Proc.devRef .tc main_arg2) :=
    (after_of_forall_not_mem _ _ seg3_keeps_arg2).trans a2_2
  have a3_3 : (after (seg3 (F := Ideal)) (after (seg2 (F := Ideal)) (after (seg1 (F := Ideal)) (after (seg0 (F := Ideal)) M)))) (Proc.devRef .tc main_arg3) = M (Proc.devRef .tc main_arg3) :=
    (after_of_forall_not_mem _ _ seg3_keeps_arg3).trans a2_3
  have a3_4 : (after (seg3 (F := Ideal)) (after (seg2 (F := Ideal)) (after (seg1 (F := Ideal)) (after (seg0 (F := Ideal)) M)))) (Proc.devRef .tc main_arg4) = M (Proc.devRef .tc main_arg4) :=
    (after_of_forall_not_mem _ _ seg3_keeps_arg4).trans a2_4
  have a3_5 : (after (seg3 (F := Ideal)) (after (seg2 (F := Ideal)) (after (seg1 (F := Ideal)) (after (seg0 (F := Ideal)) M)))) (Proc.devRef .tc main_arg5) = M (Proc.devRef .tc main_arg5) :=
    (after_of_forall_not_mem _ _ seg3_keeps_arg5).trans a2_5
  have r3 : (after (seg3 (F := Ideal)) (after (seg2 (F := Ideal)) (after (seg1 (F := Ideal)) (after (seg0 (F := Ideal)) M)))) (Proc.devRef .tc main_v112) = (addf (addf (addf (addf (zeroX hostFacts) (T 0 (by norm_num) (M (Proc.devRef .tc main_arg0)) (M (Proc.devRef .tc main_arg1)) (M (Proc.devRef .tc main_arg4)) (M (Proc.devRef .tc main_arg5)))) (T 1 (by norm_num) (M (Proc.devRef .tc main_arg0)) (M (Proc.devRef .tc main_arg1)) (M (Proc.devRef .tc main_arg4)) (M (Proc.devRef .tc main_arg5)))) (T 2 (by norm_num) (M (Proc.devRef .tc main_arg0)) (M (Proc.devRef .tc main_arg1)) (M (Proc.devRef .tc main_arg4)) (M (Proc.devRef .tc main_arg5)))) (T 3 (by norm_num) (M (Proc.devRef .tc main_arg0)) (M (Proc.devRef .tc main_arg1)) (M (Proc.devRef .tc main_arg4)) (M (Proc.devRef .tc main_arg5)))) := by
    rw [seg3_res, r2, a2_0, a2_1, a2_4, a2_5]
  have a4_0 : (after (seg4 (F := Ideal)) (after (seg3 (F := Ideal)) (after (seg2 (F := Ideal)) (after (seg1 (F := Ideal)) (after (seg0 (F := Ideal)) M))))) (Proc.devRef .tc main_arg0) = M (Proc.devRef .tc main_arg0) :=
    (after_of_forall_not_mem _ _ seg4_keeps_arg0).trans a3_0
  have a4_1 : (after (seg4 (F := Ideal)) (after (seg3 (F := Ideal)) (after (seg2 (F := Ideal)) (after (seg1 (F := Ideal)) (after (seg0 (F := Ideal)) M))))) (Proc.devRef .tc main_arg1) = M (Proc.devRef .tc main_arg1) :=
    (after_of_forall_not_mem _ _ seg4_keeps_arg1).trans a3_1
  have a4_2 : (after (seg4 (F := Ideal)) (after (seg3 (F := Ideal)) (after (seg2 (F := Ideal)) (after (seg1 (F := Ideal)) (after (seg0 (F := Ideal)) M))))) (Proc.devRef .tc main_arg2) = M (Proc.devRef .tc main_arg2) :=
    (after_of_forall_not_mem _ _ seg4_keeps_arg2).trans a3_2
  have a4_3 : (after (seg4 (F := Ideal)) (after (seg3 (F := Ideal)) (after (seg2 (F := Ideal)) (after (seg1 (F := Ideal)) (after (seg0 (F := Ideal)) M))))) (Proc.devRef .tc main_arg3) = M (Proc.devRef .tc main_arg3) :=
    (after_of_forall_not_mem _ _ seg4_keeps_arg3).trans a3_3
  have a4_4 : (after (seg4 (F := Ideal)) (after (seg3 (F := Ideal)) (after (seg2 (F := Ideal)) (after (seg1 (F := Ideal)) (after (seg0 (F := Ideal)) M))))) (Proc.devRef .tc main_arg4) = M (Proc.devRef .tc main_arg4) :=
    (after_of_forall_not_mem _ _ seg4_keeps_arg4).trans a3_4
  have a4_5 : (after (seg4 (F := Ideal)) (after (seg3 (F := Ideal)) (after (seg2 (F := Ideal)) (after (seg1 (F := Ideal)) (after (seg0 (F := Ideal)) M))))) (Proc.devRef .tc main_arg5) = M (Proc.devRef .tc main_arg5) :=
    (after_of_forall_not_mem _ _ seg4_keeps_arg5).trans a3_5
  have r4 : (after (seg4 (F := Ideal)) (after (seg3 (F := Ideal)) (after (seg2 (F := Ideal)) (after (seg1 (F := Ideal)) (after (seg0 (F := Ideal)) M))))) (Proc.devRef .tc main_v140) = (addf (addf (addf (addf (addf (zeroX hostFacts) (T 0 (by norm_num) (M (Proc.devRef .tc main_arg0)) (M (Proc.devRef .tc main_arg1)) (M (Proc.devRef .tc main_arg4)) (M (Proc.devRef .tc main_arg5)))) (T 1 (by norm_num) (M (Proc.devRef .tc main_arg0)) (M (Proc.devRef .tc main_arg1)) (M (Proc.devRef .tc main_arg4)) (M (Proc.devRef .tc main_arg5)))) (T 2 (by norm_num) (M (Proc.devRef .tc main_arg0)) (M (Proc.devRef .tc main_arg1)) (M (Proc.devRef .tc main_arg4)) (M (Proc.devRef .tc main_arg5)))) (T 3 (by norm_num) (M (Proc.devRef .tc main_arg0)) (M (Proc.devRef .tc main_arg1)) (M (Proc.devRef .tc main_arg4)) (M (Proc.devRef .tc main_arg5)))) (T 4 (by norm_num) (M (Proc.devRef .tc main_arg0)) (M (Proc.devRef .tc main_arg1)) (M (Proc.devRef .tc main_arg4)) (M (Proc.devRef .tc main_arg5)))) := by
    rw [seg4_res, r3, a3_0, a3_1, a3_4, a3_5]
  have a5_0 : (after (seg5 (F := Ideal)) (after (seg4 (F := Ideal)) (after (seg3 (F := Ideal)) (after (seg2 (F := Ideal)) (after (seg1 (F := Ideal)) (after (seg0 (F := Ideal)) M)))))) (Proc.devRef .tc main_arg0) = M (Proc.devRef .tc main_arg0) :=
    (after_of_forall_not_mem _ _ seg5_keeps_arg0).trans a4_0
  have a5_1 : (after (seg5 (F := Ideal)) (after (seg4 (F := Ideal)) (after (seg3 (F := Ideal)) (after (seg2 (F := Ideal)) (after (seg1 (F := Ideal)) (after (seg0 (F := Ideal)) M)))))) (Proc.devRef .tc main_arg1) = M (Proc.devRef .tc main_arg1) :=
    (after_of_forall_not_mem _ _ seg5_keeps_arg1).trans a4_1
  have a5_2 : (after (seg5 (F := Ideal)) (after (seg4 (F := Ideal)) (after (seg3 (F := Ideal)) (after (seg2 (F := Ideal)) (after (seg1 (F := Ideal)) (after (seg0 (F := Ideal)) M)))))) (Proc.devRef .tc main_arg2) = M (Proc.devRef .tc main_arg2) :=
    (after_of_forall_not_mem _ _ seg5_keeps_arg2).trans a4_2
  have a5_3 : (after (seg5 (F := Ideal)) (after (seg4 (F := Ideal)) (after (seg3 (F := Ideal)) (after (seg2 (F := Ideal)) (after (seg1 (F := Ideal)) (after (seg0 (F := Ideal)) M)))))) (Proc.devRef .tc main_arg3) = M (Proc.devRef .tc main_arg3) :=
    (after_of_forall_not_mem _ _ seg5_keeps_arg3).trans a4_3
  have a5_4 : (after (seg5 (F := Ideal)) (after (seg4 (F := Ideal)) (after (seg3 (F := Ideal)) (after (seg2 (F := Ideal)) (after (seg1 (F := Ideal)) (after (seg0 (F := Ideal)) M)))))) (Proc.devRef .tc main_arg4) = M (Proc.devRef .tc main_arg4) :=
    (after_of_forall_not_mem _ _ seg5_keeps_arg4).trans a4_4
  have a5_5 : (after (seg5 (F := Ideal)) (after (seg4 (F := Ideal)) (after (seg3 (F := Ideal)) (after (seg2 (F := Ideal)) (after (seg1 (F := Ideal)) (after (seg0 (F := Ideal)) M)))))) (Proc.devRef .tc main_arg5) = M (Proc.devRef .tc main_arg5) :=
    (after_of_forall_not_mem _ _ seg5_keeps_arg5).trans a4_5
  have r5 : (after (seg5 (F := Ideal)) (after (seg4 (F := Ideal)) (after (seg3 (F := Ideal)) (after (seg2 (F := Ideal)) (after (seg1 (F := Ideal)) (after (seg0 (F := Ideal)) M)))))) (Proc.devRef .tc main_v168) = (addf (addf (addf (addf (addf (addf (zeroX hostFacts) (T 0 (by norm_num) (M (Proc.devRef .tc main_arg0)) (M (Proc.devRef .tc main_arg1)) (M (Proc.devRef .tc main_arg4)) (M (Proc.devRef .tc main_arg5)))) (T 1 (by norm_num) (M (Proc.devRef .tc main_arg0)) (M (Proc.devRef .tc main_arg1)) (M (Proc.devRef .tc main_arg4)) (M (Proc.devRef .tc main_arg5)))) (T 2 (by norm_num) (M (Proc.devRef .tc main_arg0)) (M (Proc.devRef .tc main_arg1)) (M (Proc.devRef .tc main_arg4)) (M (Proc.devRef .tc main_arg5)))) (T 3 (by norm_num) (M (Proc.devRef .tc main_arg0)) (M (Proc.devRef .tc main_arg1)) (M (Proc.devRef .tc main_arg4)) (M (Proc.devRef .tc main_arg5)))) (T 4 (by norm_num) (M (Proc.devRef .tc main_arg0)) (M (Proc.devRef .tc main_arg1)) (M (Proc.devRef .tc main_arg4)) (M (Proc.devRef .tc main_arg5)))) (T 5 (by norm_num) (M (Proc.devRef .tc main_arg0)) (M (Proc.devRef .tc main_arg1)) (M (Proc.devRef .tc main_arg4)) (M (Proc.devRef .tc main_arg5)))) := by
    rw [seg5_res, r4, a4_0, a4_1, a4_4, a4_5]
  have a6_0 : (after (seg6 (F := Ideal)) (after (seg5 (F := Ideal)) (after (seg4 (F := Ideal)) (after (seg3 (F := Ideal)) (after (seg2 (F := Ideal)) (after (seg1 (F := Ideal)) (after (seg0 (F := Ideal)) M))))))) (Proc.devRef .tc main_arg0) = M (Proc.devRef .tc main_arg0) :=
    (after_of_forall_not_mem _ _ seg6_keeps_arg0).trans a5_0
  have a6_1 : (after (seg6 (F := Ideal)) (after (seg5 (F := Ideal)) (after (seg4 (F := Ideal)) (after (seg3 (F := Ideal)) (after (seg2 (F := Ideal)) (after (seg1 (F := Ideal)) (after (seg0 (F := Ideal)) M))))))) (Proc.devRef .tc main_arg1) = M (Proc.devRef .tc main_arg1) :=
    (after_of_forall_not_mem _ _ seg6_keeps_arg1).trans a5_1
  have a6_2 : (after (seg6 (F := Ideal)) (after (seg5 (F := Ideal)) (after (seg4 (F := Ideal)) (after (seg3 (F := Ideal)) (after (seg2 (F := Ideal)) (after (seg1 (F := Ideal)) (after (seg0 (F := Ideal)) M))))))) (Proc.devRef .tc main_arg2) = M (Proc.devRef .tc main_arg2) :=
    (after_of_forall_not_mem _ _ seg6_keeps_arg2).trans a5_2
  have a6_3 : (after (seg6 (F := Ideal)) (after (seg5 (F := Ideal)) (after (seg4 (F := Ideal)) (after (seg3 (F := Ideal)) (after (seg2 (F := Ideal)) (after (seg1 (F := Ideal)) (after (seg0 (F := Ideal)) M))))))) (Proc.devRef .tc main_arg3) = M (Proc.devRef .tc main_arg3) :=
    (after_of_forall_not_mem _ _ seg6_keeps_arg3).trans a5_3
  have a6_4 : (after (seg6 (F := Ideal)) (after (seg5 (F := Ideal)) (after (seg4 (F := Ideal)) (after (seg3 (F := Ideal)) (after (seg2 (F := Ideal)) (after (seg1 (F := Ideal)) (after (seg0 (F := Ideal)) M))))))) (Proc.devRef .tc main_arg4) = M (Proc.devRef .tc main_arg4) :=
    (after_of_forall_not_mem _ _ seg6_keeps_arg4).trans a5_4
  have a6_5 : (after (seg6 (F := Ideal)) (after (seg5 (F := Ideal)) (after (seg4 (F := Ideal)) (after (seg3 (F := Ideal)) (after (seg2 (F := Ideal)) (after (seg1 (F := Ideal)) (after (seg0 (F := Ideal)) M))))))) (Proc.devRef .tc main_arg5) = M (Proc.devRef .tc main_arg5) :=
    (after_of_forall_not_mem _ _ seg6_keeps_arg5).trans a5_5
  have r6 : (after (seg6 (F := Ideal)) (after (seg5 (F := Ideal)) (after (seg4 (F := Ideal)) (after (seg3 (F := Ideal)) (after (seg2 (F := Ideal)) (after (seg1 (F := Ideal)) (after (seg0 (F := Ideal)) M))))))) (Proc.devRef .tc main_v196) = (addf (addf (addf (addf (addf (addf (addf (zeroX hostFacts) (T 0 (by norm_num) (M (Proc.devRef .tc main_arg0)) (M (Proc.devRef .tc main_arg1)) (M (Proc.devRef .tc main_arg4)) (M (Proc.devRef .tc main_arg5)))) (T 1 (by norm_num) (M (Proc.devRef .tc main_arg0)) (M (Proc.devRef .tc main_arg1)) (M (Proc.devRef .tc main_arg4)) (M (Proc.devRef .tc main_arg5)))) (T 2 (by norm_num) (M (Proc.devRef .tc main_arg0)) (M (Proc.devRef .tc main_arg1)) (M (Proc.devRef .tc main_arg4)) (M (Proc.devRef .tc main_arg5)))) (T 3 (by norm_num) (M (Proc.devRef .tc main_arg0)) (M (Proc.devRef .tc main_arg1)) (M (Proc.devRef .tc main_arg4)) (M (Proc.devRef .tc main_arg5)))) (T 4 (by norm_num) (M (Proc.devRef .tc main_arg0)) (M (Proc.devRef .tc main_arg1)) (M (Proc.devRef .tc main_arg4)) (M (Proc.devRef .tc main_arg5)))) (T 5 (by norm_num) (M (Proc.devRef .tc main_arg0)) (M (Proc.devRef .tc main_arg1)) (M (Proc.devRef .tc main_arg4)) (M (Proc.devRef .tc main_arg5)))) (T 6 (by norm_num) (M (Proc.devRef .tc main_arg0)) (M (Proc.devRef .tc main_arg1)) (M (Proc.devRef .tc main_arg4)) (M (Proc.devRef .tc main_arg5)))) := by
    rw [seg6_res, r5, a5_0, a5_1, a5_4, a5_5]
  have a7_0 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) M)))))))) (Proc.devRef .tc main_arg0) = M (Proc.devRef .tc main_arg0) :=
    (after_of_forall_not_mem _ _ seg7_keeps_arg0).trans a6_0
  have a7_1 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) M)))))))) (Proc.devRef .tc main_arg1) = M (Proc.devRef .tc main_arg1) :=
    (after_of_forall_not_mem _ _ seg7_keeps_arg1).trans a6_1
  have a7_2 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) M)))))))) (Proc.devRef .tc main_arg2) = M (Proc.devRef .tc main_arg2) :=
    (after_of_forall_not_mem _ _ seg7_keeps_arg2).trans a6_2
  have a7_3 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) M)))))))) (Proc.devRef .tc main_arg3) = M (Proc.devRef .tc main_arg3) :=
    (after_of_forall_not_mem _ _ seg7_keeps_arg3).trans a6_3
  have a7_4 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) M)))))))) (Proc.devRef .tc main_arg4) = M (Proc.devRef .tc main_arg4) :=
    (after_of_forall_not_mem _ _ seg7_keeps_arg4).trans a6_4
  have a7_5 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) M)))))))) (Proc.devRef .tc main_arg5) = M (Proc.devRef .tc main_arg5) :=
    (after_of_forall_not_mem _ _ seg7_keeps_arg5).trans a6_5
  have r7 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) M)))))))) (Proc.devRef .tc main_v224) = (addf (addf (addf (addf (addf (addf (addf (addf (zeroX hostFacts) (T 0 (by norm_num) (M (Proc.devRef .tc main_arg0)) (M (Proc.devRef .tc main_arg1)) (M (Proc.devRef .tc main_arg4)) (M (Proc.devRef .tc main_arg5)))) (T 1 (by norm_num) (M (Proc.devRef .tc main_arg0)) (M (Proc.devRef .tc main_arg1)) (M (Proc.devRef .tc main_arg4)) (M (Proc.devRef .tc main_arg5)))) (T 2 (by norm_num) (M (Proc.devRef .tc main_arg0)) (M (Proc.devRef .tc main_arg1)) (M (Proc.devRef .tc main_arg4)) (M (Proc.devRef .tc main_arg5)))) (T 3 (by norm_num) (M (Proc.devRef .tc main_arg0)) (M (Proc.devRef .tc main_arg1)) (M (Proc.devRef .tc main_arg4)) (M (Proc.devRef .tc main_arg5)))) (T 4 (by norm_num) (M (Proc.devRef .tc main_arg0)) (M (Proc.devRef .tc main_arg1)) (M (Proc.devRef .tc main_arg4)) (M (Proc.devRef .tc main_arg5)))) (T 5 (by norm_num) (M (Proc.devRef .tc main_arg0)) (M (Proc.devRef .tc main_arg1)) (M (Proc.devRef .tc main_arg4)) (M (Proc.devRef .tc main_arg5)))) (T 6 (by norm_num) (M (Proc.devRef .tc main_arg0)) (M (Proc.devRef .tc main_arg1)) (M (Proc.devRef .tc main_arg4)) (M (Proc.devRef .tc main_arg5)))) (T 7 (by norm_num) (M (Proc.devRef .tc main_arg0)) (M (Proc.devRef .tc main_arg1)) (M (Proc.devRef .tc main_arg4)) (M (Proc.devRef .tc main_arg5)))) := by
    rw [seg7_res, r6, a6_0, a6_1, a6_4, a6_5]
  rw [ops_segs]
  simp only [after_app]
  rw [seg8_res, r7, a7_0, a7_2, a7_3]
  rfl

end Cert.RGcn.Ref

end
-- ==== Proof.RefRunHand.lean ====
/-
  The reference's run, read back.

  @main of the reference is a straight line of host operations, so every weakly fair execution of it terminates
  with each buffer at the fold of the operations' results over the launch contents: the arguments as launched,
  the result buffer at `refFull` of the arguments.
-/
import proofs.«137636_j2181843386580_2_alg».proof.Proof.RefArgs
import proofs.«137636_j2181843386580_2_alg».proof.Proof.RefRes

noncomputable section

namespace Cert.RGcn.Ref

open Cert.ReferenceIdeal Cert.ReferenceIdeal.Gen Idealize.ShloMosaic Idealize.ShloMosaic.TcCoe Idealize.SL.Sem Idealize.ShloMosaic.StableHlo

variable {F : FTy → Type} [FloatOps F]

/-- THE REFERENCE'S RUN at any float instance: it terminates and its arguments end as launched. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_arg0).trans (arg0_after _), (h c main_arg1).trans (arg1_after _),
      (h c main_arg2).trans (arg2_after _), (h c main_arg3).trans (arg3_after _), (h c main_arg4).trans (arg4_after _),
      (h c main_arg5).trans (arg5_after _)⟩)
    (run_seq scopedRefs_eq scopedSems_eq defs main (fun _ => ops) main_eq (fun _ => ops_sub) m ρ (fun _ => ops_fresh))

/-- THE REFERENCE'S RUN at the ideal instance, with its result named. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v230)
          = refFull (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v230).trans (res_after _), (h c main_arg0).trans (arg0_after _),
      (h c main_arg1).trans (arg1_after _), (h c main_arg2).trans (arg2_after _), (h c main_arg3).trans (arg3_after _),
      (h c main_arg4).trans (arg4_after _), (h c main_arg5).trans (arg5_after _)⟩)
    (run_seq scopedRefs_eq scopedSems_eq defs main (fun _ => ops) main_eq (fun _ => ops_sub) m ρ (fun _ => ops_fresh))

end Cert.RGcn.Ref

end
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.Finite.lean ====
/-
  The precondition read back: every entry of the node table and of the relation weights is a real number.

  The precondition is the conjunction of four tests "every entry has absolute value below +inf", one per
  float argument, and it is stated to be 1.  A conjunction that is 1 has both conjuncts 1, and a whole-array
  test that is 1 holds at every entry; an extended real whose absolute value is below the top is a real number.
-/
import proofs.«137636_j2181843386580_2_alg».proof.Pre_finite_inputs
import proofs.«137636_j2181843386580_2_alg».proof.Proof.LibPreDecode
import proofs.«137636_j2181843386580_2_alg».proof.Proof.LibRealSums
import Idealize.ShloMosaic.Lib.Affine

noncomputable section

namespace Cert.RGcn

open Idealize.ShloMosaic
open Cert.LibRealSums

instance : Subsingleton Cert.Pre_finite_inputs.S_.Idx := ⟨fun a b => funext fun d => d.elim0⟩

/-- Under the precondition the node table `x` and the relation weights hold real numbers. -/
theorem real_of_pre [Cert.Pre_finite_inputs.Facts]
    (a0 : FVec Ideal Cert.Pre_finite_inputs.S50000x256 .f32) (a1 : FVec Ideal Cert.Pre_finite_inputs.S8x256x256 .f32)
    (a2 : FVec Ideal Cert.Pre_finite_inputs.S256 .f32) (a3 : FVec Ideal Cert.Pre_finite_inputs.S256x256 .f32)
    (a4 a5 : IVec Cert.Pre_finite_inputs.S8x400000 32)
    (h : Cert.Pre_finite_inputs.fn (F := Ideal) a0 a1 a2 a3 a4 a5 = fun _ => 1#1) :
    (∀ i, IsReal (a0 i)) ∧ (∀ i, IsReal (a1 i)) := by
  have h0 := congrFun h (fun a => a.elim0)
  dsimp only [Cert.Pre_finite_inputs.fn, Cert.Pre_finite_inputs.fn_part1] at h0
  have h1 := (IntOp.andi_eq_one.1 h0).1
  have h2 := (IntOp.andi_eq_one.1 h1).1
  obtain ⟨h3, h7⟩ := IntOp.andi_eq_one.1 h2
  exact ⟨fun i => Cert.LibPreDecode.all_real a0 _ (fun _ => rfl) _ _ _ _ h3 i,
    fun i => Cert.LibPreDecode.all_real a1 _ (fun _ => rfl) _ _ _ _ h7 i⟩

end Cert.RGcn

end
-- ==== Proof.lean ====
/-
  A relational graph convolution layer, aggregate-first against transform-first.

  The kernel normalises and sums each relation's neighbour rows of the node table `x` first (host gathers and
  scatter-adds), stacks the eight aggregates and `x` itself, and multiplies the stack by the stacked weight
  matrices in one pallas_call that accumulates over the relation axis, adds the bias and clamps at zero.  The
  reference multiplies `x` by each relation's matrix first and aggregates the products.  Over real entries the
  two orders agree: summing rows commutes with a common right factor and with a common scalar factor
  (`Cert.AggBridge.relation_eq`), and the two outer sums are associated the same way (`Cert.RGcn.entry_eq`).

  The frames of the two printed kernels are the frame run of the one region (`Hand.frame`); the reference's frame
  is its run with the result dropped; the idealization rewrote nothing, so `preserves` is trivial.
-/
import proofs.«137636_j2181843386580_2_alg».proof.Defs
import proofs.«137636_j2181843386580_2_alg».proof.Proof.Gen.Kernel
import proofs.«137636_j2181843386580_2_alg».proof.Proof.Gen.KernelIdeal
import proofs.«137636_j2181843386580_2_alg».proof.Proof.Gen.ReferenceIdeal
import proofs.«137636_j2181843386580_2_alg».proof.Proof.Gen.Pre_finite_inputs
import proofs.«137636_j2181843386580_2_alg».proof.Proof.KFrameBFin
import proofs.«137636_j2181843386580_2_alg».proof.Proof.KFrameIFin
import proofs.«137636_j2181843386580_2_alg».proof.Proof.KerFinal
import proofs.«137636_j2181843386580_2_alg».proof.Proof.RefRunHand
import proofs.«137636_j2181843386580_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference runs and leaves its arguments unchanged. -/
theorem frame_ri : Cert.frame_ReferenceIdeal := fun m ρ _ => Cert.RGcn.Ref.run_frame (F := Ideal) m ρ

/-- Both idealized programs end with the reference's result term of the argument arrays. -/
theorem algebraic : Cert.algebraic_KernelIdeal_ReferenceIdeal := by
  intro m ρ m' ρ' hpre hagree
  refine ⟨fun c => Cert.KernelIdeal.Hand.Gout m c, ?_, ?_⟩
  · refine (θ_run Cert.KernelIdeal.defs _ _).mono (fun r h c => ?_) (Cert.KernelIdeal.Hand.run_main (F := Ideal) m ρ)
    obtain ⟨hX, hW⟩ := Cert.RGcn.real_of_pre _ _ _ _ _ _ (hpre c)
    exact ⟨(Cert.KernelIdeal.Hand.post3 m r h c).trans (Cert.KernelIdeal.Hand.final m c hX hW),
      Cert.KernelIdeal.Hand.kept_args m r h c⟩
  · refine (θ_run Cert.ReferenceIdeal.defs _ _).mono (fun _ h c => ⟨(h c).1.trans ?_, (h c).2⟩)
      (Cert.RGcn.Ref.run_value m' ρ')
    rw [(hagree c).1, (hagree c).2.1, (hagree c).2.2.1, (hagree c).2.2.2.1, (hagree c).2.2.2.2.1,
      (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
